-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S7680x4096 : Shape := ⟨2, ![7680, 4096]⟩
abbrev S_ : Shape := ⟨0, ![]⟩

class Facts : Prop where
  bcast_S_S7680x4096 : S_.BroadcastsInDim S7680x4096 (![] : Fin 0 → Fin S7680x4096.rank)
  reducesTo_S7680x4096_S_d0_1 : S7680x4096.ReducesTo [0, 1] S_
  h_S_ : 0 < S_.numel

variable [Facts]

def fn {F : FTy → Type} [FloatOps F] (main_arg0 : FVec F S7680x4096 .f32) : IVec S_ 1 :=
  let main_v0 : FVec F S7680x4096 .f32 := Host.absf main_arg0
  let main_cst : FVec F S_ .f32 := constant S_ .f32 0x7F800000#32
  let main_v1 : FVec F S7680x4096 .f32 := broadcastInDim S7680x4096 ![] bcast_S_S7680x4096 main_cst
  let main_v2 : IVec S7680x4096 1 := cmpf .olt main_v0 main_v1
  let main_c : IVec S_ 1 := constantI S_ 1 1#1
  let main_v3 : IVec S_ 1 := (fun x v => Host.reduce IntOp.andi x v reducesTo_S7680x4096_S_d0_1 h_S_) main_v2 main_c
  main_v3
-- ==== Kernel.lean ====
abbrev S7680x4096 : Shape := ⟨2, ![7680, 4096]⟩
abbrev S3 : Shape := ⟨1, ![3]⟩
abbrev S2 : Shape := ⟨1, ![2]⟩
abbrev S1 : Shape := ⟨1, ![1]⟩
abbrev S4 : Shape := ⟨1, ![4]⟩
abbrev S512x15x4096 : Shape := ⟨3, ![512, 15, 4096]⟩
abbrev S15x4096 : Shape := ⟨2, ![15, 4096]⟩
abbrev S128x15x1024 : Shape := ⟨3, ![128, 15, 1024]⟩
abbrev S15x1024 : Shape := ⟨2, ![15, 1024]⟩
abbrev S_ : Shape := ⟨0, ![]⟩
abbrev S15 : Shape := ⟨1, ![15]⟩
abbrev S15x1 : Shape := ⟨2, ![15, 1]⟩
abbrev S3x1 : Shape := ⟨2, ![3, 1]⟩
abbrev S2x1 : Shape := ⟨2, ![2, 1]⟩
abbrev S1x1 : Shape := ⟨2, ![1, 1]⟩
abbrev S4x1 : Shape := ⟨2, ![4, 1]⟩
abbrev S6 : Shape := ⟨1, ![6]⟩
abbrev S6x6 : Shape := ⟨2, ![6, 6]⟩
abbrev S6x1 : Shape := ⟨2, ![6, 1]⟩
abbrev S1x6 : Shape := ⟨2, ![1, 6]⟩

abbrev nBuf : Space → Nat
  | .hbm => 456
  | .vmem => 5
  | .smem => 0
  | _ => 0

abbrev hbmTy0_0 (i : Nat) : BufTy := match i % 128 with
  | 0 => ⟨S7680x4096, .f32⟩
  | 1 => ⟨S3, .i32⟩
  | 2 => ⟨S2, .i32⟩
  | 3 => ⟨S1, .i32⟩
  | 4 => ⟨S4, .i32⟩
  | 5 => ⟨S2, .i32⟩
  | 6 => ⟨S3, .i32⟩
  | 7 => ⟨S512x15x4096, .f32⟩
  | 8 => ⟨S15x4096, .f32⟩
  | 9 => ⟨S_, .f32⟩
  | 10 => ⟨S15, .f32⟩
  | 11 => ⟨S_, .f32⟩
  | 12 => ⟨S15, .f32⟩
  | 13 => ⟨S15, .f32⟩
  | 14 => ⟨S_, .i32⟩
  | 15 => ⟨S_, .f32⟩
  | 16 => ⟨S15, .f32⟩
  | 17 => ⟨S15x1, .f32⟩
  | 18 => ⟨S_, .f32⟩
  | 19 => ⟨S15x1, .f32⟩
  | 20 => ⟨S15x1, .f32⟩
  | 21 => ⟨S15x4096, .f32⟩
  | 22 => ⟨S15x4096, .f32⟩
  | 23 => ⟨S15x4096, .f32⟩
  | 24 => ⟨S_, .f32⟩
  | 25 => ⟨S_, .f32⟩
  | 26 => ⟨S_, .f32⟩
  | 27 => ⟨S_, .f32⟩
  | 28 => ⟨S15, .f32⟩
  | 29 => ⟨S15, .f32⟩
  | 30 => ⟨S15, .f32⟩
  | 31 => ⟨S_, .f32⟩
  | 32 => ⟨S_, .i1⟩
  | 33 => ⟨S_, .f32⟩
  | 34 => ⟨S_, .f32⟩
  | 35 => ⟨S15, .f32⟩
  | 36 => ⟨S15, .f32⟩
  | 37 => ⟨S15, .f32⟩
  | 38 => ⟨S_, .i32⟩
  | 39 => ⟨S3, .i32⟩
  | 40 => ⟨S3, .i1⟩
  | 41 => ⟨S_, .i32⟩
  | 42 => ⟨S3, .i32⟩
  | 43 => ⟨S3, .i32⟩
  | 44 => ⟨S3, .i32⟩
  | 45 => ⟨S3x1, .i32⟩
  | 46 => ⟨S3, .f32⟩
  | 47 => ⟨S_, .i32⟩
  | 48 => ⟨S3, .i32⟩
  | 49 => ⟨S3, .i1⟩
  | 50 => ⟨S_, .i32⟩
  | 51 => ⟨S3, .i32⟩
  | 52 => ⟨S3, .i32⟩
  | 53 => ⟨S3, .i32⟩
  | 54 => ⟨S3x1, .i32⟩
  | 55 => ⟨S3, .f32⟩
  | 56 => ⟨S_, .i32⟩
  | 57 => ⟨S_, .f32⟩
  | 58 => ⟨S_, .f32⟩
  | 59 => ⟨S1, .f32⟩
  | 60 => ⟨S_, .f32⟩
  | 61 => ⟨S1, .f32⟩
  | 62 => ⟨S1, .f32⟩
  | 63 => ⟨S3, .f32⟩
  | 64 => ⟨S3, .f32⟩
  | 65 => ⟨S3, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .i1⟩
  | 74 => ⟨S_, .f32⟩
  | 75 => ⟨S_, .f32⟩
  | 76 => ⟨S_, .f32⟩
  | 77 => ⟨S_, .f32⟩
  | 78 => ⟨S_, .i32⟩
  | 79 => ⟨S_, .f32⟩
  | 80 => ⟨S_, .f32⟩
  | 81 => ⟨S1, .f32⟩
  | 82 => ⟨S_, .f32⟩
  | 83 => ⟨S1, .f32⟩
  | 84 => ⟨S1, .f32⟩
  | 85 => ⟨S3, .f32⟩
  | 86 => ⟨S3, .f32⟩
  | 87 => ⟨S3, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .i32⟩
  | 105 => ⟨S2, .i32⟩
  | 106 => ⟨S2, .i1⟩
  | 107 => ⟨S_, .i32⟩
  | 108 => ⟨S2, .i32⟩
  | 109 => ⟨S2, .i32⟩
  | 110 => ⟨S2, .i32⟩
  | 111 => ⟨S2x1, .i32⟩
  | 112 => ⟨S2, .f32⟩
  | 113 => ⟨S_, .i32⟩
  | 114 => ⟨S2, .i32⟩
  | 115 => ⟨S2, .i1⟩
  | 116 => ⟨S_, .i32⟩
  | 117 => ⟨S2, .i32⟩
  | 118 => ⟨S2, .i32⟩
  | 119 => ⟨S2, .i32⟩
  | 120 => ⟨S2x1, .i32⟩
  | 121 => ⟨S2, .f32⟩
  | 122 => ⟨S_, .i32⟩
  | 123 => ⟨S_, .f32⟩
  | 124 => ⟨S_, .f32⟩
  | 125 => ⟨S1, .f32⟩
  | 126 => ⟨S_, .f32⟩
  | 127 => ⟨S1, .f32⟩
  | _ => ⟨S7680x4096, .f32⟩

abbrev hbmTy0_1 (i : Nat) : BufTy := match i % 128 with
  | 0 => ⟨S1, .f32⟩
  | 1 => ⟨S2, .f32⟩
  | 2 => ⟨S2, .f32⟩
  | 3 => ⟨S2, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .i1⟩
  | 12 => ⟨S_, .f32⟩
  | 13 => ⟨S_, .f32⟩
  | 14 => ⟨S_, .f32⟩
  | 15 => ⟨S_, .f32⟩
  | 16 => ⟨S_, .i32⟩
  | 17 => ⟨S_, .f32⟩
  | 18 => ⟨S_, .f32⟩
  | 19 => ⟨S1, .f32⟩
  | 20 => ⟨S_, .f32⟩
  | 21 => ⟨S1, .f32⟩
  | 22 => ⟨S1, .f32⟩
  | 23 => ⟨S2, .f32⟩
  | 24 => ⟨S2, .f32⟩
  | 25 => ⟨S2, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .i32⟩
  | 43 => ⟨S1, .i32⟩
  | 44 => ⟨S1, .i1⟩
  | 45 => ⟨S_, .i32⟩
  | 46 => ⟨S1, .i32⟩
  | 47 => ⟨S1, .i32⟩
  | 48 => ⟨S1, .i32⟩
  | 49 => ⟨S1x1, .i32⟩
  | 50 => ⟨S1, .f32⟩
  | 51 => ⟨S_, .i32⟩
  | 52 => ⟨S1, .i32⟩
  | 53 => ⟨S1, .i1⟩
  | 54 => ⟨S_, .i32⟩
  | 55 => ⟨S1, .i32⟩
  | 56 => ⟨S1, .i32⟩
  | 57 => ⟨S1, .i32⟩
  | 58 => ⟨S1x1, .i32⟩
  | 59 => ⟨S1, .f32⟩
  | 60 => ⟨S_, .f32⟩
  | 61 => ⟨S_, .f32⟩
  | 62 => ⟨S_, .f32⟩
  | 63 => ⟨S_, .i32⟩
  | 64 => ⟨S4, .i32⟩
  | 65 => ⟨S4, .i1⟩
  | 66 => ⟨S_, .i32⟩
  | 67 => ⟨S4, .i32⟩
  | 68 => ⟨S4, .i32⟩
  | 69 => ⟨S4, .i32⟩
  | 70 => ⟨S4x1, .i32⟩
  | 71 => ⟨S4, .f32⟩
  | 72 => ⟨S_, .i32⟩
  | 73 => ⟨S4, .i32⟩
  | 74 => ⟨S4, .i1⟩
  | 75 => ⟨S_, .i32⟩
  | 76 => ⟨S4, .i32⟩
  | 77 => ⟨S4, .i32⟩
  | 78 => ⟨S4, .i32⟩
  | 79 => ⟨S4x1, .i32⟩
  | 80 => ⟨S4, .f32⟩
  | 81 => ⟨S_, .i32⟩
  | 82 => ⟨S_, .f32⟩
  | 83 => ⟨S_, .f32⟩
  | 84 => ⟨S1, .f32⟩
  | 85 => ⟨S_, .f32⟩
  | 86 => ⟨S1, .f32⟩
  | 87 => ⟨S1, .f32⟩
  | 88 => ⟨S4, .f32⟩
  | 89 => ⟨S4, .f32⟩
  | 90 => ⟨S4, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S_, .i32⟩
  | 104 => ⟨S_, .f32⟩
  | 105 => ⟨S_, .f32⟩
  | 106 => ⟨S1, .f32⟩
  | 107 => ⟨S_, .f32⟩
  | 108 => ⟨S1, .f32⟩
  | 109 => ⟨S1, .f32⟩
  | 110 => ⟨S4, .f32⟩
  | 111 => ⟨S4, .f32⟩
  | 112 => ⟨S4, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .i1⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S7680x4096, .f32⟩

abbrev hbmTy0_2 (i : Nat) : BufTy := match i % 128 with
  | 0 => ⟨S_, .f32⟩
  | 1 => ⟨S_, .i32⟩
  | 2 => ⟨S2, .i32⟩
  | 3 => ⟨S2, .i1⟩
  | 4 => ⟨S_, .i32⟩
  | 5 => ⟨S2, .i32⟩
  | 6 => ⟨S2, .i32⟩
  | 7 => ⟨S2, .i32⟩
  | 8 => ⟨S2x1, .i32⟩
  | 9 => ⟨S2, .f32⟩
  | 10 => ⟨S_, .i32⟩
  | 11 => ⟨S2, .i32⟩
  | 12 => ⟨S2, .i1⟩
  | 13 => ⟨S_, .i32⟩
  | 14 => ⟨S2, .i32⟩
  | 15 => ⟨S2, .i32⟩
  | 16 => ⟨S2, .i32⟩
  | 17 => ⟨S2x1, .i32⟩
  | 18 => ⟨S2, .f32⟩
  | 19 => ⟨S_, .i32⟩
  | 20 => ⟨S_, .f32⟩
  | 21 => ⟨S_, .f32⟩
  | 22 => ⟨S1, .f32⟩
  | 23 => ⟨S_, .f32⟩
  | 24 => ⟨S1, .f32⟩
  | 25 => ⟨S1, .f32⟩
  | 26 => ⟨S2, .f32⟩
  | 27 => ⟨S2, .f32⟩
  | 28 => ⟨S2, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .i1⟩
  | 37 => ⟨S_, .f32⟩
  | 38 => ⟨S_, .f32⟩
  | 39 => ⟨S_, .f32⟩
  | 40 => ⟨S_, .f32⟩
  | 41 => ⟨S_, .i32⟩
  | 42 => ⟨S_, .f32⟩
  | 43 => ⟨S_, .f32⟩
  | 44 => ⟨S1, .f32⟩
  | 45 => ⟨S_, .f32⟩
  | 46 => ⟨S1, .f32⟩
  | 47 => ⟨S1, .f32⟩
  | 48 => ⟨S2, .f32⟩
  | 49 => ⟨S2, .f32⟩
  | 50 => ⟨S2, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .i32⟩
  | 68 => ⟨S3, .i32⟩
  | 69 => ⟨S3, .i1⟩
  | 70 => ⟨S_, .i32⟩
  | 71 => ⟨S3, .i32⟩
  | 72 => ⟨S3, .i32⟩
  | 73 => ⟨S3, .i32⟩
  | 74 => ⟨S3x1, .i32⟩
  | 75 => ⟨S3, .f32⟩
  | 76 => ⟨S_, .i32⟩
  | 77 => ⟨S3, .i32⟩
  | 78 => ⟨S3, .i1⟩
  | 79 => ⟨S_, .i32⟩
  | 80 => ⟨S3, .i32⟩
  | 81 => ⟨S3, .i32⟩
  | 82 => ⟨S3, .i32⟩
  | 83 => ⟨S3x1, .i32⟩
  | 84 => ⟨S3, .f32⟩
  | 85 => ⟨S_, .i32⟩
  | 86 => ⟨S_, .f32⟩
  | 87 => ⟨S_, .f32⟩
  | 88 => ⟨S1, .f32⟩
  | 89 => ⟨S_, .f32⟩
  | 90 => ⟨S1, .f32⟩
  | 91 => ⟨S1, .f32⟩
  | 92 => ⟨S3, .f32⟩
  | 93 => ⟨S3, .f32⟩
  | 94 => ⟨S3, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S_, .i32⟩
  | 108 => ⟨S_, .f32⟩
  | 109 => ⟨S_, .f32⟩
  | 110 => ⟨S1, .f32⟩
  | 111 => ⟨S_, .f32⟩
  | 112 => ⟨S1, .f32⟩
  | 113 => ⟨S1, .f32⟩
  | 114 => ⟨S3, .f32⟩
  | 115 => ⟨S3, .f32⟩
  | 116 => ⟨S3, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .i1⟩
  | 125 => ⟨S_, .f32⟩
  | 126 => ⟨S_, .f32⟩
  | 127 => ⟨S_, .f32⟩
  | _ => ⟨S7680x4096, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S1, .f32⟩
  | 6 => ⟨S1, .f32⟩
  | 7 => ⟨S1, .f32⟩
  | 8 => ⟨S1, .f32⟩
  | 9 => ⟨S1, .f32⟩
  | 10 => ⟨S1, .f32⟩
  | 11 => ⟨S6, .f32⟩
  | 12 => ⟨S1, .f32⟩
  | 13 => ⟨S1, .f32⟩
  | 14 => ⟨S1, .f32⟩
  | 15 => ⟨S1, .f32⟩
  | 16 => ⟨S1, .f32⟩
  | 17 => ⟨S1, .f32⟩
  | 18 => ⟨S6, .f32⟩
  | 19 => ⟨S1, .f32⟩
  | 20 => ⟨S1, .f32⟩
  | 21 => ⟨S1, .f32⟩
  | 22 => ⟨S1, .f32⟩
  | 23 => ⟨S1, .f32⟩
  | 24 => ⟨S1, .f32⟩
  | 25 => ⟨S6, .f32⟩
  | 26 => ⟨S_, .i1⟩
  | 27 => ⟨S6x6, .i1⟩
  | 28 => ⟨S6x6, .i32⟩
  | 29 => ⟨S_, .i32⟩
  | 30 => ⟨S6x6, .i32⟩
  | 31 => ⟨S6x6, .i32⟩
  | 32 => ⟨S6x6, .i32⟩
  | 33 => ⟨S6x6, .i1⟩
  | 34 => ⟨S_, .i1⟩
  | 35 => ⟨S6x6, .i1⟩
  | 36 => ⟨S6x6, .i1⟩
  | 37 => ⟨S6x1, .f32⟩
  | 38 => ⟨S1x6, .f32⟩
  | 39 => ⟨S6x6, .f32⟩
  | 40 => ⟨S6x6, .f32⟩
  | 41 => ⟨S6x6, .f32⟩
  | 42 => ⟨S6x6, .f32⟩
  | 43 => ⟨S6x6, .f32⟩
  | 44 => ⟨S6x1, .f32⟩
  | 45 => ⟨S1x6, .f32⟩
  | 46 => ⟨S6x6, .f32⟩
  | 47 => ⟨S6x6, .f32⟩
  | 48 => ⟨S6x6, .f32⟩
  | 49 => ⟨S6x6, .f32⟩
  | 50 => ⟨S6x6, .f32⟩
  | 51 => ⟨S_, .f32⟩
  | 52 => ⟨S6x6, .f32⟩
  | 53 => ⟨S6x6, .f32⟩
  | 54 => ⟨S6x6, .f32⟩
  | 55 => ⟨S_, .f32⟩
  | 56 => ⟨S_, .f32⟩
  | 57 => ⟨S6x6, .f32⟩
  | 58 => ⟨S6x6, .f32⟩
  | 59 => ⟨S_, .f32⟩
  | 60 => ⟨S6, .f32⟩
  | 61 => ⟨S_, .f32⟩
  | 62 => ⟨S6, .f32⟩
  | 63 => ⟨S6, .f32⟩
  | 64 => ⟨S6, .f32⟩
  | 65 => ⟨S6, .f32⟩
  | 66 => ⟨S_, .f32⟩
  | 67 => ⟨S6, .f32⟩
  | 68 => ⟨S6, .f32⟩
  | 69 => ⟨S6, .f32⟩
  | 70 => ⟨S_, .f32⟩
  | 71 => ⟨S_, .f32⟩
  | _ => ⟨S7680x4096, .f32⟩

abbrev hbmTy (i : Nat) : BufTy := match i / 128 with
  | 0 => hbmTy0_0 i
  | 1 => hbmTy0_1 i
  | 2 => hbmTy0_2 i
  | 3 => hbmTy0_3 i
  | _ => ⟨S7680x4096, .f32⟩

abbrev bufTy : (tb : Table) → Fin (tcTables nBuf tb) → BufTy
  | .hbm, ⟨i, _⟩ => hbmTy i
  | .local _ .vmem, ⟨0, _⟩ => ⟨S128x15x1024, .f32⟩
  | .local _ .vmem, ⟨1, _⟩ => ⟨S128x15x1024, .f32⟩
  | .local _ .vmem, ⟨2, _⟩ => ⟨S15x1024, .f32⟩
  | .local _ .vmem, ⟨3, _⟩ => ⟨S15x1024, .f32⟩
  | .local _ .vmem, ⟨4, _⟩ => ⟨S15x1024, .f32⟩
  | _, _ => ⟨S7680x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_5 : Ref sig .tc := ⟨.hbm, 11, rfl⟩
abbrev main_v3 : Ref sig .tc := ⟨.hbm, 12, rfl⟩
abbrev main_v4 : Ref sig .tc := ⟨.hbm, 13, rfl⟩
abbrev main_c_6 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_cst_0 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_cst_1 : Ref sig .tc := ⟨.hbm, 25, rfl⟩
abbrev main_call0_call0_v8 : Ref sig .tc := ⟨.hbm, 26, rfl⟩
abbrev main_call0_call0_cst_2 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_call0_cst_3 : Ref sig .tc := ⟨.hbm, 31, rfl⟩
abbrev main_call0_call0_v12 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v5 : Ref sig .tc := ⟨.hbm, 37, rfl⟩
abbrev main_c_7 : Ref sig .tc := ⟨.hbm, 38, rfl⟩
abbrev main_v6 : Ref sig .tc := ⟨.hbm, 39, rfl⟩
abbrev main_v7 : Ref sig .tc := ⟨.hbm, 40, rfl⟩
abbrev main_c_8 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c_9 : Ref sig .tc := ⟨.hbm, 47, rfl⟩
abbrev main_v13 : Ref sig .tc := ⟨.hbm, 48, rfl⟩
abbrev main_v14 : Ref sig .tc := ⟨.hbm, 49, rfl⟩
abbrev main_c_10 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_c_11 : Ref sig .tc := ⟨.hbm, 56, rfl⟩
abbrev main_call1_call0_cst : Ref sig .tc := ⟨.hbm, 57, rfl⟩
abbrev main_call1_call0_v0 : Ref sig .tc := ⟨.hbm, 58, rfl⟩
abbrev main_call1_call0_v1 : Ref sig .tc := ⟨.hbm, 59, rfl⟩
abbrev main_call1_call0_cst_0 : Ref sig .tc := ⟨.hbm, 60, rfl⟩
abbrev main_call1_call0_v2 : Ref sig .tc := ⟨.hbm, 61, rfl⟩
abbrev main_call1_call0_v3 : Ref sig .tc := ⟨.hbm, 62, rfl⟩
abbrev main_call1_call0_v4 : Ref sig .tc := ⟨.hbm, 63, rfl⟩
abbrev main_call1_call0_v5 : Ref sig .tc := ⟨.hbm, 64, rfl⟩
abbrev main_call1_call0_v6 : Ref sig .tc := ⟨.hbm, 65, rfl⟩
abbrev main_call1_call0_v7 : Ref sig .tc := ⟨.hbm, 66, rfl⟩
abbrev main_call1_call0_cst_1 : Ref sig .tc := ⟨.hbm, 67, rfl⟩
abbrev main_call1_call0_v8 : Ref sig .tc := ⟨.hbm, 68, rfl⟩
abbrev main_call1_call0_cst_2 : Ref sig .tc := ⟨.hbm, 69, rfl⟩
abbrev main_call1_call0_v9 : Ref sig .tc := ⟨.hbm, 70, rfl⟩
abbrev main_call1_call0_v10 : Ref sig .tc := ⟨.hbm, 71, rfl⟩
abbrev main_call1_call0_cst_3 : Ref sig .tc := ⟨.hbm, 72, rfl⟩
abbrev main_call1_call0_v11 : Ref sig .tc := ⟨.hbm, 73, rfl⟩
abbrev main_call1_call0_cst_4 : Ref sig .tc := ⟨.hbm, 74, rfl⟩
abbrev main_call1_call0_call0_v0 : Ref sig .tc := ⟨.hbm, 75, rfl⟩
abbrev main_call1_v0 : Ref sig .tc := ⟨.hbm, 76, rfl⟩
abbrev main_v20 : Ref sig .tc := ⟨.hbm, 77, rfl⟩
abbrev main_c_12 : Ref sig .tc := ⟨.hbm, 78, rfl⟩
abbrev main_call2_call0_cst : Ref sig .tc := ⟨.hbm, 79, rfl⟩
abbrev main_call2_call0_v0 : Ref sig .tc := ⟨.hbm, 80, rfl⟩
abbrev main_call2_call0_v1 : Ref sig .tc := ⟨.hbm, 81, rfl⟩
abbrev main_call2_call0_cst_0 : Ref sig .tc := ⟨.hbm, 82, rfl⟩
abbrev main_call2_call0_v2 : Ref sig .tc := ⟨.hbm, 83, rfl⟩
abbrev main_call2_call0_v3 : Ref sig .tc := ⟨.hbm, 84, rfl⟩
abbrev main_call2_call0_v4 : Ref sig .tc := ⟨.hbm, 85, rfl⟩
abbrev main_call2_call0_v5 : Ref sig .tc := ⟨.hbm, 86, rfl⟩
abbrev main_call2_call0_v6 : Ref sig .tc := ⟨.hbm, 87, rfl⟩
abbrev main_call2_call0_v7 : Ref sig .tc := ⟨.hbm, 88, rfl⟩
abbrev main_call2_call0_cst_1 : Ref sig .tc := ⟨.hbm, 89, rfl⟩
abbrev main_call2_call0_v8 : Ref sig .tc := ⟨.hbm, 90, rfl⟩
abbrev main_call2_call0_cst_2 : Ref sig .tc := ⟨.hbm, 91, rfl⟩
abbrev main_call2_call0_v9 : Ref sig .tc := ⟨.hbm, 92, rfl⟩
abbrev main_call2_call0_v10 : Ref sig .tc := ⟨.hbm, 93, rfl⟩
abbrev main_call2_call0_cst_3 : Ref sig .tc := ⟨.hbm, 94, rfl⟩
abbrev main_call2_call0_v11 : Ref sig .tc := ⟨.hbm, 95, rfl⟩
abbrev main_call2_call0_cst_4 : Ref sig .tc := ⟨.hbm, 96, rfl⟩
abbrev main_call2_call0_call0_v0 : Ref sig .tc := ⟨.hbm, 97, rfl⟩
abbrev main_call2_v0 : Ref sig .tc := ⟨.hbm, 98, rfl⟩
abbrev main_v21 : Ref sig .tc := ⟨.hbm, 99, rfl⟩
abbrev main_cst_13 : Ref sig .tc := ⟨.hbm, 100, rfl⟩
abbrev main_v22 : Ref sig .tc := ⟨.hbm, 101, rfl⟩
abbrev main_cst_14 : Ref sig .tc := ⟨.hbm, 102, rfl⟩
abbrev main_v23 : Ref sig .tc := ⟨.hbm, 103, rfl⟩
abbrev main_c_15 : Ref sig .tc := ⟨.hbm, 104, rfl⟩
abbrev main_v24 : Ref sig .tc := ⟨.hbm, 105, rfl⟩
abbrev main_v25 : Ref sig .tc := ⟨.hbm, 106, rfl⟩
abbrev main_c_16 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_c_17 : Ref sig .tc := ⟨.hbm, 113, rfl⟩
abbrev main_v31 : Ref sig .tc := ⟨.hbm, 114, rfl⟩
abbrev main_v32 : Ref sig .tc := ⟨.hbm, 115, rfl⟩
abbrev main_c_18 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_c_19 : Ref sig .tc := ⟨.hbm, 122, rfl⟩
abbrev main_call3_call0_cst : Ref sig .tc := ⟨.hbm, 123, rfl⟩
abbrev main_call3_call0_v0 : Ref sig .tc := ⟨.hbm, 124, rfl⟩
abbrev main_call3_call0_v1 : Ref sig .tc := ⟨.hbm, 125, rfl⟩
abbrev main_call3_call0_cst_0 : Ref sig .tc := ⟨.hbm, 126, rfl⟩
abbrev main_call3_call0_v2 : Ref sig .tc := ⟨.hbm, 127, rfl⟩
abbrev main_call3_call0_v3 : Ref sig .tc := ⟨.hbm, 128, rfl⟩
abbrev main_call3_call0_v4 : Ref sig .tc := ⟨.hbm, 129, rfl⟩
abbrev main_call3_call0_v5 : Ref sig .tc := ⟨.hbm, 130, rfl⟩
abbrev main_call3_call0_v6 : Ref sig .tc := ⟨.hbm, 131, rfl⟩
abbrev main_call3_call0_v7 : Ref sig .tc := ⟨.hbm, 132, rfl⟩
abbrev main_call3_call0_cst_1 : Ref sig .tc := ⟨.hbm, 133, rfl⟩
abbrev main_call3_call0_v8 : Ref sig .tc := ⟨.hbm, 134, rfl⟩
abbrev main_call3_call0_cst_2 : Ref sig .tc := ⟨.hbm, 135, rfl⟩
abbrev main_call3_call0_v9 : Ref sig .tc := ⟨.hbm, 136, rfl⟩
abbrev main_call3_call0_v10 : Ref sig .tc := ⟨.hbm, 137, rfl⟩
abbrev main_call3_call0_cst_3 : Ref sig .tc := ⟨.hbm, 138, rfl⟩
abbrev main_call3_call0_v11 : Ref sig .tc := ⟨.hbm, 139, rfl⟩
abbrev main_call3_call0_cst_4 : Ref sig .tc := ⟨.hbm, 140, rfl⟩
abbrev main_call3_call0_call0_v0 : Ref sig .tc := ⟨.hbm, 141, rfl⟩
abbrev main_call3_v0 : Ref sig .tc := ⟨.hbm, 142, rfl⟩
abbrev main_v38 : Ref sig .tc := ⟨.hbm, 143, rfl⟩
abbrev main_c_20 : Ref sig .tc := ⟨.hbm, 144, rfl⟩
abbrev main_call4_call0_cst : Ref sig .tc := ⟨.hbm, 145, rfl⟩
abbrev main_call4_call0_v0 : Ref sig .tc := ⟨.hbm, 146, rfl⟩
abbrev main_call4_call0_v1 : Ref sig .tc := ⟨.hbm, 147, rfl⟩
abbrev main_call4_call0_cst_0 : Ref sig .tc := ⟨.hbm, 148, rfl⟩
abbrev main_call4_call0_v2 : Ref sig .tc := ⟨.hbm, 149, rfl⟩
abbrev main_call4_call0_v3 : Ref sig .tc := ⟨.hbm, 150, rfl⟩
abbrev main_call4_call0_v4 : Ref sig .tc := ⟨.hbm, 151, rfl⟩
abbrev main_call4_call0_v5 : Ref sig .tc := ⟨.hbm, 152, rfl⟩
abbrev main_call4_call0_v6 : Ref sig .tc := ⟨.hbm, 153, rfl⟩
abbrev main_call4_call0_v7 : Ref sig .tc := ⟨.hbm, 154, rfl⟩
abbrev main_call4_call0_cst_1 : Ref sig .tc := ⟨.hbm, 155, rfl⟩
abbrev main_call4_call0_v8 : Ref sig .tc := ⟨.hbm, 156, rfl⟩
abbrev main_call4_call0_cst_2 : Ref sig .tc := ⟨.hbm, 157, rfl⟩
abbrev main_call4_call0_v9 : Ref sig .tc := ⟨.hbm, 158, rfl⟩
abbrev main_call4_call0_v10 : Ref sig .tc := ⟨.hbm, 159, rfl⟩
abbrev main_call4_call0_cst_3 : Ref sig .tc := ⟨.hbm, 160, rfl⟩
abbrev main_call4_call0_v11 : Ref sig .tc := ⟨.hbm, 161, rfl⟩
abbrev main_call4_call0_cst_4 : Ref sig .tc := ⟨.hbm, 162, rfl⟩
abbrev main_call4_call0_call0_v0 : Ref sig .tc := ⟨.hbm, 163, rfl⟩
abbrev main_call4_v0 : Ref sig .tc := ⟨.hbm, 164, rfl⟩
abbrev main_v39 : Ref sig .tc := ⟨.hbm, 165, rfl⟩
abbrev main_cst_21 : Ref sig .tc := ⟨.hbm, 166, rfl⟩
abbrev main_v40 : Ref sig .tc := ⟨.hbm, 167, rfl⟩
abbrev main_cst_22 : Ref sig .tc := ⟨.hbm, 168, rfl⟩
abbrev main_v41 : Ref sig .tc := ⟨.hbm, 169, rfl⟩
abbrev main_c_23 : Ref sig .tc := ⟨.hbm, 170, rfl⟩
abbrev main_v42 : Ref sig .tc := ⟨.hbm, 171, rfl⟩
abbrev main_v43 : Ref sig .tc := ⟨.hbm, 172, rfl⟩
abbrev main_c_24 : Ref sig .tc := ⟨.hbm, 173, rfl⟩
abbrev main_v44 : Ref sig .tc := ⟨.hbm, 174, rfl⟩
abbrev main_v45 : Ref sig .tc := ⟨.hbm, 175, rfl⟩
abbrev main_v46 : Ref sig .tc := ⟨.hbm, 176, rfl⟩
abbrev main_v47 : Ref sig .tc := ⟨.hbm, 177, rfl⟩
abbrev main_v48 : Ref sig .tc := ⟨.hbm, 178, rfl⟩
abbrev main_c_25 : Ref sig .tc := ⟨.hbm, 179, rfl⟩
abbrev main_v49 : Ref sig .tc := ⟨.hbm, 180, rfl⟩
abbrev main_v50 : Ref sig .tc := ⟨.hbm, 181, rfl⟩
abbrev main_c_26 : Ref sig .tc := ⟨.hbm, 182, rfl⟩
abbrev main_v51 : Ref sig .tc := ⟨.hbm, 183, rfl⟩
abbrev main_v52 : Ref sig .tc := ⟨.hbm, 184, rfl⟩
abbrev main_v53 : Ref sig .tc := ⟨.hbm, 185, rfl⟩
abbrev main_v54 : Ref sig .tc := ⟨.hbm, 186, rfl⟩
abbrev main_v55 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_c_27 : Ref sig .tc := ⟨.hbm, 191, rfl⟩
abbrev main_v59 : Ref sig .tc := ⟨.hbm, 192, rfl⟩
abbrev main_v60 : Ref sig .tc := ⟨.hbm, 193, rfl⟩
abbrev main_c_28 : Ref sig .tc := ⟨.hbm, 194, rfl⟩
abbrev main_v61 : Ref sig .tc := ⟨.hbm, 195, rfl⟩
abbrev main_v62 : Ref sig .tc := ⟨.hbm, 196, rfl⟩
abbrev main_v63 : Ref sig .tc := ⟨.hbm, 197, rfl⟩
abbrev main_v64 : Ref sig .tc := ⟨.hbm, 198, rfl⟩
abbrev main_v65 : Ref sig .tc := ⟨.hbm, 199, rfl⟩
abbrev main_c_29 : Ref sig .tc := ⟨.hbm, 200, rfl⟩
abbrev main_v66 : Ref sig .tc := ⟨.hbm, 201, rfl⟩
abbrev main_v67 : Ref sig .tc := ⟨.hbm, 202, rfl⟩
abbrev main_c_30 : Ref sig .tc := ⟨.hbm, 203, rfl⟩
abbrev main_v68 : Ref sig .tc := ⟨.hbm, 204, rfl⟩
abbrev main_v69 : Ref sig .tc := ⟨.hbm, 205, rfl⟩
abbrev main_v70 : Ref sig .tc := ⟨.hbm, 206, rfl⟩
abbrev main_v71 : Ref sig .tc := ⟨.hbm, 207, rfl⟩
abbrev main_v72 : Ref sig .tc := ⟨.hbm, 208, rfl⟩
abbrev main_c_31 : Ref sig .tc := ⟨.hbm, 209, rfl⟩
abbrev main_call5_call0_cst : Ref sig .tc := ⟨.hbm, 210, rfl⟩
abbrev main_call5_call0_v0 : Ref sig .tc := ⟨.hbm, 211, rfl⟩
abbrev main_call5_call0_v1 : Ref sig .tc := ⟨.hbm, 212, rfl⟩
abbrev main_call5_call0_cst_0 : Ref sig .tc := ⟨.hbm, 213, rfl⟩
abbrev main_call5_call0_v2 : Ref sig .tc := ⟨.hbm, 214, rfl⟩
abbrev main_call5_call0_v3 : Ref sig .tc := ⟨.hbm, 215, rfl⟩
abbrev main_call5_call0_v4 : Ref sig .tc := ⟨.hbm, 216, rfl⟩
abbrev main_call5_call0_v5 : Ref sig .tc := ⟨.hbm, 217, rfl⟩
abbrev main_call5_call0_v6 : Ref sig .tc := ⟨.hbm, 218, rfl⟩
abbrev main_call5_call0_v7 : Ref sig .tc := ⟨.hbm, 219, rfl⟩
abbrev main_call5_call0_cst_1 : Ref sig .tc := ⟨.hbm, 220, rfl⟩
abbrev main_call5_call0_v8 : Ref sig .tc := ⟨.hbm, 221, rfl⟩
abbrev main_call5_call0_cst_2 : Ref sig .tc := ⟨.hbm, 222, rfl⟩
abbrev main_call5_call0_v9 : Ref sig .tc := ⟨.hbm, 223, rfl⟩
abbrev main_call5_call0_v10 : Ref sig .tc := ⟨.hbm, 224, rfl⟩
abbrev main_call5_call0_cst_3 : Ref sig .tc := ⟨.hbm, 225, rfl⟩
abbrev main_call5_call0_v11 : Ref sig .tc := ⟨.hbm, 226, rfl⟩
abbrev main_call5_call0_cst_4 : Ref sig .tc := ⟨.hbm, 227, rfl⟩
abbrev main_call5_call0_call0_v0 : Ref sig .tc := ⟨.hbm, 228, rfl⟩
abbrev main_call5_v0 : Ref sig .tc := ⟨.hbm, 229, rfl⟩
abbrev main_v73 : Ref sig .tc := ⟨.hbm, 230, rfl⟩
abbrev main_c_32 : Ref sig .tc := ⟨.hbm, 231, rfl⟩
abbrev main_call6_call0_cst : Ref sig .tc := ⟨.hbm, 232, rfl⟩
abbrev main_call6_call0_v0 : Ref sig .tc := ⟨.hbm, 233, rfl⟩
abbrev main_call6_call0_v1 : Ref sig .tc := ⟨.hbm, 234, rfl⟩
abbrev main_call6_call0_cst_0 : Ref sig .tc := ⟨.hbm, 235, rfl⟩
abbrev main_call6_call0_v2 : Ref sig .tc := ⟨.hbm, 236, rfl⟩
abbrev main_call6_call0_v3 : Ref sig .tc := ⟨.hbm, 237, rfl⟩
abbrev main_call6_call0_v4 : Ref sig .tc := ⟨.hbm, 238, rfl⟩
abbrev main_call6_call0_v5 : Ref sig .tc := ⟨.hbm, 239, rfl⟩
abbrev main_call6_call0_v6 : Ref sig .tc := ⟨.hbm, 240, rfl⟩
abbrev main_call6_call0_v7 : Ref sig .tc := ⟨.hbm, 241, rfl⟩
abbrev main_call6_call0_cst_1 : Ref sig .tc := ⟨.hbm, 242, rfl⟩
abbrev main_call6_call0_v8 : Ref sig .tc := ⟨.hbm, 243, rfl⟩
abbrev main_call6_call0_cst_2 : Ref sig .tc := ⟨.hbm, 244, rfl⟩
abbrev main_call6_call0_v9 : Ref sig .tc := ⟨.hbm, 245, rfl⟩
abbrev main_call6_call0_v10 : Ref sig .tc := ⟨.hbm, 246, rfl⟩
abbrev main_call6_call0_cst_3 : Ref sig .tc := ⟨.hbm, 247, rfl⟩
abbrev main_call6_call0_v11 : Ref sig .tc := ⟨.hbm, 248, rfl⟩
abbrev main_call6_call0_cst_4 : Ref sig .tc := ⟨.hbm, 249, rfl⟩
abbrev main_call6_call0_call0_v0 : Ref sig .tc := ⟨.hbm, 250, rfl⟩
abbrev main_call6_v0 : Ref sig .tc := ⟨.hbm, 251, rfl⟩
abbrev main_v74 : Ref sig .tc := ⟨.hbm, 252, rfl⟩
abbrev main_cst_33 : Ref sig .tc := ⟨.hbm, 253, rfl⟩
abbrev main_v75 : Ref sig .tc := ⟨.hbm, 254, rfl⟩
abbrev main_cst_34 : Ref sig .tc := ⟨.hbm, 255, rfl⟩
abbrev main_v76 : Ref sig .tc := ⟨.hbm, 256, rfl⟩
abbrev main_c_35 : Ref sig .tc := ⟨.hbm, 257, rfl⟩
abbrev main_v77 : Ref sig .tc := ⟨.hbm, 258, rfl⟩
abbrev main_v78 : Ref sig .tc := ⟨.hbm, 259, rfl⟩
abbrev main_c_36 : Ref sig .tc := ⟨.hbm, 260, rfl⟩
abbrev main_v79 : Ref sig .tc := ⟨.hbm, 261, rfl⟩
abbrev main_v80 : Ref sig .tc := ⟨.hbm, 262, rfl⟩
abbrev main_v81 : Ref sig .tc := ⟨.hbm, 263, rfl⟩
abbrev main_v82 : Ref sig .tc := ⟨.hbm, 264, rfl⟩
abbrev main_v83 : Ref sig .tc := ⟨.hbm, 265, rfl⟩
abbrev main_c_37 : Ref sig .tc := ⟨.hbm, 266, rfl⟩
abbrev main_v84 : Ref sig .tc := ⟨.hbm, 267, rfl⟩
abbrev main_v85 : Ref sig .tc := ⟨.hbm, 268, rfl⟩
abbrev main_c_38 : Ref sig .tc := ⟨.hbm, 269, rfl⟩
abbrev main_v86 : Ref sig .tc := ⟨.hbm, 270, rfl⟩
abbrev main_v87 : Ref sig .tc := ⟨.hbm, 271, rfl⟩
abbrev main_v88 : Ref sig .tc := ⟨.hbm, 272, rfl⟩
abbrev main_v89 : Ref sig .tc := ⟨.hbm, 273, rfl⟩
abbrev main_v90 : Ref sig .tc := ⟨.hbm, 274, rfl⟩
abbrev main_c_39 : Ref sig .tc := ⟨.hbm, 275, rfl⟩
abbrev main_call7_call0_cst : Ref sig .tc := ⟨.hbm, 276, rfl⟩
abbrev main_call7_call0_v0 : Ref sig .tc := ⟨.hbm, 277, rfl⟩
abbrev main_call7_call0_v1 : Ref sig .tc := ⟨.hbm, 278, rfl⟩
abbrev main_call7_call0_cst_0 : Ref sig .tc := ⟨.hbm, 279, rfl⟩
abbrev main_call7_call0_v2 : Ref sig .tc := ⟨.hbm, 280, rfl⟩
abbrev main_call7_call0_v3 : Ref sig .tc := ⟨.hbm, 281, rfl⟩
abbrev main_call7_call0_v4 : Ref sig .tc := ⟨.hbm, 282, rfl⟩
abbrev main_call7_call0_v5 : Ref sig .tc := ⟨.hbm, 283, rfl⟩
abbrev main_call7_call0_v6 : Ref sig .tc := ⟨.hbm, 284, rfl⟩
abbrev main_call7_call0_v7 : Ref sig .tc := ⟨.hbm, 285, rfl⟩
abbrev main_call7_call0_cst_1 : Ref sig .tc := ⟨.hbm, 286, rfl⟩
abbrev main_call7_call0_v8 : Ref sig .tc := ⟨.hbm, 287, rfl⟩
abbrev main_call7_call0_cst_2 : Ref sig .tc := ⟨.hbm, 288, rfl⟩
abbrev main_call7_call0_v9 : Ref sig .tc := ⟨.hbm, 289, rfl⟩
abbrev main_call7_call0_v10 : Ref sig .tc := ⟨.hbm, 290, rfl⟩
abbrev main_call7_call0_cst_3 : Ref sig .tc := ⟨.hbm, 291, rfl⟩
abbrev main_call7_call0_v11 : Ref sig .tc := ⟨.hbm, 292, rfl⟩
abbrev main_call7_call0_cst_4 : Ref sig .tc := ⟨.hbm, 293, rfl⟩
abbrev main_call7_call0_call0_v0 : Ref sig .tc := ⟨.hbm, 294, rfl⟩
abbrev main_call7_v0 : Ref sig .tc := ⟨.hbm, 295, rfl⟩
abbrev main_v91 : Ref sig .tc := ⟨.hbm, 296, rfl⟩
abbrev main_c_40 : Ref sig .tc := ⟨.hbm, 297, rfl⟩
abbrev main_call8_call0_cst : Ref sig .tc := ⟨.hbm, 298, rfl⟩
abbrev main_call8_call0_v0 : Ref sig .tc := ⟨.hbm, 299, rfl⟩
abbrev main_call8_call0_v1 : Ref sig .tc := ⟨.hbm, 300, rfl⟩
abbrev main_call8_call0_cst_0 : Ref sig .tc := ⟨.hbm, 301, rfl⟩
abbrev main_call8_call0_v2 : Ref sig .tc := ⟨.hbm, 302, rfl⟩
abbrev main_call8_call0_v3 : Ref sig .tc := ⟨.hbm, 303, rfl⟩
abbrev main_call8_call0_v4 : Ref sig .tc := ⟨.hbm, 304, rfl⟩
abbrev main_call8_call0_v5 : Ref sig .tc := ⟨.hbm, 305, rfl⟩
abbrev main_call8_call0_v6 : Ref sig .tc := ⟨.hbm, 306, rfl⟩
abbrev main_call8_call0_v7 : Ref sig .tc := ⟨.hbm, 307, rfl⟩
abbrev main_call8_call0_cst_1 : Ref sig .tc := ⟨.hbm, 308, rfl⟩
abbrev main_call8_call0_v8 : Ref sig .tc := ⟨.hbm, 309, rfl⟩
abbrev main_call8_call0_cst_2 : Ref sig .tc := ⟨.hbm, 310, rfl⟩
abbrev main_call8_call0_v9 : Ref sig .tc := ⟨.hbm, 311, rfl⟩
abbrev main_call8_call0_v10 : Ref sig .tc := ⟨.hbm, 312, rfl⟩
abbrev main_call8_call0_cst_3 : Ref sig .tc := ⟨.hbm, 313, rfl⟩
abbrev main_call8_call0_v11 : Ref sig .tc := ⟨.hbm, 314, rfl⟩
abbrev main_call8_call0_cst_4 : Ref sig .tc := ⟨.hbm, 315, rfl⟩
abbrev main_call8_call0_call0_v0 : Ref sig .tc := ⟨.hbm, 316, rfl⟩
abbrev main_call8_v0 : Ref sig .tc := ⟨.hbm, 317, rfl⟩
abbrev main_v92 : Ref sig .tc := ⟨.hbm, 318, rfl⟩
abbrev main_cst_41 : Ref sig .tc := ⟨.hbm, 319, rfl⟩
abbrev main_v93 : Ref sig .tc := ⟨.hbm, 320, rfl⟩
abbrev main_cst_42 : Ref sig .tc := ⟨.hbm, 321, rfl⟩
abbrev main_v94 : Ref sig .tc := ⟨.hbm, 322, rfl⟩
abbrev main_c_43 : Ref sig .tc := ⟨.hbm, 323, rfl⟩
abbrev main_v95 : Ref sig .tc := ⟨.hbm, 324, rfl⟩
abbrev main_v96 : Ref sig .tc := ⟨.hbm, 325, rfl⟩
abbrev main_c_44 : Ref sig .tc := ⟨.hbm, 326, rfl⟩
abbrev main_v97 : Ref sig .tc := ⟨.hbm, 327, rfl⟩
abbrev main_v98 : Ref sig .tc := ⟨.hbm, 328, rfl⟩
abbrev main_v99 : Ref sig .tc := ⟨.hbm, 329, rfl⟩
abbrev main_v100 : Ref sig .tc := ⟨.hbm, 330, rfl⟩
abbrev main_v101 : Ref sig .tc := ⟨.hbm, 331, rfl⟩
abbrev main_c_45 : Ref sig .tc := ⟨.hbm, 332, rfl⟩
abbrev main_v102 : Ref sig .tc := ⟨.hbm, 333, rfl⟩
abbrev main_v103 : Ref sig .tc := ⟨.hbm, 334, rfl⟩
abbrev main_c_46 : Ref sig .tc := ⟨.hbm, 335, rfl⟩
abbrev main_v104 : Ref sig .tc := ⟨.hbm, 336, rfl⟩
abbrev main_v105 : Ref sig .tc := ⟨.hbm, 337, rfl⟩
abbrev main_v106 : Ref sig .tc := ⟨.hbm, 338, rfl⟩
abbrev main_v107 : Ref sig .tc := ⟨.hbm, 339, rfl⟩
abbrev main_v108 : Ref sig .tc := ⟨.hbm, 340, rfl⟩
abbrev main_c_47 : Ref sig .tc := ⟨.hbm, 341, rfl⟩
abbrev main_call9_call0_cst : Ref sig .tc := ⟨.hbm, 342, rfl⟩
abbrev main_call9_call0_v0 : Ref sig .tc := ⟨.hbm, 343, rfl⟩
abbrev main_call9_call0_v1 : Ref sig .tc := ⟨.hbm, 344, rfl⟩
abbrev main_call9_call0_cst_0 : Ref sig .tc := ⟨.hbm, 345, rfl⟩
abbrev main_call9_call0_v2 : Ref sig .tc := ⟨.hbm, 346, rfl⟩
abbrev main_call9_call0_v3 : Ref sig .tc := ⟨.hbm, 347, rfl⟩
abbrev main_call9_call0_v4 : Ref sig .tc := ⟨.hbm, 348, rfl⟩
abbrev main_call9_call0_v5 : Ref sig .tc := ⟨.hbm, 349, rfl⟩
abbrev main_call9_call0_v6 : Ref sig .tc := ⟨.hbm, 350, rfl⟩
abbrev main_call9_call0_v7 : Ref sig .tc := ⟨.hbm, 351, rfl⟩
abbrev main_call9_call0_cst_1 : Ref sig .tc := ⟨.hbm, 352, rfl⟩
abbrev main_call9_call0_v8 : Ref sig .tc := ⟨.hbm, 353, rfl⟩
abbrev main_call9_call0_cst_2 : Ref sig .tc := ⟨.hbm, 354, rfl⟩
abbrev main_call9_call0_v9 : Ref sig .tc := ⟨.hbm, 355, rfl⟩
abbrev main_call9_call0_v10 : Ref sig .tc := ⟨.hbm, 356, rfl⟩
abbrev main_call9_call0_cst_3 : Ref sig .tc := ⟨.hbm, 357, rfl⟩
abbrev main_call9_call0_v11 : Ref sig .tc := ⟨.hbm, 358, rfl⟩
abbrev main_call9_call0_cst_4 : Ref sig .tc := ⟨.hbm, 359, rfl⟩
abbrev main_call9_call0_call0_v0 : Ref sig .tc := ⟨.hbm, 360, rfl⟩
abbrev main_call9_v0 : Ref sig .tc := ⟨.hbm, 361, rfl⟩
abbrev main_v109 : Ref sig .tc := ⟨.hbm, 362, rfl⟩
abbrev main_c_48 : Ref sig .tc := ⟨.hbm, 363, rfl⟩
abbrev main_call10_call0_cst : Ref sig .tc := ⟨.hbm, 364, rfl⟩
abbrev main_call10_call0_v0 : Ref sig .tc := ⟨.hbm, 365, rfl⟩
abbrev main_call10_call0_v1 : Ref sig .tc := ⟨.hbm, 366, rfl⟩
abbrev main_call10_call0_cst_0 : Ref sig .tc := ⟨.hbm, 367, rfl⟩
abbrev main_call10_call0_v2 : Ref sig .tc := ⟨.hbm, 368, rfl⟩
abbrev main_call10_call0_v3 : Ref sig .tc := ⟨.hbm, 369, rfl⟩
abbrev main_call10_call0_v4 : Ref sig .tc := ⟨.hbm, 370, rfl⟩
abbrev main_call10_call0_v5 : Ref sig .tc := ⟨.hbm, 371, rfl⟩
abbrev main_call10_call0_v6 : Ref sig .tc := ⟨.hbm, 372, rfl⟩
abbrev main_call10_call0_v7 : Ref sig .tc := ⟨.hbm, 373, rfl⟩
abbrev main_call10_call0_cst_1 : Ref sig .tc := ⟨.hbm, 374, rfl⟩
abbrev main_call10_call0_v8 : Ref sig .tc := ⟨.hbm, 375, rfl⟩
abbrev main_call10_call0_cst_2 : Ref sig .tc := ⟨.hbm, 376, rfl⟩
abbrev main_call10_call0_v9 : Ref sig .tc := ⟨.hbm, 377, rfl⟩
abbrev main_call10_call0_v10 : Ref sig .tc := ⟨.hbm, 378, rfl⟩
abbrev main_call10_call0_cst_3 : Ref sig .tc := ⟨.hbm, 379, rfl⟩
abbrev main_call10_call0_v11 : Ref sig .tc := ⟨.hbm, 380, rfl⟩
abbrev main_call10_call0_cst_4 : Ref sig .tc := ⟨.hbm, 381, rfl⟩
abbrev main_call10_call0_call0_v0 : Ref sig .tc := ⟨.hbm, 382, rfl⟩
abbrev main_call10_v0 : Ref sig .tc := ⟨.hbm, 383, rfl⟩
abbrev main_v110 : Ref sig .tc := ⟨.hbm, 384, rfl⟩
abbrev main_cst_49 : Ref sig .tc := ⟨.hbm, 385, rfl⟩
abbrev main_v111 : Ref sig .tc := ⟨.hbm, 386, rfl⟩
abbrev main_cst_50 : Ref sig .tc := ⟨.hbm, 387, rfl⟩
abbrev main_v112 : Ref sig .tc := ⟨.hbm, 388, rfl⟩
abbrev main_v113 : Ref sig .tc := ⟨.hbm, 389, rfl⟩
abbrev main_v114 : Ref sig .tc := ⟨.hbm, 390, rfl⟩
abbrev main_v115 : Ref sig .tc := ⟨.hbm, 391, rfl⟩
abbrev main_v116 : Ref sig .tc := ⟨.hbm, 392, rfl⟩
abbrev main_v117 : Ref sig .tc := ⟨.hbm, 393, rfl⟩
abbrev main_v118 : Ref sig .tc := ⟨.hbm, 394, rfl⟩
abbrev main_v119 : Ref sig .tc := ⟨.hbm, 395, rfl⟩
abbrev main_v120 : Ref sig .tc := ⟨.hbm, 396, rfl⟩
abbrev main_v121 : Ref sig .tc := ⟨.hbm, 397, rfl⟩
abbrev main_v122 : Ref sig .tc := ⟨.hbm, 398, rfl⟩
abbrev main_v123 : Ref sig .tc := ⟨.hbm, 399, rfl⟩
abbrev main_v124 : Ref sig .tc := ⟨.hbm, 400, rfl⟩
abbrev main_v125 : Ref sig .tc := ⟨.hbm, 401, rfl⟩
abbrev main_v126 : Ref sig .tc := ⟨.hbm, 402, rfl⟩
abbrev main_v127 : Ref sig .tc := ⟨.hbm, 403, rfl⟩
abbrev main_v128 : Ref sig .tc := ⟨.hbm, 404, rfl⟩
abbrev main_v129 : Ref sig .tc := ⟨.hbm, 405, rfl⟩
abbrev main_v130 : Ref sig .tc := ⟨.hbm, 406, rfl⟩
abbrev main_v131 : Ref sig .tc := ⟨.hbm, 407, rfl⟩
abbrev main_v132 : Ref sig .tc := ⟨.hbm, 408, rfl⟩
abbrev main_v133 : Ref sig .tc := ⟨.hbm, 409, rfl⟩
abbrev main_c_51 : Ref sig .tc := ⟨.hbm, 410, rfl⟩
abbrev main_v134 : Ref sig .tc := ⟨.hbm, 411, rfl⟩
abbrev main_call11_v0 : Ref sig .tc := ⟨.hbm, 412, rfl⟩
abbrev main_call11_c : Ref sig .tc := ⟨.hbm, 413, rfl⟩
abbrev main_call11_v1 : Ref sig .tc := ⟨.hbm, 414, rfl⟩
abbrev main_call11_v2 : Ref sig .tc := ⟨.hbm, 415, rfl⟩
abbrev main_call11_v3 : Ref sig .tc := ⟨.hbm, 416, rfl⟩
abbrev main_call11_v4 : Ref sig .tc := ⟨.hbm, 417, rfl⟩
abbrev main_call11_c_0 : Ref sig .tc := ⟨.hbm, 418, rfl⟩
abbrev main_call11_v5 : Ref sig .tc := ⟨.hbm, 419, rfl⟩
abbrev main_v135 : Ref sig .tc := ⟨.hbm, 420, rfl⟩
abbrev main_v136 : Ref sig .tc := ⟨.hbm, 421, rfl⟩
abbrev main_v137 : Ref sig .tc := ⟨.hbm, 422, rfl⟩
abbrev main_v138 : Ref sig .tc := ⟨.hbm, 423, rfl⟩
abbrev main_v139 : Ref sig .tc := ⟨.hbm, 424, rfl⟩
abbrev main_v140 : Ref sig .tc := ⟨.hbm, 425, rfl⟩
abbrev main_v141 : Ref sig .tc := ⟨.hbm, 426, rfl⟩
abbrev main_v142 : Ref sig .tc := ⟨.hbm, 427, rfl⟩
abbrev main_v143 : Ref sig .tc := ⟨.hbm, 428, rfl⟩
abbrev main_v144 : Ref sig .tc := ⟨.hbm, 429, rfl⟩
abbrev main_v145 : Ref sig .tc := ⟨.hbm, 430, rfl⟩
abbrev main_v146 : Ref sig .tc := ⟨.hbm, 431, rfl⟩
abbrev main_v147 : Ref sig .tc := ⟨.hbm, 432, rfl⟩
abbrev main_v148 : Ref sig .tc := ⟨.hbm, 433, rfl⟩
abbrev main_v149 : Ref sig .tc := ⟨.hbm, 434, rfl⟩
abbrev main_cst_52 : Ref sig .tc := ⟨.hbm, 435, rfl⟩
abbrev main_v150 : Ref sig .tc := ⟨.hbm, 436, rfl⟩
abbrev main_v151 : Ref sig .tc := ⟨.hbm, 437, rfl⟩
abbrev main_v152 : Ref sig .tc := ⟨.hbm, 438, rfl⟩
abbrev main_cst_53 : Ref sig .tc := ⟨.hbm, 439, rfl⟩
abbrev main_call12_v0 : Ref sig .tc := ⟨.hbm, 440, rfl⟩
abbrev main_call12_v1 : Ref sig .tc := ⟨.hbm, 441, rfl⟩
abbrev main_v153 : Ref sig .tc := ⟨.hbm, 442, rfl⟩
abbrev main_cst_54 : Ref sig .tc := ⟨.hbm, 443, rfl⟩
abbrev main_v154 : Ref sig .tc := ⟨.hbm, 444, rfl⟩
abbrev main_cst_55 : Ref sig .tc := ⟨.hbm, 445, rfl⟩
abbrev main_v155 : Ref sig .tc := ⟨.hbm, 446, rfl⟩
abbrev main_v156 : Ref sig .tc := ⟨.hbm, 447, rfl⟩
abbrev main_v157 : Ref sig .tc := ⟨.hbm, 448, rfl⟩
abbrev main_v158 : Ref sig .tc := ⟨.hbm, 449, rfl⟩
abbrev main_cst_56 : Ref sig .tc := ⟨.hbm, 450, rfl⟩
abbrev main_v159 : Ref sig .tc := ⟨.hbm, 451, rfl⟩
abbrev main_v160 : Ref sig .tc := ⟨.hbm, 452, rfl⟩
abbrev main_v161 : Ref sig .tc := ⟨.hbm, 453, rfl⟩
abbrev main_cst_57 : Ref sig .tc := ⟨.hbm, 454, rfl⟩
abbrev main_v162 : Ref sig .tc := ⟨.hbm, 455, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x15x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S15x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S7680x4096_S512x15x4096 : S7680x4096.ShapeCasts S512x15x4096
  inb_S128x15x1024_S128x15x1024_0_0_0 : ∀ a, (![0, 0, 0] : Fin 3 → Nat) a + S128x15x1024.size a ≤ S128x15x1024.size a
  h_S128x15x1024 : 0 < S128x15x1024.numel
  shapeCasts_S128x15x1024_S128x15x1024 : S128x15x1024.ShapeCasts S128x15x1024
  reduces_S128x15x1024_S15x1024 : S128x15x1024.Reduces [0] S15x1024
  inb_S15x1024_S15x1024_0_0 : ∀ a, (![0, 0] : Fin 2 → Nat) a + S15x1024.size a ≤ S15x1024.size a
  h_S15x1024 : 0 < S15x1024.numel
  shapeCasts_S15x1024_S15x1024 : S15x1024.ShapeCasts S15x1024
  reducesTo_S15x4096_S15_d1 : S15x4096.ReducesTo [1] S15
  h_S_ : 0 < S_.numel
  bcast_S_S15 : S_.BroadcastsInDim S15 (![] : Fin 0 → Fin S15.rank)
  bcast_S15_S15x1_0 : S15.BroadcastsInDim S15x1 (![0] : Fin 1 → Fin S15x1.rank)
  bcast_S_S15x1 : S_.BroadcastsInDim S15x1 (![] : Fin 0 → Fin S15x1.rank)
  bcast_S15x1_S15x4096_0_1 : S15x1.BroadcastsInDim S15x4096 (![0, 1] : Fin 2 → Fin S15x4096.rank)
  bcast_S_S3 : S_.BroadcastsInDim S3 (![] : Fin 0 → Fin S3.rank)
  bcast_S3_S3x1_0 : S3.BroadcastsInDim S3x1 (![0] : Fin 1 → Fin S3x1.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S_S2 : S_.BroadcastsInDim S2 (![] : Fin 0 → Fin S2.rank)
  bcast_S2_S2x1_0 : S2.BroadcastsInDim S2x1 (![0] : Fin 1 → Fin S2x1.rank)
  reducesTo_S2_S_d0 : S2.ReducesTo [0] S_
  bcast_S1_S2_0 : S1.BroadcastsInDim S2 (![0] : Fin 1 → Fin S2.rank)
  bcast_S1_S1x1_0 : S1.BroadcastsInDim S1x1 (![0] : Fin 1 → Fin S1x1.rank)
  shapeCasts_S1_S_ : S1.ShapeCasts S_
  bcast_S_S4 : S_.BroadcastsInDim S4 (![] : Fin 0 → Fin S4.rank)
  bcast_S4_S4x1_0 : S4.BroadcastsInDim S4x1 (![0] : Fin 1 → Fin S4x1.rank)
  reducesTo_S4_S_d0 : S4.ReducesTo [0] S_
  bcast_S1_S4_0 : S1.BroadcastsInDim S4 (![0] : Fin 1 → Fin S4.rank)
  concatenates_S1_S1_S1_S1_S1_S1_S6_d0 : Shape.Concatenates [S1, S1, S1, S1, S1, S1] S6 0
  bcast_S_S6x6 : S_.BroadcastsInDim S6x6 (![] : Fin 0 → Fin S6x6.rank)
  bcast_S6_S6x1_0 : S6.BroadcastsInDim S6x1 (![0] : Fin 1 → Fin S6x1.rank)
  bcast_S6_S1x6_1 : S6.BroadcastsInDim S1x6 (![1] : Fin 1 → Fin S1x6.rank)
  bcast_S6x1_S6x6_0_1 : S6x1.BroadcastsInDim S6x6 (![0, 1] : Fin 2 → Fin S6x6.rank)
  bcast_S1x6_S6x6_0_1 : S1x6.BroadcastsInDim S6x6 (![0, 1] : Fin 2 → Fin S6x6.rank)
  reducesTo_S6x6_S6_d1 : S6x6.ReducesTo [1] S6
  bcast_S_S6 : S_.BroadcastsInDim S6 (![] : Fin 0 → Fin S6.rank)
  reducesTo_S6_S_d0 : S6.ReducesTo [0] S_
  gather_S15_S3x1_S3_n_0_n_n_0_1_1_wf : GatherDims.WF S15 S3x1 S3 [] [0] [] [0] [] 1 ![1]
  gather_S15_S2x1_S2_n_0_n_n_0_1_1_wf : GatherDims.WF S15 S2x1 S2 [] [0] [] [0] [] 1 ![1]
  gather_S15_S1x1_S1_n_0_n_n_0_1_1_wf : GatherDims.WF S15 S1x1 S1 [] [0] [] [0] [] 1 ![1]
  gather_S15_S4x1_S4_n_0_n_n_0_1_1_wf : GatherDims.WF S15 S4x1 S4 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x15x1024.size a ≤ S512x15x4096.size a
  hwx0_0 : ∀ i : grid0.Coords, EltTy.bits .f32 = 32 ∨ (Rect.block (s := S512x15x4096) S128x15x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S15x1024.size a ≤ S15x4096.size a
  hwx0_1 : ∀ i : grid0.Coords, EltTy.bits .f32 = 32 ∨ (Rect.block (s := S15x4096) S15x1024.size (cc0_transform_1 i) (hinb0_1 i)).WholeWords (EltTy.packing .f32)

variable [Facts₀]

def gather_S15_S3x1_S3_n_0_n_n_0_1_1 : GatherDims S15 S3x1 S3 where
  offsetDims := []
  collapsedSliceDims := [0]
  operandBatchingDims := []
  startIndicesBatchingDims := []
  startIndexMap := [0]
  indexVectorDim := 1
  sliceSizes := ![1]
  wf := gather_S15_S3x1_S3_n_0_n_n_0_1_1_wf
def gather_S15_S2x1_S2_n_0_n_n_0_1_1 : GatherDims S15 S2x1 S2 where
  offsetDims := []
  collapsedSliceDims := [0]
  operandBatchingDims := []
  startIndicesBatchingDims := []
  startIndexMap := [0]
  indexVectorDim := 1
  sliceSizes := ![1]
  wf := gather_S15_S2x1_S2_n_0_n_n_0_1_1_wf
def gather_S15_S1x1_S1_n_0_n_n_0_1_1 : GatherDims S15 S1x1 S1 where
  offsetDims := []
  collapsedSliceDims := [0]
  operandBatchingDims := []
  startIndicesBatchingDims := []
  startIndexMap := [0]
  indexVectorDim := 1
  sliceSizes := ![1]
  wf := gather_S15_S1x1_S1_n_0_n_n_0_1_1_wf
def gather_S15_S4x1_S4_n_0_n_n_0_1_1 : GatherDims S15 S4x1 S4 where
  offsetDims := []
  collapsedSliceDims := [0]
  operandBatchingDims := []
  startIndicesBatchingDims := []
  startIndexMap := [0]
  indexVectorDim := 1
  sliceSizes := ![1]
  wf := gather_S15_S4x1_S4_n_0_n_n_0_1_1_wf

abbrev win0_0 : Pipeline.Window sig grid0 :=
  Pipeline.Window.ofSpec (Memref.whole main_v0) S128x15x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S15x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S7680x4096 : Shape := ⟨2, ![7680, 4096]⟩
abbrev S3 : Shape := ⟨1, ![3]⟩
abbrev S2 : Shape := ⟨1, ![2]⟩
abbrev S1 : Shape := ⟨1, ![1]⟩
abbrev S4 : Shape := ⟨1, ![4]⟩
abbrev S512x15x4096 : Shape := ⟨3, ![512, 15, 4096]⟩
abbrev S15x512x4096 : Shape := ⟨3, ![15, 512, 4096]⟩
abbrev S_ : Shape := ⟨0, ![]⟩
abbrev S15x4096 : Shape := ⟨2, ![15, 4096]⟩
abbrev S15 : Shape := ⟨1, ![15]⟩
abbrev S15x1 : Shape := ⟨2, ![15, 1]⟩
abbrev S3x1 : Shape := ⟨2, ![3, 1]⟩
abbrev S2x1 : Shape := ⟨2, ![2, 1]⟩
abbrev S1x1 : Shape := ⟨2, ![1, 1]⟩
abbrev S4x1 : Shape := ⟨2, ![4, 1]⟩
abbrev S6 : Shape := ⟨1, ![6]⟩
abbrev S6x6 : Shape := ⟨2, ![6, 6]⟩
abbrev S6x1 : Shape := ⟨2, ![6, 1]⟩
abbrev S1x6 : Shape := ⟨2, ![1, 6]⟩

abbrev nBuf : Space → Nat
  | .hbm => 461
  | .vmem => 0
  | .smem => 0
  | _ => 0

abbrev hbmTy0_0 (i : Nat) : BufTy := match i % 128 with
  | 0 => ⟨S7680x4096, .f32⟩
  | 1 => ⟨S3, .i32⟩
  | 2 => ⟨S2, .i32⟩
  | 3 => ⟨S1, .i32⟩
  | 4 => ⟨S4, .i32⟩
  | 5 => ⟨S2, .i32⟩
  | 6 => ⟨S3, .i32⟩
  | 7 => ⟨S512x15x4096, .f32⟩
  | 8 => ⟨S15x512x4096, .f32⟩
  | 9 => ⟨S_, .f32⟩
  | 10 => ⟨S15x4096, .f32⟩
  | 11 => ⟨S_, .f32⟩
  | 12 => ⟨S15x4096, .f32⟩
  | 13 => ⟨S15x4096, .f32⟩
  | 14 => ⟨S_, .f32⟩
  | 15 => ⟨S15, .f32⟩
  | 16 => ⟨S_, .f32⟩
  | 17 => ⟨S15, .f32⟩
  | 18 => ⟨S15, .f32⟩
  | 19 => ⟨S_, .i32⟩
  | 20 => ⟨S_, .f32⟩
  | 21 => ⟨S15, .f32⟩
  | 22 => ⟨S15x1, .f32⟩
  | 23 => ⟨S_, .f32⟩
  | 24 => ⟨S15x1, .f32⟩
  | 25 => ⟨S15x1, .f32⟩
  | 26 => ⟨S15x4096, .f32⟩
  | 27 => ⟨S15x4096, .f32⟩
  | 28 => ⟨S15x4096, .f32⟩
  | 29 => ⟨S_, .f32⟩
  | 30 => ⟨S_, .f32⟩
  | 31 => ⟨S_, .f32⟩
  | 32 => ⟨S_, .f32⟩
  | 33 => ⟨S15, .f32⟩
  | 34 => ⟨S15, .f32⟩
  | 35 => ⟨S15, .f32⟩
  | 36 => ⟨S_, .f32⟩
  | 37 => ⟨S_, .i1⟩
  | 38 => ⟨S_, .f32⟩
  | 39 => ⟨S_, .f32⟩
  | 40 => ⟨S15, .f32⟩
  | 41 => ⟨S15, .f32⟩
  | 42 => ⟨S15, .f32⟩
  | 43 => ⟨S_, .i32⟩
  | 44 => ⟨S3, .i32⟩
  | 45 => ⟨S3, .i1⟩
  | 46 => ⟨S_, .i32⟩
  | 47 => ⟨S3, .i32⟩
  | 48 => ⟨S3, .i32⟩
  | 49 => ⟨S3, .i32⟩
  | 50 => ⟨S3x1, .i32⟩
  | 51 => ⟨S3, .f32⟩
  | 52 => ⟨S_, .i32⟩
  | 53 => ⟨S3, .i32⟩
  | 54 => ⟨S3, .i1⟩
  | 55 => ⟨S_, .i32⟩
  | 56 => ⟨S3, .i32⟩
  | 57 => ⟨S3, .i32⟩
  | 58 => ⟨S3, .i32⟩
  | 59 => ⟨S3x1, .i32⟩
  | 60 => ⟨S3, .f32⟩
  | 61 => ⟨S_, .i32⟩
  | 62 => ⟨S_, .f32⟩
  | 63 => ⟨S_, .f32⟩
  | 64 => ⟨S1, .f32⟩
  | 65 => ⟨S_, .f32⟩
  | 66 => ⟨S1, .f32⟩
  | 67 => ⟨S1, .f32⟩
  | 68 => ⟨S3, .f32⟩
  | 69 => ⟨S3, .f32⟩
  | 70 => ⟨S3, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .i1⟩
  | 79 => ⟨S_, .f32⟩
  | 80 => ⟨S_, .f32⟩
  | 81 => ⟨S_, .f32⟩
  | 82 => ⟨S_, .f32⟩
  | 83 => ⟨S_, .i32⟩
  | 84 => ⟨S_, .f32⟩
  | 85 => ⟨S_, .f32⟩
  | 86 => ⟨S1, .f32⟩
  | 87 => ⟨S_, .f32⟩
  | 88 => ⟨S1, .f32⟩
  | 89 => ⟨S1, .f32⟩
  | 90 => ⟨S3, .f32⟩
  | 91 => ⟨S3, .f32⟩
  | 92 => ⟨S3, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .i32⟩
  | 110 => ⟨S2, .i32⟩
  | 111 => ⟨S2, .i1⟩
  | 112 => ⟨S_, .i32⟩
  | 113 => ⟨S2, .i32⟩
  | 114 => ⟨S2, .i32⟩
  | 115 => ⟨S2, .i32⟩
  | 116 => ⟨S2x1, .i32⟩
  | 117 => ⟨S2, .f32⟩
  | 118 => ⟨S_, .i32⟩
  | 119 => ⟨S2, .i32⟩
  | 120 => ⟨S2, .i1⟩
  | 121 => ⟨S_, .i32⟩
  | 122 => ⟨S2, .i32⟩
  | 123 => ⟨S2, .i32⟩
  | 124 => ⟨S2, .i32⟩
  | 125 => ⟨S2x1, .i32⟩
  | 126 => ⟨S2, .f32⟩
  | 127 => ⟨S_, .i32⟩
  | _ => ⟨S7680x4096, .f32⟩

abbrev hbmTy0_1 (i : Nat) : BufTy := match i % 128 with
  | 0 => ⟨S_, .f32⟩
  | 1 => ⟨S_, .f32⟩
  | 2 => ⟨S1, .f32⟩
  | 3 => ⟨S_, .f32⟩
  | 4 => ⟨S1, .f32⟩
  | 5 => ⟨S1, .f32⟩
  | 6 => ⟨S2, .f32⟩
  | 7 => ⟨S2, .f32⟩
  | 8 => ⟨S2, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .i1⟩
  | 17 => ⟨S_, .f32⟩
  | 18 => ⟨S_, .f32⟩
  | 19 => ⟨S_, .f32⟩
  | 20 => ⟨S_, .f32⟩
  | 21 => ⟨S_, .i32⟩
  | 22 => ⟨S_, .f32⟩
  | 23 => ⟨S_, .f32⟩
  | 24 => ⟨S1, .f32⟩
  | 25 => ⟨S_, .f32⟩
  | 26 => ⟨S1, .f32⟩
  | 27 => ⟨S1, .f32⟩
  | 28 => ⟨S2, .f32⟩
  | 29 => ⟨S2, .f32⟩
  | 30 => ⟨S2, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .i1⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .i32⟩
  | 48 => ⟨S1, .i32⟩
  | 49 => ⟨S1, .i1⟩
  | 50 => ⟨S_, .i32⟩
  | 51 => ⟨S1, .i32⟩
  | 52 => ⟨S1, .i32⟩
  | 53 => ⟨S1, .i32⟩
  | 54 => ⟨S1x1, .i32⟩
  | 55 => ⟨S1, .f32⟩
  | 56 => ⟨S_, .i32⟩
  | 57 => ⟨S1, .i32⟩
  | 58 => ⟨S1, .i1⟩
  | 59 => ⟨S_, .i32⟩
  | 60 => ⟨S1, .i32⟩
  | 61 => ⟨S1, .i32⟩
  | 62 => ⟨S1, .i32⟩
  | 63 => ⟨S1x1, .i32⟩
  | 64 => ⟨S1, .f32⟩
  | 65 => ⟨S_, .f32⟩
  | 66 => ⟨S_, .f32⟩
  | 67 => ⟨S_, .f32⟩
  | 68 => ⟨S_, .i32⟩
  | 69 => ⟨S4, .i32⟩
  | 70 => ⟨S4, .i1⟩
  | 71 => ⟨S_, .i32⟩
  | 72 => ⟨S4, .i32⟩
  | 73 => ⟨S4, .i32⟩
  | 74 => ⟨S4, .i32⟩
  | 75 => ⟨S4x1, .i32⟩
  | 76 => ⟨S4, .f32⟩
  | 77 => ⟨S_, .i32⟩
  | 78 => ⟨S4, .i32⟩
  | 79 => ⟨S4, .i1⟩
  | 80 => ⟨S_, .i32⟩
  | 81 => ⟨S4, .i32⟩
  | 82 => ⟨S4, .i32⟩
  | 83 => ⟨S4, .i32⟩
  | 84 => ⟨S4x1, .i32⟩
  | 85 => ⟨S4, .f32⟩
  | 86 => ⟨S_, .i32⟩
  | 87 => ⟨S_, .f32⟩
  | 88 => ⟨S_, .f32⟩
  | 89 => ⟨S1, .f32⟩
  | 90 => ⟨S_, .f32⟩
  | 91 => ⟨S1, .f32⟩
  | 92 => ⟨S1, .f32⟩
  | 93 => ⟨S4, .f32⟩
  | 94 => ⟨S4, .f32⟩
  | 95 => ⟨S4, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .i1⟩
  | 104 => ⟨S_, .f32⟩
  | 105 => ⟨S_, .f32⟩
  | 106 => ⟨S_, .f32⟩
  | 107 => ⟨S_, .f32⟩
  | 108 => ⟨S_, .i32⟩
  | 109 => ⟨S_, .f32⟩
  | 110 => ⟨S_, .f32⟩
  | 111 => ⟨S1, .f32⟩
  | 112 => ⟨S_, .f32⟩
  | 113 => ⟨S1, .f32⟩
  | 114 => ⟨S1, .f32⟩
  | 115 => ⟨S4, .f32⟩
  | 116 => ⟨S4, .f32⟩
  | 117 => ⟨S4, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .i1⟩
  | 126 => ⟨S_, .f32⟩
  | 127 => ⟨S_, .f32⟩
  | _ => ⟨S7680x4096, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .i32⟩
  | 7 => ⟨S2, .i32⟩
  | 8 => ⟨S2, .i1⟩
  | 9 => ⟨S_, .i32⟩
  | 10 => ⟨S2, .i32⟩
  | 11 => ⟨S2, .i32⟩
  | 12 => ⟨S2, .i32⟩
  | 13 => ⟨S2x1, .i32⟩
  | 14 => ⟨S2, .f32⟩
  | 15 => ⟨S_, .i32⟩
  | 16 => ⟨S2, .i32⟩
  | 17 => ⟨S2, .i1⟩
  | 18 => ⟨S_, .i32⟩
  | 19 => ⟨S2, .i32⟩
  | 20 => ⟨S2, .i32⟩
  | 21 => ⟨S2, .i32⟩
  | 22 => ⟨S2x1, .i32⟩
  | 23 => ⟨S2, .f32⟩
  | 24 => ⟨S_, .i32⟩
  | 25 => ⟨S_, .f32⟩
  | 26 => ⟨S_, .f32⟩
  | 27 => ⟨S1, .f32⟩
  | 28 => ⟨S_, .f32⟩
  | 29 => ⟨S1, .f32⟩
  | 30 => ⟨S1, .f32⟩
  | 31 => ⟨S2, .f32⟩
  | 32 => ⟨S2, .f32⟩
  | 33 => ⟨S2, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .i1⟩
  | 42 => ⟨S_, .f32⟩
  | 43 => ⟨S_, .f32⟩
  | 44 => ⟨S_, .f32⟩
  | 45 => ⟨S_, .f32⟩
  | 46 => ⟨S_, .i32⟩
  | 47 => ⟨S_, .f32⟩
  | 48 => ⟨S_, .f32⟩
  | 49 => ⟨S1, .f32⟩
  | 50 => ⟨S_, .f32⟩
  | 51 => ⟨S1, .f32⟩
  | 52 => ⟨S1, .f32⟩
  | 53 => ⟨S2, .f32⟩
  | 54 => ⟨S2, .f32⟩
  | 55 => ⟨S2, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .i1⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .i32⟩
  | 73 => ⟨S3, .i32⟩
  | 74 => ⟨S3, .i1⟩
  | 75 => ⟨S_, .i32⟩
  | 76 => ⟨S3, .i32⟩
  | 77 => ⟨S3, .i32⟩
  | 78 => ⟨S3, .i32⟩
  | 79 => ⟨S3x1, .i32⟩
  | 80 => ⟨S3, .f32⟩
  | 81 => ⟨S_, .i32⟩
  | 82 => ⟨S3, .i32⟩
  | 83 => ⟨S3, .i1⟩
  | 84 => ⟨S_, .i32⟩
  | 85 => ⟨S3, .i32⟩
  | 86 => ⟨S3, .i32⟩
  | 87 => ⟨S3, .i32⟩
  | 88 => ⟨S3x1, .i32⟩
  | 89 => ⟨S3, .f32⟩
  | 90 => ⟨S_, .i32⟩
  | 91 => ⟨S_, .f32⟩
  | 92 => ⟨S_, .f32⟩
  | 93 => ⟨S1, .f32⟩
  | 94 => ⟨S_, .f32⟩
  | 95 => ⟨S1, .f32⟩
  | 96 => ⟨S1, .f32⟩
  | 97 => ⟨S3, .f32⟩
  | 98 => ⟨S3, .f32⟩
  | 99 => ⟨S3, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S_, .i32⟩
  | 113 => ⟨S_, .f32⟩
  | 114 => ⟨S_, .f32⟩
  | 115 => ⟨S1, .f32⟩
  | 116 => ⟨S_, .f32⟩
  | 117 => ⟨S1, .f32⟩
  | 118 => ⟨S1, .f32⟩
  | 119 => ⟨S3, .f32⟩
  | 120 => ⟨S3, .f32⟩
  | 121 => ⟨S3, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S7680x4096, .f32⟩

abbrev hbmTy0_3 (i : Nat) : BufTy := match i % 128 with
  | 0 => ⟨S_, .f32⟩
  | 1 => ⟨S_, .i1⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S1, .f32⟩
  | 11 => ⟨S1, .f32⟩
  | 12 => ⟨S1, .f32⟩
  | 13 => ⟨S1, .f32⟩
  | 14 => ⟨S1, .f32⟩
  | 15 => ⟨S1, .f32⟩
  | 16 => ⟨S6, .f32⟩
  | 17 => ⟨S1, .f32⟩
  | 18 => ⟨S1, .f32⟩
  | 19 => ⟨S1, .f32⟩
  | 20 => ⟨S1, .f32⟩
  | 21 => ⟨S1, .f32⟩
  | 22 => ⟨S1, .f32⟩
  | 23 => ⟨S6, .f32⟩
  | 24 => ⟨S1, .f32⟩
  | 25 => ⟨S1, .f32⟩
  | 26 => ⟨S1, .f32⟩
  | 27 => ⟨S1, .f32⟩
  | 28 => ⟨S1, .f32⟩
  | 29 => ⟨S1, .f32⟩
  | 30 => ⟨S6, .f32⟩
  | 31 => ⟨S_, .i1⟩
  | 32 => ⟨S6x6, .i1⟩
  | 33 => ⟨S6x6, .i32⟩
  | 34 => ⟨S_, .i32⟩
  | 35 => ⟨S6x6, .i32⟩
  | 36 => ⟨S6x6, .i32⟩
  | 37 => ⟨S6x6, .i32⟩
  | 38 => ⟨S6x6, .i1⟩
  | 39 => ⟨S_, .i1⟩
  | 40 => ⟨S6x6, .i1⟩
  | 41 => ⟨S6x6, .i1⟩
  | 42 => ⟨S6x1, .f32⟩
  | 43 => ⟨S1x6, .f32⟩
  | 44 => ⟨S6x6, .f32⟩
  | 45 => ⟨S6x6, .f32⟩
  | 46 => ⟨S6x6, .f32⟩
  | 47 => ⟨S6x6, .f32⟩
  | 48 => ⟨S6x6, .f32⟩
  | 49 => ⟨S6x1, .f32⟩
  | 50 => ⟨S1x6, .f32⟩
  | 51 => ⟨S6x6, .f32⟩
  | 52 => ⟨S6x6, .f32⟩
  | 53 => ⟨S6x6, .f32⟩
  | 54 => ⟨S6x6, .f32⟩
  | 55 => ⟨S6x6, .f32⟩
  | 56 => ⟨S_, .f32⟩
  | 57 => ⟨S6x6, .f32⟩
  | 58 => ⟨S6x6, .f32⟩
  | 59 => ⟨S6x6, .f32⟩
  | 60 => ⟨S_, .f32⟩
  | 61 => ⟨S_, .f32⟩
  | 62 => ⟨S6x6, .f32⟩
  | 63 => ⟨S6x6, .f32⟩
  | 64 => ⟨S_, .f32⟩
  | 65 => ⟨S6, .f32⟩
  | 66 => ⟨S_, .f32⟩
  | 67 => ⟨S6, .f32⟩
  | 68 => ⟨S6, .f32⟩
  | 69 => ⟨S6, .f32⟩
  | 70 => ⟨S6, .f32⟩
  | 71 => ⟨S_, .f32⟩
  | 72 => ⟨S6, .f32⟩
  | 73 => ⟨S6, .f32⟩
  | 74 => ⟨S6, .f32⟩
  | 75 => ⟨S_, .f32⟩
  | 76 => ⟨S_, .f32⟩
  | _ => ⟨S7680x4096, .f32⟩

abbrev hbmTy (i : Nat) : BufTy := match i / 128 with
  | 0 => hbmTy0_0 i
  | 1 => hbmTy0_1 i
  | 2 => hbmTy0_2 i
  | 3 => hbmTy0_3 i
  | _ => ⟨S7680x4096, .f32⟩

abbrev bufTy : (tb : Table) → Fin (tcTables nBuf tb) → BufTy
  | .hbm, ⟨i, _⟩ => hbmTy i
  | _, _ => ⟨S7680x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_5 : Ref sig .tc := ⟨.hbm, 11, rfl⟩
abbrev main_v3 : Ref sig .tc := ⟨.hbm, 12, rfl⟩
abbrev main_v4 : Ref sig .tc := ⟨.hbm, 13, rfl⟩
abbrev main_cst_6 : Ref sig .tc := ⟨.hbm, 14, rfl⟩
abbrev main_v5 : Ref sig .tc := ⟨.hbm, 15, rfl⟩
abbrev main_cst_7 : Ref sig .tc := ⟨.hbm, 16, rfl⟩
abbrev main_v6 : Ref sig .tc := ⟨.hbm, 17, rfl⟩
abbrev main_v7 : Ref sig .tc := ⟨.hbm, 18, rfl⟩
abbrev main_c_8 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_cst_0 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_cst_1 : Ref sig .tc := ⟨.hbm, 30, rfl⟩
abbrev main_call0_call0_v8 : Ref sig .tc := ⟨.hbm, 31, rfl⟩
abbrev main_call0_call0_cst_2 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_call0_cst_3 : Ref sig .tc := ⟨.hbm, 36, rfl⟩
abbrev main_call0_call0_v12 : Ref sig .tc := ⟨.hbm, 37, rfl⟩
abbrev main_call0_call0_cst_4 : Ref sig .tc := ⟨.hbm, 38, rfl⟩
abbrev main_call0_call0_call0_v0 : Ref sig .tc := ⟨.hbm, 39, rfl⟩
abbrev main_call0_call0_call0_v1 : Ref sig .tc := ⟨.hbm, 40, rfl⟩
abbrev main_call0_v0 : Ref sig .tc := ⟨.hbm, 41, rfl⟩
abbrev main_v8 : Ref sig .tc := ⟨.hbm, 42, rfl⟩
abbrev main_c_9 : Ref sig .tc := ⟨.hbm, 43, rfl⟩
abbrev main_v9 : Ref sig .tc := ⟨.hbm, 44, rfl⟩
abbrev main_v10 : Ref sig .tc := ⟨.hbm, 45, rfl⟩
abbrev main_c_10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_c_11 : Ref sig .tc := ⟨.hbm, 52, rfl⟩
abbrev main_v16 : Ref sig .tc := ⟨.hbm, 53, rfl⟩
abbrev main_v17 : Ref sig .tc := ⟨.hbm, 54, rfl⟩
abbrev main_c_12 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_c_13 : Ref sig .tc := ⟨.hbm, 61, rfl⟩
abbrev main_call1_call0_cst : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_call0_cst_0 : Ref sig .tc := ⟨.hbm, 65, rfl⟩
abbrev main_call1_call0_v2 : Ref sig .tc := ⟨.hbm, 66, rfl⟩
abbrev main_call1_call0_v3 : Ref sig .tc := ⟨.hbm, 67, rfl⟩
abbrev main_call1_call0_v4 : Ref sig .tc := ⟨.hbm, 68, rfl⟩
abbrev main_call1_call0_v5 : Ref sig .tc := ⟨.hbm, 69, rfl⟩
abbrev main_call1_call0_v6 : Ref sig .tc := ⟨.hbm, 70, rfl⟩
abbrev main_call1_call0_v7 : Ref sig .tc := ⟨.hbm, 71, rfl⟩
abbrev main_call1_call0_cst_1 : Ref sig .tc := ⟨.hbm, 72, rfl⟩
abbrev main_call1_call0_v8 : Ref sig .tc := ⟨.hbm, 73, rfl⟩
abbrev main_call1_call0_cst_2 : Ref sig .tc := ⟨.hbm, 74, rfl⟩
abbrev main_call1_call0_v9 : Ref sig .tc := ⟨.hbm, 75, rfl⟩
abbrev main_call1_call0_v10 : Ref sig .tc := ⟨.hbm, 76, rfl⟩
abbrev main_call1_call0_cst_3 : Ref sig .tc := ⟨.hbm, 77, rfl⟩
abbrev main_call1_call0_v11 : Ref sig .tc := ⟨.hbm, 78, rfl⟩
abbrev main_call1_call0_cst_4 : Ref sig .tc := ⟨.hbm, 79, rfl⟩
abbrev main_call1_call0_call0_v0 : Ref sig .tc := ⟨.hbm, 80, rfl⟩
abbrev main_call1_v0 : Ref sig .tc := ⟨.hbm, 81, rfl⟩
abbrev main_v23 : Ref sig .tc := ⟨.hbm, 82, rfl⟩
abbrev main_c_14 : Ref sig .tc := ⟨.hbm, 83, rfl⟩
abbrev main_call2_call0_cst : Ref sig .tc := ⟨.hbm, 84, rfl⟩
abbrev main_call2_call0_v0 : Ref sig .tc := ⟨.hbm, 85, rfl⟩
abbrev main_call2_call0_v1 : Ref sig .tc := ⟨.hbm, 86, rfl⟩
abbrev main_call2_call0_cst_0 : Ref sig .tc := ⟨.hbm, 87, rfl⟩
abbrev main_call2_call0_v2 : Ref sig .tc := ⟨.hbm, 88, rfl⟩
abbrev main_call2_call0_v3 : Ref sig .tc := ⟨.hbm, 89, rfl⟩
abbrev main_call2_call0_v4 : Ref sig .tc := ⟨.hbm, 90, rfl⟩
abbrev main_call2_call0_v5 : Ref sig .tc := ⟨.hbm, 91, rfl⟩
abbrev main_call2_call0_v6 : Ref sig .tc := ⟨.hbm, 92, rfl⟩
abbrev main_call2_call0_v7 : Ref sig .tc := ⟨.hbm, 93, rfl⟩
abbrev main_call2_call0_cst_1 : Ref sig .tc := ⟨.hbm, 94, rfl⟩
abbrev main_call2_call0_v8 : Ref sig .tc := ⟨.hbm, 95, rfl⟩
abbrev main_call2_call0_cst_2 : Ref sig .tc := ⟨.hbm, 96, rfl⟩
abbrev main_call2_call0_v9 : Ref sig .tc := ⟨.hbm, 97, rfl⟩
abbrev main_call2_call0_v10 : Ref sig .tc := ⟨.hbm, 98, rfl⟩
abbrev main_call2_call0_cst_3 : Ref sig .tc := ⟨.hbm, 99, rfl⟩
abbrev main_call2_call0_v11 : Ref sig .tc := ⟨.hbm, 100, rfl⟩
abbrev main_call2_call0_cst_4 : Ref sig .tc := ⟨.hbm, 101, rfl⟩
abbrev main_call2_call0_call0_v0 : Ref sig .tc := ⟨.hbm, 102, rfl⟩
abbrev main_call2_v0 : Ref sig .tc := ⟨.hbm, 103, rfl⟩
abbrev main_v24 : Ref sig .tc := ⟨.hbm, 104, rfl⟩
abbrev main_cst_15 : Ref sig .tc := ⟨.hbm, 105, rfl⟩
abbrev main_v25 : Ref sig .tc := ⟨.hbm, 106, rfl⟩
abbrev main_cst_16 : Ref sig .tc := ⟨.hbm, 107, rfl⟩
abbrev main_v26 : Ref sig .tc := ⟨.hbm, 108, rfl⟩
abbrev main_c_17 : Ref sig .tc := ⟨.hbm, 109, rfl⟩
abbrev main_v27 : Ref sig .tc := ⟨.hbm, 110, rfl⟩
abbrev main_v28 : Ref sig .tc := ⟨.hbm, 111, rfl⟩
abbrev main_c_18 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_c_19 : Ref sig .tc := ⟨.hbm, 118, rfl⟩
abbrev main_v34 : Ref sig .tc := ⟨.hbm, 119, rfl⟩
abbrev main_v35 : Ref sig .tc := ⟨.hbm, 120, rfl⟩
abbrev main_c_20 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_c_21 : Ref sig .tc := ⟨.hbm, 127, rfl⟩
abbrev main_call3_call0_cst : Ref sig .tc := ⟨.hbm, 128, rfl⟩
abbrev main_call3_call0_v0 : Ref sig .tc := ⟨.hbm, 129, rfl⟩
abbrev main_call3_call0_v1 : Ref sig .tc := ⟨.hbm, 130, rfl⟩
abbrev main_call3_call0_cst_0 : Ref sig .tc := ⟨.hbm, 131, rfl⟩
abbrev main_call3_call0_v2 : Ref sig .tc := ⟨.hbm, 132, rfl⟩
abbrev main_call3_call0_v3 : Ref sig .tc := ⟨.hbm, 133, rfl⟩
abbrev main_call3_call0_v4 : Ref sig .tc := ⟨.hbm, 134, rfl⟩
abbrev main_call3_call0_v5 : Ref sig .tc := ⟨.hbm, 135, rfl⟩
abbrev main_call3_call0_v6 : Ref sig .tc := ⟨.hbm, 136, rfl⟩
abbrev main_call3_call0_v7 : Ref sig .tc := ⟨.hbm, 137, rfl⟩
abbrev main_call3_call0_cst_1 : Ref sig .tc := ⟨.hbm, 138, rfl⟩
abbrev main_call3_call0_v8 : Ref sig .tc := ⟨.hbm, 139, rfl⟩
abbrev main_call3_call0_cst_2 : Ref sig .tc := ⟨.hbm, 140, rfl⟩
abbrev main_call3_call0_v9 : Ref sig .tc := ⟨.hbm, 141, rfl⟩
abbrev main_call3_call0_v10 : Ref sig .tc := ⟨.hbm, 142, rfl⟩
abbrev main_call3_call0_cst_3 : Ref sig .tc := ⟨.hbm, 143, rfl⟩
abbrev main_call3_call0_v11 : Ref sig .tc := ⟨.hbm, 144, rfl⟩
abbrev main_call3_call0_cst_4 : Ref sig .tc := ⟨.hbm, 145, rfl⟩
abbrev main_call3_call0_call0_v0 : Ref sig .tc := ⟨.hbm, 146, rfl⟩
abbrev main_call3_v0 : Ref sig .tc := ⟨.hbm, 147, rfl⟩
abbrev main_v41 : Ref sig .tc := ⟨.hbm, 148, rfl⟩
abbrev main_c_22 : Ref sig .tc := ⟨.hbm, 149, rfl⟩
abbrev main_call4_call0_cst : Ref sig .tc := ⟨.hbm, 150, rfl⟩
abbrev main_call4_call0_v0 : Ref sig .tc := ⟨.hbm, 151, rfl⟩
abbrev main_call4_call0_v1 : Ref sig .tc := ⟨.hbm, 152, rfl⟩
abbrev main_call4_call0_cst_0 : Ref sig .tc := ⟨.hbm, 153, rfl⟩
abbrev main_call4_call0_v2 : Ref sig .tc := ⟨.hbm, 154, rfl⟩
abbrev main_call4_call0_v3 : Ref sig .tc := ⟨.hbm, 155, rfl⟩
abbrev main_call4_call0_v4 : Ref sig .tc := ⟨.hbm, 156, rfl⟩
abbrev main_call4_call0_v5 : Ref sig .tc := ⟨.hbm, 157, rfl⟩
abbrev main_call4_call0_v6 : Ref sig .tc := ⟨.hbm, 158, rfl⟩
abbrev main_call4_call0_v7 : Ref sig .tc := ⟨.hbm, 159, rfl⟩
abbrev main_call4_call0_cst_1 : Ref sig .tc := ⟨.hbm, 160, rfl⟩
abbrev main_call4_call0_v8 : Ref sig .tc := ⟨.hbm, 161, rfl⟩
abbrev main_call4_call0_cst_2 : Ref sig .tc := ⟨.hbm, 162, rfl⟩
abbrev main_call4_call0_v9 : Ref sig .tc := ⟨.hbm, 163, rfl⟩
abbrev main_call4_call0_v10 : Ref sig .tc := ⟨.hbm, 164, rfl⟩
abbrev main_call4_call0_cst_3 : Ref sig .tc := ⟨.hbm, 165, rfl⟩
abbrev main_call4_call0_v11 : Ref sig .tc := ⟨.hbm, 166, rfl⟩
abbrev main_call4_call0_cst_4 : Ref sig .tc := ⟨.hbm, 167, rfl⟩
abbrev main_call4_call0_call0_v0 : Ref sig .tc := ⟨.hbm, 168, rfl⟩
abbrev main_call4_v0 : Ref sig .tc := ⟨.hbm, 169, rfl⟩
abbrev main_v42 : Ref sig .tc := ⟨.hbm, 170, rfl⟩
abbrev main_cst_23 : Ref sig .tc := ⟨.hbm, 171, rfl⟩
abbrev main_v43 : Ref sig .tc := ⟨.hbm, 172, rfl⟩
abbrev main_cst_24 : Ref sig .tc := ⟨.hbm, 173, rfl⟩
abbrev main_v44 : Ref sig .tc := ⟨.hbm, 174, rfl⟩
abbrev main_c_25 : Ref sig .tc := ⟨.hbm, 175, rfl⟩
abbrev main_v45 : Ref sig .tc := ⟨.hbm, 176, rfl⟩
abbrev main_v46 : Ref sig .tc := ⟨.hbm, 177, rfl⟩
abbrev main_c_26 : Ref sig .tc := ⟨.hbm, 178, rfl⟩
abbrev main_v47 : Ref sig .tc := ⟨.hbm, 179, rfl⟩
abbrev main_v48 : Ref sig .tc := ⟨.hbm, 180, rfl⟩
abbrev main_v49 : Ref sig .tc := ⟨.hbm, 181, rfl⟩
abbrev main_v50 : Ref sig .tc := ⟨.hbm, 182, rfl⟩
abbrev main_v51 : Ref sig .tc := ⟨.hbm, 183, rfl⟩
abbrev main_c_27 : Ref sig .tc := ⟨.hbm, 184, rfl⟩
abbrev main_v52 : Ref sig .tc := ⟨.hbm, 185, rfl⟩
abbrev main_v53 : Ref sig .tc := ⟨.hbm, 186, rfl⟩
abbrev main_c_28 : Ref sig .tc := ⟨.hbm, 187, rfl⟩
abbrev main_v54 : Ref sig .tc := ⟨.hbm, 188, rfl⟩
abbrev main_v55 : Ref sig .tc := ⟨.hbm, 189, rfl⟩
abbrev main_v56 : Ref sig .tc := ⟨.hbm, 190, rfl⟩
abbrev main_v57 : Ref sig .tc := ⟨.hbm, 191, rfl⟩
abbrev main_v58 : Ref sig .tc := ⟨.hbm, 192, rfl⟩
abbrev main_v59 : Ref sig .tc := ⟨.hbm, 193, rfl⟩
abbrev main_v60 : Ref sig .tc := ⟨.hbm, 194, rfl⟩
abbrev main_v61 : Ref sig .tc := ⟨.hbm, 195, rfl⟩
abbrev main_c_29 : Ref sig .tc := ⟨.hbm, 196, rfl⟩
abbrev main_v62 : Ref sig .tc := ⟨.hbm, 197, rfl⟩
abbrev main_v63 : Ref sig .tc := ⟨.hbm, 198, rfl⟩
abbrev main_c_30 : Ref sig .tc := ⟨.hbm, 199, rfl⟩
abbrev main_v64 : Ref sig .tc := ⟨.hbm, 200, rfl⟩
abbrev main_v65 : Ref sig .tc := ⟨.hbm, 201, rfl⟩
abbrev main_v66 : Ref sig .tc := ⟨.hbm, 202, rfl⟩
abbrev main_v67 : Ref sig .tc := ⟨.hbm, 203, rfl⟩
abbrev main_v68 : Ref sig .tc := ⟨.hbm, 204, rfl⟩
abbrev main_c_31 : Ref sig .tc := ⟨.hbm, 205, rfl⟩
abbrev main_v69 : Ref sig .tc := ⟨.hbm, 206, rfl⟩
abbrev main_v70 : Ref sig .tc := ⟨.hbm, 207, rfl⟩
abbrev main_c_32 : Ref sig .tc := ⟨.hbm, 208, rfl⟩
abbrev main_v71 : Ref sig .tc := ⟨.hbm, 209, rfl⟩
abbrev main_v72 : Ref sig .tc := ⟨.hbm, 210, rfl⟩
abbrev main_v73 : Ref sig .tc := ⟨.hbm, 211, rfl⟩
abbrev main_v74 : Ref sig .tc := ⟨.hbm, 212, rfl⟩
abbrev main_v75 : Ref sig .tc := ⟨.hbm, 213, rfl⟩
abbrev main_c_33 : Ref sig .tc := ⟨.hbm, 214, rfl⟩
abbrev main_call5_call0_cst : Ref sig .tc := ⟨.hbm, 215, rfl⟩
abbrev main_call5_call0_v0 : Ref sig .tc := ⟨.hbm, 216, rfl⟩
abbrev main_call5_call0_v1 : Ref sig .tc := ⟨.hbm, 217, rfl⟩
abbrev main_call5_call0_cst_0 : Ref sig .tc := ⟨.hbm, 218, rfl⟩
abbrev main_call5_call0_v2 : Ref sig .tc := ⟨.hbm, 219, rfl⟩
abbrev main_call5_call0_v3 : Ref sig .tc := ⟨.hbm, 220, rfl⟩
abbrev main_call5_call0_v4 : Ref sig .tc := ⟨.hbm, 221, rfl⟩
abbrev main_call5_call0_v5 : Ref sig .tc := ⟨.hbm, 222, rfl⟩
abbrev main_call5_call0_v6 : Ref sig .tc := ⟨.hbm, 223, rfl⟩
abbrev main_call5_call0_v7 : Ref sig .tc := ⟨.hbm, 224, rfl⟩
abbrev main_call5_call0_cst_1 : Ref sig .tc := ⟨.hbm, 225, rfl⟩
abbrev main_call5_call0_v8 : Ref sig .tc := ⟨.hbm, 226, rfl⟩
abbrev main_call5_call0_cst_2 : Ref sig .tc := ⟨.hbm, 227, rfl⟩
abbrev main_call5_call0_v9 : Ref sig .tc := ⟨.hbm, 228, rfl⟩
abbrev main_call5_call0_v10 : Ref sig .tc := ⟨.hbm, 229, rfl⟩
abbrev main_call5_call0_cst_3 : Ref sig .tc := ⟨.hbm, 230, rfl⟩
abbrev main_call5_call0_v11 : Ref sig .tc := ⟨.hbm, 231, rfl⟩
abbrev main_call5_call0_cst_4 : Ref sig .tc := ⟨.hbm, 232, rfl⟩
abbrev main_call5_call0_call0_v0 : Ref sig .tc := ⟨.hbm, 233, rfl⟩
abbrev main_call5_v0 : Ref sig .tc := ⟨.hbm, 234, rfl⟩
abbrev main_v76 : Ref sig .tc := ⟨.hbm, 235, rfl⟩
abbrev main_c_34 : Ref sig .tc := ⟨.hbm, 236, rfl⟩
abbrev main_call6_call0_cst : Ref sig .tc := ⟨.hbm, 237, rfl⟩
abbrev main_call6_call0_v0 : Ref sig .tc := ⟨.hbm, 238, rfl⟩
abbrev main_call6_call0_v1 : Ref sig .tc := ⟨.hbm, 239, rfl⟩
abbrev main_call6_call0_cst_0 : Ref sig .tc := ⟨.hbm, 240, rfl⟩
abbrev main_call6_call0_v2 : Ref sig .tc := ⟨.hbm, 241, rfl⟩
abbrev main_call6_call0_v3 : Ref sig .tc := ⟨.hbm, 242, rfl⟩
abbrev main_call6_call0_v4 : Ref sig .tc := ⟨.hbm, 243, rfl⟩
abbrev main_call6_call0_v5 : Ref sig .tc := ⟨.hbm, 244, rfl⟩
abbrev main_call6_call0_v6 : Ref sig .tc := ⟨.hbm, 245, rfl⟩
abbrev main_call6_call0_v7 : Ref sig .tc := ⟨.hbm, 246, rfl⟩
abbrev main_call6_call0_cst_1 : Ref sig .tc := ⟨.hbm, 247, rfl⟩
abbrev main_call6_call0_v8 : Ref sig .tc := ⟨.hbm, 248, rfl⟩
abbrev main_call6_call0_cst_2 : Ref sig .tc := ⟨.hbm, 249, rfl⟩
abbrev main_call6_call0_v9 : Ref sig .tc := ⟨.hbm, 250, rfl⟩
abbrev main_call6_call0_v10 : Ref sig .tc := ⟨.hbm, 251, rfl⟩
abbrev main_call6_call0_cst_3 : Ref sig .tc := ⟨.hbm, 252, rfl⟩
abbrev main_call6_call0_v11 : Ref sig .tc := ⟨.hbm, 253, rfl⟩
abbrev main_call6_call0_cst_4 : Ref sig .tc := ⟨.hbm, 254, rfl⟩
abbrev main_call6_call0_call0_v0 : Ref sig .tc := ⟨.hbm, 255, rfl⟩
abbrev main_call6_v0 : Ref sig .tc := ⟨.hbm, 256, rfl⟩
abbrev main_v77 : Ref sig .tc := ⟨.hbm, 257, rfl⟩
abbrev main_cst_35 : Ref sig .tc := ⟨.hbm, 258, rfl⟩
abbrev main_v78 : Ref sig .tc := ⟨.hbm, 259, rfl⟩
abbrev main_cst_36 : Ref sig .tc := ⟨.hbm, 260, rfl⟩
abbrev main_v79 : Ref sig .tc := ⟨.hbm, 261, rfl⟩
abbrev main_c_37 : Ref sig .tc := ⟨.hbm, 262, rfl⟩
abbrev main_v80 : Ref sig .tc := ⟨.hbm, 263, rfl⟩
abbrev main_v81 : Ref sig .tc := ⟨.hbm, 264, rfl⟩
abbrev main_c_38 : Ref sig .tc := ⟨.hbm, 265, rfl⟩
abbrev main_v82 : Ref sig .tc := ⟨.hbm, 266, rfl⟩
abbrev main_v83 : Ref sig .tc := ⟨.hbm, 267, rfl⟩
abbrev main_v84 : Ref sig .tc := ⟨.hbm, 268, rfl⟩
abbrev main_v85 : Ref sig .tc := ⟨.hbm, 269, rfl⟩
abbrev main_v86 : Ref sig .tc := ⟨.hbm, 270, rfl⟩
abbrev main_c_39 : Ref sig .tc := ⟨.hbm, 271, rfl⟩
abbrev main_v87 : Ref sig .tc := ⟨.hbm, 272, rfl⟩
abbrev main_v88 : Ref sig .tc := ⟨.hbm, 273, rfl⟩
abbrev main_c_40 : Ref sig .tc := ⟨.hbm, 274, rfl⟩
abbrev main_v89 : Ref sig .tc := ⟨.hbm, 275, rfl⟩
abbrev main_v90 : Ref sig .tc := ⟨.hbm, 276, rfl⟩
abbrev main_v91 : Ref sig .tc := ⟨.hbm, 277, rfl⟩
abbrev main_v92 : Ref sig .tc := ⟨.hbm, 278, rfl⟩
abbrev main_v93 : Ref sig .tc := ⟨.hbm, 279, rfl⟩
abbrev main_c_41 : Ref sig .tc := ⟨.hbm, 280, rfl⟩
abbrev main_call7_call0_cst : Ref sig .tc := ⟨.hbm, 281, rfl⟩
abbrev main_call7_call0_v0 : Ref sig .tc := ⟨.hbm, 282, rfl⟩
abbrev main_call7_call0_v1 : Ref sig .tc := ⟨.hbm, 283, rfl⟩
abbrev main_call7_call0_cst_0 : Ref sig .tc := ⟨.hbm, 284, rfl⟩
abbrev main_call7_call0_v2 : Ref sig .tc := ⟨.hbm, 285, rfl⟩
abbrev main_call7_call0_v3 : Ref sig .tc := ⟨.hbm, 286, rfl⟩
abbrev main_call7_call0_v4 : Ref sig .tc := ⟨.hbm, 287, rfl⟩
abbrev main_call7_call0_v5 : Ref sig .tc := ⟨.hbm, 288, rfl⟩
abbrev main_call7_call0_v6 : Ref sig .tc := ⟨.hbm, 289, rfl⟩
abbrev main_call7_call0_v7 : Ref sig .tc := ⟨.hbm, 290, rfl⟩
abbrev main_call7_call0_cst_1 : Ref sig .tc := ⟨.hbm, 291, rfl⟩
abbrev main_call7_call0_v8 : Ref sig .tc := ⟨.hbm, 292, rfl⟩
abbrev main_call7_call0_cst_2 : Ref sig .tc := ⟨.hbm, 293, rfl⟩
abbrev main_call7_call0_v9 : Ref sig .tc := ⟨.hbm, 294, rfl⟩
abbrev main_call7_call0_v10 : Ref sig .tc := ⟨.hbm, 295, rfl⟩
abbrev main_call7_call0_cst_3 : Ref sig .tc := ⟨.hbm, 296, rfl⟩
abbrev main_call7_call0_v11 : Ref sig .tc := ⟨.hbm, 297, rfl⟩
abbrev main_call7_call0_cst_4 : Ref sig .tc := ⟨.hbm, 298, rfl⟩
abbrev main_call7_call0_call0_v0 : Ref sig .tc := ⟨.hbm, 299, rfl⟩
abbrev main_call7_v0 : Ref sig .tc := ⟨.hbm, 300, rfl⟩
abbrev main_v94 : Ref sig .tc := ⟨.hbm, 301, rfl⟩
abbrev main_c_42 : Ref sig .tc := ⟨.hbm, 302, rfl⟩
abbrev main_call8_call0_cst : Ref sig .tc := ⟨.hbm, 303, rfl⟩
abbrev main_call8_call0_v0 : Ref sig .tc := ⟨.hbm, 304, rfl⟩
abbrev main_call8_call0_v1 : Ref sig .tc := ⟨.hbm, 305, rfl⟩
abbrev main_call8_call0_cst_0 : Ref sig .tc := ⟨.hbm, 306, rfl⟩
abbrev main_call8_call0_v2 : Ref sig .tc := ⟨.hbm, 307, rfl⟩
abbrev main_call8_call0_v3 : Ref sig .tc := ⟨.hbm, 308, rfl⟩
abbrev main_call8_call0_v4 : Ref sig .tc := ⟨.hbm, 309, rfl⟩
abbrev main_call8_call0_v5 : Ref sig .tc := ⟨.hbm, 310, rfl⟩
abbrev main_call8_call0_v6 : Ref sig .tc := ⟨.hbm, 311, rfl⟩
abbrev main_call8_call0_v7 : Ref sig .tc := ⟨.hbm, 312, rfl⟩
abbrev main_call8_call0_cst_1 : Ref sig .tc := ⟨.hbm, 313, rfl⟩
abbrev main_call8_call0_v8 : Ref sig .tc := ⟨.hbm, 314, rfl⟩
abbrev main_call8_call0_cst_2 : Ref sig .tc := ⟨.hbm, 315, rfl⟩
abbrev main_call8_call0_v9 : Ref sig .tc := ⟨.hbm, 316, rfl⟩
abbrev main_call8_call0_v10 : Ref sig .tc := ⟨.hbm, 317, rfl⟩
abbrev main_call8_call0_cst_3 : Ref sig .tc := ⟨.hbm, 318, rfl⟩
abbrev main_call8_call0_v11 : Ref sig .tc := ⟨.hbm, 319, rfl⟩
abbrev main_call8_call0_cst_4 : Ref sig .tc := ⟨.hbm, 320, rfl⟩
abbrev main_call8_call0_call0_v0 : Ref sig .tc := ⟨.hbm, 321, rfl⟩
abbrev main_call8_v0 : Ref sig .tc := ⟨.hbm, 322, rfl⟩
abbrev main_v95 : Ref sig .tc := ⟨.hbm, 323, rfl⟩
abbrev main_cst_43 : Ref sig .tc := ⟨.hbm, 324, rfl⟩
abbrev main_v96 : Ref sig .tc := ⟨.hbm, 325, rfl⟩
abbrev main_cst_44 : Ref sig .tc := ⟨.hbm, 326, rfl⟩
abbrev main_v97 : Ref sig .tc := ⟨.hbm, 327, rfl⟩
abbrev main_c_45 : Ref sig .tc := ⟨.hbm, 328, rfl⟩
abbrev main_v98 : Ref sig .tc := ⟨.hbm, 329, rfl⟩
abbrev main_v99 : Ref sig .tc := ⟨.hbm, 330, rfl⟩
abbrev main_c_46 : Ref sig .tc := ⟨.hbm, 331, rfl⟩
abbrev main_v100 : Ref sig .tc := ⟨.hbm, 332, rfl⟩
abbrev main_v101 : Ref sig .tc := ⟨.hbm, 333, rfl⟩
abbrev main_v102 : Ref sig .tc := ⟨.hbm, 334, rfl⟩
abbrev main_v103 : Ref sig .tc := ⟨.hbm, 335, rfl⟩
abbrev main_v104 : Ref sig .tc := ⟨.hbm, 336, rfl⟩
abbrev main_c_47 : Ref sig .tc := ⟨.hbm, 337, rfl⟩
abbrev main_v105 : Ref sig .tc := ⟨.hbm, 338, rfl⟩
abbrev main_v106 : Ref sig .tc := ⟨.hbm, 339, rfl⟩
abbrev main_c_48 : Ref sig .tc := ⟨.hbm, 340, rfl⟩
abbrev main_v107 : Ref sig .tc := ⟨.hbm, 341, rfl⟩
abbrev main_v108 : Ref sig .tc := ⟨.hbm, 342, rfl⟩
abbrev main_v109 : Ref sig .tc := ⟨.hbm, 343, rfl⟩
abbrev main_v110 : Ref sig .tc := ⟨.hbm, 344, rfl⟩
abbrev main_v111 : Ref sig .tc := ⟨.hbm, 345, rfl⟩
abbrev main_c_49 : Ref sig .tc := ⟨.hbm, 346, rfl⟩
abbrev main_call9_call0_cst : Ref sig .tc := ⟨.hbm, 347, rfl⟩
abbrev main_call9_call0_v0 : Ref sig .tc := ⟨.hbm, 348, rfl⟩
abbrev main_call9_call0_v1 : Ref sig .tc := ⟨.hbm, 349, rfl⟩
abbrev main_call9_call0_cst_0 : Ref sig .tc := ⟨.hbm, 350, rfl⟩
abbrev main_call9_call0_v2 : Ref sig .tc := ⟨.hbm, 351, rfl⟩
abbrev main_call9_call0_v3 : Ref sig .tc := ⟨.hbm, 352, rfl⟩
abbrev main_call9_call0_v4 : Ref sig .tc := ⟨.hbm, 353, rfl⟩
abbrev main_call9_call0_v5 : Ref sig .tc := ⟨.hbm, 354, rfl⟩
abbrev main_call9_call0_v6 : Ref sig .tc := ⟨.hbm, 355, rfl⟩
abbrev main_call9_call0_v7 : Ref sig .tc := ⟨.hbm, 356, rfl⟩
abbrev main_call9_call0_cst_1 : Ref sig .tc := ⟨.hbm, 357, rfl⟩
abbrev main_call9_call0_v8 : Ref sig .tc := ⟨.hbm, 358, rfl⟩
abbrev main_call9_call0_cst_2 : Ref sig .tc := ⟨.hbm, 359, rfl⟩
abbrev main_call9_call0_v9 : Ref sig .tc := ⟨.hbm, 360, rfl⟩
abbrev main_call9_call0_v10 : Ref sig .tc := ⟨.hbm, 361, rfl⟩
abbrev main_call9_call0_cst_3 : Ref sig .tc := ⟨.hbm, 362, rfl⟩
abbrev main_call9_call0_v11 : Ref sig .tc := ⟨.hbm, 363, rfl⟩
abbrev main_call9_call0_cst_4 : Ref sig .tc := ⟨.hbm, 364, rfl⟩
abbrev main_call9_call0_call0_v0 : Ref sig .tc := ⟨.hbm, 365, rfl⟩
abbrev main_call9_v0 : Ref sig .tc := ⟨.hbm, 366, rfl⟩
abbrev main_v112 : Ref sig .tc := ⟨.hbm, 367, rfl⟩
abbrev main_c_50 : Ref sig .tc := ⟨.hbm, 368, rfl⟩
abbrev main_call10_call0_cst : Ref sig .tc := ⟨.hbm, 369, rfl⟩
abbrev main_call10_call0_v0 : Ref sig .tc := ⟨.hbm, 370, rfl⟩
abbrev main_call10_call0_v1 : Ref sig .tc := ⟨.hbm, 371, rfl⟩
abbrev main_call10_call0_cst_0 : Ref sig .tc := ⟨.hbm, 372, rfl⟩
abbrev main_call10_call0_v2 : Ref sig .tc := ⟨.hbm, 373, rfl⟩
abbrev main_call10_call0_v3 : Ref sig .tc := ⟨.hbm, 374, rfl⟩
abbrev main_call10_call0_v4 : Ref sig .tc := ⟨.hbm, 375, rfl⟩
abbrev main_call10_call0_v5 : Ref sig .tc := ⟨.hbm, 376, rfl⟩
abbrev main_call10_call0_v6 : Ref sig .tc := ⟨.hbm, 377, rfl⟩
abbrev main_call10_call0_v7 : Ref sig .tc := ⟨.hbm, 378, rfl⟩
abbrev main_call10_call0_cst_1 : Ref sig .tc := ⟨.hbm, 379, rfl⟩
abbrev main_call10_call0_v8 : Ref sig .tc := ⟨.hbm, 380, rfl⟩
abbrev main_call10_call0_cst_2 : Ref sig .tc := ⟨.hbm, 381, rfl⟩
abbrev main_call10_call0_v9 : Ref sig .tc := ⟨.hbm, 382, rfl⟩
abbrev main_call10_call0_v10 : Ref sig .tc := ⟨.hbm, 383, rfl⟩
abbrev main_call10_call0_cst_3 : Ref sig .tc := ⟨.hbm, 384, rfl⟩
abbrev main_call10_call0_v11 : Ref sig .tc := ⟨.hbm, 385, rfl⟩
abbrev main_call10_call0_cst_4 : Ref sig .tc := ⟨.hbm, 386, rfl⟩
abbrev main_call10_call0_call0_v0 : Ref sig .tc := ⟨.hbm, 387, rfl⟩
abbrev main_call10_v0 : Ref sig .tc := ⟨.hbm, 388, rfl⟩
abbrev main_v113 : Ref sig .tc := ⟨.hbm, 389, rfl⟩
abbrev main_cst_51 : Ref sig .tc := ⟨.hbm, 390, rfl⟩
abbrev main_v114 : Ref sig .tc := ⟨.hbm, 391, rfl⟩
abbrev main_cst_52 : Ref sig .tc := ⟨.hbm, 392, rfl⟩
abbrev main_v115 : Ref sig .tc := ⟨.hbm, 393, rfl⟩
abbrev main_v116 : Ref sig .tc := ⟨.hbm, 394, rfl⟩
abbrev main_v117 : Ref sig .tc := ⟨.hbm, 395, rfl⟩
abbrev main_v118 : Ref sig .tc := ⟨.hbm, 396, rfl⟩
abbrev main_v119 : Ref sig .tc := ⟨.hbm, 397, rfl⟩
abbrev main_v120 : Ref sig .tc := ⟨.hbm, 398, rfl⟩
abbrev main_v121 : Ref sig .tc := ⟨.hbm, 399, rfl⟩
abbrev main_v122 : Ref sig .tc := ⟨.hbm, 400, rfl⟩
abbrev main_v123 : Ref sig .tc := ⟨.hbm, 401, rfl⟩
abbrev main_v124 : Ref sig .tc := ⟨.hbm, 402, rfl⟩
abbrev main_v125 : Ref sig .tc := ⟨.hbm, 403, rfl⟩
abbrev main_v126 : Ref sig .tc := ⟨.hbm, 404, rfl⟩
abbrev main_v127 : Ref sig .tc := ⟨.hbm, 405, rfl⟩
abbrev main_v128 : Ref sig .tc := ⟨.hbm, 406, rfl⟩
abbrev main_v129 : Ref sig .tc := ⟨.hbm, 407, rfl⟩
abbrev main_v130 : Ref sig .tc := ⟨.hbm, 408, rfl⟩
abbrev main_v131 : Ref sig .tc := ⟨.hbm, 409, rfl⟩
abbrev main_v132 : Ref sig .tc := ⟨.hbm, 410, rfl⟩
abbrev main_v133 : Ref sig .tc := ⟨.hbm, 411, rfl⟩
abbrev main_v134 : Ref sig .tc := ⟨.hbm, 412, rfl⟩
abbrev main_v135 : Ref sig .tc := ⟨.hbm, 413, rfl⟩
abbrev main_v136 : Ref sig .tc := ⟨.hbm, 414, rfl⟩
abbrev main_c_53 : Ref sig .tc := ⟨.hbm, 415, rfl⟩
abbrev main_v137 : Ref sig .tc := ⟨.hbm, 416, rfl⟩
abbrev main_call11_v0 : Ref sig .tc := ⟨.hbm, 417, rfl⟩
abbrev main_call11_c : Ref sig .tc := ⟨.hbm, 418, rfl⟩
abbrev main_call11_v1 : Ref sig .tc := ⟨.hbm, 419, rfl⟩
abbrev main_call11_v2 : Ref sig .tc := ⟨.hbm, 420, rfl⟩
abbrev main_call11_v3 : Ref sig .tc := ⟨.hbm, 421, rfl⟩
abbrev main_call11_v4 : Ref sig .tc := ⟨.hbm, 422, rfl⟩
abbrev main_call11_c_0 : Ref sig .tc := ⟨.hbm, 423, rfl⟩
abbrev main_call11_v5 : Ref sig .tc := ⟨.hbm, 424, rfl⟩
abbrev main_v138 : Ref sig .tc := ⟨.hbm, 425, rfl⟩
abbrev main_v139 : Ref sig .tc := ⟨.hbm, 426, rfl⟩
abbrev main_v140 : Ref sig .tc := ⟨.hbm, 427, rfl⟩
abbrev main_v141 : Ref sig .tc := ⟨.hbm, 428, rfl⟩
abbrev main_v142 : Ref sig .tc := ⟨.hbm, 429, rfl⟩
abbrev main_v143 : Ref sig .tc := ⟨.hbm, 430, rfl⟩
abbrev main_v144 : Ref sig .tc := ⟨.hbm, 431, rfl⟩
abbrev main_v145 : Ref sig .tc := ⟨.hbm, 432, rfl⟩
abbrev main_v146 : Ref sig .tc := ⟨.hbm, 433, rfl⟩
abbrev main_v147 : Ref sig .tc := ⟨.hbm, 434, rfl⟩
abbrev main_v148 : Ref sig .tc := ⟨.hbm, 435, rfl⟩
abbrev main_v149 : Ref sig .tc := ⟨.hbm, 436, rfl⟩
abbrev main_v150 : Ref sig .tc := ⟨.hbm, 437, rfl⟩
abbrev main_v151 : Ref sig .tc := ⟨.hbm, 438, rfl⟩
abbrev main_v152 : Ref sig .tc := ⟨.hbm, 439, rfl⟩
abbrev main_cst_54 : Ref sig .tc := ⟨.hbm, 440, rfl⟩
abbrev main_v153 : Ref sig .tc := ⟨.hbm, 441, rfl⟩
abbrev main_v154 : Ref sig .tc := ⟨.hbm, 442, rfl⟩
abbrev main_v155 : Ref sig .tc := ⟨.hbm, 443, rfl⟩
abbrev main_cst_55 : Ref sig .tc := ⟨.hbm, 444, rfl⟩
abbrev main_call12_v0 : Ref sig .tc := ⟨.hbm, 445, rfl⟩
abbrev main_call12_v1 : Ref sig .tc := ⟨.hbm, 446, rfl⟩
abbrev main_v156 : Ref sig .tc := ⟨.hbm, 447, rfl⟩
abbrev main_cst_56 : Ref sig .tc := ⟨.hbm, 448, rfl⟩
abbrev main_v157 : Ref sig .tc := ⟨.hbm, 449, rfl⟩
abbrev main_cst_57 : Ref sig .tc := ⟨.hbm, 450, rfl⟩
abbrev main_v158 : Ref sig .tc := ⟨.hbm, 451, rfl⟩
abbrev main_v159 : Ref sig .tc := ⟨.hbm, 452, rfl⟩
abbrev main_v160 : Ref sig .tc := ⟨.hbm, 453, rfl⟩
abbrev main_v161 : Ref sig .tc := ⟨.hbm, 454, rfl⟩
abbrev main_cst_58 : Ref sig .tc := ⟨.hbm, 455, rfl⟩
abbrev main_v162 : Ref sig .tc := ⟨.hbm, 456, rfl⟩
abbrev main_v163 : Ref sig .tc := ⟨.hbm, 457, rfl⟩
abbrev main_v164 : Ref sig .tc := ⟨.hbm, 458, rfl⟩
abbrev main_cst_59 : Ref sig .tc := ⟨.hbm, 459, rfl⟩
abbrev main_v165 : Ref sig .tc := ⟨.hbm, 460, rfl⟩

abbrev nD : Nat := 1
abbrev τ : Topo := Topo.v7x

variable {F : FTy → Type} [FloatOps F]

class Facts₀ : Prop where
  shapeCasts_S7680x4096_S512x15x4096 : S7680x4096.ShapeCasts S512x15x4096
  transposes_S512x15x4096_S15x512x4096_1_0_2 : S512x15x4096.Transposes [1, 0, 2] S15x512x4096
  reducesTo_S15x512x4096_S15x4096_d1 : S15x512x4096.ReducesTo [1] S15x4096
  h_S_ : 0 < S_.numel
  bcast_S_S15x4096 : S_.BroadcastsInDim S15x4096 (![] : Fin 0 → Fin S15x4096.rank)
  reducesTo_S15x4096_S15_d1 : S15x4096.ReducesTo [1] S15
  bcast_S_S15 : S_.BroadcastsInDim S15 (![] : Fin 0 → Fin S15.rank)
  bcast_S15_S15x1_0 : S15.BroadcastsInDim S15x1 (![0] : Fin 1 → Fin S15x1.rank)
  bcast_S_S15x1 : S_.BroadcastsInDim S15x1 (![] : Fin 0 → Fin S15x1.rank)
  bcast_S15x1_S15x4096_0_1 : S15x1.BroadcastsInDim S15x4096 (![0, 1] : Fin 2 → Fin S15x4096.rank)
  bcast_S_S3 : S_.BroadcastsInDim S3 (![] : Fin 0 → Fin S3.rank)
  bcast_S3_S3x1_0 : S3.BroadcastsInDim S3x1 (![0] : Fin 1 → Fin S3x1.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S_S2 : S_.BroadcastsInDim S2 (![] : Fin 0 → Fin S2.rank)
  bcast_S2_S2x1_0 : S2.BroadcastsInDim S2x1 (![0] : Fin 1 → Fin S2x1.rank)
  reducesTo_S2_S_d0 : S2.ReducesTo [0] S_
  bcast_S1_S2_0 : S1.BroadcastsInDim S2 (![0] : Fin 1 → Fin S2.rank)
  bcast_S1_S1x1_0 : S1.BroadcastsInDim S1x1 (![0] : Fin 1 → Fin S1x1.rank)
  shapeCasts_S1_S_ : S1.ShapeCasts S_
  bcast_S_S4 : S_.BroadcastsInDim S4 (![] : Fin 0 → Fin S4.rank)
  bcast_S4_S4x1_0 : S4.BroadcastsInDim S4x1 (![0] : Fin 1 → Fin S4x1.rank)
  reducesTo_S4_S_d0 : S4.ReducesTo [0] S_
  bcast_S1_S4_0 : S1.BroadcastsInDim S4 (![0] : Fin 1 → Fin S4.rank)
  concatenates_S1_S1_S1_S1_S1_S1_S6_d0 : Shape.Concatenates [S1, S1, S1, S1, S1, S1] S6 0
  bcast_S_S6x6 : S_.BroadcastsInDim S6x6 (![] : Fin 0 → Fin S6x6.rank)
  bcast_S6_S6x1_0 : S6.BroadcastsInDim S6x1 (![0] : Fin 1 → Fin S6x1.rank)
  bcast_S6_S1x6_1 : S6.BroadcastsInDim S1x6 (![1] : Fin 1 → Fin S1x6.rank)
  bcast_S6x1_S6x6_0_1 : S6x1.BroadcastsInDim S6x6 (![0, 1] : Fin 2 → Fin S6x6.rank)
  bcast_S1x6_S6x6_0_1 : S1x6.BroadcastsInDim S6x6 (![0, 1] : Fin 2 → Fin S6x6.rank)
  reducesTo_S6x6_S6_d1 : S6x6.ReducesTo [1] S6
  bcast_S_S6 : S_.BroadcastsInDim S6 (![] : Fin 0 → Fin S6.rank)
  reducesTo_S6_S_d0 : S6.ReducesTo [0] S_
  gather_S15_S3x1_S3_n_0_n_n_0_1_1_wf : GatherDims.WF S15 S3x1 S3 [] [0] [] [0] [] 1 ![1]
  gather_S15_S2x1_S2_n_0_n_n_0_1_1_wf : GatherDims.WF S15 S2x1 S2 [] [0] [] [0] [] 1 ![1]
  gather_S15_S1x1_S1_n_0_n_n_0_1_1_wf : GatherDims.WF S15 S1x1 S1 [] [0] [] [0] [] 1 ![1]
  gather_S15_S4x1_S4_n_0_n_n_0_1_1_wf : GatherDims.WF S15 S4x1 S4 [] [0] [] [0] [] 1 ![1]

variable [Facts₀]

def gather_S15_S3x1_S3_n_0_n_n_0_1_1 : GatherDims S15 S3x1 S3 where
  offsetDims := []
  collapsedSliceDims := [0]
  operandBatchingDims := []
  startIndicesBatchingDims := []
  startIndexMap := [0]
  indexVectorDim := 1
  sliceSizes := ![1]
  wf := gather_S15_S3x1_S3_n_0_n_n_0_1_1_wf
def gather_S15_S2x1_S2_n_0_n_n_0_1_1 : GatherDims S15 S2x1 S2 where
  offsetDims := []
  collapsedSliceDims := [0]
  operandBatchingDims := []
  startIndicesBatchingDims := []
  startIndexMap := [0]
  indexVectorDim := 1
  sliceSizes := ![1]
  wf := gather_S15_S2x1_S2_n_0_n_n_0_1_1_wf
def gather_S15_S1x1_S1_n_0_n_n_0_1_1 : GatherDims S15 S1x1 S1 where
  offsetDims := []
  collapsedSliceDims := [0]
  operandBatchingDims := []
  startIndicesBatchingDims := []
  startIndexMap := [0]
  indexVectorDim := 1
  sliceSizes := ![1]
  wf := gather_S15_S1x1_S1_n_0_n_n_0_1_1_wf
def gather_S15_S4x1_S4_n_0_n_n_0_1_1 : GatherDims S15 S4x1 S4 where
  offsetDims := []
  collapsedSliceDims := [0]
  operandBatchingDims := []
  startIndicesBatchingDims := []
  startIndexMap := [0]
  indexVectorDim := 1
  sliceSizes := ![1]
  wf := gather_S15_S4x1_S4_n_0_n_n_0_1_1_wf

class Facts : Prop extends Facts₀ where

variable [Facts]
-- ==== Proof.KV.lean ====
/-
  The kernel program's @main around its one region: the contents core `c` finds when the region is entered
  (the six constant tables and the reshape of the argument to [512, 15, 4096], folded over the launch memory)
  and the list of the stretches of host operations that follow the region — the module-local functions
  inlined, one stretch per call — ending in the scalar result.
-/
import proofs.«135479_j53618371723721_2_alg».proof.Proof.Gen.Kernel.Launch
import Idealize.ShloMosaic.Lib.StableHlo.Run

noncomputable section

namespace Cert.Kernel.Fr

open Idealize.ShloMosaic Idealize.ShloMosaic.TcCoe Idealize.SL.Sem
open Cert.Kernel Cert.Kernel.Gen

variable {F : FTy → Type} [FloatOps F]

/-- The stretches of host operations after the region, in program order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26]

variable (m : (ℓ : Loc nD τ sig) → Buf (Elt F) ℓ)

/-- Core `c`'s TensorCore buffer contents when the region is entered: the launch memory after the seven
    host operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

end Cert.Kernel.Fr

end
-- ==== Proof.KRuns.lean ====
/-
  What the three runs of the kernel body and the frame share. The grid has 16 points, point t = 4·ci + bi:
  ci the column block (1024 columns of the 4096), bi the row block (128 of the 512 batch rows). The body
  loads the point's [128, 15, 1024] block, sums it over its 128 rows, and adds the sum to a [15, 1024]
  scratch that it first zeroes when bi = 0; when bi = 3 it also stores the scratch times 2^-9 into the
  output block, which the pipeline writes back at those points only. So a point is in one of three cases:
  bi = 0 (zero, add), bi = 1, 2 (add), bi = 3 (add, store). Here: the two conditions in closed form, where
  the output window is idle, the staging and scratch memrefs, each input block read off its array, and the
  frame claim's post from a run's.
-/
import proofs.«135479_j53618371723721_2_alg».proof.Proof.KV
import proofs.«135479_j53618371723721_2_alg».proof.Proof.Gen.Kernel.Skeleton
import proofs.«135479_j53618371723721_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array
    is the region-entry contents and whose body leaves the block in place: the window is an input, never
    idle and uncut. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first row block" (bi = 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last row block" (bi = 3). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input window is never idle. -/
theorem liveAt0_0 : ∀ t : Fin cfg0.N, cfg0.idle 0 (grid0.coords t) = false := by decide +kernel
/-- Where bi = 0 the body stores nothing into the output block, -/
theorem idleAt0_1_A : ∀ t : Fin cfg0.N, cond0_0 (grid0.coords t) → ¬cond0_1 (grid0.coords t) → cfg0.idle 1 (grid0.coords t) = true := by decide +kernel
/-- and the pipeline does not write it back there. -/
theorem noFlush0_1_A : ∀ t : Fin cfg0.N, cond0_0 (grid0.coords t) → ¬cond0_1 (grid0.coords t) → (cfg0.win 1).flush t = false := by decide +kernel
/-- The same where bi = 1, 2. -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- Where bi = 3 the body stores the output block: the window is live. -/
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S15x1024 .f32 := (Memref.whole cc0_stg1_0 : Memref sig .tc .vmem S15x1024 .f32).view
/-- Each window's current staging memref at point `t`, as the pipeline passes it, and its wholeness. -/
abbrev ms0_0 (t : Fin cfg0.N) : Memref sig .tc .vmem S128x15x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S15x1024 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0_0 : Memref sig .tc .vmem S15x1024 .f32 := Memref.whole cc0_scratch0
/-- The same as a view: what it holds is stated through it. -/
abbrev VS0_0 : View sig .tc .vmem S15x1024 .f32 := scM0_0.view

/-- What the launch hands the region, with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KRunA.lean ====
/-
  The kernel body run whole in one of its three cases, on any whole staging memrefs: what its stores leave in
  the output's staging buffer and in the scratch, as lists of written pieces found by running it.
-/
import proofs.«135479_j53618371723721_2_alg».proof.Proof.KRuns

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body where bi = 0 (first condition taken, second not): it zeroes the scratch, adds the block's row sum
    to it, and leaves the output's staging buffer as it found it. On whole memrefs — the input at its block `x0`,
    the output at `xi1`, the scratch at anything — it runs to a continuation that holds the input and the
    output as they were and the scratch with its pieces (last store first) written. -/
noncomputable def kernelRun0_A (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : cond0_0 i) (hc1 : ¬cond0_1 i)
    (x0 : Vec F S128x15x1024 .f32) :
    Σ' (L1 : List (View.Piece (Elt F) S15x1024 .f32)), { LS0 : List (View.Piece (Elt F) S15x1024 .f32) //
      ∀ (xi1 : Vec F S15x1024 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__group_sum_kernel i arg2 harg2 arg3 harg3 arg4 harg4) K } := by
  refine ⟨[], ?_, fun xi1 E K => ?run⟩
  case run =>
    simp only [cc0__group_sum_kernel_eq_skeleton]; unfold cc0__group_sum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.KRunB.lean ====
/-
  The kernel body run whole in one of its three cases, on any whole staging memrefs: what its stores leave in
  the output's staging buffer and in the scratch, as lists of written pieces found by running it.
-/
import proofs.«135479_j53618371723721_2_alg».proof.Proof.KRunA

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body where bi = 1, 2 (neither condition taken): it adds the block's row sum to the scratch, which it
    finds at what the point before left (`xs0`), and leaves the output's staging buffer as it found it. -/
noncomputable def kernelRun0_B (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : ¬cond0_1 i)
    (x0 : Vec F S128x15x1024 .f32) (xs0 : Vec F S15x1024 .f32) :
    Σ' (L1 : List (View.Piece (Elt F) S15x1024 .f32)), { LS0 : List (View.Piece (Elt F) S15x1024 .f32) //
      ∀ (xi1 : Vec F S15x1024 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__group_sum_kernel i arg2 harg2 arg3 harg3 arg4 harg4) K } := by
  refine ⟨[], ?_, fun xi1 E K => ?run⟩
  case run =>
    simp only [cc0__group_sum_kernel_eq_skeleton]; unfold cc0__group_sum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.KRunC.lean ====
/-
  The kernel body run whole in one of its three cases, on any whole staging memrefs: what its stores leave in
  the output's staging buffer and in the scratch, as lists of written pieces found by running it.
-/
import proofs.«135479_j53618371723721_2_alg».proof.Proof.KRunB

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body where bi = 3 (second condition taken): it adds the block's row sum to the scratch, found at what
    the point before left (`xs0`), and stores the scratch times 2^-9 over the whole output block. -/
noncomputable def kernelRun0_C (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : cond0_1 i)
    (x0 : Vec F S128x15x1024 .f32) (xs0 : Vec F S15x1024 .f32) :
    Σ' (L1 : List (View.Piece (Elt F) S15x1024 .f32)), { LS0 : List (View.Piece (Elt F) S15x1024 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__group_sum_kernel i arg2 harg2 arg3 harg3 arg4 harg4) K } := by
  refine ⟨?_, ?_, fun E K => ?run⟩
  case run =>
    simp only [cc0__group_sum_kernel_eq_skeleton]; unfold cc0__group_sum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Fr

end
-- ==== Proof.KBody.lean ====
/-
  What the kernel body leaves, case by case and point by point, and the body's obligation to the pipeline.
  Per case: what the body leaves in the output's staging buffer and in the scratch accumulator (the pieces its
  stores wrote, read back). Point by point: the scratch after point t is the case's result over what point
  t - 1 left (at bi = 0 the scratch is first zeroed, so nothing earlier matters); the output block is stored
  only at bi = 3. With these as the proof data — the input block in place, the invariant carrying the scratch
  at the point before's contents — the body meets its obligation at every point.
-/
import proofs.«135479_j53618371723721_2_alg».proof.Proof.KRunC

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- bi = 0 stores nothing into the output block: a placeholder nothing consults (the window is idle and not
    written back there). -/
def out0_A_1 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : cond0_0 i) (hc1 : ¬cond0_1 i)
    (x0 : Vec F S128x15x1024 .f32) : Vec F S15x1024 .f32 :=
  VO0_1.read (Elt F) (VO0_1.writes (Elt F) VO0_1.junk (kernelRun0_A c i arg2 harg2 arg3 harg3 arg4 harg4 hc0 hc1 x0).1)

/-- bi = 0: the scratch's pieces cover it. -/
theorem scover0_A_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : cond0_0 i) (hc1 : ¬cond0_1 i)
    (x0 : Vec F S128x15x1024 .f32) (y : S15x1024.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S15x1024.size (by sl_kernel_rfl) y

/-- bi = 0: what the scratch holds afterwards. -/
def sout0_A_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : cond0_0 i) (hc1 : ¬cond0_1 i)
    (x0 : Vec F S128x15x1024 .f32) : Vec F S15x1024 .f32 :=
  VS0_0.read (Elt F) (VS0_0.writes (Elt F) VS0_0.junk (kernelRun0_A c i arg2 harg2 arg3 harg3 arg4 harg4 hc0 hc1 x0).2.1)

/-- bi = 1, 2 store nothing into the output block either. -/
def out0_B_1 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : ¬cond0_1 i)
    (x0 : Vec F S128x15x1024 .f32) (xs0 : Vec F S15x1024 .f32) : Vec F S15x1024 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : ¬cond0_1 i)
    (x0 : Vec F S128x15x1024 .f32) (xs0 : Vec F S15x1024 .f32) (y : S15x1024.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S15x1024.size (by sl_kernel_rfl) y

/-- bi = 1, 2: what the scratch holds afterwards, over what it held before (`xs0`). -/
def sout0_B_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : ¬cond0_1 i)
    (x0 : Vec F S128x15x1024 .f32) (xs0 : Vec F S15x1024 .f32) : Vec F S15x1024 .f32 :=
  VS0_0.read (Elt F) (VS0_0.writes (Elt F) VS0_0.junk (kernelRun0_B c i arg2 harg2 arg3 harg3 arg4 harg4 hc0 hc1 x0 xs0).2.1)

/-- bi = 3: the one store into the output block covers it. -/
theorem cover0_C_1 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : cond0_1 i)
    (x0 : Vec F S128x15x1024 .f32) (xs0 : Vec F S15x1024 .f32) (y : S15x1024.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S15x1024.size (by sl_kernel_rfl) y

/-- bi = 3: what the output's staging buffer holds afterwards. -/
def out0_C_1 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : cond0_1 i)
    (x0 : Vec F S128x15x1024 .f32) (xs0 : Vec F S15x1024 .f32) : Vec F S15x1024 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : cond0_1 i)
    (x0 : Vec F S128x15x1024 .f32) (xs0 : Vec F S15x1024 .f32) (y : S15x1024.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S15x1024.size (by sl_kernel_rfl) y

/-- bi = 3: what the scratch holds afterwards. -/
def sout0_C_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : cond0_1 i)
    (x0 : Vec F S128x15x1024 .f32) (xs0 : Vec F S15x1024 .f32) : Vec F S15x1024 .f32 :=
  VS0_0.read (Elt F) (VS0_0.writes (Elt F) VS0_0.junk (kernelRun0_C c i arg2 harg2 arg3 harg3 arg4 harg4 hc0 hc1 x0 xs0).2.1)

/-! ## The accumulation, point by point -/

/-- What the output's staging buffer (first component) and the scratch (second) hold after the body at
    position `n`: the case n mod 4 selects, run on the point's input block, the scratch taken from position
    n - 1 where the case reads it. No point is both first and last of its column block. -/
def outsAt0 (c : Dev nD) : (n : ℕ) → n < cfg0.N → Vec F S15x1024 .f32 × Vec F S15x1024 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- At a point with bi = 0. -/
theorem outsAt0_A (c : Dev nD) (t : Fin cfg0.N) (h0 : t.val % 4 = 0) (h1 : ¬t.val % 4 = 3) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- At a point with bi = 1, 2: over what the point before left. -/
theorem outsAt0_B (c : Dev nD) (t : Fin cfg0.N) (h0 : ¬t.val % 4 = 0) (h1 : ¬t.val % 4 = 3) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with bi = 3: over what the point before left. -/
theorem outsAt0_C (c : Dev nD) (t : Fin cfg0.N) (h0 : ¬t.val % 4 = 0) (h1 : t.val % 4 = 3) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start what the launch hands over (the scratch at anything); afterwards the
    scratch at what position n - 1 left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- On core `c`: the arrays as the region finds them; after the body at point `t` the input's buffer at its
    block and the output's at the accumulation's first component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's memref holds its block; the closed forms say which case the point is in;
    the invariant hands the body the scratch at what the point before left (at anything at the very first
    point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

end Cert.Kernel.Fr

end
-- ==== Proof.KTail.lean ====
/-
  The host operations that follow the kernel program's region, as the frame needs them. The program's @main is seven
  host operations (six constant tables and the reshape of the argument), the region, and then twenty-seven
  stretches of host operations ending in the scalar result. For the frame it is enough to know of every
  operation after the region that it touches unscoped TensorCore buffers only, allocates nothing, and writes
  neither array of the pipeline (the reshaped argument and the group means): each writes its own result
  buffer, a reference different from both. The facts are proved once per stretch, uniformly over its
  operations, and assembled over the list of stretches. The contents the region is entered with are the
  launch memory at the argument, the six literal tables, and the reshape of the argument.
-/
import proofs.«135479_j53618371723721_2_alg».proof.Proof.KV
import Idealize.ShloMosaic.Lib.Pipeline.FrameSuffix

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## One operation after the region -/

/-- The pipeline has two arrays: the reshaped argument and the group means. -/
theorem arr_cases : ∀ w, Pipeline.arrRef spec0 w = main_v0 ∨ Pipeline.arrRef spec0 w = main_v1 := by decide

/-- An operation that writes exactly one buffer, a reference other than the two arrays, writes no array of the pipeline. -/
theorem keeps_of_writes {op : HloOp τ sig (Elt F)} {y : Ref sig .tc} (hw : op.writes = {Proc.devRef .tc y})
    (h0 : main_v0 ≠ y) (h1 : main_v1 ≠ y) : ∀ w, Proc.devRef .tc (Pipeline.arrRef spec0 w) ∉ op.writes := by
  intro w
  rw [hw, Finset.mem_singleton]
  rcases arr_cases w with e | e <;> rw [e]
  · exact StableHlo.devRef_ne_of_ne h0
  · exact StableHlo.devRef_ne_of_ne h1

/-- An operation that writes exactly one buffer does not write a different reference. -/
theorem not_writes_of {op : HloOp τ sig (Elt F)} {r y : Ref sig .tc} (hw : op.writes = {Proc.devRef .tc y})
    (h : r ≠ y) : Proc.devRef .tc r ∉ op.writes := by
  rw [hw, Finset.mem_singleton]; exact StableHlo.devRef_ne_of_ne h

/-- What the frame asks of an operation after the region, beyond the buffers it touches: it allocates nothing, writes
    no array of the pipeline, and does not write the argument. -/
abbrev Quiet (op : HloOp τ sig (Elt F)) : Prop :=
  op.fresh = ∅ ∧ (∀ w, Proc.devRef .tc (Pipeline.arrRef spec0 w) ∉ op.writes) ∧ Proc.devRef .tc main_arg0 ∉ op.writes

/-- Closes `ops.Forall Quiet` for a literal stretch: the conjunction is split operation by operation, and each
    operation allocates nothing by computation and writes its own result buffer only, told apart from the two arrays
    and from the argument as references. -/
macro "quiet_stretch" : tactic =>
  `(tactic| repeat' (first
      | exact ⟨rfl, keeps_of_writes rfl (by decide) (by decide), not_writes_of rfl (by decide)⟩
      | apply And.intro))

/-! ## The stretches -/

theorem hostOps1_quiet : (hostOps1 : List (HloOp τ sig (Elt F))).Forall Quiet := by quiet_stretch
theorem hostOps1_1_quiet : (hostOps1_1 : List (HloOp τ sig (Elt F))).Forall Quiet := by quiet_stretch
theorem hostOps1_2_quiet : (hostOps1_2 : List (HloOp τ sig (Elt F))).Forall Quiet := by quiet_stretch
theorem hostOps1_3_quiet : (hostOps1_3 : List (HloOp τ sig (Elt F))).Forall Quiet := by quiet_stretch
theorem hostOps1_4_quiet : (hostOps1_4 : List (HloOp τ sig (Elt F))).Forall Quiet := by quiet_stretch
theorem hostOps1_5_quiet : (hostOps1_5 : List (HloOp τ sig (Elt F))).Forall Quiet := by quiet_stretch
theorem hostOps1_6_quiet : (hostOps1_6 : List (HloOp τ sig (Elt F))).Forall Quiet := by quiet_stretch
theorem hostOps1_7_quiet : (hostOps1_7 : List (HloOp τ sig (Elt F))).Forall Quiet := by quiet_stretch
theorem hostOps1_8_quiet : (hostOps1_8 : List (HloOp τ sig (Elt F))).Forall Quiet := by quiet_stretch
theorem hostOps1_9_quiet : (hostOps1_9 : List (HloOp τ sig (Elt F))).Forall Quiet := by quiet_stretch
theorem hostOps1_10_quiet : (hostOps1_10 : List (HloOp τ sig (Elt F))).Forall Quiet := by quiet_stretch
theorem hostOps1_11_quiet : (hostOps1_11 : List (HloOp τ sig (Elt F))).Forall Quiet := by quiet_stretch
theorem hostOps1_12_quiet : (hostOps1_12 : List (HloOp τ sig (Elt F))).Forall Quiet := by quiet_stretch
theorem hostOps1_13_quiet : (hostOps1_13 : List (HloOp τ sig (Elt F))).Forall Quiet := by quiet_stretch
theorem hostOps1_14_quiet : (hostOps1_14 : List (HloOp τ sig (Elt F))).Forall Quiet := by quiet_stretch
theorem hostOps1_15_quiet : (hostOps1_15 : List (HloOp τ sig (Elt F))).Forall Quiet := by quiet_stretch
theorem hostOps1_16_quiet : (hostOps1_16 : List (HloOp τ sig (Elt F))).Forall Quiet := by quiet_stretch
theorem hostOps1_17_quiet : (hostOps1_17 : List (HloOp τ sig (Elt F))).Forall Quiet := by quiet_stretch
theorem hostOps1_18_quiet : (hostOps1_18 : List (HloOp τ sig (Elt F))).Forall Quiet := by quiet_stretch
theorem hostOps1_19_quiet : (hostOps1_19 : List (HloOp τ sig (Elt F))).Forall Quiet := by quiet_stretch
theorem hostOps1_20_quiet : (hostOps1_20 : List (HloOp τ sig (Elt F))).Forall Quiet := by quiet_stretch
theorem hostOps1_21_quiet : (hostOps1_21 : List (HloOp τ sig (Elt F))).Forall Quiet := by quiet_stretch
theorem hostOps1_22_quiet : (hostOps1_22 : List (HloOp τ sig (Elt F))).Forall Quiet := by quiet_stretch
theorem hostOps1_23_quiet : (hostOps1_23 : List (HloOp τ sig (Elt F))).Forall Quiet := by quiet_stretch
theorem hostOps1_24_quiet : (hostOps1_24 : List (HloOp τ sig (Elt F))).Forall Quiet := by quiet_stretch
theorem hostOps1_25_quiet : (hostOps1_25 : List (HloOp τ sig (Elt F))).Forall Quiet := by quiet_stretch
theorem hostOps1_26_quiet : (hostOps1_26 : List (HloOp τ sig (Elt F))).Forall Quiet := by quiet_stretch

/-- Every stretch after the region is quiet. -/
theorem tail_quiet : (tailOpss : List (List (HloOp τ sig (Elt F)))).Forall fun ops => ops.Forall Quiet :=
  ⟨hostOps1_quiet, hostOps1_1_quiet, hostOps1_2_quiet, hostOps1_3_quiet, hostOps1_4_quiet, hostOps1_5_quiet, hostOps1_6_quiet, hostOps1_7_quiet, hostOps1_8_quiet, hostOps1_9_quiet, hostOps1_10_quiet, hostOps1_11_quiet, hostOps1_12_quiet, hostOps1_13_quiet, hostOps1_14_quiet, hostOps1_15_quiet, hostOps1_16_quiet, hostOps1_17_quiet, hostOps1_18_quiet, hostOps1_19_quiet, hostOps1_20_quiet, hostOps1_21_quiet, hostOps1_22_quiet, hostOps1_23_quiet, hostOps1_24_quiet, hostOps1_25_quiet, hostOps1_26_quiet⟩

/-- Every stretch after the region touches TensorCore references only. -/
theorem tail_sub : (tailOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub⟩

theorem hostOps0_fresh : (hostOps0 : List (HloOp τ sig (Elt F))).Forall fun op => op.fresh = ∅ :=
  ⟨rfl, rfl, rfl, rfl, rfl, rfl, rfl⟩

variable (m : (ℓ : Loc nD τ sig) → Buf (Elt F) ℓ)

/-! ## @main around the region -/

/-- @main around the region: the seven host operations before it, the region, the stretches after it: it reduces to the
    region continued by the later stretches, at the contents after the earlier operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss hostOps0_sub hostOps0_fresh main_chain

/-- The operations after the region touch the pipeline's arrays and the buffers that bypass the region only: each
    operation's buffers are unscoped TensorCore references, and with nothing prefetched every such reference is one or
    the other. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)

/-- They allocate nothing. -/
theorem sfx_fresh : ∀ ops ∈ (tailOpss : List (List (HloOp τ sig (Elt F)))), ∀ op ∈ ops, op.fresh = ∅ :=
  fun ops hops op hop => ((List.forall_iff_forall_mem.mp ((List.forall_iff_forall_mem.mp tail_quiet) ops hops)) op hop).1

/-- And write no array of the pipeline. -/
theorem sfx_keeps : ∀ ops ∈ (tailOpss : List (List (HloOp τ sig (Elt F)))), ∀ op ∈ ops,
    ∀ w, Proc.devRef .tc (Pipeline.arrRef spec0 w) ∉ op.writes :=
  fun ops hops op hop => ((List.forall_iff_forall_mem.mp ((List.forall_iff_forall_mem.mp tail_quiet) ops hops)) op hop).2.1

/-- Nor the argument. -/
theorem tail_keeps_arg0 : ∀ op ∈ (tailOpss : List (List (HloOp τ sig (Elt F)))).flatten, Proc.devRef .tc main_arg0 ∉ op.writes := by
  intro op hop
  obtain ⟨ops, hops, hop⟩ := List.mem_flatten.mp hop
  exact ((List.forall_iff_forall_mem.mp ((List.forall_iff_forall_mem.mp tail_quiet) ops hops)) op hop).2.2

/-! ## The contents the region is entered with, and the argument at the end -/

/-- The contents the region is entered with: the launch memory after the seven operations before the region. -/
theorem V0_eq (c : Dev nD) : V0 m c = StableHlo.after hostOps0 (fun b => m (c, b)) := by
  show StableHlo.after (List.flatten [hostOps0]) _ = _
  rw [List.flatten_cons, List.flatten_nil, List.append_nil]

/-- No operation before the region writes the argument: the region finds it as launched. -/
theorem V_main_arg0 (c : Dev nD) : V m c main_arg0 = m ((c : Thread nD τ).loc main_arg0) := by
  show V0 m c (Proc.devRef .tc main_arg0) = _
  rw [V0_eq]; dsimp only [hostOps0]
  after_results <;> rfl

/-- No operation after the region writes the argument: it ends as launched. -/
theorem W_main_arg0 (dats : (p : Fin 1) → (c : Dev nD) → Pipeline.Dat τ (Elt F) Unit ℕ (UR sig nD τ) ℕ (cfgs p) c) (c : Dev nD) :
    Pipeline.afterTail₀ cfgs dats 0 (V0 m) tailOpss c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c

/-- The first array of the pipeline is the argument reshaped to [512, 15, 4096]. -/
theorem V_main_v0 (c : Dev nD) : V m c main_v0
    = (shapeCast S512x15x4096 (m ((c : Thread nD τ).loc main_arg0)) shapeCasts_S7680x4096_S512x15x4096 : (⟨S512x15x4096, .f32⟩ : BufTy).Contents (Elt F)) := by
  show V0 m c (Proc.devRef .tc main_v0) = _
  rw [V0_eq]; dsimp only [hostOps0]
  after_results <;> rfl

/-- The six integer tables are the printed literals. -/
theorem V_main_c (c : Dev nD) : V m c main_c = (fun i => lit0 (S3.rowMajor i)) := by
  show V0 m c (Proc.devRef .tc main_c) = _
  rw [V0_eq]; dsimp only [hostOps0]
  after_results <;> rfl
theorem V_main_c_0 (c : Dev nD) : V m c main_c_0 = (fun i => lit1 (S2.rowMajor i)) := by
  show V0 m c (Proc.devRef .tc main_c_0) = _
  rw [V0_eq]; dsimp only [hostOps0]
  after_results <;> rfl
theorem V_main_c_1 (c : Dev nD) : V m c main_c_1 = constantI S1 32 5#32 := by
  show V0 m c (Proc.devRef .tc main_c_1) = _
  rw [V0_eq]; dsimp only [hostOps0]
  after_results <;> rfl
theorem V_main_c_2 (c : Dev nD) : V m c main_c_2 = (fun i => lit2 (S4.rowMajor i)) := by
  show V0 m c (Proc.devRef .tc main_c_2) = _
  rw [V0_eq]; dsimp only [hostOps0]
  after_results <;> rfl
theorem V_main_c_3 (c : Dev nD) : V m c main_c_3 = (fun i => lit3 (S2.rowMajor i)) := by
  show V0 m c (Proc.devRef .tc main_c_3) = _
  rw [V0_eq]; dsimp only [hostOps0]
  after_results <;> rfl
theorem V_main_c_4 (c : Dev nD) : V m c main_c_4 = (fun i => lit4 (S3.rowMajor i)) := by
  show V0 m c (Proc.devRef .tc main_c_4) = _
  rw [V0_eq]; dsimp only [hostOps0]
  after_results <;> rfl

end Cert.Kernel.Fr

end
-- ==== Proof.KFrame.lean ====
/-
  The frame of the kernel program: the region runs (the body meets its obligation at every point), the host
  operations after it run — they touch unscoped buffers only, allocate nothing and write no array of the
  pipeline —, and the argument array, which neither the region nor any host operation writes, ends unchanged.
-/
import proofs.«135479_j53618371723721_2_alg».proof.Proof.KBody
import proofs.«135479_j53618371723721_2_alg».proof.Proof.KTail

-- membership in a rectangle of these extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- From any memory with zero counters every weakly fair execution of @main terminates, and every final state
    has each array of the pipeline at what the library computes from the proof data and every other unscoped
    buffer as the host operations after the region leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hin := hin m) (hout := hout m)

/-- The frame: the argument array is the input window's array read back, which the region leaves as it found
    it, and the seven operations before the region do not write it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m (dats m) c))) (run_main m ρ)

end Cert.Kernel.Fr

end
-- ==== Proof.KIV.lean ====
/-
  The kernel program's @main around its one region: the contents core `c` finds when the region is entered
  (the six constant tables and the reshape of the argument to [512, 15, 4096], folded over the launch memory)
  and the list of the stretches of host operations that follow the region — the module-local functions
  inlined, one stretch per call — ending in the scalar result.
-/
import proofs.«135479_j53618371723721_2_alg».proof.Proof.Gen.KernelIdeal.Launch
import Idealize.ShloMosaic.Lib.StableHlo.Run

noncomputable section

namespace Cert.KernelIdeal.Fr

open Idealize.ShloMosaic Idealize.ShloMosaic.TcCoe Idealize.SL.Sem
open Cert.KernelIdeal Cert.KernelIdeal.Gen

variable {F : FTy → Type} [FloatOps F]

/-- The stretches of host operations after the region, in program order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26]

variable (m : (ℓ : Loc nD τ sig) → Buf (Elt F) ℓ)

/-- Core `c`'s TensorCore buffer contents when the region is entered: the launch memory after the seven
    host operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

end Cert.KernelIdeal.Fr

end
-- ==== Proof.KIRuns.lean ====
/-
  What the three runs of the kernel body and the frame share. The grid has 16 points, point t = 4·ci + bi:
  ci the column block (1024 columns of the 4096), bi the row block (128 of the 512 batch rows). The body
  loads the point's [128, 15, 1024] block, sums it over its 128 rows, and adds the sum to a [15, 1024]
  scratch that it first zeroes when bi = 0; when bi = 3 it also stores the scratch times 2^-9 into the
  output block, which the pipeline writes back at those points only. So a point is in one of three cases:
  bi = 0 (zero, add), bi = 1, 2 (add), bi = 3 (add, store). Here: the two conditions in closed form, where
  the output window is idle, the staging and scratch memrefs, each input block read off its array, and the
  frame claim's post from a run's.
-/
import proofs.«135479_j53618371723721_2_alg».proof.Proof.KIV
import proofs.«135479_j53618371723721_2_alg».proof.Proof.Gen.KernelIdeal.Skeleton
import proofs.«135479_j53618371723721_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array
    is the region-entry contents and whose body leaves the block in place: the window is an input, never
    idle and uncut. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first row block" (bi = 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last row block" (bi = 3). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input window is never idle. -/
theorem liveAt0_0 : ∀ t : Fin cfg0.N, cfg0.idle 0 (grid0.coords t) = false := by decide +kernel
/-- Where bi = 0 the body stores nothing into the output block, -/
theorem idleAt0_1_A : ∀ t : Fin cfg0.N, cond0_0 (grid0.coords t) → ¬cond0_1 (grid0.coords t) → cfg0.idle 1 (grid0.coords t) = true := by decide +kernel
/-- and the pipeline does not write it back there. -/
theorem noFlush0_1_A : ∀ t : Fin cfg0.N, cond0_0 (grid0.coords t) → ¬cond0_1 (grid0.coords t) → (cfg0.win 1).flush t = false := by decide +kernel
/-- The same where bi = 1, 2. -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- Where bi = 3 the body stores the output block: the window is live. -/
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S15x1024 .f32 := (Memref.whole cc0_stg1_0 : Memref sig .tc .vmem S15x1024 .f32).view
/-- Each window's current staging memref at point `t`, as the pipeline passes it, and its wholeness. -/
abbrev ms0_0 (t : Fin cfg0.N) : Memref sig .tc .vmem S128x15x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S15x1024 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0_0 : Memref sig .tc .vmem S15x1024 .f32 := Memref.whole cc0_scratch0
/-- The same as a view: what it holds is stated through it. -/
abbrev VS0_0 : View sig .tc .vmem S15x1024 .f32 := scM0_0.view

/-- What the launch hands the region, with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
/-
  The kernel body run whole in one of its three cases, on any whole staging memrefs: what its stores leave in
  the output's staging buffer and in the scratch, as lists of written pieces found by running it.
-/
import proofs.«135479_j53618371723721_2_alg».proof.Proof.KIRuns

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body where bi = 0 (first condition taken, second not): it zeroes the scratch, adds the block's row sum
    to it, and leaves the output's staging buffer as it found it. On whole memrefs — the input at its block `x0`,
    the output at `xi1`, the scratch at anything — it runs to a continuation that holds the input and the
    output as they were and the scratch with its pieces (last store first) written. -/
noncomputable def kernelRun0_A (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : cond0_0 i) (hc1 : ¬cond0_1 i)
    (x0 : Vec F S128x15x1024 .f32) :
    Σ' (L1 : List (View.Piece (Elt F) S15x1024 .f32)), { LS0 : List (View.Piece (Elt F) S15x1024 .f32) //
      ∀ (xi1 : Vec F S15x1024 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__group_sum_kernel i arg2 harg2 arg3 harg3 arg4 harg4) K } := by
  refine ⟨[], ?_, fun xi1 E K => ?run⟩
  case run =>
    simp only [cc0__group_sum_kernel_eq_skeleton]; unfold cc0__group_sum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KIRunB.lean ====
/-
  The kernel body run whole in one of its three cases, on any whole staging memrefs: what its stores leave in
  the output's staging buffer and in the scratch, as lists of written pieces found by running it.
-/
import proofs.«135479_j53618371723721_2_alg».proof.Proof.KIRunA

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body where bi = 1, 2 (neither condition taken): it adds the block's row sum to the scratch, which it
    finds at what the point before left (`xs0`), and leaves the output's staging buffer as it found it. -/
noncomputable def kernelRun0_B (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : ¬cond0_1 i)
    (x0 : Vec F S128x15x1024 .f32) (xs0 : Vec F S15x1024 .f32) :
    Σ' (L1 : List (View.Piece (Elt F) S15x1024 .f32)), { LS0 : List (View.Piece (Elt F) S15x1024 .f32) //
      ∀ (xi1 : Vec F S15x1024 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__group_sum_kernel i arg2 harg2 arg3 harg3 arg4 harg4) K } := by
  refine ⟨[], ?_, fun xi1 E K => ?run⟩
  case run =>
    simp only [cc0__group_sum_kernel_eq_skeleton]; unfold cc0__group_sum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KIRunC.lean ====
/-
  The kernel body run whole in one of its three cases, on any whole staging memrefs: what its stores leave in
  the output's staging buffer and in the scratch, as lists of written pieces found by running it.
-/
import proofs.«135479_j53618371723721_2_alg».proof.Proof.KIRunB

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body where bi = 3 (second condition taken): it adds the block's row sum to the scratch, found at what
    the point before left (`xs0`), and stores the scratch times 2^-9 over the whole output block. -/
noncomputable def kernelRun0_C (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : cond0_1 i)
    (x0 : Vec F S128x15x1024 .f32) (xs0 : Vec F S15x1024 .f32) :
    Σ' (L1 : List (View.Piece (Elt F) S15x1024 .f32)), { LS0 : List (View.Piece (Elt F) S15x1024 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__group_sum_kernel i arg2 harg2 arg3 harg3 arg4 harg4) K } := by
  refine ⟨?_, ?_, fun E K => ?run⟩
  case run =>
    simp only [cc0__group_sum_kernel_eq_skeleton]; unfold cc0__group_sum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Fr

end
-- ==== Proof.KIBody.lean ====
/-
  What the kernel body leaves, case by case and point by point, and the body's obligation to the pipeline.
  Per case: what the body leaves in the output's staging buffer and in the scratch accumulator (the pieces its
  stores wrote, read back). Point by point: the scratch after point t is the case's result over what point
  t - 1 left (at bi = 0 the scratch is first zeroed, so nothing earlier matters); the output block is stored
  only at bi = 3. With these as the proof data — the input block in place, the invariant carrying the scratch
  at the point before's contents — the body meets its obligation at every point.
-/
import proofs.«135479_j53618371723721_2_alg».proof.Proof.KIRunC

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- bi = 0 stores nothing into the output block: a placeholder nothing consults (the window is idle and not
    written back there). -/
def out0_A_1 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : cond0_0 i) (hc1 : ¬cond0_1 i)
    (x0 : Vec F S128x15x1024 .f32) : Vec F S15x1024 .f32 :=
  VO0_1.read (Elt F) (VO0_1.writes (Elt F) VO0_1.junk (kernelRun0_A c i arg2 harg2 arg3 harg3 arg4 harg4 hc0 hc1 x0).1)

/-- bi = 0: the scratch's pieces cover it. -/
theorem scover0_A_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : cond0_0 i) (hc1 : ¬cond0_1 i)
    (x0 : Vec F S128x15x1024 .f32) (y : S15x1024.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S15x1024.size (by sl_kernel_rfl) y

/-- bi = 0: what the scratch holds afterwards. -/
def sout0_A_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : cond0_0 i) (hc1 : ¬cond0_1 i)
    (x0 : Vec F S128x15x1024 .f32) : Vec F S15x1024 .f32 :=
  VS0_0.read (Elt F) (VS0_0.writes (Elt F) VS0_0.junk (kernelRun0_A c i arg2 harg2 arg3 harg3 arg4 harg4 hc0 hc1 x0).2.1)

/-- bi = 1, 2 store nothing into the output block either. -/
def out0_B_1 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : ¬cond0_1 i)
    (x0 : Vec F S128x15x1024 .f32) (xs0 : Vec F S15x1024 .f32) : Vec F S15x1024 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : ¬cond0_1 i)
    (x0 : Vec F S128x15x1024 .f32) (xs0 : Vec F S15x1024 .f32) (y : S15x1024.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S15x1024.size (by sl_kernel_rfl) y

/-- bi = 1, 2: what the scratch holds afterwards, over what it held before (`xs0`). -/
def sout0_B_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : ¬cond0_1 i)
    (x0 : Vec F S128x15x1024 .f32) (xs0 : Vec F S15x1024 .f32) : Vec F S15x1024 .f32 :=
  VS0_0.read (Elt F) (VS0_0.writes (Elt F) VS0_0.junk (kernelRun0_B c i arg2 harg2 arg3 harg3 arg4 harg4 hc0 hc1 x0 xs0).2.1)

/-- bi = 3: the one store into the output block covers it. -/
theorem cover0_C_1 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : cond0_1 i)
    (x0 : Vec F S128x15x1024 .f32) (xs0 : Vec F S15x1024 .f32) (y : S15x1024.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S15x1024.size (by sl_kernel_rfl) y

/-- bi = 3: what the output's staging buffer holds afterwards. -/
def out0_C_1 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : cond0_1 i)
    (x0 : Vec F S128x15x1024 .f32) (xs0 : Vec F S15x1024 .f32) : Vec F S15x1024 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : cond0_1 i)
    (x0 : Vec F S128x15x1024 .f32) (xs0 : Vec F S15x1024 .f32) (y : S15x1024.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S15x1024.size (by sl_kernel_rfl) y

/-- bi = 3: what the scratch holds afterwards. -/
def sout0_C_0 (c : Dev nD) (i : grid0.Coords) (arg2 : Memref sig .tc .vmem S128x15x1024 .f32) (harg2 : arg2.IsWhole) (arg3 : Memref sig .tc .vmem S15x1024 .f32) (harg3 : arg3.IsWhole) (arg4 : Memref sig .tc .vmem S15x1024 .f32) (harg4 : arg4.IsWhole) (hc0 : ¬cond0_0 i) (hc1 : cond0_1 i)
    (x0 : Vec F S128x15x1024 .f32) (xs0 : Vec F S15x1024 .f32) : Vec F S15x1024 .f32 :=
  VS0_0.read (Elt F) (VS0_0.writes (Elt F) VS0_0.junk (kernelRun0_C c i arg2 harg2 arg3 harg3 arg4 harg4 hc0 hc1 x0 xs0).2.1)

/-! ## The accumulation, point by point -/

/-- What the output's staging buffer (first component) and the scratch (second) hold after the body at
    position `n`: the case n mod 4 selects, run on the point's input block, the scratch taken from position
    n - 1 where the case reads it. No point is both first and last of its column block. -/
def outsAt0 (c : Dev nD) : (n : ℕ) → n < cfg0.N → Vec F S15x1024 .f32 × Vec F S15x1024 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- At a point with bi = 0. -/
theorem outsAt0_A (c : Dev nD) (t : Fin cfg0.N) (h0 : t.val % 4 = 0) (h1 : ¬t.val % 4 = 3) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- At a point with bi = 1, 2: over what the point before left. -/
theorem outsAt0_B (c : Dev nD) (t : Fin cfg0.N) (h0 : ¬t.val % 4 = 0) (h1 : ¬t.val % 4 = 3) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with bi = 3: over what the point before left. -/
theorem outsAt0_C (c : Dev nD) (t : Fin cfg0.N) (h0 : ¬t.val % 4 = 0) (h1 : t.val % 4 = 3) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start what the launch hands over (the scratch at anything); afterwards the
    scratch at what position n - 1 left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- On core `c`: the arrays as the region finds them; after the body at point `t` the input's buffer at its
    block and the output's at the accumulation's first component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's memref holds its block; the closed forms say which case the point is in;
    the invariant hands the body the scratch at what the point before left (at anything at the very first
    point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

end Cert.KernelIdeal.Fr

end
-- ==== Proof.KITail.lean ====
/-
  The host operations that follow the kernel program's region, as the frame needs them. The program's @main is seven
  host operations (six constant tables and the reshape of the argument), the region, and then twenty-seven
  stretches of host operations ending in the scalar result. For the frame it is enough to know of every
  operation after the region that it touches unscoped TensorCore buffers only, allocates nothing, and writes
  neither array of the pipeline (the reshaped argument and the group means): each writes its own result
  buffer, a reference different from both. The facts are proved once per stretch, uniformly over its
  operations, and assembled over the list of stretches. The contents the region is entered with are the
  launch memory at the argument, the six literal tables, and the reshape of the argument.
-/
import proofs.«135479_j53618371723721_2_alg».proof.Proof.KIV
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## One operation after the region -/

/-- The pipeline has two arrays: the reshaped argument and the group means. -/
theorem arr_cases : ∀ w, Pipeline.arrRef spec0 w = main_v0 ∨ Pipeline.arrRef spec0 w = main_v1 := by decide

/-- An operation that writes exactly one buffer, a reference other than the two arrays, writes no array of the pipeline. -/
theorem keeps_of_writes {op : HloOp τ sig (Elt F)} {y : Ref sig .tc} (hw : op.writes = {Proc.devRef .tc y})
    (h0 : main_v0 ≠ y) (h1 : main_v1 ≠ y) : ∀ w, Proc.devRef .tc (Pipeline.arrRef spec0 w) ∉ op.writes := by
  intro w
  rw [hw, Finset.mem_singleton]
  rcases arr_cases w with e | e <;> rw [e]
  · exact StableHlo.devRef_ne_of_ne h0
  · exact StableHlo.devRef_ne_of_ne h1

/-- An operation that writes exactly one buffer does not write a different reference. -/
theorem not_writes_of {op : HloOp τ sig (Elt F)} {r y : Ref sig .tc} (hw : op.writes = {Proc.devRef .tc y})
    (h : r ≠ y) : Proc.devRef .tc r ∉ op.writes := by
  rw [hw, Finset.mem_singleton]; exact StableHlo.devRef_ne_of_ne h

/-- What the frame asks of an operation after the region, beyond the buffers it touches: it allocates nothing, writes
    no array of the pipeline, and does not write the argument. -/
abbrev Quiet (op : HloOp τ sig (Elt F)) : Prop :=
  op.fresh = ∅ ∧ (∀ w, Proc.devRef .tc (Pipeline.arrRef spec0 w) ∉ op.writes) ∧ Proc.devRef .tc main_arg0 ∉ op.writes

/-- Closes `ops.Forall Quiet` for a literal stretch: the conjunction is split operation by operation, and each
    operation allocates nothing by computation and writes its own result buffer only, told apart from the two arrays
    and from the argument as references. -/
macro "quiet_stretch" : tactic =>
  `(tactic| repeat' (first
      | exact ⟨rfl, keeps_of_writes rfl (by decide) (by decide), not_writes_of rfl (by decide)⟩
      | apply And.intro))

/-! ## The stretches -/

theorem hostOps1_quiet : (hostOps1 : List (HloOp τ sig (Elt F))).Forall Quiet := by quiet_stretch
theorem hostOps1_1_quiet : (hostOps1_1 : List (HloOp τ sig (Elt F))).Forall Quiet := by quiet_stretch
theorem hostOps1_2_quiet : (hostOps1_2 : List (HloOp τ sig (Elt F))).Forall Quiet := by quiet_stretch
theorem hostOps1_3_quiet : (hostOps1_3 : List (HloOp τ sig (Elt F))).Forall Quiet := by quiet_stretch
theorem hostOps1_4_quiet : (hostOps1_4 : List (HloOp τ sig (Elt F))).Forall Quiet := by quiet_stretch
theorem hostOps1_5_quiet : (hostOps1_5 : List (HloOp τ sig (Elt F))).Forall Quiet := by quiet_stretch
theorem hostOps1_6_quiet : (hostOps1_6 : List (HloOp τ sig (Elt F))).Forall Quiet := by quiet_stretch
theorem hostOps1_7_quiet : (hostOps1_7 : List (HloOp τ sig (Elt F))).Forall Quiet := by quiet_stretch
theorem hostOps1_8_quiet : (hostOps1_8 : List (HloOp τ sig (Elt F))).Forall Quiet := by quiet_stretch
theorem hostOps1_9_quiet : (hostOps1_9 : List (HloOp τ sig (Elt F))).Forall Quiet := by quiet_stretch
theorem hostOps1_10_quiet : (hostOps1_10 : List (HloOp τ sig (Elt F))).Forall Quiet := by quiet_stretch
theorem hostOps1_11_quiet : (hostOps1_11 : List (HloOp τ sig (Elt F))).Forall Quiet := by quiet_stretch
theorem hostOps1_12_quiet : (hostOps1_12 : List (HloOp τ sig (Elt F))).Forall Quiet := by quiet_stretch
theorem hostOps1_13_quiet : (hostOps1_13 : List (HloOp τ sig (Elt F))).Forall Quiet := by quiet_stretch
theorem hostOps1_14_quiet : (hostOps1_14 : List (HloOp τ sig (Elt F))).Forall Quiet := by quiet_stretch
theorem hostOps1_15_quiet : (hostOps1_15 : List (HloOp τ sig (Elt F))).Forall Quiet := by quiet_stretch
theorem hostOps1_16_quiet : (hostOps1_16 : List (HloOp τ sig (Elt F))).Forall Quiet := by quiet_stretch
theorem hostOps1_17_quiet : (hostOps1_17 : List (HloOp τ sig (Elt F))).Forall Quiet := by quiet_stretch
theorem hostOps1_18_quiet : (hostOps1_18 : List (HloOp τ sig (Elt F))).Forall Quiet := by quiet_stretch
theorem hostOps1_19_quiet : (hostOps1_19 : List (HloOp τ sig (Elt F))).Forall Quiet := by quiet_stretch
theorem hostOps1_20_quiet : (hostOps1_20 : List (HloOp τ sig (Elt F))).Forall Quiet := by quiet_stretch
theorem hostOps1_21_quiet : (hostOps1_21 : List (HloOp τ sig (Elt F))).Forall Quiet := by quiet_stretch
theorem hostOps1_22_quiet : (hostOps1_22 : List (HloOp τ sig (Elt F))).Forall Quiet := by quiet_stretch
theorem hostOps1_23_quiet : (hostOps1_23 : List (HloOp τ sig (Elt F))).Forall Quiet := by quiet_stretch
theorem hostOps1_24_quiet : (hostOps1_24 : List (HloOp τ sig (Elt F))).Forall Quiet := by quiet_stretch
theorem hostOps1_25_quiet : (hostOps1_25 : List (HloOp τ sig (Elt F))).Forall Quiet := by quiet_stretch
theorem hostOps1_26_quiet : (hostOps1_26 : List (HloOp τ sig (Elt F))).Forall Quiet := by quiet_stretch

/-- Every stretch after the region is quiet. -/
theorem tail_quiet : (tailOpss : List (List (HloOp τ sig (Elt F)))).Forall fun ops => ops.Forall Quiet :=
  ⟨hostOps1_quiet, hostOps1_1_quiet, hostOps1_2_quiet, hostOps1_3_quiet, hostOps1_4_quiet, hostOps1_5_quiet, hostOps1_6_quiet, hostOps1_7_quiet, hostOps1_8_quiet, hostOps1_9_quiet, hostOps1_10_quiet, hostOps1_11_quiet, hostOps1_12_quiet, hostOps1_13_quiet, hostOps1_14_quiet, hostOps1_15_quiet, hostOps1_16_quiet, hostOps1_17_quiet, hostOps1_18_quiet, hostOps1_19_quiet, hostOps1_20_quiet, hostOps1_21_quiet, hostOps1_22_quiet, hostOps1_23_quiet, hostOps1_24_quiet, hostOps1_25_quiet, hostOps1_26_quiet⟩

/-- Every stretch after the region touches TensorCore references only. -/
theorem tail_sub : (tailOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub⟩

theorem hostOps0_fresh : (hostOps0 : List (HloOp τ sig (Elt F))).Forall fun op => op.fresh = ∅ :=
  ⟨rfl, rfl, rfl, rfl, rfl, rfl, rfl⟩

variable (m : (ℓ : Loc nD τ sig) → Buf (Elt F) ℓ)

/-! ## @main around the region -/

/-- @main around the region: the seven host operations before it, the region, the stretches after it: it reduces to the
    region continued by the later stretches, at the contents after the earlier operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss hostOps0_sub hostOps0_fresh main_chain

/-- The operations after the region touch the pipeline's arrays and the buffers that bypass the region only: each
    operation's buffers are unscoped TensorCore references, and with nothing prefetched every such reference is one or
    the other. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)

/-- They allocate nothing. -/
theorem sfx_fresh : ∀ ops ∈ (tailOpss : List (List (HloOp τ sig (Elt F)))), ∀ op ∈ ops, op.fresh = ∅ :=
  fun ops hops op hop => ((List.forall_iff_forall_mem.mp ((List.forall_iff_forall_mem.mp tail_quiet) ops hops)) op hop).1

/-- And write no array of the pipeline. -/
theorem sfx_keeps : ∀ ops ∈ (tailOpss : List (List (HloOp τ sig (Elt F)))), ∀ op ∈ ops,
    ∀ w, Proc.devRef .tc (Pipeline.arrRef spec0 w) ∉ op.writes :=
  fun ops hops op hop => ((List.forall_iff_forall_mem.mp ((List.forall_iff_forall_mem.mp tail_quiet) ops hops)) op hop).2.1

/-- Nor the argument. -/
theorem tail_keeps_arg0 : ∀ op ∈ (tailOpss : List (List (HloOp τ sig (Elt F)))).flatten, Proc.devRef .tc main_arg0 ∉ op.writes := by
  intro op hop
  obtain ⟨ops, hops, hop⟩ := List.mem_flatten.mp hop
  exact ((List.forall_iff_forall_mem.mp ((List.forall_iff_forall_mem.mp tail_quiet) ops hops)) op hop).2.2

/-! ## The contents the region is entered with, and the argument at the end -/

/-- The contents the region is entered with: the launch memory after the seven operations before the region. -/
theorem V0_eq (c : Dev nD) : V0 m c = StableHlo.after hostOps0 (fun b => m (c, b)) := by
  show StableHlo.after (List.flatten [hostOps0]) _ = _
  rw [List.flatten_cons, List.flatten_nil, List.append_nil]

/-- No operation before the region writes the argument: the region finds it as launched. -/
theorem V_main_arg0 (c : Dev nD) : V m c main_arg0 = m ((c : Thread nD τ).loc main_arg0) := by
  show V0 m c (Proc.devRef .tc main_arg0) = _
  rw [V0_eq]; dsimp only [hostOps0]
  after_results <;> rfl

/-- No operation after the region writes the argument: it ends as launched. -/
theorem W_main_arg0 (dats : (p : Fin 1) → (c : Dev nD) → Pipeline.Dat τ (Elt F) Unit ℕ (UR sig nD τ) ℕ (cfgs p) c) (c : Dev nD) :
    Pipeline.afterTail₀ cfgs dats 0 (V0 m) tailOpss c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c

/-- The first array of the pipeline is the argument reshaped to [512, 15, 4096]. -/
theorem V_main_v0 (c : Dev nD) : V m c main_v0
    = (shapeCast S512x15x4096 (m ((c : Thread nD τ).loc main_arg0)) shapeCasts_S7680x4096_S512x15x4096 : (⟨S512x15x4096, .f32⟩ : BufTy).Contents (Elt F)) := by
  show V0 m c (Proc.devRef .tc main_v0) = _
  rw [V0_eq]; dsimp only [hostOps0]
  after_results <;> rfl

/-- The six integer tables are the printed literals. -/
theorem V_main_c (c : Dev nD) : V m c main_c = (fun i => lit0 (S3.rowMajor i)) := by
  show V0 m c (Proc.devRef .tc main_c) = _
  rw [V0_eq]; dsimp only [hostOps0]
  after_results <;> rfl
theorem V_main_c_0 (c : Dev nD) : V m c main_c_0 = (fun i => lit1 (S2.rowMajor i)) := by
  show V0 m c (Proc.devRef .tc main_c_0) = _
  rw [V0_eq]; dsimp only [hostOps0]
  after_results <;> rfl
theorem V_main_c_1 (c : Dev nD) : V m c main_c_1 = constantI S1 32 5#32 := by
  show V0 m c (Proc.devRef .tc main_c_1) = _
  rw [V0_eq]; dsimp only [hostOps0]
  after_results <;> rfl
theorem V_main_c_2 (c : Dev nD) : V m c main_c_2 = (fun i => lit2 (S4.rowMajor i)) := by
  show V0 m c (Proc.devRef .tc main_c_2) = _
  rw [V0_eq]; dsimp only [hostOps0]
  after_results <;> rfl
theorem V_main_c_3 (c : Dev nD) : V m c main_c_3 = (fun i => lit3 (S2.rowMajor i)) := by
  show V0 m c (Proc.devRef .tc main_c_3) = _
  rw [V0_eq]; dsimp only [hostOps0]
  after_results <;> rfl
theorem V_main_c_4 (c : Dev nD) : V m c main_c_4 = (fun i => lit4 (S3.rowMajor i)) := by
  show V0 m c (Proc.devRef .tc main_c_4) = _
  rw [V0_eq]; dsimp only [hostOps0]
  after_results <;> rfl

end Cert.KernelIdeal.Fr

end
-- ==== Proof.KIFrame.lean ====
/-
  The frame of the kernel program: the region runs (the body meets its obligation at every point), the host
  operations after it run — they touch unscoped buffers only, allocate nothing and write no array of the
  pipeline —, and the argument array, which neither the region nor any host operation writes, ends unchanged.
-/
import proofs.«135479_j53618371723721_2_alg».proof.Proof.KIBody
import proofs.«135479_j53618371723721_2_alg».proof.Proof.KITail

-- membership in a rectangle of these extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- From any memory with zero counters every weakly fair execution of @main terminates, and every final state
    has each array of the pipeline at what the library computes from the proof data and every other unscoped
    buffer as the host operations after the region leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hin := hin m) (hout := hout m)

/-- The frame: the argument array is the input window's array read back, which the region leaves as it found
    it, and the seven operations before the region do not write it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m (dats m) c))) (run_main m ρ)

end Cert.KernelIdeal.Fr

end
-- ==== Proof.RefOps.lean ====
import proofs.«135479_j53618371723721_2_alg».proof.Proof.Gen.ReferenceIdeal
import Idealize.ShloMosaic.Lib.StableHlo.Run

noncomputable section

namespace Cert.ReferenceIdeal.Ops

open Idealize.ShloMosaic Idealize.SL.Sem
open Cert.ReferenceIdeal Cert.ReferenceIdeal.Gen

variable {F : FTy → Type} [FloatOps F]

/-! The reference's @main as one list of host operations, in program order: each element is the operation of one
    printed line; a call of a module-local function is replaced by the callee's own operations, its parameters
    substituted by the operands and its values read off the call's record (nested calls likewise). The list is cut
    after the operation that writes the group means (main_v4). -/

/-- The first 13 operations: the six integer tables, the reshape, the transpose, the reduction over the batch axis and the division by 512 — the group means main_v4. -/
abbrev headOps : List (HloOp τ sig (Elt F)) :=
  [ StableHlo.nullary main_c (fun i => lit0 (S3.rowMajor i)),
    StableHlo.nullary main_c_0 (fun i => lit1 (S2.rowMajor i)),
    StableHlo.nullary main_c_1 (constantI S1 32 5#32),
    StableHlo.nullary main_c_2 (fun i => lit2 (S4.rowMajor i)),
    StableHlo.nullary main_c_3 (fun i => lit3 (S2.rowMajor i)),
    StableHlo.nullary main_c_4 (fun i => lit4 (S3.rowMajor i)),
    StableHlo.reshape main_arg0 main_v0 rfl shapeCasts_S7680x4096_S512x15x4096,
    StableHlo.unary main_v0 main_v1 ((transpose S15x512x4096 [1, 0, 2] · transposes_S512x15x4096_S15x512x4096_1_0_2) : (⟨S512x15x4096, .f32⟩ : BufTy).Contents (Elt F) → (⟨S15x512x4096, .f32⟩ : BufTy).Contents (Elt F)),
    StableHlo.nullary main_cst (constant S_ .f32 0x00000000#32),
    StableHlo.binary main_v1 main_cst main_v2 ((fun x v => Host.reduceAdd x v reducesTo_S15x512x4096_S15x4096_d1 h_S_) : (⟨S15x512x4096, .f32⟩ : BufTy).Contents (Elt F) → (⟨S_, .f32⟩ : BufTy).Contents (Elt F) → (⟨S15x4096, .f32⟩ : BufTy).Contents (Elt F)),
    StableHlo.nullary main_cst_5 (constant S_ .f32 0x44000000#32),
    StableHlo.unary main_cst_5 main_v3 (broadcastInDim S15x4096 ![] bcast_S_S15x4096 : (⟨S_, .f32⟩ : BufTy).Contents (Elt F) → (⟨S15x4096, .f32⟩ : BufTy).Contents (Elt F)),
    StableHlo.binary main_v2 main_v3 main_v4 (Host.divf : (⟨S15x4096, .f32⟩ : BufTy).Contents (Elt F) → (⟨S15x4096, .f32⟩ : BufTy).Contents (Elt F) → (⟨S15x4096, .f32⟩ : BufTy).Contents (Elt F)) ]
/-- Each touches TensorCore references only. -/
theorem headOps_sub : (headOps : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.nullary_bufs_sub .., StableHlo.nullary_bufs_sub .., StableHlo.reshape_bufs_sub .., StableHlo.unary_bufs_sub .., StableHlo.nullary_bufs_sub .., StableHlo.binary_bufs_sub .., StableHlo.nullary_bufs_sub .., StableHlo.unary_bufs_sub .., StableHlo.binary_bufs_sub ..⟩
/-- Each determines everything it writes. -/
theorem headOps_fresh : (headOps : List (HloOp τ sig (Elt F))).Forall fun op => op.fresh = ∅ :=
  ⟨rfl, rfl, rfl, rfl, rfl, rfl, rfl, rfl, rfl, rfl, rfl, rfl, rfl⟩

/-- The operations after the group means that come from @main's statements window 0 (109 operations). -/
abbrev tailOps0 : List (HloOp τ sig (Elt F)) :=
  [ StableHlo.nullary main_cst_6 (constant S_ .f32 0x00000000#32),
    StableHlo.binary main_v4 main_cst_6 main_v5 ((fun x v => Host.reduceAdd x v reducesTo_S15x4096_S15_d1 h_S_) : (⟨S15x4096, .f32⟩ : BufTy).Contents (Elt F) → (⟨S_, .f32⟩ : BufTy).Contents (Elt F) → (⟨S15, .f32⟩ : BufTy).Contents (Elt F)),
    StableHlo.nullary main_cst_7 (constant S_ .f32 0x45800000#32),
    StableHlo.unary main_cst_7 main_v6 (broadcastInDim S15 ![] bcast_S_S15 : (⟨S_, .f32⟩ : BufTy).Contents (Elt F) → (⟨S15, .f32⟩ : BufTy).Contents (Elt F)),
    StableHlo.binary main_v5 main_v6 main_v7 (Host.divf : (⟨S15, .f32⟩ : BufTy).Contents (Elt F) → (⟨S15, .f32⟩ : BufTy).Contents (Elt F) → (⟨S15, .f32⟩ : BufTy).Contents (Elt F)),
    StableHlo.nullary main_c_8 (constantI S_ 32 1#32),
    StableHlo.TRef.nullary main_call0.call0.cst (constant S_ .f32 0x00000000#32),
    StableHlo.TRef.binary (.of main_v4 : StableHlo.TRef sig ⟨S15x4096, .f32⟩) main_call0.call0.cst main_call0.call0.v0 (fun x v => Host.reduceAdd x v reducesTo_S15x4096_S15_d1 h_S_),
    StableHlo.TRef.unary main_call0.call0.v0 main_call0.call0.v1 (broadcastInDim S15x1 ![0] bcast_S15_S15x1_0),
    StableHlo.TRef.nullary main_call0.call0.cst_0 (constant S_ .f32 0x45800000#32),
    StableHlo.TRef.unary main_call0.call0.cst_0 main_call0.call0.v2 (broadcastInDim S15x1 ![] bcast_S_S15x1),
    StableHlo.TRef.binary main_call0.call0.v1 main_call0.call0.v2 main_call0.call0.v3 Host.divf,
    StableHlo.TRef.unary main_call0.call0.v3 main_call0.call0.v4 (broadcastInDim S15x4096 ![0, 1] bcast_S15x1_S15x4096_0_1),
    StableHlo.TRef.binary (.of main_v4 : StableHlo.TRef sig ⟨S15x4096, .f32⟩) main_call0.call0.v4 main_call0.call0.v5 subf,
    StableHlo.TRef.binary main_call0.call0.v5 main_call0.call0.v5 main_call0.call0.v6 mulf,
    StableHlo.TRef.unary (.of main_c_8 : StableHlo.TRef sig ⟨S_, .i32⟩) main_call0.call0.v7 (sitofp .f32),
    StableHlo.TRef.nullary main_call0.call0.cst_1 (constant S_ .f32 0x45800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S15x4096_S15_d1 h_S_),
    StableHlo.TRef.unary main_call0.call0.v8 main_call0.call0.v10 (broadcastInDim S15 ![] bcast_S_S15),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S15 ![] bcast_S_S15),
    StableHlo.TRef.ternary main_call0.call0.v12 main_call0.call0.v11 main_call0.call0.call0.v1 main_call0.call0.call0.v2 (fun p a b => select (broadcastInDim S15 ![] bcast_S_S15 p) a b),
    StableHlo.TRef.unary main_call0.call0.call0.v2 main_call0.v1 Host.sqrt,
    StableHlo.nullary main_c_9 (constantI S_ 32 0#32),
    StableHlo.unary main_c_9 main_v9 (broadcastInDim S3 ![] bcast_S_S3 : (⟨S_, .i32⟩ : BufTy).Contents (Elt F) → (⟨S3, .i32⟩ : BufTy).Contents (Elt F)),
    StableHlo.binary main_c main_v9 main_v10 (cmpi .slt : (⟨S3, .i32⟩ : BufTy).Contents (Elt F) → (⟨S3, .i32⟩ : BufTy).Contents (Elt F) → (⟨S3, .i1⟩ : BufTy).Contents (Elt F)),
    StableHlo.nullary main_c_10 (constantI S_ 32 15#32),
    StableHlo.unary main_c_10 main_v11 (broadcastInDim S3 ![] bcast_S_S3 : (⟨S_, .i32⟩ : BufTy).Contents (Elt F) → (⟨S3, .i32⟩ : BufTy).Contents (Elt F)),
    StableHlo.binary main_c main_v11 main_v12 (addi : (⟨S3, .i32⟩ : BufTy).Contents (Elt F) → (⟨S3, .i32⟩ : BufTy).Contents (Elt F) → (⟨S3, .i32⟩ : BufTy).Contents (Elt F)),
    StableHlo.ternary main_v10 main_v12 main_c main_v13 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v13 main_v14 (broadcastInDim S3x1 ![0] bcast_S3_S3x1_0 : (⟨S3, .i32⟩ : BufTy).Contents (Elt F) → (⟨S3x1, .i32⟩ : BufTy).Contents (Elt F)),
    StableHlo.binary main_v8 main_v14 main_v15 ((fun x i => Host.gather gather_S15_S3x1_S3_n_0_n_n_0_1_1 x i) : (⟨S15, .f32⟩ : BufTy).Contents (Elt F) → (⟨S3x1, .i32⟩ : BufTy).Contents (Elt F) → (⟨S3, .f32⟩ : BufTy).Contents (Elt F)),
    StableHlo.nullary main_c_11 (constantI S_ 32 0#32),
    StableHlo.unary main_c_11 main_v16 (broadcastInDim S3 ![] bcast_S_S3 : (⟨S_, .i32⟩ : BufTy).Contents (Elt F) → (⟨S3, .i32⟩ : BufTy).Contents (Elt F)),
    StableHlo.binary main_c main_v16 main_v17 (cmpi .slt : (⟨S3, .i32⟩ : BufTy).Contents (Elt F) → (⟨S3, .i32⟩ : BufTy).Contents (Elt F) → (⟨S3, .i1⟩ : BufTy).Contents (Elt F)),
    StableHlo.nullary main_c_12 (constantI S_ 32 15#32),
    StableHlo.unary main_c_12 main_v18 (broadcastInDim S3 ![] bcast_S_S3 : (⟨S_, .i32⟩ : BufTy).Contents (Elt F) → (⟨S3, .i32⟩ : BufTy).Contents (Elt F)),
    StableHlo.binary main_c main_v18 main_v19 (addi : (⟨S3, .i32⟩ : BufTy).Contents (Elt F) → (⟨S3, .i32⟩ : BufTy).Contents (Elt F) → (⟨S3, .i32⟩ : BufTy).Contents (Elt F)),
    StableHlo.ternary main_v17 main_v19 main_c main_v20 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v20 main_v21 (broadcastInDim S3x1 ![0] bcast_S3_S3x1_0 : (⟨S3, .i32⟩ : BufTy).Contents (Elt F) → (⟨S3x1, .i32⟩ : BufTy).Contents (Elt F)),
    StableHlo.binary main_v7 main_v21 main_v22 ((fun x i => Host.gather gather_S15_S3x1_S3_n_0_n_n_0_1_1 x i) : (⟨S15, .f32⟩ : BufTy).Contents (Elt F) → (⟨S3x1, .i32⟩ : BufTy).Contents (Elt F) → (⟨S3, .f32⟩ : BufTy).Contents (Elt F)),
    StableHlo.nullary main_c_13 (constantI S_ 32 1#32),
    StableHlo.TRef.nullary main_call1.call0.cst (constant S_ .f32 0x00000000#32),
    StableHlo.TRef.binary (.of main_v15 : StableHlo.TRef sig ⟨S3, .f32⟩) main_call1.call0.cst main_call1.call0.v0 (fun x v => Host.reduceAdd x v reducesTo_S3_S_d0 h_S_),
    StableHlo.TRef.unary main_call1.call0.v0 main_call1.call0.v1 (broadcastInDim S1 ![] bcast_S_S1),
    StableHlo.TRef.nullary main_call1.call0.cst_0 (constant S_ .f32 0x40400000#32),
    StableHlo.TRef.unary main_call1.call0.cst_0 main_call1.call0.v2 (broadcastInDim S1 ![] bcast_S_S1),
    StableHlo.TRef.binary main_call1.call0.v1 main_call1.call0.v2 main_call1.call0.v3 Host.divf,
    StableHlo.TRef.unary main_call1.call0.v3 main_call1.call0.v4 (broadcastInDim S3 ![0] bcast_S1_S3_0),
    StableHlo.TRef.binary (.of main_v15 : StableHlo.TRef sig ⟨S3, .f32⟩) main_call1.call0.v4 main_call1.call0.v5 subf,
    StableHlo.TRef.binary main_call1.call0.v5 main_call1.call0.v5 main_call1.call0.v6 mulf,
    StableHlo.TRef.unary (.of main_c_13 : StableHlo.TRef sig ⟨S_, .i32⟩) main_call1.call0.v7 (sitofp .f32),
    StableHlo.TRef.nullary main_call1.call0.cst_1 (constant S_ .f32 0x40400000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S3_S_d0 h_S_),
    StableHlo.TRef.binary main_call1.call0.v9 main_call1.call0.v8 main_call1.call0.v10 Host.divf,
    StableHlo.TRef.nullary main_call1.call0.cst_3 (constant S_ .f32 0x00000000#32),
    StableHlo.TRef.binary main_call1.call0.v8 main_call1.call0.cst_3 main_call1.call0.v11 (cmpf .ogt),
    StableHlo.TRef.nullary main_call1.call0.cst_4 (constant S_ .f32 0x7FC00000#32),
    StableHlo.TRef.unary main_call1.call0.cst_4 main_call1.call0.call0.v0 id,
    StableHlo.TRef.ternary main_call1.call0.v11 main_call1.call0.v10 main_call1.call0.call0.v0 main_call1.call0.call0.v1 select,
    StableHlo.TRef.unary main_call1.call0.call0.v1 main_call1.v1 Host.sqrt,
    StableHlo.nullary main_c_14 (constantI S_ 32 1#32),
    StableHlo.TRef.nullary main_call2.call0.cst (constant S_ .f32 0x00000000#32),
    StableHlo.TRef.binary (.of main_v22 : StableHlo.TRef sig ⟨S3, .f32⟩) main_call2.call0.cst main_call2.call0.v0 (fun x v => Host.reduceAdd x v reducesTo_S3_S_d0 h_S_),
    StableHlo.TRef.unary main_call2.call0.v0 main_call2.call0.v1 (broadcastInDim S1 ![] bcast_S_S1),
    StableHlo.TRef.nullary main_call2.call0.cst_0 (constant S_ .f32 0x40400000#32),
    StableHlo.TRef.unary main_call2.call0.cst_0 main_call2.call0.v2 (broadcastInDim S1 ![] bcast_S_S1),
    StableHlo.TRef.binary main_call2.call0.v1 main_call2.call0.v2 main_call2.call0.v3 Host.divf,
    StableHlo.TRef.unary main_call2.call0.v3 main_call2.call0.v4 (broadcastInDim S3 ![0] bcast_S1_S3_0),
    StableHlo.TRef.binary (.of main_v22 : StableHlo.TRef sig ⟨S3, .f32⟩) main_call2.call0.v4 main_call2.call0.v5 subf,
    StableHlo.TRef.binary main_call2.call0.v5 main_call2.call0.v5 main_call2.call0.v6 mulf,
    StableHlo.TRef.unary (.of main_c_14 : StableHlo.TRef sig ⟨S_, .i32⟩) main_call2.call0.v7 (sitofp .f32),
    StableHlo.TRef.nullary main_call2.call0.cst_1 (constant S_ .f32 0x40400000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S3_S_d0 h_S_),
    StableHlo.TRef.binary main_call2.call0.v9 main_call2.call0.v8 main_call2.call0.v10 Host.divf,
    StableHlo.TRef.nullary main_call2.call0.cst_3 (constant S_ .f32 0x00000000#32),
    StableHlo.TRef.binary main_call2.call0.v8 main_call2.call0.cst_3 main_call2.call0.v11 (cmpf .ogt),
    StableHlo.TRef.nullary main_call2.call0.cst_4 (constant S_ .f32 0x7FC00000#32),
    StableHlo.TRef.unary main_call2.call0.cst_4 main_call2.call0.call0.v0 id,
    StableHlo.TRef.ternary main_call2.call0.v11 main_call2.call0.v10 main_call2.call0.call0.v0 main_call2.call0.call0.v1 select,
    StableHlo.TRef.unary main_call2.call0.call0.v1 main_call2.v1 Host.sqrt,
    StableHlo.nullary main_cst_15 (constant S_ .f32 0x00000000#32),
    StableHlo.binary main_v22 main_cst_15 main_v25 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_16 (constant S_ .f32 0x40400000#32),
    StableHlo.binary main_v25 main_cst_16 main_v26 (Host.divf : (⟨S_, .f32⟩ : BufTy).Contents (Elt F) → (⟨S_, .f32⟩ : BufTy).Contents (Elt F) → (⟨S_, .f32⟩ : BufTy).Contents (Elt F)),
    StableHlo.nullary main_c_17 (constantI S_ 32 0#32),
    StableHlo.unary main_c_17 main_v27 (broadcastInDim S2 ![] bcast_S_S2 : (⟨S_, .i32⟩ : BufTy).Contents (Elt F) → (⟨S2, .i32⟩ : BufTy).Contents (Elt F)),
    StableHlo.binary main_c_0 main_v27 main_v28 (cmpi .slt : (⟨S2, .i32⟩ : BufTy).Contents (Elt F) → (⟨S2, .i32⟩ : BufTy).Contents (Elt F) → (⟨S2, .i1⟩ : BufTy).Contents (Elt F)),
    StableHlo.nullary main_c_18 (constantI S_ 32 15#32),
    StableHlo.unary main_c_18 main_v29 (broadcastInDim S2 ![] bcast_S_S2 : (⟨S_, .i32⟩ : BufTy).Contents (Elt F) → (⟨S2, .i32⟩ : BufTy).Contents (Elt F)),
    StableHlo.binary main_c_0 main_v29 main_v30 (addi : (⟨S2, .i32⟩ : BufTy).Contents (Elt F) → (⟨S2, .i32⟩ : BufTy).Contents (Elt F) → (⟨S2, .i32⟩ : BufTy).Contents (Elt F)),
    StableHlo.ternary main_v28 main_v30 main_c_0 main_v31 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v31 main_v32 (broadcastInDim S2x1 ![0] bcast_S2_S2x1_0 : (⟨S2, .i32⟩ : BufTy).Contents (Elt F) → (⟨S2x1, .i32⟩ : BufTy).Contents (Elt F)),
    StableHlo.binary main_v8 main_v32 main_v33 ((fun x i => Host.gather gather_S15_S2x1_S2_n_0_n_n_0_1_1 x i) : (⟨S15, .f32⟩ : BufTy).Contents (Elt F) → (⟨S2x1, .i32⟩ : BufTy).Contents (Elt F) → (⟨S2, .f32⟩ : BufTy).Contents (Elt F)),
    StableHlo.nullary main_c_19 (constantI S_ 32 0#32),
    StableHlo.unary main_c_19 main_v34 (broadcastInDim S2 ![] bcast_S_S2 : (⟨S_, .i32⟩ : BufTy).Contents (Elt F) → (⟨S2, .i32⟩ : BufTy).Contents (Elt F)),
    StableHlo.binary main_c_0 main_v34 main_v35 (cmpi .slt : (⟨S2, .i32⟩ : BufTy).Contents (Elt F) → (⟨S2, .i32⟩ : BufTy).Contents (Elt F) → (⟨S2, .i1⟩ : BufTy).Contents (Elt F)),
    StableHlo.nullary main_c_20 (constantI S_ 32 15#32),
    StableHlo.unary main_c_20 main_v36 (broadcastInDim S2 ![] bcast_S_S2 : (⟨S_, .i32⟩ : BufTy).Contents (Elt F) → (⟨S2, .i32⟩ : BufTy).Contents (Elt F)) ]
/-- Each touches TensorCore references only. -/
theorem tailOps0_sub : (tailOps0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub ..⟩
/-- Each determines everything it writes. -/
theorem tailOps0_fresh : (tailOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations after the group means that come from @main's statements window 1 (140 operations). -/
abbrev tailOps1 : List (HloOp τ sig (Elt F)) :=
  [ StableHlo.binary main_c_0 main_v36 main_v37 (addi : (⟨S2, .i32⟩ : BufTy).Contents (Elt F) → (⟨S2, .i32⟩ : BufTy).Contents (Elt F) → (⟨S2, .i32⟩ : BufTy).Contents (Elt F)),
    StableHlo.ternary main_v35 main_v37 main_c_0 main_v38 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v38 main_v39 (broadcastInDim S2x1 ![0] bcast_S2_S2x1_0 : (⟨S2, .i32⟩ : BufTy).Contents (Elt F) → (⟨S2x1, .i32⟩ : BufTy).Contents (Elt F)),
    StableHlo.binary main_v7 main_v39 main_v40 ((fun x i => Host.gather gather_S15_S2x1_S2_n_0_n_n_0_1_1 x i) : (⟨S15, .f32⟩ : BufTy).Contents (Elt F) → (⟨S2x1, .i32⟩ : BufTy).Contents (Elt F) → (⟨S2, .f32⟩ : BufTy).Contents (Elt F)),
    StableHlo.nullary main_c_21 (constantI S_ 32 1#32),
    StableHlo.TRef.nullary main_call3.call0.cst (constant S_ .f32 0x00000000#32),
    StableHlo.TRef.binary (.of main_v33 : StableHlo.TRef sig ⟨S2, .f32⟩) main_call3.call0.cst main_call3.call0.v0 (fun x v => Host.reduceAdd x v reducesTo_S2_S_d0 h_S_),
    StableHlo.TRef.unary main_call3.call0.v0 main_call3.call0.v1 (broadcastInDim S1 ![] bcast_S_S1),
    StableHlo.TRef.nullary main_call3.call0.cst_0 (constant S_ .f32 0x40000000#32),
    StableHlo.TRef.unary main_call3.call0.cst_0 main_call3.call0.v2 (broadcastInDim S1 ![] bcast_S_S1),
    StableHlo.TRef.binary main_call3.call0.v1 main_call3.call0.v2 main_call3.call0.v3 Host.divf,
    StableHlo.TRef.unary main_call3.call0.v3 main_call3.call0.v4 (broadcastInDim S2 ![0] bcast_S1_S2_0),
    StableHlo.TRef.binary (.of main_v33 : StableHlo.TRef sig ⟨S2, .f32⟩) main_call3.call0.v4 main_call3.call0.v5 subf,
    StableHlo.TRef.binary main_call3.call0.v5 main_call3.call0.v5 main_call3.call0.v6 mulf,
    StableHlo.TRef.unary (.of main_c_21 : StableHlo.TRef sig ⟨S_, .i32⟩) main_call3.call0.v7 (sitofp .f32),
    StableHlo.TRef.nullary main_call3.call0.cst_1 (constant S_ .f32 0x40000000#32),
    StableHlo.TRef.binary main_call3.call0.cst_1 main_call3.call0.v7 main_call3.call0.v8 subf,
    StableHlo.TRef.nullary main_call3.call0.cst_2 (constant S_ .f32 0x00000000#32),
    StableHlo.TRef.binary main_call3.call0.v6 main_call3.call0.cst_2 main_call3.call0.v9 (fun x v => Host.reduceAdd x v reducesTo_S2_S_d0 h_S_),
    StableHlo.TRef.binary main_call3.call0.v9 main_call3.call0.v8 main_call3.call0.v10 Host.divf,
    StableHlo.TRef.nullary main_call3.call0.cst_3 (constant S_ .f32 0x00000000#32),
    StableHlo.TRef.binary main_call3.call0.v8 main_call3.call0.cst_3 main_call3.call0.v11 (cmpf .ogt),
    StableHlo.TRef.nullary main_call3.call0.cst_4 (constant S_ .f32 0x7FC00000#32),
    StableHlo.TRef.unary main_call3.call0.cst_4 main_call3.call0.call0.v0 id,
    StableHlo.TRef.ternary main_call3.call0.v11 main_call3.call0.v10 main_call3.call0.call0.v0 main_call3.call0.call0.v1 select,
    StableHlo.TRef.unary main_call3.call0.call0.v1 main_call3.v1 Host.sqrt,
    StableHlo.nullary main_c_22 (constantI S_ 32 1#32),
    StableHlo.TRef.nullary main_call4.call0.cst (constant S_ .f32 0x00000000#32),
    StableHlo.TRef.binary (.of main_v40 : StableHlo.TRef sig ⟨S2, .f32⟩) main_call4.call0.cst main_call4.call0.v0 (fun x v => Host.reduceAdd x v reducesTo_S2_S_d0 h_S_),
    StableHlo.TRef.unary main_call4.call0.v0 main_call4.call0.v1 (broadcastInDim S1 ![] bcast_S_S1),
    StableHlo.TRef.nullary main_call4.call0.cst_0 (constant S_ .f32 0x40000000#32),
    StableHlo.TRef.unary main_call4.call0.cst_0 main_call4.call0.v2 (broadcastInDim S1 ![] bcast_S_S1),
    StableHlo.TRef.binary main_call4.call0.v1 main_call4.call0.v2 main_call4.call0.v3 Host.divf,
    StableHlo.TRef.unary main_call4.call0.v3 main_call4.call0.v4 (broadcastInDim S2 ![0] bcast_S1_S2_0),
    StableHlo.TRef.binary (.of main_v40 : StableHlo.TRef sig ⟨S2, .f32⟩) main_call4.call0.v4 main_call4.call0.v5 subf,
    StableHlo.TRef.binary main_call4.call0.v5 main_call4.call0.v5 main_call4.call0.v6 mulf,
    StableHlo.TRef.unary (.of main_c_22 : StableHlo.TRef sig ⟨S_, .i32⟩) main_call4.call0.v7 (sitofp .f32),
    StableHlo.TRef.nullary main_call4.call0.cst_1 (constant S_ .f32 0x40000000#32),
    StableHlo.TRef.binary main_call4.call0.cst_1 main_call4.call0.v7 main_call4.call0.v8 subf,
    StableHlo.TRef.nullary main_call4.call0.cst_2 (constant S_ .f32 0x00000000#32),
    StableHlo.TRef.binary main_call4.call0.v6 main_call4.call0.cst_2 main_call4.call0.v9 (fun x v => Host.reduceAdd x v reducesTo_S2_S_d0 h_S_),
    StableHlo.TRef.binary main_call4.call0.v9 main_call4.call0.v8 main_call4.call0.v10 Host.divf,
    StableHlo.TRef.nullary main_call4.call0.cst_3 (constant S_ .f32 0x00000000#32),
    StableHlo.TRef.binary main_call4.call0.v8 main_call4.call0.cst_3 main_call4.call0.v11 (cmpf .ogt),
    StableHlo.TRef.nullary main_call4.call0.cst_4 (constant S_ .f32 0x7FC00000#32),
    StableHlo.TRef.unary main_call4.call0.cst_4 main_call4.call0.call0.v0 id,
    StableHlo.TRef.ternary main_call4.call0.v11 main_call4.call0.v10 main_call4.call0.call0.v0 main_call4.call0.call0.v1 select,
    StableHlo.TRef.unary main_call4.call0.call0.v1 main_call4.v1 Host.sqrt,
    StableHlo.nullary main_cst_23 (constant S_ .f32 0x00000000#32),
    StableHlo.binary main_v40 main_cst_23 main_v43 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_24 (constant S_ .f32 0x40000000#32),
    StableHlo.binary main_v43 main_cst_24 main_v44 (Host.divf : (⟨S_, .f32⟩ : BufTy).Contents (Elt F) → (⟨S_, .f32⟩ : BufTy).Contents (Elt F) → (⟨S_, .f32⟩ : BufTy).Contents (Elt F)),
    StableHlo.nullary main_c_25 (constantI S_ 32 0#32),
    StableHlo.unary main_c_25 main_v45 (broadcastInDim S1 ![] bcast_S_S1 : (⟨S_, .i32⟩ : BufTy).Contents (Elt F) → (⟨S1, .i32⟩ : BufTy).Contents (Elt F)),
    StableHlo.binary main_c_1 main_v45 main_v46 (cmpi .slt : (⟨S1, .i32⟩ : BufTy).Contents (Elt F) → (⟨S1, .i32⟩ : BufTy).Contents (Elt F) → (⟨S1, .i1⟩ : BufTy).Contents (Elt F)),
    StableHlo.nullary main_c_26 (constantI S_ 32 15#32),
    StableHlo.unary main_c_26 main_v47 (broadcastInDim S1 ![] bcast_S_S1 : (⟨S_, .i32⟩ : BufTy).Contents (Elt F) → (⟨S1, .i32⟩ : BufTy).Contents (Elt F)),
    StableHlo.binary main_c_1 main_v47 main_v48 (addi : (⟨S1, .i32⟩ : BufTy).Contents (Elt F) → (⟨S1, .i32⟩ : BufTy).Contents (Elt F) → (⟨S1, .i32⟩ : BufTy).Contents (Elt F)),
    StableHlo.ternary main_v46 main_v48 main_c_1 main_v49 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v49 main_v50 (broadcastInDim S1x1 ![0] bcast_S1_S1x1_0 : (⟨S1, .i32⟩ : BufTy).Contents (Elt F) → (⟨S1x1, .i32⟩ : BufTy).Contents (Elt F)),
    StableHlo.binary main_v8 main_v50 main_v51 ((fun x i => Host.gather gather_S15_S1x1_S1_n_0_n_n_0_1_1 x i) : (⟨S15, .f32⟩ : BufTy).Contents (Elt F) → (⟨S1x1, .i32⟩ : BufTy).Contents (Elt F) → (⟨S1, .f32⟩ : BufTy).Contents (Elt F)),
    StableHlo.nullary main_c_27 (constantI S_ 32 0#32),
    StableHlo.unary main_c_27 main_v52 (broadcastInDim S1 ![] bcast_S_S1 : (⟨S_, .i32⟩ : BufTy).Contents (Elt F) → (⟨S1, .i32⟩ : BufTy).Contents (Elt F)),
    StableHlo.binary main_c_1 main_v52 main_v53 (cmpi .slt : (⟨S1, .i32⟩ : BufTy).Contents (Elt F) → (⟨S1, .i32⟩ : BufTy).Contents (Elt F) → (⟨S1, .i1⟩ : BufTy).Contents (Elt F)),
    StableHlo.nullary main_c_28 (constantI S_ 32 15#32),
    StableHlo.unary main_c_28 main_v54 (broadcastInDim S1 ![] bcast_S_S1 : (⟨S_, .i32⟩ : BufTy).Contents (Elt F) → (⟨S1, .i32⟩ : BufTy).Contents (Elt F)),
    StableHlo.binary main_c_1 main_v54 main_v55 (addi : (⟨S1, .i32⟩ : BufTy).Contents (Elt F) → (⟨S1, .i32⟩ : BufTy).Contents (Elt F) → (⟨S1, .i32⟩ : BufTy).Contents (Elt F)),
    StableHlo.ternary main_v53 main_v55 main_c_1 main_v56 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v56 main_v57 (broadcastInDim S1x1 ![0] bcast_S1_S1x1_0 : (⟨S1, .i32⟩ : BufTy).Contents (Elt F) → (⟨S1x1, .i32⟩ : BufTy).Contents (Elt F)),
    StableHlo.binary main_v7 main_v57 main_v58 ((fun x i => Host.gather gather_S15_S1x1_S1_n_0_n_n_0_1_1 x i) : (⟨S15, .f32⟩ : BufTy).Contents (Elt F) → (⟨S1x1, .i32⟩ : BufTy).Contents (Elt F) → (⟨S1, .f32⟩ : BufTy).Contents (Elt F)),
    StableHlo.reshape main_v51 main_v59 rfl shapeCasts_S1_S_,
    StableHlo.reshape main_v58 main_v60 rfl shapeCasts_S1_S_,
    StableHlo.reshape main_v58 main_v61 rfl shapeCasts_S1_S_,
    StableHlo.nullary main_c_29 (constantI S_ 32 0#32),
    StableHlo.unary main_c_29 main_v62 (broadcastInDim S4 ![] bcast_S_S4 : (⟨S_, .i32⟩ : BufTy).Contents (Elt F) → (⟨S4, .i32⟩ : BufTy).Contents (Elt F)),
    StableHlo.binary main_c_2 main_v62 main_v63 (cmpi .slt : (⟨S4, .i32⟩ : BufTy).Contents (Elt F) → (⟨S4, .i32⟩ : BufTy).Contents (Elt F) → (⟨S4, .i1⟩ : BufTy).Contents (Elt F)),
    StableHlo.nullary main_c_30 (constantI S_ 32 15#32),
    StableHlo.unary main_c_30 main_v64 (broadcastInDim S4 ![] bcast_S_S4 : (⟨S_, .i32⟩ : BufTy).Contents (Elt F) → (⟨S4, .i32⟩ : BufTy).Contents (Elt F)),
    StableHlo.binary main_c_2 main_v64 main_v65 (addi : (⟨S4, .i32⟩ : BufTy).Contents (Elt F) → (⟨S4, .i32⟩ : BufTy).Contents (Elt F) → (⟨S4, .i32⟩ : BufTy).Contents (Elt F)),
    StableHlo.ternary main_v63 main_v65 main_c_2 main_v66 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v66 main_v67 (broadcastInDim S4x1 ![0] bcast_S4_S4x1_0 : (⟨S4, .i32⟩ : BufTy).Contents (Elt F) → (⟨S4x1, .i32⟩ : BufTy).Contents (Elt F)),
    StableHlo.binary main_v8 main_v67 main_v68 ((fun x i => Host.gather gather_S15_S4x1_S4_n_0_n_n_0_1_1 x i) : (⟨S15, .f32⟩ : BufTy).Contents (Elt F) → (⟨S4x1, .i32⟩ : BufTy).Contents (Elt F) → (⟨S4, .f32⟩ : BufTy).Contents (Elt F)),
    StableHlo.nullary main_c_31 (constantI S_ 32 0#32),
    StableHlo.unary main_c_31 main_v69 (broadcastInDim S4 ![] bcast_S_S4 : (⟨S_, .i32⟩ : BufTy).Contents (Elt F) → (⟨S4, .i32⟩ : BufTy).Contents (Elt F)),
    StableHlo.binary main_c_2 main_v69 main_v70 (cmpi .slt : (⟨S4, .i32⟩ : BufTy).Contents (Elt F) → (⟨S4, .i32⟩ : BufTy).Contents (Elt F) → (⟨S4, .i1⟩ : BufTy).Contents (Elt F)),
    StableHlo.nullary main_c_32 (constantI S_ 32 15#32),
    StableHlo.unary main_c_32 main_v71 (broadcastInDim S4 ![] bcast_S_S4 : (⟨S_, .i32⟩ : BufTy).Contents (Elt F) → (⟨S4, .i32⟩ : BufTy).Contents (Elt F)),
    StableHlo.binary main_c_2 main_v71 main_v72 (addi : (⟨S4, .i32⟩ : BufTy).Contents (Elt F) → (⟨S4, .i32⟩ : BufTy).Contents (Elt F) → (⟨S4, .i32⟩ : BufTy).Contents (Elt F)),
    StableHlo.ternary main_v70 main_v72 main_c_2 main_v73 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v73 main_v74 (broadcastInDim S4x1 ![0] bcast_S4_S4x1_0 : (⟨S4, .i32⟩ : BufTy).Contents (Elt F) → (⟨S4x1, .i32⟩ : BufTy).Contents (Elt F)),
    StableHlo.binary main_v7 main_v74 main_v75 ((fun x i => Host.gather gather_S15_S4x1_S4_n_0_n_n_0_1_1 x i) : (⟨S15, .f32⟩ : BufTy).Contents (Elt F) → (⟨S4x1, .i32⟩ : BufTy).Contents (Elt F) → (⟨S4, .f32⟩ : BufTy).Contents (Elt F)),
    StableHlo.nullary main_c_33 (constantI S_ 32 1#32),
    StableHlo.TRef.nullary main_call5.call0.cst (constant S_ .f32 0x00000000#32),
    StableHlo.TRef.binary (.of main_v68 : StableHlo.TRef sig ⟨S4, .f32⟩) main_call5.call0.cst main_call5.call0.v0 (fun x v => Host.reduceAdd x v reducesTo_S4_S_d0 h_S_),
    StableHlo.TRef.unary main_call5.call0.v0 main_call5.call0.v1 (broadcastInDim S1 ![] bcast_S_S1),
    StableHlo.TRef.nullary main_call5.call0.cst_0 (constant S_ .f32 0x40800000#32),
    StableHlo.TRef.unary main_call5.call0.cst_0 main_call5.call0.v2 (broadcastInDim S1 ![] bcast_S_S1),
    StableHlo.TRef.binary main_call5.call0.v1 main_call5.call0.v2 main_call5.call0.v3 Host.divf,
    StableHlo.TRef.unary main_call5.call0.v3 main_call5.call0.v4 (broadcastInDim S4 ![0] bcast_S1_S4_0),
    StableHlo.TRef.binary (.of main_v68 : StableHlo.TRef sig ⟨S4, .f32⟩) main_call5.call0.v4 main_call5.call0.v5 subf,
    StableHlo.TRef.binary main_call5.call0.v5 main_call5.call0.v5 main_call5.call0.v6 mulf,
    StableHlo.TRef.unary (.of main_c_33 : StableHlo.TRef sig ⟨S_, .i32⟩) main_call5.call0.v7 (sitofp .f32),
    StableHlo.TRef.nullary main_call5.call0.cst_1 (constant S_ .f32 0x40800000#32),
    StableHlo.TRef.binary main_call5.call0.cst_1 main_call5.call0.v7 main_call5.call0.v8 subf,
    StableHlo.TRef.nullary main_call5.call0.cst_2 (constant S_ .f32 0x00000000#32),
    StableHlo.TRef.binary main_call5.call0.v6 main_call5.call0.cst_2 main_call5.call0.v9 (fun x v => Host.reduceAdd x v reducesTo_S4_S_d0 h_S_),
    StableHlo.TRef.binary main_call5.call0.v9 main_call5.call0.v8 main_call5.call0.v10 Host.divf,
    StableHlo.TRef.nullary main_call5.call0.cst_3 (constant S_ .f32 0x00000000#32),
    StableHlo.TRef.binary main_call5.call0.v8 main_call5.call0.cst_3 main_call5.call0.v11 (cmpf .ogt),
    StableHlo.TRef.nullary main_call5.call0.cst_4 (constant S_ .f32 0x7FC00000#32),
    StableHlo.TRef.unary main_call5.call0.cst_4 main_call5.call0.call0.v0 id,
    StableHlo.TRef.ternary main_call5.call0.v11 main_call5.call0.v10 main_call5.call0.call0.v0 main_call5.call0.call0.v1 select,
    StableHlo.TRef.unary main_call5.call0.call0.v1 main_call5.v1 Host.sqrt,
    StableHlo.nullary main_c_34 (constantI S_ 32 1#32),
    StableHlo.TRef.nullary main_call6.call0.cst (constant S_ .f32 0x00000000#32),
    StableHlo.TRef.binary (.of main_v75 : StableHlo.TRef sig ⟨S4, .f32⟩) main_call6.call0.cst main_call6.call0.v0 (fun x v => Host.reduceAdd x v reducesTo_S4_S_d0 h_S_),
    StableHlo.TRef.unary main_call6.call0.v0 main_call6.call0.v1 (broadcastInDim S1 ![] bcast_S_S1),
    StableHlo.TRef.nullary main_call6.call0.cst_0 (constant S_ .f32 0x40800000#32),
    StableHlo.TRef.unary main_call6.call0.cst_0 main_call6.call0.v2 (broadcastInDim S1 ![] bcast_S_S1),
    StableHlo.TRef.binary main_call6.call0.v1 main_call6.call0.v2 main_call6.call0.v3 Host.divf,
    StableHlo.TRef.unary main_call6.call0.v3 main_call6.call0.v4 (broadcastInDim S4 ![0] bcast_S1_S4_0),
    StableHlo.TRef.binary (.of main_v75 : StableHlo.TRef sig ⟨S4, .f32⟩) main_call6.call0.v4 main_call6.call0.v5 subf,
    StableHlo.TRef.binary main_call6.call0.v5 main_call6.call0.v5 main_call6.call0.v6 mulf,
    StableHlo.TRef.unary (.of main_c_34 : StableHlo.TRef sig ⟨S_, .i32⟩) main_call6.call0.v7 (sitofp .f32),
    StableHlo.TRef.nullary main_call6.call0.cst_1 (constant S_ .f32 0x40800000#32),
    StableHlo.TRef.binary main_call6.call0.cst_1 main_call6.call0.v7 main_call6.call0.v8 subf,
    StableHlo.TRef.nullary main_call6.call0.cst_2 (constant S_ .f32 0x00000000#32),
    StableHlo.TRef.binary main_call6.call0.v6 main_call6.call0.cst_2 main_call6.call0.v9 (fun x v => Host.reduceAdd x v reducesTo_S4_S_d0 h_S_),
    StableHlo.TRef.binary main_call6.call0.v9 main_call6.call0.v8 main_call6.call0.v10 Host.divf,
    StableHlo.TRef.nullary main_call6.call0.cst_3 (constant S_ .f32 0x00000000#32),
    StableHlo.TRef.binary main_call6.call0.v8 main_call6.call0.cst_3 main_call6.call0.v11 (cmpf .ogt),
    StableHlo.TRef.nullary main_call6.call0.cst_4 (constant S_ .f32 0x7FC00000#32),
    StableHlo.TRef.unary main_call6.call0.cst_4 main_call6.call0.call0.v0 id,
    StableHlo.TRef.ternary main_call6.call0.v11 main_call6.call0.v10 main_call6.call0.call0.v0 main_call6.call0.call0.v1 select,
    StableHlo.TRef.unary main_call6.call0.call0.v1 main_call6.v1 Host.sqrt,
    StableHlo.nullary main_cst_35 (constant S_ .f32 0x00000000#32),
    StableHlo.binary main_v75 main_cst_35 main_v78 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_36 (constant S_ .f32 0x40800000#32),
    StableHlo.binary main_v78 main_cst_36 main_v79 (Host.divf : (⟨S_, .f32⟩ : BufTy).Contents (Elt F) → (⟨S_, .f32⟩ : BufTy).Contents (Elt F) → (⟨S_, .f32⟩ : BufTy).Contents (Elt F)),
    StableHlo.nullary main_c_37 (constantI S_ 32 0#32) ]
/-- Each touches TensorCore references only. -/
theorem tailOps1_sub : (tailOps1 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.nullary_bufs_sub .., StableHlo.binary_bufs_sub .., StableHlo.nullary_bufs_sub .., StableHlo.binary_bufs_sub .., StableHlo.nullary_bufs_sub ..⟩
/-- Each determines everything it writes. -/
theorem tailOps1_fresh : (tailOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations after the group means that come from @main's statements window 2 (140 operations). -/
abbrev tailOps2 : List (HloOp τ sig (Elt F)) :=
  [ StableHlo.unary main_c_37 main_v80 (broadcastInDim S2 ![] bcast_S_S2 : (⟨S_, .i32⟩ : BufTy).Contents (Elt F) → (⟨S2, .i32⟩ : BufTy).Contents (Elt F)),
    StableHlo.binary main_c_3 main_v80 main_v81 (cmpi .slt : (⟨S2, .i32⟩ : BufTy).Contents (Elt F) → (⟨S2, .i32⟩ : BufTy).Contents (Elt F) → (⟨S2, .i1⟩ : BufTy).Contents (Elt F)),
    StableHlo.nullary main_c_38 (constantI S_ 32 15#32),
    StableHlo.unary main_c_38 main_v82 (broadcastInDim S2 ![] bcast_S_S2 : (⟨S_, .i32⟩ : BufTy).Contents (Elt F) → (⟨S2, .i32⟩ : BufTy).Contents (Elt F)),
    StableHlo.binary main_c_3 main_v82 main_v83 (addi : (⟨S2, .i32⟩ : BufTy).Contents (Elt F) → (⟨S2, .i32⟩ : BufTy).Contents (Elt F) → (⟨S2, .i32⟩ : BufTy).Contents (Elt F)),
    StableHlo.ternary main_v81 main_v83 main_c_3 main_v84 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v84 main_v85 (broadcastInDim S2x1 ![0] bcast_S2_S2x1_0 : (⟨S2, .i32⟩ : BufTy).Contents (Elt F) → (⟨S2x1, .i32⟩ : BufTy).Contents (Elt F)),
    StableHlo.binary main_v8 main_v85 main_v86 ((fun x i => Host.gather gather_S15_S2x1_S2_n_0_n_n_0_1_1 x i) : (⟨S15, .f32⟩ : BufTy).Contents (Elt F) → (⟨S2x1, .i32⟩ : BufTy).Contents (Elt F) → (⟨S2, .f32⟩ : BufTy).Contents (Elt F)),
    StableHlo.nullary main_c_39 (constantI S_ 32 0#32),
    StableHlo.unary main_c_39 main_v87 (broadcastInDim S2 ![] bcast_S_S2 : (⟨S_, .i32⟩ : BufTy).Contents (Elt F) → (⟨S2, .i32⟩ : BufTy).Contents (Elt F)),
    StableHlo.binary main_c_3 main_v87 main_v88 (cmpi .slt : (⟨S2, .i32⟩ : BufTy).Contents (Elt F) → (⟨S2, .i32⟩ : BufTy).Contents (Elt F) → (⟨S2, .i1⟩ : BufTy).Contents (Elt F)),
    StableHlo.nullary main_c_40 (constantI S_ 32 15#32),
    StableHlo.unary main_c_40 main_v89 (broadcastInDim S2 ![] bcast_S_S2 : (⟨S_, .i32⟩ : BufTy).Contents (Elt F) → (⟨S2, .i32⟩ : BufTy).Contents (Elt F)),
    StableHlo.binary main_c_3 main_v89 main_v90 (addi : (⟨S2, .i32⟩ : BufTy).Contents (Elt F) → (⟨S2, .i32⟩ : BufTy).Contents (Elt F) → (⟨S2, .i32⟩ : BufTy).Contents (Elt F)),
    StableHlo.ternary main_v88 main_v90 main_c_3 main_v91 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v91 main_v92 (broadcastInDim S2x1 ![0] bcast_S2_S2x1_0 : (⟨S2, .i32⟩ : BufTy).Contents (Elt F) → (⟨S2x1, .i32⟩ : BufTy).Contents (Elt F)),
    StableHlo.binary main_v7 main_v92 main_v93 ((fun x i => Host.gather gather_S15_S2x1_S2_n_0_n_n_0_1_1 x i) : (⟨S15, .f32⟩ : BufTy).Contents (Elt F) → (⟨S2x1, .i32⟩ : BufTy).Contents (Elt F) → (⟨S2, .f32⟩ : BufTy).Contents (Elt F)),
    StableHlo.nullary main_c_41 (constantI S_ 32 1#32),
    StableHlo.TRef.nullary main_call7.call0.cst (constant S_ .f32 0x00000000#32),
    StableHlo.TRef.binary (.of main_v86 : StableHlo.TRef sig ⟨S2, .f32⟩) main_call7.call0.cst main_call7.call0.v0 (fun x v => Host.reduceAdd x v reducesTo_S2_S_d0 h_S_),
    StableHlo.TRef.unary main_call7.call0.v0 main_call7.call0.v1 (broadcastInDim S1 ![] bcast_S_S1),
    StableHlo.TRef.nullary main_call7.call0.cst_0 (constant S_ .f32 0x40000000#32),
    StableHlo.TRef.unary main_call7.call0.cst_0 main_call7.call0.v2 (broadcastInDim S1 ![] bcast_S_S1),
    StableHlo.TRef.binary main_call7.call0.v1 main_call7.call0.v2 main_call7.call0.v3 Host.divf,
    StableHlo.TRef.unary main_call7.call0.v3 main_call7.call0.v4 (broadcastInDim S2 ![0] bcast_S1_S2_0),
    StableHlo.TRef.binary (.of main_v86 : StableHlo.TRef sig ⟨S2, .f32⟩) main_call7.call0.v4 main_call7.call0.v5 subf,
    StableHlo.TRef.binary main_call7.call0.v5 main_call7.call0.v5 main_call7.call0.v6 mulf,
    StableHlo.TRef.unary (.of main_c_41 : StableHlo.TRef sig ⟨S_, .i32⟩) main_call7.call0.v7 (sitofp .f32),
    StableHlo.TRef.nullary main_call7.call0.cst_1 (constant S_ .f32 0x40000000#32),
    StableHlo.TRef.binary main_call7.call0.cst_1 main_call7.call0.v7 main_call7.call0.v8 subf,
    StableHlo.TRef.nullary main_call7.call0.cst_2 (constant S_ .f32 0x00000000#32),
    StableHlo.TRef.binary main_call7.call0.v6 main_call7.call0.cst_2 main_call7.call0.v9 (fun x v => Host.reduceAdd x v reducesTo_S2_S_d0 h_S_),
    StableHlo.TRef.binary main_call7.call0.v9 main_call7.call0.v8 main_call7.call0.v10 Host.divf,
    StableHlo.TRef.nullary main_call7.call0.cst_3 (constant S_ .f32 0x00000000#32),
    StableHlo.TRef.binary main_call7.call0.v8 main_call7.call0.cst_3 main_call7.call0.v11 (cmpf .ogt),
    StableHlo.TRef.nullary main_call7.call0.cst_4 (constant S_ .f32 0x7FC00000#32),
    StableHlo.TRef.unary main_call7.call0.cst_4 main_call7.call0.call0.v0 id,
    StableHlo.TRef.ternary main_call7.call0.v11 main_call7.call0.v10 main_call7.call0.call0.v0 main_call7.call0.call0.v1 select,
    StableHlo.TRef.unary main_call7.call0.call0.v1 main_call7.v1 Host.sqrt,
    StableHlo.nullary main_c_42 (constantI S_ 32 1#32),
    StableHlo.TRef.nullary main_call8.call0.cst (constant S_ .f32 0x00000000#32),
    StableHlo.TRef.binary (.of main_v93 : StableHlo.TRef sig ⟨S2, .f32⟩) main_call8.call0.cst main_call8.call0.v0 (fun x v => Host.reduceAdd x v reducesTo_S2_S_d0 h_S_),
    StableHlo.TRef.unary main_call8.call0.v0 main_call8.call0.v1 (broadcastInDim S1 ![] bcast_S_S1),
    StableHlo.TRef.nullary main_call8.call0.cst_0 (constant S_ .f32 0x40000000#32),
    StableHlo.TRef.unary main_call8.call0.cst_0 main_call8.call0.v2 (broadcastInDim S1 ![] bcast_S_S1),
    StableHlo.TRef.binary main_call8.call0.v1 main_call8.call0.v2 main_call8.call0.v3 Host.divf,
    StableHlo.TRef.unary main_call8.call0.v3 main_call8.call0.v4 (broadcastInDim S2 ![0] bcast_S1_S2_0),
    StableHlo.TRef.binary (.of main_v93 : StableHlo.TRef sig ⟨S2, .f32⟩) main_call8.call0.v4 main_call8.call0.v5 subf,
    StableHlo.TRef.binary main_call8.call0.v5 main_call8.call0.v5 main_call8.call0.v6 mulf,
    StableHlo.TRef.unary (.of main_c_42 : StableHlo.TRef sig ⟨S_, .i32⟩) main_call8.call0.v7 (sitofp .f32),
    StableHlo.TRef.nullary main_call8.call0.cst_1 (constant S_ .f32 0x40000000#32),
    StableHlo.TRef.binary main_call8.call0.cst_1 main_call8.call0.v7 main_call8.call0.v8 subf,
    StableHlo.TRef.nullary main_call8.call0.cst_2 (constant S_ .f32 0x00000000#32),
    StableHlo.TRef.binary main_call8.call0.v6 main_call8.call0.cst_2 main_call8.call0.v9 (fun x v => Host.reduceAdd x v reducesTo_S2_S_d0 h_S_),
    StableHlo.TRef.binary main_call8.call0.v9 main_call8.call0.v8 main_call8.call0.v10 Host.divf,
    StableHlo.TRef.nullary main_call8.call0.cst_3 (constant S_ .f32 0x00000000#32),
    StableHlo.TRef.binary main_call8.call0.v8 main_call8.call0.cst_3 main_call8.call0.v11 (cmpf .ogt),
    StableHlo.TRef.nullary main_call8.call0.cst_4 (constant S_ .f32 0x7FC00000#32),
    StableHlo.TRef.unary main_call8.call0.cst_4 main_call8.call0.call0.v0 id,
    StableHlo.TRef.ternary main_call8.call0.v11 main_call8.call0.v10 main_call8.call0.call0.v0 main_call8.call0.call0.v1 select,
    StableHlo.TRef.unary main_call8.call0.call0.v1 main_call8.v1 Host.sqrt,
    StableHlo.nullary main_cst_43 (constant S_ .f32 0x00000000#32),
    StableHlo.binary main_v93 main_cst_43 main_v96 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_44 (constant S_ .f32 0x40000000#32),
    StableHlo.binary main_v96 main_cst_44 main_v97 (Host.divf : (⟨S_, .f32⟩ : BufTy).Contents (Elt F) → (⟨S_, .f32⟩ : BufTy).Contents (Elt F) → (⟨S_, .f32⟩ : BufTy).Contents (Elt F)),
    StableHlo.nullary main_c_45 (constantI S_ 32 0#32),
    StableHlo.unary main_c_45 main_v98 (broadcastInDim S3 ![] bcast_S_S3 : (⟨S_, .i32⟩ : BufTy).Contents (Elt F) → (⟨S3, .i32⟩ : BufTy).Contents (Elt F)),
    StableHlo.binary main_c_4 main_v98 main_v99 (cmpi .slt : (⟨S3, .i32⟩ : BufTy).Contents (Elt F) → (⟨S3, .i32⟩ : BufTy).Contents (Elt F) → (⟨S3, .i1⟩ : BufTy).Contents (Elt F)),
    StableHlo.nullary main_c_46 (constantI S_ 32 15#32),
    StableHlo.unary main_c_46 main_v100 (broadcastInDim S3 ![] bcast_S_S3 : (⟨S_, .i32⟩ : BufTy).Contents (Elt F) → (⟨S3, .i32⟩ : BufTy).Contents (Elt F)),
    StableHlo.binary main_c_4 main_v100 main_v101 (addi : (⟨S3, .i32⟩ : BufTy).Contents (Elt F) → (⟨S3, .i32⟩ : BufTy).Contents (Elt F) → (⟨S3, .i32⟩ : BufTy).Contents (Elt F)),
    StableHlo.ternary main_v99 main_v101 main_c_4 main_v102 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v102 main_v103 (broadcastInDim S3x1 ![0] bcast_S3_S3x1_0 : (⟨S3, .i32⟩ : BufTy).Contents (Elt F) → (⟨S3x1, .i32⟩ : BufTy).Contents (Elt F)),
    StableHlo.binary main_v8 main_v103 main_v104 ((fun x i => Host.gather gather_S15_S3x1_S3_n_0_n_n_0_1_1 x i) : (⟨S15, .f32⟩ : BufTy).Contents (Elt F) → (⟨S3x1, .i32⟩ : BufTy).Contents (Elt F) → (⟨S3, .f32⟩ : BufTy).Contents (Elt F)),
    StableHlo.nullary main_c_47 (constantI S_ 32 0#32),
    StableHlo.unary main_c_47 main_v105 (broadcastInDim S3 ![] bcast_S_S3 : (⟨S_, .i32⟩ : BufTy).Contents (Elt F) → (⟨S3, .i32⟩ : BufTy).Contents (Elt F)),
    StableHlo.binary main_c_4 main_v105 main_v106 (cmpi .slt : (⟨S3, .i32⟩ : BufTy).Contents (Elt F) → (⟨S3, .i32⟩ : BufTy).Contents (Elt F) → (⟨S3, .i1⟩ : BufTy).Contents (Elt F)),
    StableHlo.nullary main_c_48 (constantI S_ 32 15#32),
    StableHlo.unary main_c_48 main_v107 (broadcastInDim S3 ![] bcast_S_S3 : (⟨S_, .i32⟩ : BufTy).Contents (Elt F) → (⟨S3, .i32⟩ : BufTy).Contents (Elt F)),
    StableHlo.binary main_c_4 main_v107 main_v108 (addi : (⟨S3, .i32⟩ : BufTy).Contents (Elt F) → (⟨S3, .i32⟩ : BufTy).Contents (Elt F) → (⟨S3, .i32⟩ : BufTy).Contents (Elt F)),
    StableHlo.ternary main_v106 main_v108 main_c_4 main_v109 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v109 main_v110 (broadcastInDim S3x1 ![0] bcast_S3_S3x1_0 : (⟨S3, .i32⟩ : BufTy).Contents (Elt F) → (⟨S3x1, .i32⟩ : BufTy).Contents (Elt F)),
    StableHlo.binary main_v7 main_v110 main_v111 ((fun x i => Host.gather gather_S15_S3x1_S3_n_0_n_n_0_1_1 x i) : (⟨S15, .f32⟩ : BufTy).Contents (Elt F) → (⟨S3x1, .i32⟩ : BufTy).Contents (Elt F) → (⟨S3, .f32⟩ : BufTy).Contents (Elt F)),
    StableHlo.nullary main_c_49 (constantI S_ 32 1#32),
    StableHlo.TRef.nullary main_call9.call0.cst (constant S_ .f32 0x00000000#32),
    StableHlo.TRef.binary (.of main_v104 : StableHlo.TRef sig ⟨S3, .f32⟩) main_call9.call0.cst main_call9.call0.v0 (fun x v => Host.reduceAdd x v reducesTo_S3_S_d0 h_S_),
    StableHlo.TRef.unary main_call9.call0.v0 main_call9.call0.v1 (broadcastInDim S1 ![] bcast_S_S1),
    StableHlo.TRef.nullary main_call9.call0.cst_0 (constant S_ .f32 0x40400000#32),
    StableHlo.TRef.unary main_call9.call0.cst_0 main_call9.call0.v2 (broadcastInDim S1 ![] bcast_S_S1),
    StableHlo.TRef.binary main_call9.call0.v1 main_call9.call0.v2 main_call9.call0.v3 Host.divf,
    StableHlo.TRef.unary main_call9.call0.v3 main_call9.call0.v4 (broadcastInDim S3 ![0] bcast_S1_S3_0),
    StableHlo.TRef.binary (.of main_v104 : StableHlo.TRef sig ⟨S3, .f32⟩) main_call9.call0.v4 main_call9.call0.v5 subf,
    StableHlo.TRef.binary main_call9.call0.v5 main_call9.call0.v5 main_call9.call0.v6 mulf,
    StableHlo.TRef.unary (.of main_c_49 : StableHlo.TRef sig ⟨S_, .i32⟩) main_call9.call0.v7 (sitofp .f32),
    StableHlo.TRef.nullary main_call9.call0.cst_1 (constant S_ .f32 0x40400000#32),
    StableHlo.TRef.binary main_call9.call0.cst_1 main_call9.call0.v7 main_call9.call0.v8 subf,
    StableHlo.TRef.nullary main_call9.call0.cst_2 (constant S_ .f32 0x00000000#32),
    StableHlo.TRef.binary main_call9.call0.v6 main_call9.call0.cst_2 main_call9.call0.v9 (fun x v => Host.reduceAdd x v reducesTo_S3_S_d0 h_S_),
    StableHlo.TRef.binary main_call9.call0.v9 main_call9.call0.v8 main_call9.call0.v10 Host.divf,
    StableHlo.TRef.nullary main_call9.call0.cst_3 (constant S_ .f32 0x00000000#32),
    StableHlo.TRef.binary main_call9.call0.v8 main_call9.call0.cst_3 main_call9.call0.v11 (cmpf .ogt),
    StableHlo.TRef.nullary main_call9.call0.cst_4 (constant S_ .f32 0x7FC00000#32),
    StableHlo.TRef.unary main_call9.call0.cst_4 main_call9.call0.call0.v0 id,
    StableHlo.TRef.ternary main_call9.call0.v11 main_call9.call0.v10 main_call9.call0.call0.v0 main_call9.call0.call0.v1 select,
    StableHlo.TRef.unary main_call9.call0.call0.v1 main_call9.v1 Host.sqrt,
    StableHlo.nullary main_c_50 (constantI S_ 32 1#32),
    StableHlo.TRef.nullary main_call10.call0.cst (constant S_ .f32 0x00000000#32),
    StableHlo.TRef.binary (.of main_v111 : StableHlo.TRef sig ⟨S3, .f32⟩) main_call10.call0.cst main_call10.call0.v0 (fun x v => Host.reduceAdd x v reducesTo_S3_S_d0 h_S_),
    StableHlo.TRef.unary main_call10.call0.v0 main_call10.call0.v1 (broadcastInDim S1 ![] bcast_S_S1),
    StableHlo.TRef.nullary main_call10.call0.cst_0 (constant S_ .f32 0x40400000#32),
    StableHlo.TRef.unary main_call10.call0.cst_0 main_call10.call0.v2 (broadcastInDim S1 ![] bcast_S_S1),
    StableHlo.TRef.binary main_call10.call0.v1 main_call10.call0.v2 main_call10.call0.v3 Host.divf,
    StableHlo.TRef.unary main_call10.call0.v3 main_call10.call0.v4 (broadcastInDim S3 ![0] bcast_S1_S3_0),
    StableHlo.TRef.binary (.of main_v111 : StableHlo.TRef sig ⟨S3, .f32⟩) main_call10.call0.v4 main_call10.call0.v5 subf,
    StableHlo.TRef.binary main_call10.call0.v5 main_call10.call0.v5 main_call10.call0.v6 mulf,
    StableHlo.TRef.unary (.of main_c_50 : StableHlo.TRef sig ⟨S_, .i32⟩) main_call10.call0.v7 (sitofp .f32),
    StableHlo.TRef.nullary main_call10.call0.cst_1 (constant S_ .f32 0x40400000#32),
    StableHlo.TRef.binary main_call10.call0.cst_1 main_call10.call0.v7 main_call10.call0.v8 subf,
    StableHlo.TRef.nullary main_call10.call0.cst_2 (constant S_ .f32 0x00000000#32),
    StableHlo.TRef.binary main_call10.call0.v6 main_call10.call0.cst_2 main_call10.call0.v9 (fun x v => Host.reduceAdd x v reducesTo_S3_S_d0 h_S_),
    StableHlo.TRef.binary main_call10.call0.v9 main_call10.call0.v8 main_call10.call0.v10 Host.divf,
    StableHlo.TRef.nullary main_call10.call0.cst_3 (constant S_ .f32 0x00000000#32),
    StableHlo.TRef.binary main_call10.call0.v8 main_call10.call0.cst_3 main_call10.call0.v11 (cmpf .ogt),
    StableHlo.TRef.nullary main_call10.call0.cst_4 (constant S_ .f32 0x7FC00000#32),
    StableHlo.TRef.unary main_call10.call0.cst_4 main_call10.call0.call0.v0 id,
    StableHlo.TRef.ternary main_call10.call0.v11 main_call10.call0.v10 main_call10.call0.call0.v0 main_call10.call0.call0.v1 select,
    StableHlo.TRef.unary main_call10.call0.call0.v1 main_call10.v1 Host.sqrt,
    StableHlo.nullary main_cst_51 (constant S_ .f32 0x00000000#32),
    StableHlo.binary main_v111 main_cst_51 main_v114 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_52 (constant S_ .f32 0x40400000#32),
    StableHlo.binary main_v114 main_cst_52 main_v115 (Host.divf : (⟨S_, .f32⟩ : BufTy).Contents (Elt F) → (⟨S_, .f32⟩ : BufTy).Contents (Elt F) → (⟨S_, .f32⟩ : BufTy).Contents (Elt F)),
    StableHlo.unary main_v23 main_v116 (broadcastInDim S1 ![] bcast_S_S1 : (⟨S_, .f32⟩ : BufTy).Contents (Elt F) → (⟨S1, .f32⟩ : BufTy).Contents (Elt F)),
    StableHlo.unary main_v41 main_v117 (broadcastInDim S1 ![] bcast_S_S1 : (⟨S_, .f32⟩ : BufTy).Contents (Elt F) → (⟨S1, .f32⟩ : BufTy).Contents (Elt F)),
    StableHlo.unary main_v59 main_v118 (broadcastInDim S1 ![] bcast_S_S1 : (⟨S_, .f32⟩ : BufTy).Contents (Elt F) → (⟨S1, .f32⟩ : BufTy).Contents (Elt F)),
    StableHlo.unary main_v76 main_v119 (broadcastInDim S1 ![] bcast_S_S1 : (⟨S_, .f32⟩ : BufTy).Contents (Elt F) → (⟨S1, .f32⟩ : BufTy).Contents (Elt F)),
    StableHlo.unary main_v94 main_v120 (broadcastInDim S1 ![] bcast_S_S1 : (⟨S_, .f32⟩ : BufTy).Contents (Elt F) → (⟨S1, .f32⟩ : BufTy).Contents (Elt F)),
    StableHlo.unary main_v112 main_v121 (broadcastInDim S1 ![] bcast_S_S1 : (⟨S_, .f32⟩ : BufTy).Contents (Elt F) → (⟨S1, .f32⟩ : BufTy).Contents (Elt F)),
    StableHlo.nary ![main_v116, main_v117, main_v118, main_v119, main_v120, main_v121] main_v122 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0),
    StableHlo.unary main_v26 main_v123 (broadcastInDim S1 ![] bcast_S_S1 : (⟨S_, .f32⟩ : BufTy).Contents (Elt F) → (⟨S1, .f32⟩ : BufTy).Contents (Elt F)),
    StableHlo.unary main_v44 main_v124 (broadcastInDim S1 ![] bcast_S_S1 : (⟨S_, .f32⟩ : BufTy).Contents (Elt F) → (⟨S1, .f32⟩ : BufTy).Contents (Elt F)) ]
/-- Each touches TensorCore references only. -/
theorem tailOps2_sub : (tailOps2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub ..⟩
/-- Each determines everything it writes. -/
theorem tailOps2_fresh : (tailOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations after the group means that come from @main's statements window 3 (58 operations). -/
abbrev tailOps3 : List (HloOp τ sig (Elt F)) :=
  [ StableHlo.unary main_v61 main_v125 (broadcastInDim S1 ![] bcast_S_S1 : (⟨S_, .f32⟩ : BufTy).Contents (Elt F) → (⟨S1, .f32⟩ : BufTy).Contents (Elt F)),
    StableHlo.unary main_v79 main_v126 (broadcastInDim S1 ![] bcast_S_S1 : (⟨S_, .f32⟩ : BufTy).Contents (Elt F) → (⟨S1, .f32⟩ : BufTy).Contents (Elt F)),
    StableHlo.unary main_v97 main_v127 (broadcastInDim S1 ![] bcast_S_S1 : (⟨S_, .f32⟩ : BufTy).Contents (Elt F) → (⟨S1, .f32⟩ : BufTy).Contents (Elt F)),
    StableHlo.unary main_v115 main_v128 (broadcastInDim S1 ![] bcast_S_S1 : (⟨S_, .f32⟩ : BufTy).Contents (Elt F) → (⟨S1, .f32⟩ : BufTy).Contents (Elt F)),
    StableHlo.nary ![main_v123, main_v124, main_v125, main_v126, main_v127, main_v128] main_v129 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0),
    StableHlo.unary main_v24 main_v130 (broadcastInDim S1 ![] bcast_S_S1 : (⟨S_, .f32⟩ : BufTy).Contents (Elt F) → (⟨S1, .f32⟩ : BufTy).Contents (Elt F)),
    StableHlo.unary main_v42 main_v131 (broadcastInDim S1 ![] bcast_S_S1 : (⟨S_, .f32⟩ : BufTy).Contents (Elt F) → (⟨S1, .f32⟩ : BufTy).Contents (Elt F)),
    StableHlo.unary main_v60 main_v132 (broadcastInDim S1 ![] bcast_S_S1 : (⟨S_, .f32⟩ : BufTy).Contents (Elt F) → (⟨S1, .f32⟩ : BufTy).Contents (Elt F)),
    StableHlo.unary main_v77 main_v133 (broadcastInDim S1 ![] bcast_S_S1 : (⟨S_, .f32⟩ : BufTy).Contents (Elt F) → (⟨S1, .f32⟩ : BufTy).Contents (Elt F)),
    StableHlo.unary main_v95 main_v134 (broadcastInDim S1 ![] bcast_S_S1 : (⟨S_, .f32⟩ : BufTy).Contents (Elt F) → (⟨S1, .f32⟩ : BufTy).Contents (Elt F)),
    StableHlo.unary main_v113 main_v135 (broadcastInDim S1 ![] bcast_S_S1 : (⟨S_, .f32⟩ : BufTy).Contents (Elt F) → (⟨S1, .f32⟩ : BufTy).Contents (Elt F)),
    StableHlo.nary ![main_v130, main_v131, main_v132, main_v133, main_v134, main_v135] main_v136 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0),
    StableHlo.nullary main_c_53 (constantI S_ 1 1#1),
    StableHlo.unary main_c_53 main_v137 (broadcastInDim S6x6 ![] bcast_S_S6x6 : (⟨S_, .i1⟩ : BufTy).Contents (Elt F) → (⟨S6x6, .i1⟩ : BufTy).Contents (Elt F)),
    StableHlo.TRef.nullary main_call11.v0 (iotaInDim S6x6 32 0),
    StableHlo.TRef.nullary main_call11.c (constantI S_ 32 0#32),
    StableHlo.TRef.unary main_call11.c main_call11.v1 (broadcastInDim S6x6 ![] bcast_S_S6x6),
    StableHlo.TRef.binary main_call11.v0 main_call11.v1 main_call11.v2 addi,
    StableHlo.TRef.nullary main_call11.v3 (iotaInDim S6x6 32 1),
    StableHlo.TRef.binary main_call11.v2 main_call11.v3 main_call11.v4 (cmpi .sge),
    StableHlo.TRef.nullary main_call11.c_0 (constantI S_ 1 0#1),
    StableHlo.TRef.unary main_call11.c_0 main_call11.v5 (broadcastInDim S6x6 ![] bcast_S_S6x6),
    StableHlo.TRef.ternary main_call11.v4 main_call11.v5 (.of main_v137 : StableHlo.TRef sig ⟨S6x6, .i1⟩) main_call11.v6 select,
    StableHlo.unary main_v122 main_v139 (broadcastInDim S6x1 ![0] bcast_S6_S6x1_0 : (⟨S6, .f32⟩ : BufTy).Contents (Elt F) → (⟨S6x1, .f32⟩ : BufTy).Contents (Elt F)),
    StableHlo.unary main_v122 main_v140 (broadcastInDim S1x6 ![1] bcast_S6_S1x6_1 : (⟨S6, .f32⟩ : BufTy).Contents (Elt F) → (⟨S1x6, .f32⟩ : BufTy).Contents (Elt F)),
    StableHlo.unary main_v139 main_v141 (broadcastInDim S6x6 ![0, 1] bcast_S6x1_S6x6_0_1 : (⟨S6x1, .f32⟩ : BufTy).Contents (Elt F) → (⟨S6x6, .f32⟩ : BufTy).Contents (Elt F)),
    StableHlo.unary main_v140 main_v142 (broadcastInDim S6x6 ![0, 1] bcast_S1x6_S6x6_0_1 : (⟨S1x6, .f32⟩ : BufTy).Contents (Elt F) → (⟨S6x6, .f32⟩ : BufTy).Contents (Elt F)),
    StableHlo.binary main_v141 main_v142 main_v143 (subf : (⟨S6x6, .f32⟩ : BufTy).Contents (Elt F) → (⟨S6x6, .f32⟩ : BufTy).Contents (Elt F) → (⟨S6x6, .f32⟩ : BufTy).Contents (Elt F)),
    StableHlo.binary main_v143 main_v143 main_v144 (mulf : (⟨S6x6, .f32⟩ : BufTy).Contents (Elt F) → (⟨S6x6, .f32⟩ : BufTy).Contents (Elt F) → (⟨S6x6, .f32⟩ : BufTy).Contents (Elt F)),
    StableHlo.unary main_v144 main_v145 (Host.exp : (⟨S6x6, .f32⟩ : BufTy).Contents (Elt F) → (⟨S6x6, .f32⟩ : BufTy).Contents (Elt F)),
    StableHlo.unary main_v129 main_v146 (broadcastInDim S6x1 ![0] bcast_S6_S6x1_0 : (⟨S6, .f32⟩ : BufTy).Contents (Elt F) → (⟨S6x1, .f32⟩ : BufTy).Contents (Elt F)),
    StableHlo.unary main_v129 main_v147 (broadcastInDim S1x6 ![1] bcast_S6_S1x6_1 : (⟨S6, .f32⟩ : BufTy).Contents (Elt F) → (⟨S1x6, .f32⟩ : BufTy).Contents (Elt F)),
    StableHlo.unary main_v146 main_v148 (broadcastInDim S6x6 ![0, 1] bcast_S6x1_S6x6_0_1 : (⟨S6x1, .f32⟩ : BufTy).Contents (Elt F) → (⟨S6x6, .f32⟩ : BufTy).Contents (Elt F)),
    StableHlo.unary main_v147 main_v149 (broadcastInDim S6x6 ![0, 1] bcast_S1x6_S6x6_0_1 : (⟨S1x6, .f32⟩ : BufTy).Contents (Elt F) → (⟨S6x6, .f32⟩ : BufTy).Contents (Elt F)),
    StableHlo.binary main_v148 main_v149 main_v150 (subf : (⟨S6x6, .f32⟩ : BufTy).Contents (Elt F) → (⟨S6x6, .f32⟩ : BufTy).Contents (Elt F) → (⟨S6x6, .f32⟩ : BufTy).Contents (Elt F)),
    StableHlo.binary main_v150 main_v150 main_v151 (mulf : (⟨S6x6, .f32⟩ : BufTy).Contents (Elt F) → (⟨S6x6, .f32⟩ : BufTy).Contents (Elt F) → (⟨S6x6, .f32⟩ : BufTy).Contents (Elt F)),
    StableHlo.unary main_v151 main_v152 (Host.exp : (⟨S6x6, .f32⟩ : BufTy).Contents (Elt F) → (⟨S6x6, .f32⟩ : BufTy).Contents (Elt F)),
    StableHlo.nullary main_cst_54 (constant S_ .f32 0x3F800000#32),
    StableHlo.unary main_cst_54 main_v153 (broadcastInDim S6x6 ![] bcast_S_S6x6 : (⟨S_, .f32⟩ : BufTy).Contents (Elt F) → (⟨S6x6, .f32⟩ : BufTy).Contents (Elt F)),
    StableHlo.binary main_v153 main_v152 main_v154 (mulf : (⟨S6x6, .f32⟩ : BufTy).Contents (Elt F) → (⟨S6x6, .f32⟩ : BufTy).Contents (Elt F) → (⟨S6x6, .f32⟩ : BufTy).Contents (Elt F)),
    StableHlo.binary main_v145 main_v154 main_v155 (addf : (⟨S6x6, .f32⟩ : BufTy).Contents (Elt F) → (⟨S6x6, .f32⟩ : BufTy).Contents (Elt F) → (⟨S6x6, .f32⟩ : BufTy).Contents (Elt F)),
    StableHlo.nullary main_cst_55 (constant S_ .f32 0x00000000#32),
    StableHlo.TRef.unary (.of main_cst_55 : StableHlo.TRef sig ⟨S_, .f32⟩) main_call12.v0 id,
    StableHlo.TRef.unary main_call12.v0 main_call12.v1 (broadcastInDim S6x6 ![] bcast_S_S6x6),
    StableHlo.TRef.ternary (.of main_v138 : StableHlo.TRef sig ⟨S6x6, .i1⟩) (.of main_v155 : StableHlo.TRef sig ⟨S6x6, .f32⟩) main_call12.v1 main_call12.v2 select,
    StableHlo.nullary main_cst_56 (constant S_ .f32 0x00000000#32),
    StableHlo.binary main_v156 main_cst_56 main_v157 ((fun x v => Host.reduceAdd x v reducesTo_S6x6_S6_d1 h_S_) : (⟨S6x6, .f32⟩ : BufTy).Contents (Elt F) → (⟨S_, .f32⟩ : BufTy).Contents (Elt F) → (⟨S6, .f32⟩ : BufTy).Contents (Elt F)),
    StableHlo.nullary main_cst_57 (constant S_ .f32 0x3851B717#32),
    StableHlo.unary main_cst_57 main_v158 (broadcastInDim S6 ![] bcast_S_S6 : (⟨S_, .f32⟩ : BufTy).Contents (Elt F) → (⟨S6, .f32⟩ : BufTy).Contents (Elt F)),
    StableHlo.binary main_v158 main_v157 main_v159 (addf : (⟨S6, .f32⟩ : BufTy).Contents (Elt F) → (⟨S6, .f32⟩ : BufTy).Contents (Elt F) → (⟨S6, .f32⟩ : BufTy).Contents (Elt F)),
    StableHlo.binary main_v159 main_v136 main_v160 (addf : (⟨S6, .f32⟩ : BufTy).Contents (Elt F) → (⟨S6, .f32⟩ : BufTy).Contents (Elt F) → (⟨S6, .f32⟩ : BufTy).Contents (Elt F)),
    StableHlo.binary main_v136 main_v160 main_v161 (Host.divf : (⟨S6, .f32⟩ : BufTy).Contents (Elt F) → (⟨S6, .f32⟩ : BufTy).Contents (Elt F) → (⟨S6, .f32⟩ : BufTy).Contents (Elt F)),
    StableHlo.nullary main_cst_58 (constant S_ .f32 0x3F800000#32),
    StableHlo.unary main_cst_58 main_v162 (broadcastInDim S6 ![] bcast_S_S6 : (⟨S_, .f32⟩ : BufTy).Contents (Elt F) → (⟨S6, .f32⟩ : BufTy).Contents (Elt F)),
    StableHlo.binary main_v162 main_v161 main_v163 (addf : (⟨S6, .f32⟩ : BufTy).Contents (Elt F) → (⟨S6, .f32⟩ : BufTy).Contents (Elt F) → (⟨S6, .f32⟩ : BufTy).Contents (Elt F)),
    StableHlo.unary main_v163 main_v164 (Host.log : (⟨S6, .f32⟩ : BufTy).Contents (Elt F) → (⟨S6, .f32⟩ : BufTy).Contents (Elt F)),
    StableHlo.nullary main_cst_59 (constant S_ .f32 0x00000000#32),
    StableHlo.binary main_v164 main_cst_59 main_v165 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)) ]
/-- Each touches TensorCore references only. -/
theorem tailOps3_sub : (tailOps3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub ..⟩
/-- Each determines everything it writes. -/
theorem tailOps3_fresh : (tailOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation after the group means, in program order (447 operations), ending with the one that writes main_v165. -/
abbrev tailOps : List (HloOp τ sig (Elt F)) := tailOps0 ++ tailOps1 ++ tailOps2 ++ tailOps3

/-- @main's operations, in order. -/
abbrev ops : List (HloOp τ sig (Elt F)) := headOps ++ tailOps

end Cert.ReferenceIdeal.Ops

end
-- ==== Proof.RefRun.lean ====
import proofs.«135479_j53618371723721_2_alg».proof.Proof.RefOps
import Idealize.ShloMosaic.Lib.StableHlo.Run
import Idealize.ShloMosaic.Lib.Pipeline.Regions

/-! The reference program's run. Its @main is a straight line of host operations (the module-local functions it
    calls unfolded at their call sites): the line is `Ops.ops`, so every weakly fair execution terminates with each
    buffer at the fold of the operations' results over the launch contents, and the argument, which no operation
    writes, unchanged. The first thirteen operations compute the mean over the 512 batch rows of each of the 15
    groups: the reshaped and transposed argument summed over the batch axis and divided by 512. -/

noncomputable section

namespace Cert.ReferenceIdeal.RefRun

open Idealize.ShloMosaic Idealize.SL.Sem
open Cert.ReferenceIdeal Cert.ReferenceIdeal.Gen

variable {F : FTy → Type} [FloatOps F]

/-! ## @main is the line of its operations -/

/-- @main is the straight line `Ops.ops`: with each function's definition unfolded at its call and each record at
    its fields, both sides are the same chain of `hlo` steps once sequencing is reassociated; the unfolding is
    definitional, and is left to the kernel's check of the equation. -/
theorem main_eq (c : Dev nD) : main (F := F) c = StableHlo.seq (Ops.ops (F := F)) := by
  chain_rfl

/-! ## The side conditions of the run -/

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Every operation touches TensorCore references only. -/
theorem ops_sub : (Ops.ops (F := F)).Forall fun op => op.bufs ⊆ StableHlo.tcRefs τ sig :=
  forall_append Ops.headOps_sub
    (forall_append (forall_append (forall_append Ops.tailOps0_sub Ops.tailOps1_sub) Ops.tailOps2_sub) Ops.tailOps3_sub)

/-- Every operation determines everything it writes. -/
theorem ops_fresh : (Ops.ops (F := F)).Forall fun op => op.fresh = ∅ :=
  forall_append Ops.headOps_fresh
    (forall_append (forall_append (forall_append Ops.tailOps0_fresh Ops.tailOps1_fresh) Ops.tailOps2_fresh) Ops.tailOps3_fresh)

/-! ## The run -/

/-- At the compiled mesh, for any float values, from any memory with zero counters: every weakly fair execution of
    @main on the TensorCores terminates, and every final state has each TensorCore buffer at the operations' fold
    over the launch contents. -/
theorem run (m : (ℓ : Loc nD τ sig) → Buf (Elt F) ℓ) (ρ : Dev nD → PrngReg) :
    θ_run (defs (F := F)) (onTc (τ := τ) (main (F := F))) ⟨m, fun _ => 0, ρ⟩ (fun r => ∀ (d : Dev nD) (b : Ref sig .tc),
      r.2.mem ((d.tc : Thread nD τ).loc b) = StableHlo.after (Ops.ops (F := F)) (StableHlo.launchContents m d) (Proc.devRef .tc b)) :=
  StableHlo.run_seq scopedRefs_eq scopedSems_eq defs main (fun _ => Ops.ops) main_eq (fun _ => ops_sub) m ρ
    (fun _ => List.forall_iff_forall_mem.mp ops_fresh)

/-! ## The argument is kept -/

/-- An operation whose one written buffer is another reference's does not write the argument's buffer. -/
theorem arg0_not_written {op : HloOp τ sig (Elt F)} {y : Ref sig .tc}
    (hw : op.writes = {(Proc.devRef .tc y : DevRef τ sig)}) (hy : main_arg0 ≠ y) :
    (Proc.devRef .tc main_arg0 : DevRef τ sig) ∉ op.writes := by
  rw [hw, Finset.mem_singleton]
  exact StableHlo.devRef_ne_of_ne hy

/-- No operation of the head writes the argument: each writes its one result buffer, another reference. -/
theorem headOps_arg0 : (Ops.headOps (F := F)).Forall fun op => (Proc.devRef .tc main_arg0 : DevRef τ sig) ∉ op.writes := by
  repeat' apply And.intro
  all_goals exact arg0_not_written rfl (by decide)

/-- Nor does any of the tail's. -/
theorem tailOps0_arg0 : (Ops.tailOps0 (F := F)).Forall fun op => (Proc.devRef .tc main_arg0 : DevRef τ sig) ∉ op.writes := by
  repeat' apply And.intro
  all_goals exact arg0_not_written rfl (by decide)
theorem tailOps1_arg0 : (Ops.tailOps1 (F := F)).Forall fun op => (Proc.devRef .tc main_arg0 : DevRef τ sig) ∉ op.writes := by
  repeat' apply And.intro
  all_goals exact arg0_not_written rfl (by decide)
theorem tailOps2_arg0 : (Ops.tailOps2 (F := F)).Forall fun op => (Proc.devRef .tc main_arg0 : DevRef τ sig) ∉ op.writes := by
  repeat' apply And.intro
  all_goals exact arg0_not_written rfl (by decide)
theorem tailOps3_arg0 : (Ops.tailOps3 (F := F)).Forall fun op => (Proc.devRef .tc main_arg0 : DevRef τ sig) ∉ op.writes := by
  repeat' apply And.intro
  all_goals exact arg0_not_written rfl (by decide)

/-- No operation of @main writes the argument. -/
theorem ops_arg0 : (Ops.ops (F := F)).Forall fun op => (Proc.devRef .tc main_arg0 : DevRef τ sig) ∉ op.writes :=
  forall_append headOps_arg0
    (forall_append (forall_append (forall_append tailOps0_arg0 tailOps1_arg0) tailOps2_arg0) tailOps3_arg0)

/-- So the argument's buffer holds after the line what it held before, from any contents. -/
theorem arg0_kept (V : Valuation τ sig (Elt F)) :
    StableHlo.after (Ops.ops (F := F)) V (Proc.devRef .tc main_arg0) = V (Proc.devRef .tc main_arg0) :=
  StableHlo.after_of_forall_not_mem _ V (List.forall_iff_forall_mem.mp ops_arg0)

/-- The reference's frame: every weakly fair execution of @main terminates (nothing faults) with the argument
    unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run (defs (F := F)) _ _).mono (fun _ h c => (h c main_arg0).trans (arg0_kept _)) (run m ρ)

/-! ## The head: the group means, and the tables -/

/-- From any contents `V`, after the head's thirteen operations the buffer of the group means holds the argument
    reshaped to 512 × 15 × 4096, transposed to 15 × 512 × 4096, summed over the batch axis from zero and divided by
    the constant 512: each operation's result read at its own buffer, every other buffer left as it was. -/
theorem head_mean (V : Valuation τ sig (Elt F)) :
    StableHlo.after (Ops.headOps (F := F)) V (Proc.devRef .tc main_v4)
      = Host.divf (Host.reduceAdd (transpose S15x512x4096 [1, 0, 2] (shapeCast S512x15x4096 (V (Proc.devRef .tc main_arg0)) shapeCasts_S7680x4096_S512x15x4096) transposes_S512x15x4096_S15x512x4096_1_0_2) (constant S_ .f32 0x00000000#32) reducesTo_S15x512x4096_S15x4096_d1 h_S_) (broadcastInDim S15x4096 ![] bcast_S_S15x4096 (constant S_ .f32 0x44000000#32)) := by
  open Idealize.ShloMosaic.StableHlo in after_results
  rfl

/-- The head leaves the argument where it was. -/
theorem head_arg0 (V : Valuation τ sig (Elt F)) :
    StableHlo.after (Ops.headOps (F := F)) V (Proc.devRef .tc main_arg0) = V (Proc.devRef .tc main_arg0) := by
  open Idealize.ShloMosaic.StableHlo in after_results

/-- After the head each of the six integer tables holds its literal: no later operation of the head writes it. -/
theorem head_c (V : Valuation τ sig (Elt F)) :
    StableHlo.after (Ops.headOps (F := F)) V (Proc.devRef .tc main_c) = (fun i => lit0 (S3.rowMajor i)) := by
  open Idealize.ShloMosaic.StableHlo in after_results
  rfl
theorem head_c_0 (V : Valuation τ sig (Elt F)) :
    StableHlo.after (Ops.headOps (F := F)) V (Proc.devRef .tc main_c_0) = (fun i => lit1 (S2.rowMajor i)) := by
  open Idealize.ShloMosaic.StableHlo in after_results
  rfl
theorem head_c_1 (V : Valuation τ sig (Elt F)) :
    StableHlo.after (Ops.headOps (F := F)) V (Proc.devRef .tc main_c_1) = constantI S1 32 5#32 := by
  open Idealize.ShloMosaic.StableHlo in after_results
theorem head_c_2 (V : Valuation τ sig (Elt F)) :
    StableHlo.after (Ops.headOps (F := F)) V (Proc.devRef .tc main_c_2) = (fun i => lit2 (S4.rowMajor i)) := by
  open Idealize.ShloMosaic.StableHlo in after_results
  rfl
theorem head_c_3 (V : Valuation τ sig (Elt F)) :
    StableHlo.after (Ops.headOps (F := F)) V (Proc.devRef .tc main_c_3) = (fun i => lit3 (S2.rowMajor i)) := by
  open Idealize.ShloMosaic.StableHlo in after_results
  rfl
theorem head_c_4 (V : Valuation τ sig (Elt F)) :
    StableHlo.after (Ops.headOps (F := F)) V (Proc.devRef .tc main_c_4) = (fun i => lit4 (S3.rowMajor i)) := by
  open Idealize.ShloMosaic.StableHlo in after_results
  rfl

/-- The six together. -/
theorem head_tables (V : Valuation τ sig (Elt F)) :
    StableHlo.after (Ops.headOps (F := F)) V (Proc.devRef .tc main_c) = (fun i => lit0 (S3.rowMajor i))
    ∧ StableHlo.after (Ops.headOps (F := F)) V (Proc.devRef .tc main_c_0) = (fun i => lit1 (S2.rowMajor i))
    ∧ StableHlo.after (Ops.headOps (F := F)) V (Proc.devRef .tc main_c_1) = constantI S1 32 5#32
    ∧ StableHlo.after (Ops.headOps (F := F)) V (Proc.devRef .tc main_c_2) = (fun i => lit2 (S4.rowMajor i))
    ∧ StableHlo.after (Ops.headOps (F := F)) V (Proc.devRef .tc main_c_3) = (fun i => lit3 (S2.rowMajor i))
    ∧ StableHlo.after (Ops.headOps (F := F)) V (Proc.devRef .tc main_c_4) = (fun i => lit4 (S3.rowMajor i)) :=
  ⟨head_c V, head_c_0 V, head_c_1 V, head_c_2 V, head_c_3 V, head_c_4 V⟩

end Cert.ReferenceIdeal.RefRun

end
-- ==== Proof.GroupMean.lean ====
/- The group mean as mathematics, at the ideal values (extended reals): the specification of the mean over the
   512 batch rows of each of the 15 groups, the lane sum of one 128-row block read at an index, the regrouping of
   four block sums into the sum over all 512 rows, and the host's transpose / reduce / divide read as the same
   function. No printed program is imported. -/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Proof.GroupMean

open Idealize.ShloMosaic Idealize.ShloMosaic.ValueIdx

/-- The argument viewed as 512 batch rows of 15 groups of 4096 lanes. -/
abbrev B3 : Shape := ⟨3, ![512, 15, 4096]⟩
/-- The same with the group axis first. -/
abbrev T3 : Shape := ⟨3, ![15, 512, 4096]⟩
/-- The group means: 15 groups of 4096 lanes. -/
abbrev M : Shape := ⟨2, ![15, 4096]⟩
/-- One input block: 128 batch rows, 15 groups, 1024 lanes. -/
abbrev K3 : Shape := ⟨3, ![128, 15, 1024]⟩
/-- One output block, and the running sum: 15 groups, 1024 lanes. -/
abbrev K2 : Shape := ⟨2, ![15, 1024]⟩
/-- The scalar shape. -/
abbrev S_ : Shape := ⟨0, ![]⟩

/-! ## The two float constants: 2⁻⁹ and 512 -/

/-- The f32 word `0x3B000000` (sign 0, exponent field 118, fraction 0) denotes 2^(118-127) = 1/512. -/
theorem ofBits_inv512 : Ideal.ofBits .f32 0x3B000000#32 = ((1 / 512 : ℝ) : EReal) := by
  simp [Ideal.ofBits, Ideal.ieee, -EReal.coe_mul]; norm_num

/-- The f32 word `0x44000000` (sign 0, exponent field 136, fraction 0) denotes 2^(136-127) = 512. -/
theorem ofBits_512 : Ideal.ofBits .f32 0x44000000#32 = ((512 : ℝ) : EReal) := by
  simp [Ideal.ofBits, Ideal.ieee, -EReal.coe_mul]; norm_num

/-! ## The specification -/

/-- The mean of group `n`, lane `c`: the sum over the 512 batch rows, times 1/512. -/
def groupMeanAt (x : FVec Ideal B3 .f32) (n : Fin 15) (c : Fin 4096) : EReal :=
  (∑ b : Fin 512, x (ix3 b n c)) * ((1 / 512 : ℝ) : EReal)

/-- The group means as one array. -/
def groupMean (x : FVec Ideal B3 .f32) : FVec Ideal M .f32 := fun j => groupMeanAt x (j 0) (j 1)

/-- The specification read at an index. -/
theorem groupMean_apply (x : FVec Ideal B3 .f32) (n : Fin 15) (c : Fin 4096) :
    groupMean x (ix2 n c) = (∑ b : Fin 512, x (ix3 b n c)) * ((1 / 512 : ℝ) : EReal) := rfl

/-! ## One block's sum over its 128 rows -/

/-- The lane sum over axis 0 of a [128, 15, 1024] block at (n, c) is the sum over the 128 rows of the block at (b, n, c). -/
theorem blockSum_apply (x0 : FVec Ideal K3 .f32) (hr : K3.Reduces [0] K2) (hk : FKind.Formats .f32)
    (hacc : (0x00000000#32 : BitVec 32) = 0x00000000#32) (n : Fin 15) (c : Fin 1024) :
    multiReduction (F := Ideal) .add [0] K2 x0 0x00000000#32 hr hk hacc (ix2 n c) = ∑ b : Fin 128, x0 (ix3 b n c) := by
  refine (Ideal.multiReduction_add_single x0 0x00000000#32 hr hk hacc (ix2 n c)).trans ?_
  refine Finset.sum_congr rfl fun b _ => congrArg x0 ?_
  funext a
  refine Fin.ext ?_
  match a with
  | ⟨0, _⟩ => rfl
  | ⟨1, _⟩ => rfl
  | ⟨2, _⟩ => rfl

/-! ## Four blocks of 128 rows are the 512 rows -/

/-- A sum over 4 blocks of 128 rows each, row `128 k + b` of the whole at position `b` of block `k`, is the sum
    over the 512 rows: the rows are re-indexed through the bijection (k, b) ↦ b + 128 k. -/
theorem sum_blocks_rows (f : Fin 512 → EReal) (r : Fin 4 → Fin 128 → Fin 512)
    (hr : ∀ k b, (r k b).val = 128 * k.val + b.val) :
    ∑ k : Fin 4, ∑ b : Fin 128, f (r k b) = ∑ b : Fin 512, f b := by
  have h := Equiv.sum_comp (finProdFinEquiv (m := 4) (n := 128)) (fun i => f i)
  rw [Fintype.sum_prod_type] at h
  refine Eq.trans (Finset.sum_congr rfl fun k _ => Finset.sum_congr rfl fun b _ => congrArg f (Fin.ext ?_)) h
  rw [hr k b]
  show 128 * k.val + b.val = b.val + 128 * k.val
  omega

/-- The running sum as it is built — zero, then one block's sum added per step — is the sum over all 512 rows. -/
theorem sum_blocks (f : Fin 512 → EReal) :
    ((((0 + ∑ b : Fin 128, f ⟨b.val, by omega⟩) + ∑ b : Fin 128, f ⟨128 + b.val, by omega⟩)
        + ∑ b : Fin 128, f ⟨256 + b.val, by omega⟩) + ∑ b : Fin 128, f ⟨384 + b.val, by omega⟩)
      = ∑ b : Fin 512, f b := by
  rw [← sum_blocks_rows f (fun k b => ⟨128 * k.val + b.val, by omega⟩) (fun _ _ => rfl), Fin.sum_univ_four, zero_add]
  refine congrArg₂ (· + ·) (congrArg₂ (· + ·) (congrArg₂ (· + ·) ?_ ?_) ?_) ?_ <;>
    exact Finset.sum_congr rfl fun b _ => congrArg f (Fin.ext (by simp))

/-! ## The host's mean is the specification -/

/-- Transpose to groups first, sum over the 512 rows from zero, divide by the broadcast 512: the group mean. -/
theorem ref_mean_eq (x : FVec Ideal B3 .f32) (ht : B3.Transposes [1, 0, 2] T3) (hred : T3.ReducesTo [1] M)
    (hpos : 0 < S_.numel) (hb : S_.BroadcastsInDim M (![] : Fin 0 → Fin M.rank)) :
    Host.divf (F := Ideal)
        (Host.reduceAdd (F := Ideal) (transpose T3 [1, 0, 2] x ht) (constant (F := Ideal) S_ .f32 0x00000000#32) hred hpos)
        (broadcastInDim M ![] hb (constant (F := Ideal) S_ .f32 0x44000000#32))
      = groupMean x := by
  funext j
  obtain ⟨n, c, rfl⟩ : ∃ (n : Fin 15) (c : Fin 4096), j = ix2 n c := ⟨j 0, j 1, eq_ix2 j⟩
  have hR : T3.Reduces [1] M := by decide
  rw [groupMean_apply]
  show Ideal.div (Ideal.hostReduceAdd hred (transpose T3 [1, 0, 2] x ht) (Ideal.ofBits .f32 0x00000000#32) (ix2 n c))
      (Ideal.ofBits .f32 0x44000000#32) = _
  rw [Ideal.hostReduceAdd_single hred hR, Ideal.ofBits_zero_f32, zero_add, ofBits_512, Ideal.div_coe (by norm_num)]
  refine congrArg (· * ((1 / 512 : ℝ) : EReal)) ?_
  refine Finset.sum_congr rfl fun b _ => ?_
  exact transpose_apply [1, 0, 2] x ht _ (ix3 b n c) fun a => match a with
    | ⟨0, _⟩ => rfl
    | ⟨1, _⟩ => rfl
    | ⟨2, _⟩ => rfl

end Cert.Proof.GroupMean

end
-- ==== Proof.GroupMeanPay.lean ====
/- The three payloads of the group-sum kernel body at the ideal values, read at an index: the zero the running sum
   starts from, the running sum plus one block's sum over its 128 rows, and the running sum times 1/512. -/
import proofs.«135479_j53618371723721_2_alg».proof.Proof.Gen.KernelIdeal.Skeleton
import proofs.«135479_j53618371723721_2_alg».proof.Proof.GroupMean

noncomputable section

open scoped BigOperators

namespace Cert.KernelIdeal.Pay

open Idealize.ShloMosaic Idealize.ShloMosaic.ValueIdx Cert.KernelIdeal Cert.KernelIdeal.Gen Cert.Proof.GroupMean

/-- The first step stores zero: the splat of the word 0, through an identity shape cast. -/
theorem pay1_apply (n : Fin 15) (c : Fin 1024) : Gen.k0_pay1 (F := Ideal) (ix2 n c) = 0 := by
  unfold Gen.k0_pay1
  refine (congrFun (shapeCast_self _ _) (ix2 n c)).trans ?_
  exact Ideal.ofBits_zero_f32

/-- A step stores the running sum plus the block's sum over its 128 rows (both shape casts are the identity). -/
theorem pay2_apply (v0 : Vec Ideal S128x15x1024 .f32) (v6 : Vec Ideal S15x1024 .f32) (n : Fin 15) (c : Fin 1024) :
    Gen.k0_pay2 v0 v6 (ix2 n c) = v6 (ix2 n c) + ∑ b : Fin 128, v0 (ix3 b n c) := by
  unfold Gen.k0_pay2
  refine (congrFun (shapeCast_self _ _) (ix2 n c)).trans ?_
  refine congrArg (v6 (ix2 n c) + ·) ?_
  refine (blockSum_apply _ _ _ _ n c).trans ?_
  rw [shapeCast_self]

/-- The last step stores the running sum times 2⁻⁹ = 1/512. -/
theorem pay3_apply (v14 : Vec Ideal S15x1024 .f32) (n : Fin 15) (c : Fin 1024) :
    Gen.k0_pay3 v14 (ix2 n c) = v14 (ix2 n c) * ((1 / 512 : ℝ) : EReal) := by
  unfold Gen.k0_pay3
  exact congrArg (v14 (ix2 n c) * ·) ofBits_inv512

end Cert.KernelIdeal.Pay

end
-- ==== Proof.KIValue.lean ====
/-
  The region's value at the ideal values. Case by case, what the body's stores leave is a payload of the input
  block and the scratch; point by point, the scratch at the k-th row block of a column block is the chain of the
  first k+1 blocks' row sums from zero; at the fourth row block the output block is that chain times 2⁻⁹, which
  read at an index is the sum over all 512 batch rows times 1/512: the group mean of the region's input array
  at that group and lane. The four write-backs (one per column block of 1024 lanes) cover the output array, so
  after the region it holds the group mean.
-/
import proofs.«135479_j53618371723721_2_alg».proof.Proof.KIBody
import proofs.«135479_j53618371723721_2_alg».proof.Proof.GroupMeanPay
import Idealize.ShloMosaic.Lib.Pipeline.Value

set_option maxRecDepth 16384

noncomputable section

open scoped BigOperators

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Fr

variable {F : FTy → Type} [FloatOps F]
variable (m : (ℓ : Loc nD τ sig) → Buf (Elt F) ℓ)

/-! ## What each case's stores leave, as the body's payloads -/

theorem hz : (![0, 0] : Fin 2 → Nat) = fun _ => 0 := funext fun a => by fin_cases a <;> rfl
theorem hz3 : (![0, 0, 0] : Fin 3 → Nat) = fun _ => 0 := funext fun a => by fin_cases a <;> rfl

/-- A middle row block (bi = 1, 2): the scratch ends at what it held plus the block's row sum. -/
theorem soutB_eq (c : Dev nD) (i : grid0.Coords) (a2 : Memref sig .tc .vmem S128x15x1024 .f32) (h2 : a2.IsWhole) (a3 : Memref sig .tc .vmem S15x1024 .f32) (h3 : a3.IsWhole) (a4 : Memref sig .tc .vmem S15x1024 .f32) (h4 : a4.IsWhole) (hc0 : ¬cond0_0 i) (hc1 : ¬cond0_1 i) (x0 : Vec F S128x15x1024 .f32) (xs0 : Vec F S15x1024 .f32) :
    sout0_B_0 c i a2 h2 a3 h3 a4 h4 hc0 hc1 x0 xs0 = k0_pay2 x0 xs0 := by
  unfold sout0_B_0
  rw [View.read_writes_eq_canon _ _ _ (scover0_B_0 c i a2 h2 a3 h3 a4 h4 hc0 hc1 x0 xs0)]
  unfold kernelRun0_B
  dsimp only
  rw [View.canon_unit_zero hz]
  simp only [View.readAt_eq_ld, h2.read_unread, h4.read_unread, View.ld_unit_zero (S := S15x1024) hz,
    View.ld_unit_zero (S := S128x15x1024) hz3]

/-- The last row block (bi = 3): the scratch likewise. -/
theorem soutC_eq (c : Dev nD) (i : grid0.Coords) (a2 : Memref sig .tc .vmem S128x15x1024 .f32) (h2 : a2.IsWhole) (a3 : Memref sig .tc .vmem S15x1024 .f32) (h3 : a3.IsWhole) (a4 : Memref sig .tc .vmem S15x1024 .f32) (h4 : a4.IsWhole) (hc0 : ¬cond0_0 i) (hc1 : cond0_1 i) (x0 : Vec F S128x15x1024 .f32) (xs0 : Vec F S15x1024 .f32) :
    sout0_C_0 c i a2 h2 a3 h3 a4 h4 hc0 hc1 x0 xs0 = k0_pay2 x0 xs0 := by
  unfold sout0_C_0
  rw [View.read_writes_eq_canon _ _ _ (scover0_C_0 c i a2 h2 a3 h3 a4 h4 hc0 hc1 x0 xs0)]
  unfold kernelRun0_C
  dsimp only
  try sl_unfold_words
  rw [View.canon_unit_zero hz]
  simp only [View.readAt_eq_ld, h2.read_unread, h4.read_unread, View.ld_unit_zero (S := S15x1024) hz,
    View.ld_unit_zero (S := S128x15x1024) hz3]

/-- The last row block: the output block is the scratch just stored, read back, times 2⁻⁹. -/
theorem outC_eq (c : Dev nD) (i : grid0.Coords) (a2 : Memref sig .tc .vmem S128x15x1024 .f32) (h2 : a2.IsWhole) (a3 : Memref sig .tc .vmem S15x1024 .f32) (h3 : a3.IsWhole) (a4 : Memref sig .tc .vmem S15x1024 .f32) (h4 : a4.IsWhole) (hc0 : ¬cond0_0 i) (hc1 : cond0_1 i) (x0 : Vec F S128x15x1024 .f32) (xs0 : Vec F S15x1024 .f32) :
    out0_C_1 c i a2 h2 a3 h3 a4 h4 hc0 hc1 x0 xs0 = k0_pay3 (k0_pay2 x0 xs0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz, View.readCov_unit_zero (S := S15x1024) _ hz]
  simp only [View.readAt_eq_ld, h2.read_unread, h4.read_unread, View.ld_unit_zero (S := S15x1024) hz,
    View.ld_unit_zero (S := S128x15x1024) hz3]

/-- The first row block (bi = 0): the scratch is zeroed, read back, and the block's row sum added. -/
theorem soutA_eq (c : Dev nD) (i : grid0.Coords) (a2 : Memref sig .tc .vmem S128x15x1024 .f32) (h2 : a2.IsWhole) (a3 : Memref sig .tc .vmem S15x1024 .f32) (h3 : a3.IsWhole) (a4 : Memref sig .tc .vmem S15x1024 .f32) (h4 : a4.IsWhole) (hc0 : cond0_0 i) (hc1 : ¬cond0_1 i) (x0 : Vec F S128x15x1024 .f32) :
    sout0_A_0 c i a2 h2 a3 h3 a4 h4 hc0 hc1 x0 = k0_pay2 x0 k0_pay1 := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S15x1024) hz, View.readCov_unit_zero (S := S15x1024) _ hz]
  simp only [View.readAt_eq_ld, h2.read_unread, View.ld_unit_zero (S := S128x15x1024) hz3]

/-! ## The scratch, point by point -/

/-- At a first row block (bi = 0) the scratch ends at zero plus the block's row sum, whatever it held. -/
theorem scratch_first (c : Dev nD) (t : Fin cfg0.N) (h0 : t.val % 4 = 0) :
    (outsAt0 m c t.val t.isLt).2 = k0_pay2 (iblk m c 0 t) k0_pay1 := by
  have h1 : ¬t.val % 4 = 3 := by omega
  rw [outsAt0_A m c t h0 h1]
  dsimp only
  rw [soutA_eq]

/-- At any later row block the scratch ends at what the point before left plus the block's row sum. -/
theorem scratch_succ (c : Dev nD) (n : ℕ) (h : n + 1 < cfg0.N) (h0 : ¬(n + 1) % 4 = 0) :
    (outsAt0 m c (n + 1) h).2 = k0_pay2 (iblk m c 0 ⟨n + 1, h⟩) (outsAt0 m c n (Nat.lt_of_succ_lt h)).2 := by
  by_cases h1 : (n + 1) % 4 = 3
  · rw [outsAt0_C m c ⟨n + 1, h⟩ h0 h1]
    dsimp only
    rw [soutC_eq]
    rfl
  · rw [outsAt0_B m c ⟨n + 1, h⟩ h0 h1]
    dsimp only
    rw [soutB_eq]
    rfl

/-- At a last row block (bi = 3) the output block is the scratch just stored times 2⁻⁹. -/
theorem out_last (c : Dev nD) (n : ℕ) (h : n + 1 < cfg0.N) (h1 : (n + 1) % 4 = 3) :
    (outsAt0 m c (n + 1) h).1 = k0_pay3 (k0_pay2 (iblk m c 0 ⟨n + 1, h⟩) (outsAt0 m c n (Nat.lt_of_succ_lt h)).2) := by
  have h0 : ¬(n + 1) % 4 = 0 := by omega
  rw [outsAt0_C m c ⟨n + 1, h⟩ h0 h1]
  dsimp only
  rw [outC_eq]
  rfl

/-- So the output block stored at the last of four consecutive row blocks s, s+1, s+2, s+3 (s a first one) is the
    chain of the four blocks' row sums from zero, times 2⁻⁹. -/
theorem out_flush (c : Dev nD) (s : ℕ) (h : s + 3 < cfg0.N) (hs : s % 4 = 0) :
    (outsAt0 m c (s + 3) h).1
      = k0_pay3 (k0_pay2 (iblk m c 0 ⟨s + 3, h⟩) (k0_pay2 (iblk m c 0 ⟨s + 2, by omega⟩)
          (k0_pay2 (iblk m c 0 ⟨s + 1, by omega⟩) (k0_pay2 (iblk m c 0 ⟨s, by omega⟩) k0_pay1)))) := by
  rw [out_last m c (s + 2) h (by omega), scratch_succ m c (s + 1) (by omega) (by omega),
    scratch_succ m c s (by omega) (by omega), scratch_first m c ⟨s, by omega⟩ hs]

/-! ## The windows' index maps, decided once over the grid -/

/-- The input window's block at point t = 4·ci + bi is (bi, 0, ci). -/
theorem idx_facts0 : ∀ t : Fin cfg0.N, win0_0.index t (0 : Fin 3) = t.val % 4 ∧ win0_0.index t (1 : Fin 3) = 0
    ∧ win0_0.index t (2 : Fin 3) = t.val / 4 :=
  (by decide +kernel : ∀ t : Fin grid0.N, _)

/-- The output window's block at point t = 4·ci + bi is (0, ci), and it is a full [15, 1024] block. -/
theorem idx_facts1 : ∀ t : Fin cfg0.N, win0_1.index t (0 : Fin 2) = 0 ∧ win0_1.index t (1 : Fin 2) = t.val / 4
    ∧ win0_1.xsize (grid0.coords t) (0 : Fin 2) = 15 ∧ win0_1.xsize (grid0.coords t) (1 : Fin 2) = 1024 :=
  (by decide +kernel : ∀ t : Fin grid0.N, _)

/-- The input block at point t, read at (b, n, c'), is the region's input array at row 128·bi + b, group n,
    lane 1024·ci + c'. -/
theorem iblk_apply (c : Dev nD) (t : Fin cfg0.N) (b : Fin 128) (n : Fin 15) (c' : Fin 1024) (r : Fin 512) (cc : Fin 4096)
    (hr : r.val = 128 * (t.val % 4) + b.val) (hcc : cc.val = 1024 * (t.val / 4) + c'.val) :
    (iblk m c 0 t : Vec F S128x15x1024 .f32) (ix3 b n c') = (V m c main_v0 : S512x15x4096.Idx → Elt F .f32) (ix3 r n cc) := by
  obtain ⟨e0, e1, e2⟩ := idx_facts0 t
  unfold iblk
  rw [View.read_apply]
  show V m c main_v0 _ = V m c main_v0 _
  congr 1
  funext a
  apply Fin.ext
  match a with
  | ⟨0, _⟩ => show win0_0.index t 0 * 128 + 1 * b.val = r.val; rw [e0, hr]; omega
  | ⟨1, _⟩ => show win0_0.index t 1 * 15 + 1 * n.val = n.val; rw [e1]; omega
  | ⟨2, _⟩ => show win0_0.index t 2 * 1024 + 1 * c'.val = cc.val; rw [e2, hcc]; omega

section AtIdeal

open Cert.Proof.GroupMean Cert.KernelIdeal.Pay

variable (mI : (ℓ : Loc nD τ sig) → Buf (Elt Ideal) ℓ)

/-- Four row blocks' sums chained from zero, times 2⁻⁹, read at an index. -/
theorem four_steps (x0 x1 x2 x3 : Vec Ideal S128x15x1024 .f32) (n : Fin 15) (c' : Fin 1024) :
    k0_pay3 (k0_pay2 x3 (k0_pay2 x2 (k0_pay2 x1 (k0_pay2 x0 (k0_pay1 (F := Ideal)))))) (ix2 n c')
      = ((((0 + ∑ b : Fin 128, x0 (ix3 b n c')) + ∑ b : Fin 128, x1 (ix3 b n c')) + ∑ b : Fin 128, x2 (ix3 b n c'))
          + ∑ b : Fin 128, x3 (ix3 b n c')) * ((1 / 512 : ℝ) : EReal) := by
  rw [pay3_apply, pay2_apply, pay2_apply, pay2_apply, pay2_apply, pay1_apply]

/-- The output block stored at the last of the four row blocks s … s+3 of column block s / 4, at (n, c'), is the
    group mean of the region's input array at group n, lane 1024·(s/4) + c'. -/
theorem out_flush_apply (c : Dev nD) (s : ℕ) (h : s + 3 < cfg0.N) (hs : s % 4 = 0) (n : Fin 15) (c' : Fin 1024)
    (cc : Fin 4096) (hcc : cc.val = 1024 * (s / 4) + c'.val) :
    ((outsAt0 mI c (s + 3) h).1 : Vec Ideal S15x1024 .f32) (ix2 n c')
      = groupMean (V mI c main_v0 : S512x15x4096.Idx → Elt Ideal .f32) (ix2 n cc) := by
  rw [out_flush mI c s h hs]
  refine (four_steps (iblk mI c 0 ⟨s, by omega⟩) (iblk mI c 0 ⟨s + 1, by omega⟩) (iblk mI c 0 ⟨s + 2, by omega⟩)
    (iblk mI c 0 ⟨s + 3, h⟩) n c').trans ?_
  rw [groupMean_apply, ← sum_blocks (fun r => (V mI c main_v0 : S512x15x4096.Idx → Elt Ideal .f32) (ix3 r n cc))]
  refine congrArg (· * ((1 / 512 : ℝ) : EReal)) ?_
  refine congrArg₂ (· + ·) (congrArg₂ (· + ·) (congrArg₂ (· + ·) (congrArg (0 + ·) ?_) ?_) ?_) ?_
  · exact Finset.sum_congr rfl fun b _ => iblk_apply mI c ⟨s, by omega⟩ b n c' ⟨b.val, by omega⟩ cc (by dsimp only; omega) (by dsimp only; omega)
  · exact Finset.sum_congr rfl fun b _ => iblk_apply mI c ⟨s + 1, by omega⟩ b n c' ⟨128 + b.val, by omega⟩ cc (by dsimp only; omega) (by dsimp only; omega)
  · exact Finset.sum_congr rfl fun b _ => iblk_apply mI c ⟨s + 2, by omega⟩ b n c' ⟨256 + b.val, by omega⟩ cc (by dsimp only; omega) (by dsimp only; omega)
  · exact Finset.sum_congr rfl fun b _ => iblk_apply mI c ⟨s + 3, h⟩ b n c' ⟨384 + b.val, by omega⟩ cc (by dsimp only; omega) (by dsimp only; omega)

/-- The same at a flush point t (bi = 3), column block t / 4. -/
theorem after_flush_apply (c : Dev nD) (t : Fin cfg0.N) (h3 : t.val % 4 = 3) (n : Fin 15) (c' : Fin 1024)
    (cc : Fin 4096) (hcc : cc.val = 1024 * (t.val / 4) + c'.val) :
    ((outsAt0 mI c t.val t.isLt).1 : Vec Ideal S15x1024 .f32) (ix2 n c')
      = groupMean (V mI c main_v0 : S512x15x4096.Idx → Elt Ideal .f32) (ix2 n cc) := by
  obtain ⟨tv, ht⟩ := t
  dsimp only at h3 hcc ⊢
  obtain ⟨s, rfl⟩ : ∃ s, tv = s + 3 := ⟨tv - 3, by omega⟩
  exact out_flush_apply mI c s ht (by omega) n c' cc (by omega)

end AtIdeal

section Region

open Cert.Proof.GroupMean

variable (mI : (ℓ : Loc nD τ sig) → Buf (Elt Ideal) ℓ)

/-- What a flush point writes back is its block of the group mean of the region's input array. -/
theorem flushed_eq (c : Dev nD) (t : Fin cfg0.N) (hf : (cfg0.win 1).flush t = true) :
    (dats mI 0 c).flushed 1 t = ((cfg0.win 1).blk t).view.read (Elt Ideal) (groupMean (V mI c main_v0 : S512x15x4096.Idx → Elt Ideal .f32)) := by
  have h3 : t.val % 4 = 3 := (flush0_1 t).mp hf
  have hN : cfg0.N = 16 := N_0
  obtain ⟨e0, e1, -, -⟩ := idx_facts1 t
  show (cfg0.win 1).cut (grid0.coords t) ((dats mI 0 c).after 1 t) = _
  rw [after0_1]
  funext j
  obtain ⟨n, c', rfl⟩ : ∃ (n : Fin 15) (c' : Fin 1024), j = ix2 n c' := ⟨j 0, j 1, eq_ix2 j⟩
  rw [View.read_apply]
  have hlt : 1024 * (t.val / 4) + c'.val < 4096 := by have := t.isLt; omega
  show ((outsAt0 mI c t.val t.isLt).1 : Vec Ideal S15x1024 .f32) (ix2 n c')
    = groupMean (V mI c main_v0 : S512x15x4096.Idx → Elt Ideal .f32) (((cfg0.win 1).blk t).view.emb (ix2 n c'))
  refine (after_flush_apply mI c t h3 n c' ⟨1024 * (t.val / 4) + c'.val, hlt⟩ rfl).trans ?_
  refine congrArg (groupMean (V mI c main_v0 : S512x15x4096.Idx → Elt Ideal .f32)) ?_
  funext a
  apply Fin.ext
  match a with
  | ⟨0, _⟩ => show n.val = win0_1.index t 0 * 15 + 1 * n.val; rw [e0]; omega
  | ⟨1, _⟩ => show 1024 * (t.val / 4) + c'.val = win0_1.index t 1 * 1024 + 1 * c'.val; rw [e1]; omega

/-- THE REGION'S VALUE: after the region the output array holds the group mean of the region's input array. Lane j
    is written back by the flush point of its column block, point 4·(j / 1024) + 3. -/
theorem final (c : Dev nD) : (dats mI 0 c).arrAt 1 cfg0.N = groupMean (V mI c main_v0 : S512x15x4096.Idx → Elt Ideal .f32) :=
  (dats mI 0 c).arrAt_eq_of_cover 1 (groupMean (V mI c main_v0 : S512x15x4096.Idx → Elt Ideal .f32)) (flushed_eq mI c) fun i => by
    have hN : cfg0.N = 16 := N_0
    have hi0 : (i 0 : ℕ) < 15 := (i 0).isLt
    have hi1 : (i 1 : ℕ) < 4096 := (i 1).isLt
    have hq : 4 * ((i 1 : ℕ) / 1024) + 3 < cfg0.N := by omega
    obtain ⟨e0, e1, x0, x1⟩ := idx_facts1 ⟨4 * ((i 1 : ℕ) / 1024) + 3, hq⟩
    refine ⟨⟨4 * ((i 1 : ℕ) / 1024) + 3, hq⟩, (flush0_1 ⟨4 * ((i 1 : ℕ) / 1024) + 3, hq⟩).mpr (by dsimp only; omega), ?_⟩
    show i ∈ ((View.whole main_v1).slice (win0_1.rect ⟨4 * ((i 1 : ℕ) / 1024) + 3, hq⟩)).set
    rw [View.set_slice_whole, Rect.mem_set_unit]
    intro a
    match a with
    | ⟨0, _⟩ =>
      show win0_1.index ⟨4 * ((i 1 : ℕ) / 1024) + 3, hq⟩ 0 * win0_1.size 0 ≤ (i 0 : ℕ)
        ∧ (i 0 : ℕ) < win0_1.index ⟨4 * ((i 1 : ℕ) / 1024) + 3, hq⟩ 0 * win0_1.size 0 + win0_1.xsize (grid0.coords ⟨4 * ((i 1 : ℕ) / 1024) + 3, hq⟩) 0
      rw [e0, x0]; omega
    | ⟨1, _⟩ =>
      show win0_1.index ⟨4 * ((i 1 : ℕ) / 1024) + 3, hq⟩ 1 * win0_1.size 1 ≤ (i 1 : ℕ)
        ∧ (i 1 : ℕ) < win0_1.index ⟨4 * ((i 1 : ℕ) / 1024) + 3, hq⟩ 1 * win0_1.size 1 + win0_1.xsize (grid0.coords ⟨4 * ((i 1 : ℕ) / 1024) + 3, hq⟩) 1
      rw [e1, x1, show win0_1.size 1 = 1024 from rfl]; dsimp only; omega

end Region

end Cert.KernelIdeal.Val

end
-- ==== Proof.TailsBase.lean ====
/-
  The two host tails side by side. After the group means (the kernel program's main_v1, the reference's main_v4)
  both programs run the same 447 operations, in the same order, on corresponding buffers: the kernel program's as
  the twenty-seven stretches that follow its region, the reference's as one list. Here the reference's list is cut at
  the kernel program's stretch boundaries; for each stretch of either program the buffers it writes are listed (each
  operation writes its own result buffer only), so that a buffer outside the list keeps its contents over the
  stretch; and for each boundary the pairs of corresponding buffers still read later are named: the two programs
  AGREE at a boundary when every such pair holds equal contents.
-/
import proofs.«135479_j53618371723721_2_alg».proof.Proof.KIV
import proofs.«135479_j53618371723721_2_alg».proof.Proof.RefOps

set_option maxRecDepth 16384

noncomputable section

namespace Cert.Proof.Tails
open Idealize.ShloMosaic Idealize.SL.Sem

/-- An operation that writes exactly one buffer, a reference of the list `W`, writes within `W`. -/
theorem writes_sub_of {τ : Topo} {sig : RefSig} {Val : EltTy → Type} {op : HloOp τ sig Val} {y : Ref sig .tc} {W : List (Ref sig .tc)}
    (hw : op.writes = {Proc.devRef .tc y}) (hy : y ∈ W) : op.writes ⊆ (W.map (Proc.devRef (τ := τ) .tc)).toFinset := by
  rw [hw, Finset.singleton_subset_iff, List.mem_toFinset]
  exact List.mem_map.mpr ⟨y, hy, rfl⟩

/-- Closes `ops.Forall fun op => op.writes ⊆ …` for a literal stretch and the literal list of its result buffers:
    the conjunction is split operation by operation; each writes its own result buffer, a member of the list. -/
macro "writes_stretch" : tactic =>
  `(tactic| repeat' (first | exact writes_sub_of rfl (by decide) | apply And.intro))

/-- A pair of corresponding buffers that neither program's stretch writes (the kernel program's `rK`, outside the
    list `wK` proves the stretch writes within; the reference's `rR`, likewise for `wR`) keeps its contents on both
    sides, so equal contents `h` before the stretch are equal contents after it. -/
macro "kept " rK:term:max rR:term:max wK:term:max wR:term:max h:term:max : tactic =>
  `(tactic| exact (StableHlo.after_of_writes_sub (r := $rK) _ _ $wK (by decide)).trans
      (($h).trans (StableHlo.after_of_writes_sub (r := $rR) _ _ $wR (by decide)).symm))

end Cert.Proof.Tails

namespace Cert.ReferenceIdeal.Ops
open Idealize.ShloMosaic Idealize.SL.Sem
open Cert.ReferenceIdeal Cert.ReferenceIdeal.Gen
open Cert.Proof.Tails
variable {F : FTy → Type} [FloatOps F]

/-- The reference's operations 1 … 6 after the group means: the same operations as the kernel program's stretch 0 after its region. -/
abbrev refOps0 : List (HloOp τ sig (Elt F)) :=
  [ StableHlo.nullary main_cst_6 (constant S_ .f32 0x00000000#32),
    StableHlo.binary main_v4 main_cst_6 main_v5 ((fun x v => Host.reduceAdd x v reducesTo_S15x4096_S15_d1 h_S_) : (⟨S15x4096, .f32⟩ : BufTy).Contents (Elt F) → (⟨S_, .f32⟩ : BufTy).Contents (Elt F) → (⟨S15, .f32⟩ : BufTy).Contents (Elt F)),
    StableHlo.nullary main_cst_7 (constant S_ .f32 0x45800000#32),
    StableHlo.unary main_cst_7 main_v6 (broadcastInDim S15 ![] bcast_S_S15 : (⟨S_, .f32⟩ : BufTy).Contents (Elt F) → (⟨S15, .f32⟩ : BufTy).Contents (Elt F)),
    StableHlo.binary main_v5 main_v6 main_v7 (Host.divf : (⟨S15, .f32⟩ : BufTy).Contents (Elt F) → (⟨S15, .f32⟩ : BufTy).Contents (Elt F) → (⟨S15, .f32⟩ : BufTy).Contents (Elt F)),
    StableHlo.nullary main_c_8 (constantI S_ 32 1#32) ]
/-- The reference's operations 7 … 29 after the group means: the same operations as the kernel program's stretch 1 after its region. -/
abbrev refOps1 : List (HloOp τ sig (Elt F)) :=
  [ StableHlo.TRef.nullary main_call0.call0.cst (constant S_ .f32 0x00000000#32),
    StableHlo.TRef.binary (.of main_v4 : StableHlo.TRef sig ⟨S15x4096, .f32⟩) main_call0.call0.cst main_call0.call0.v0 (fun x v => Host.reduceAdd x v reducesTo_S15x4096_S15_d1 h_S_),
    StableHlo.TRef.unary main_call0.call0.v0 main_call0.call0.v1 (broadcastInDim S15x1 ![0] bcast_S15_S15x1_0),
    StableHlo.TRef.nullary main_call0.call0.cst_0 (constant S_ .f32 0x45800000#32),
    StableHlo.TRef.unary main_call0.call0.cst_0 main_call0.call0.v2 (broadcastInDim S15x1 ![] bcast_S_S15x1),
    StableHlo.TRef.binary main_call0.call0.v1 main_call0.call0.v2 main_call0.call0.v3 Host.divf,
    StableHlo.TRef.unary main_call0.call0.v3 main_call0.call0.v4 (broadcastInDim S15x4096 ![0, 1] bcast_S15x1_S15x4096_0_1),
    StableHlo.TRef.binary (.of main_v4 : StableHlo.TRef sig ⟨S15x4096, .f32⟩) main_call0.call0.v4 main_call0.call0.v5 subf,
    StableHlo.TRef.binary main_call0.call0.v5 main_call0.call0.v5 main_call0.call0.v6 mulf,
    StableHlo.TRef.unary (.of main_c_8 : StableHlo.TRef sig ⟨S_, .i32⟩) main_call0.call0.v7 (sitofp .f32),
    StableHlo.TRef.nullary main_call0.call0.cst_1 (constant S_ .f32 0x45800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S15x4096_S15_d1 h_S_),
    StableHlo.TRef.unary main_call0.call0.v8 main_call0.call0.v10 (broadcastInDim S15 ![] bcast_S_S15),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S15 ![] bcast_S_S15),
    StableHlo.TRef.ternary main_call0.call0.v12 main_call0.call0.v11 main_call0.call0.call0.v1 main_call0.call0.call0.v2 (fun p a b => select (broadcastInDim S15 ![] bcast_S_S15 p) a b),
    StableHlo.TRef.unary main_call0.call0.call0.v2 main_call0.v1 Host.sqrt ]
/-- The reference's operations 30 … 48 after the group means: the same operations as the kernel program's stretch 2 after its region. -/
abbrev refOps2 : List (HloOp τ sig (Elt F)) :=
  [ StableHlo.nullary main_c_9 (constantI S_ 32 0#32),
    StableHlo.unary main_c_9 main_v9 (broadcastInDim S3 ![] bcast_S_S3 : (⟨S_, .i32⟩ : BufTy).Contents (Elt F) → (⟨S3, .i32⟩ : BufTy).Contents (Elt F)),
    StableHlo.binary main_c main_v9 main_v10 (cmpi .slt : (⟨S3, .i32⟩ : BufTy).Contents (Elt F) → (⟨S3, .i32⟩ : BufTy).Contents (Elt F) → (⟨S3, .i1⟩ : BufTy).Contents (Elt F)),
    StableHlo.nullary main_c_10 (constantI S_ 32 15#32),
    StableHlo.unary main_c_10 main_v11 (broadcastInDim S3 ![] bcast_S_S3 : (⟨S_, .i32⟩ : BufTy).Contents (Elt F) → (⟨S3, .i32⟩ : BufTy).Contents (Elt F)),
    StableHlo.binary main_c main_v11 main_v12 (addi : (⟨S3, .i32⟩ : BufTy).Contents (Elt F) → (⟨S3, .i32⟩ : BufTy).Contents (Elt F) → (⟨S3, .i32⟩ : BufTy).Contents (Elt F)),
    StableHlo.ternary main_v10 main_v12 main_c main_v13 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v13 main_v14 (broadcastInDim S3x1 ![0] bcast_S3_S3x1_0 : (⟨S3, .i32⟩ : BufTy).Contents (Elt F) → (⟨S3x1, .i32⟩ : BufTy).Contents (Elt F)),
    StableHlo.binary main_v8 main_v14 main_v15 ((fun x i => Host.gather gather_S15_S3x1_S3_n_0_n_n_0_1_1 x i) : (⟨S15, .f32⟩ : BufTy).Contents (Elt F) → (⟨S3x1, .i32⟩ : BufTy).Contents (Elt F) → (⟨S3, .f32⟩ : BufTy).Contents (Elt F)),
    StableHlo.nullary main_c_11 (constantI S_ 32 0#32),
    StableHlo.unary main_c_11 main_v16 (broadcastInDim S3 ![] bcast_S_S3 : (⟨S_, .i32⟩ : BufTy).Contents (Elt F) → (⟨S3, .i32⟩ : BufTy).Contents (Elt F)),
    StableHlo.binary main_c main_v16 main_v17 (cmpi .slt : (⟨S3, .i32⟩ : BufTy).Contents (Elt F) → (⟨S3, .i32⟩ : BufTy).Contents (Elt F) → (⟨S3, .i1⟩ : BufTy).Contents (Elt F)),
    StableHlo.nullary main_c_12 (constantI S_ 32 15#32),
    StableHlo.unary main_c_12 main_v18 (broadcastInDim S3 ![] bcast_S_S3 : (⟨S_, .i32⟩ : BufTy).Contents (Elt F) → (⟨S3, .i32⟩ : BufTy).Contents (Elt F)),
    StableHlo.binary main_c main_v18 main_v19 (addi : (⟨S3, .i32⟩ : BufTy).Contents (Elt F) → (⟨S3, .i32⟩ : BufTy).Contents (Elt F) → (⟨S3, .i32⟩ : BufTy).Contents (Elt F)),
    StableHlo.ternary main_v17 main_v19 main_c main_v20 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v20 main_v21 (broadcastInDim S3x1 ![0] bcast_S3_S3x1_0 : (⟨S3, .i32⟩ : BufTy).Contents (Elt F) → (⟨S3x1, .i32⟩ : BufTy).Contents (Elt F)),
    StableHlo.binary main_v7 main_v21 main_v22 ((fun x i => Host.gather gather_S15_S3x1_S3_n_0_n_n_0_1_1 x i) : (⟨S15, .f32⟩ : BufTy).Contents (Elt F) → (⟨S3x1, .i32⟩ : BufTy).Contents (Elt F) → (⟨S3, .f32⟩ : BufTy).Contents (Elt F)),
    StableHlo.nullary main_c_13 (constantI S_ 32 1#32) ]
/-- The reference's operations 49 … 69 after the group means: the same operations as the kernel program's stretch 3 after its region. -/
abbrev refOps3 : List (HloOp τ sig (Elt F)) :=
  [ StableHlo.TRef.nullary main_call1.call0.cst (constant S_ .f32 0x00000000#32),
    StableHlo.TRef.binary (.of main_v15 : StableHlo.TRef sig ⟨S3, .f32⟩) main_call1.call0.cst main_call1.call0.v0 (fun x v => Host.reduceAdd x v reducesTo_S3_S_d0 h_S_),
    StableHlo.TRef.unary main_call1.call0.v0 main_call1.call0.v1 (broadcastInDim S1 ![] bcast_S_S1),
    StableHlo.TRef.nullary main_call1.call0.cst_0 (constant S_ .f32 0x40400000#32),
    StableHlo.TRef.unary main_call1.call0.cst_0 main_call1.call0.v2 (broadcastInDim S1 ![] bcast_S_S1),
    StableHlo.TRef.binary main_call1.call0.v1 main_call1.call0.v2 main_call1.call0.v3 Host.divf,
    StableHlo.TRef.unary main_call1.call0.v3 main_call1.call0.v4 (broadcastInDim S3 ![0] bcast_S1_S3_0),
    StableHlo.TRef.binary (.of main_v15 : StableHlo.TRef sig ⟨S3, .f32⟩) main_call1.call0.v4 main_call1.call0.v5 subf,
    StableHlo.TRef.binary main_call1.call0.v5 main_call1.call0.v5 main_call1.call0.v6 mulf,
    StableHlo.TRef.unary (.of main_c_13 : StableHlo.TRef sig ⟨S_, .i32⟩) main_call1.call0.v7 (sitofp .f32),
    StableHlo.TRef.nullary main_call1.call0.cst_1 (constant S_ .f32 0x40400000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S3_S_d0 h_S_),
    StableHlo.TRef.binary main_call1.call0.v9 main_call1.call0.v8 main_call1.call0.v10 Host.divf,
    StableHlo.TRef.nullary main_call1.call0.cst_3 (constant S_ .f32 0x00000000#32),
    StableHlo.TRef.binary main_call1.call0.v8 main_call1.call0.cst_3 main_call1.call0.v11 (cmpf .ogt),
    StableHlo.TRef.nullary main_call1.call0.cst_4 (constant S_ .f32 0x7FC00000#32),
    StableHlo.TRef.unary main_call1.call0.cst_4 main_call1.call0.call0.v0 id,
    StableHlo.TRef.ternary main_call1.call0.v11 main_call1.call0.v10 main_call1.call0.call0.v0 main_call1.call0.call0.v1 select,
    StableHlo.TRef.unary main_call1.call0.call0.v1 main_call1.v1 Host.sqrt ]
/-- The reference's operations 70 … 70 after the group means: the same operations as the kernel program's stretch 4 after its region. -/
abbrev refOps4 : List (HloOp τ sig (Elt F)) :=
  [ StableHlo.nullary main_c_14 (constantI S_ 32 1#32) ]
/-- The reference's operations 71 … 91 after the group means: the same operations as the kernel program's stretch 5 after its region. -/
abbrev refOps5 : List (HloOp τ sig (Elt F)) :=
  [ StableHlo.TRef.nullary main_call2.call0.cst (constant S_ .f32 0x00000000#32),
    StableHlo.TRef.binary (.of main_v22 : StableHlo.TRef sig ⟨S3, .f32⟩) main_call2.call0.cst main_call2.call0.v0 (fun x v => Host.reduceAdd x v reducesTo_S3_S_d0 h_S_),
    StableHlo.TRef.unary main_call2.call0.v0 main_call2.call0.v1 (broadcastInDim S1 ![] bcast_S_S1),
    StableHlo.TRef.nullary main_call2.call0.cst_0 (constant S_ .f32 0x40400000#32),
    StableHlo.TRef.unary main_call2.call0.cst_0 main_call2.call0.v2 (broadcastInDim S1 ![] bcast_S_S1),
    StableHlo.TRef.binary main_call2.call0.v1 main_call2.call0.v2 main_call2.call0.v3 Host.divf,
    StableHlo.TRef.unary main_call2.call0.v3 main_call2.call0.v4 (broadcastInDim S3 ![0] bcast_S1_S3_0),
    StableHlo.TRef.binary (.of main_v22 : StableHlo.TRef sig ⟨S3, .f32⟩) main_call2.call0.v4 main_call2.call0.v5 subf,
    StableHlo.TRef.binary main_call2.call0.v5 main_call2.call0.v5 main_call2.call0.v6 mulf,
    StableHlo.TRef.unary (.of main_c_14 : StableHlo.TRef sig ⟨S_, .i32⟩) main_call2.call0.v7 (sitofp .f32),
    StableHlo.TRef.nullary main_call2.call0.cst_1 (constant S_ .f32 0x40400000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S3_S_d0 h_S_),
    StableHlo.TRef.binary main_call2.call0.v9 main_call2.call0.v8 main_call2.call0.v10 Host.divf,
    StableHlo.TRef.nullary main_call2.call0.cst_3 (constant S_ .f32 0x00000000#32),
    StableHlo.TRef.binary main_call2.call0.v8 main_call2.call0.cst_3 main_call2.call0.v11 (cmpf .ogt),
    StableHlo.TRef.nullary main_call2.call0.cst_4 (constant S_ .f32 0x7FC00000#32),
    StableHlo.TRef.unary main_call2.call0.cst_4 main_call2.call0.call0.v0 id,
    StableHlo.TRef.ternary main_call2.call0.v11 main_call2.call0.v10 main_call2.call0.call0.v0 main_call2.call0.call0.v1 select,
    StableHlo.TRef.unary main_call2.call0.call0.v1 main_call2.v1 Host.sqrt ]
/-- The reference's operations 92 … 114 after the group means: the same operations as the kernel program's stretch 6 after its region. -/
abbrev refOps6 : List (HloOp τ sig (Elt F)) :=
  [ StableHlo.nullary main_cst_15 (constant S_ .f32 0x00000000#32),
    StableHlo.binary main_v22 main_cst_15 main_v25 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_16 (constant S_ .f32 0x40400000#32),
    StableHlo.binary main_v25 main_cst_16 main_v26 (Host.divf : (⟨S_, .f32⟩ : BufTy).Contents (Elt F) → (⟨S_, .f32⟩ : BufTy).Contents (Elt F) → (⟨S_, .f32⟩ : BufTy).Contents (Elt F)),
    StableHlo.nullary main_c_17 (constantI S_ 32 0#32),
    StableHlo.unary main_c_17 main_v27 (broadcastInDim S2 ![] bcast_S_S2 : (⟨S_, .i32⟩ : BufTy).Contents (Elt F) → (⟨S2, .i32⟩ : BufTy).Contents (Elt F)),
    StableHlo.binary main_c_0 main_v27 main_v28 (cmpi .slt : (⟨S2, .i32⟩ : BufTy).Contents (Elt F) → (⟨S2, .i32⟩ : BufTy).Contents (Elt F) → (⟨S2, .i1⟩ : BufTy).Contents (Elt F)),
    StableHlo.nullary main_c_18 (constantI S_ 32 15#32),
    StableHlo.unary main_c_18 main_v29 (broadcastInDim S2 ![] bcast_S_S2 : (⟨S_, .i32⟩ : BufTy).Contents (Elt F) → (⟨S2, .i32⟩ : BufTy).Contents (Elt F)),
    StableHlo.binary main_c_0 main_v29 main_v30 (addi : (⟨S2, .i32⟩ : BufTy).Contents (Elt F) → (⟨S2, .i32⟩ : BufTy).Contents (Elt F) → (⟨S2, .i32⟩ : BufTy).Contents (Elt F)),
    StableHlo.ternary main_v28 main_v30 main_c_0 main_v31 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v31 main_v32 (broadcastInDim S2x1 ![0] bcast_S2_S2x1_0 : (⟨S2, .i32⟩ : BufTy).Contents (Elt F) → (⟨S2x1, .i32⟩ : BufTy).Contents (Elt F)),
    StableHlo.binary main_v8 main_v32 main_v33 ((fun x i => Host.gather gather_S15_S2x1_S2_n_0_n_n_0_1_1 x i) : (⟨S15, .f32⟩ : BufTy).Contents (Elt F) → (⟨S2x1, .i32⟩ : BufTy).Contents (Elt F) → (⟨S2, .f32⟩ : BufTy).Contents (Elt F)),
    StableHlo.nullary main_c_19 (constantI S_ 32 0#32),
    StableHlo.unary main_c_19 main_v34 (broadcastInDim S2 ![] bcast_S_S2 : (⟨S_, .i32⟩ : BufTy).Contents (Elt F) → (⟨S2, .i32⟩ : BufTy).Contents (Elt F)),
    StableHlo.binary main_c_0 main_v34 main_v35 (cmpi .slt : (⟨S2, .i32⟩ : BufTy).Contents (Elt F) → (⟨S2, .i32⟩ : BufTy).Contents (Elt F) → (⟨S2, .i1⟩ : BufTy).Contents (Elt F)),
    StableHlo.nullary main_c_20 (constantI S_ 32 15#32),
    StableHlo.unary main_c_20 main_v36 (broadcastInDim S2 ![] bcast_S_S2 : (⟨S_, .i32⟩ : BufTy).Contents (Elt F) → (⟨S2, .i32⟩ : BufTy).Contents (Elt F)),
    StableHlo.binary main_c_0 main_v36 main_v37 (addi : (⟨S2, .i32⟩ : BufTy).Contents (Elt F) → (⟨S2, .i32⟩ : BufTy).Contents (Elt F) → (⟨S2, .i32⟩ : BufTy).Contents (Elt F)),
    StableHlo.ternary main_v35 main_v37 main_c_0 main_v38 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v38 main_v39 (broadcastInDim S2x1 ![0] bcast_S2_S2x1_0 : (⟨S2, .i32⟩ : BufTy).Contents (Elt F) → (⟨S2x1, .i32⟩ : BufTy).Contents (Elt F)),
    StableHlo.binary main_v7 main_v39 main_v40 ((fun x i => Host.gather gather_S15_S2x1_S2_n_0_n_n_0_1_1 x i) : (⟨S15, .f32⟩ : BufTy).Contents (Elt F) → (⟨S2x1, .i32⟩ : BufTy).Contents (Elt F) → (⟨S2, .f32⟩ : BufTy).Contents (Elt F)),
    StableHlo.nullary main_c_21 (constantI S_ 32 1#32) ]
/-- The reference's operations 115 … 135 after the group means: the same operations as the kernel program's stretch 7 after its region. -/
abbrev refOps7 : List (HloOp τ sig (Elt F)) :=
  [ StableHlo.TRef.nullary main_call3.call0.cst (constant S_ .f32 0x00000000#32),
    StableHlo.TRef.binary (.of main_v33 : StableHlo.TRef sig ⟨S2, .f32⟩) main_call3.call0.cst main_call3.call0.v0 (fun x v => Host.reduceAdd x v reducesTo_S2_S_d0 h_S_),
    StableHlo.TRef.unary main_call3.call0.v0 main_call3.call0.v1 (broadcastInDim S1 ![] bcast_S_S1),
    StableHlo.TRef.nullary main_call3.call0.cst_0 (constant S_ .f32 0x40000000#32),
    StableHlo.TRef.unary main_call3.call0.cst_0 main_call3.call0.v2 (broadcastInDim S1 ![] bcast_S_S1),
    StableHlo.TRef.binary main_call3.call0.v1 main_call3.call0.v2 main_call3.call0.v3 Host.divf,
    StableHlo.TRef.unary main_call3.call0.v3 main_call3.call0.v4 (broadcastInDim S2 ![0] bcast_S1_S2_0),
    StableHlo.TRef.binary (.of main_v33 : StableHlo.TRef sig ⟨S2, .f32⟩) main_call3.call0.v4 main_call3.call0.v5 subf,
    StableHlo.TRef.binary main_call3.call0.v5 main_call3.call0.v5 main_call3.call0.v6 mulf,
    StableHlo.TRef.unary (.of main_c_21 : StableHlo.TRef sig ⟨S_, .i32⟩) main_call3.call0.v7 (sitofp .f32),
    StableHlo.TRef.nullary main_call3.call0.cst_1 (constant S_ .f32 0x40000000#32),
    StableHlo.TRef.binary main_call3.call0.cst_1 main_call3.call0.v7 main_call3.call0.v8 subf,
    StableHlo.TRef.nullary main_call3.call0.cst_2 (constant S_ .f32 0x00000000#32),
    StableHlo.TRef.binary main_call3.call0.v6 main_call3.call0.cst_2 main_call3.call0.v9 (fun x v => Host.reduceAdd x v reducesTo_S2_S_d0 h_S_),
    StableHlo.TRef.binary main_call3.call0.v9 main_call3.call0.v8 main_call3.call0.v10 Host.divf,
    StableHlo.TRef.nullary main_call3.call0.cst_3 (constant S_ .f32 0x00000000#32),
    StableHlo.TRef.binary main_call3.call0.v8 main_call3.call0.cst_3 main_call3.call0.v11 (cmpf .ogt),
    StableHlo.TRef.nullary main_call3.call0.cst_4 (constant S_ .f32 0x7FC00000#32),
    StableHlo.TRef.unary main_call3.call0.cst_4 main_call3.call0.call0.v0 id,
    StableHlo.TRef.ternary main_call3.call0.v11 main_call3.call0.v10 main_call3.call0.call0.v0 main_call3.call0.call0.v1 select,
    StableHlo.TRef.unary main_call3.call0.call0.v1 main_call3.v1 Host.sqrt ]
/-- The reference's operations 136 … 136 after the group means: the same operations as the kernel program's stretch 8 after its region. -/
abbrev refOps8 : List (HloOp τ sig (Elt F)) :=
  [ StableHlo.nullary main_c_22 (constantI S_ 32 1#32) ]
/-- The reference's operations 137 … 157 after the group means: the same operations as the kernel program's stretch 9 after its region. -/
abbrev refOps9 : List (HloOp τ sig (Elt F)) :=
  [ StableHlo.TRef.nullary main_call4.call0.cst (constant S_ .f32 0x00000000#32),
    StableHlo.TRef.binary (.of main_v40 : StableHlo.TRef sig ⟨S2, .f32⟩) main_call4.call0.cst main_call4.call0.v0 (fun x v => Host.reduceAdd x v reducesTo_S2_S_d0 h_S_),
    StableHlo.TRef.unary main_call4.call0.v0 main_call4.call0.v1 (broadcastInDim S1 ![] bcast_S_S1),
    StableHlo.TRef.nullary main_call4.call0.cst_0 (constant S_ .f32 0x40000000#32),
    StableHlo.TRef.unary main_call4.call0.cst_0 main_call4.call0.v2 (broadcastInDim S1 ![] bcast_S_S1),
    StableHlo.TRef.binary main_call4.call0.v1 main_call4.call0.v2 main_call4.call0.v3 Host.divf,
    StableHlo.TRef.unary main_call4.call0.v3 main_call4.call0.v4 (broadcastInDim S2 ![0] bcast_S1_S2_0),
    StableHlo.TRef.binary (.of main_v40 : StableHlo.TRef sig ⟨S2, .f32⟩) main_call4.call0.v4 main_call4.call0.v5 subf,
    StableHlo.TRef.binary main_call4.call0.v5 main_call4.call0.v5 main_call4.call0.v6 mulf,
    StableHlo.TRef.unary (.of main_c_22 : StableHlo.TRef sig ⟨S_, .i32⟩) main_call4.call0.v7 (sitofp .f32),
    StableHlo.TRef.nullary main_call4.call0.cst_1 (constant S_ .f32 0x40000000#32),
    StableHlo.TRef.binary main_call4.call0.cst_1 main_call4.call0.v7 main_call4.call0.v8 subf,
    StableHlo.TRef.nullary main_call4.call0.cst_2 (constant S_ .f32 0x00000000#32),
    StableHlo.TRef.binary main_call4.call0.v6 main_call4.call0.cst_2 main_call4.call0.v9 (fun x v => Host.reduceAdd x v reducesTo_S2_S_d0 h_S_),
    StableHlo.TRef.binary main_call4.call0.v9 main_call4.call0.v8 main_call4.call0.v10 Host.divf,
    StableHlo.TRef.nullary main_call4.call0.cst_3 (constant S_ .f32 0x00000000#32),
    StableHlo.TRef.binary main_call4.call0.v8 main_call4.call0.cst_3 main_call4.call0.v11 (cmpf .ogt),
    StableHlo.TRef.nullary main_call4.call0.cst_4 (constant S_ .f32 0x7FC00000#32),
    StableHlo.TRef.unary main_call4.call0.cst_4 main_call4.call0.call0.v0 id,
    StableHlo.TRef.ternary main_call4.call0.v11 main_call4.call0.v10 main_call4.call0.call0.v0 main_call4.call0.call0.v1 select,
    StableHlo.TRef.unary main_call4.call0.call0.v1 main_call4.v1 Host.sqrt ]
/-- The reference's operations 158 … 201 after the group means: the same operations as the kernel program's stretch 10 after its region. -/
abbrev refOps10 : List (HloOp τ sig (Elt F)) :=
  [ StableHlo.nullary main_cst_23 (constant S_ .f32 0x00000000#32),
    StableHlo.binary main_v40 main_cst_23 main_v43 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_24 (constant S_ .f32 0x40000000#32),
    StableHlo.binary main_v43 main_cst_24 main_v44 (Host.divf : (⟨S_, .f32⟩ : BufTy).Contents (Elt F) → (⟨S_, .f32⟩ : BufTy).Contents (Elt F) → (⟨S_, .f32⟩ : BufTy).Contents (Elt F)),
    StableHlo.nullary main_c_25 (constantI S_ 32 0#32),
    StableHlo.unary main_c_25 main_v45 (broadcastInDim S1 ![] bcast_S_S1 : (⟨S_, .i32⟩ : BufTy).Contents (Elt F) → (⟨S1, .i32⟩ : BufTy).Contents (Elt F)),
    StableHlo.binary main_c_1 main_v45 main_v46 (cmpi .slt : (⟨S1, .i32⟩ : BufTy).Contents (Elt F) → (⟨S1, .i32⟩ : BufTy).Contents (Elt F) → (⟨S1, .i1⟩ : BufTy).Contents (Elt F)),
    StableHlo.nullary main_c_26 (constantI S_ 32 15#32),
    StableHlo.unary main_c_26 main_v47 (broadcastInDim S1 ![] bcast_S_S1 : (⟨S_, .i32⟩ : BufTy).Contents (Elt F) → (⟨S1, .i32⟩ : BufTy).Contents (Elt F)),
    StableHlo.binary main_c_1 main_v47 main_v48 (addi : (⟨S1, .i32⟩ : BufTy).Contents (Elt F) → (⟨S1, .i32⟩ : BufTy).Contents (Elt F) → (⟨S1, .i32⟩ : BufTy).Contents (Elt F)),
    StableHlo.ternary main_v46 main_v48 main_c_1 main_v49 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v49 main_v50 (broadcastInDim S1x1 ![0] bcast_S1_S1x1_0 : (⟨S1, .i32⟩ : BufTy).Contents (Elt F) → (⟨S1x1, .i32⟩ : BufTy).Contents (Elt F)),
    StableHlo.binary main_v8 main_v50 main_v51 ((fun x i => Host.gather gather_S15_S1x1_S1_n_0_n_n_0_1_1 x i) : (⟨S15, .f32⟩ : BufTy).Contents (Elt F) → (⟨S1x1, .i32⟩ : BufTy).Contents (Elt F) → (⟨S1, .f32⟩ : BufTy).Contents (Elt F)),
    StableHlo.nullary main_c_27 (constantI S_ 32 0#32),
    StableHlo.unary main_c_27 main_v52 (broadcastInDim S1 ![] bcast_S_S1 : (⟨S_, .i32⟩ : BufTy).Contents (Elt F) → (⟨S1, .i32⟩ : BufTy).Contents (Elt F)),
    StableHlo.binary main_c_1 main_v52 main_v53 (cmpi .slt : (⟨S1, .i32⟩ : BufTy).Contents (Elt F) → (⟨S1, .i32⟩ : BufTy).Contents (Elt F) → (⟨S1, .i1⟩ : BufTy).Contents (Elt F)),
    StableHlo.nullary main_c_28 (constantI S_ 32 15#32),
    StableHlo.unary main_c_28 main_v54 (broadcastInDim S1 ![] bcast_S_S1 : (⟨S_, .i32⟩ : BufTy).Contents (Elt F) → (⟨S1, .i32⟩ : BufTy).Contents (Elt F)),
    StableHlo.binary main_c_1 main_v54 main_v55 (addi : (⟨S1, .i32⟩ : BufTy).Contents (Elt F) → (⟨S1, .i32⟩ : BufTy).Contents (Elt F) → (⟨S1, .i32⟩ : BufTy).Contents (Elt F)),
    StableHlo.ternary main_v53 main_v55 main_c_1 main_v56 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v56 main_v57 (broadcastInDim S1x1 ![0] bcast_S1_S1x1_0 : (⟨S1, .i32⟩ : BufTy).Contents (Elt F) → (⟨S1x1, .i32⟩ : BufTy).Contents (Elt F)),
    StableHlo.binary main_v7 main_v57 main_v58 ((fun x i => Host.gather gather_S15_S1x1_S1_n_0_n_n_0_1_1 x i) : (⟨S15, .f32⟩ : BufTy).Contents (Elt F) → (⟨S1x1, .i32⟩ : BufTy).Contents (Elt F) → (⟨S1, .f32⟩ : BufTy).Contents (Elt F)),
    StableHlo.reshape main_v51 main_v59 rfl shapeCasts_S1_S_,
    StableHlo.reshape main_v58 main_v60 rfl shapeCasts_S1_S_,
    StableHlo.reshape main_v58 main_v61 rfl shapeCasts_S1_S_,
    StableHlo.nullary main_c_29 (constantI S_ 32 0#32),
    StableHlo.unary main_c_29 main_v62 (broadcastInDim S4 ![] bcast_S_S4 : (⟨S_, .i32⟩ : BufTy).Contents (Elt F) → (⟨S4, .i32⟩ : BufTy).Contents (Elt F)),
    StableHlo.binary main_c_2 main_v62 main_v63 (cmpi .slt : (⟨S4, .i32⟩ : BufTy).Contents (Elt F) → (⟨S4, .i32⟩ : BufTy).Contents (Elt F) → (⟨S4, .i1⟩ : BufTy).Contents (Elt F)),
    StableHlo.nullary main_c_30 (constantI S_ 32 15#32),
    StableHlo.unary main_c_30 main_v64 (broadcastInDim S4 ![] bcast_S_S4 : (⟨S_, .i32⟩ : BufTy).Contents (Elt F) → (⟨S4, .i32⟩ : BufTy).Contents (Elt F)),
    StableHlo.binary main_c_2 main_v64 main_v65 (addi : (⟨S4, .i32⟩ : BufTy).Contents (Elt F) → (⟨S4, .i32⟩ : BufTy).Contents (Elt F) → (⟨S4, .i32⟩ : BufTy).Contents (Elt F)),
    StableHlo.ternary main_v63 main_v65 main_c_2 main_v66 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v66 main_v67 (broadcastInDim S4x1 ![0] bcast_S4_S4x1_0 : (⟨S4, .i32⟩ : BufTy).Contents (Elt F) → (⟨S4x1, .i32⟩ : BufTy).Contents (Elt F)),
    StableHlo.binary main_v8 main_v67 main_v68 ((fun x i => Host.gather gather_S15_S4x1_S4_n_0_n_n_0_1_1 x i) : (⟨S15, .f32⟩ : BufTy).Contents (Elt F) → (⟨S4x1, .i32⟩ : BufTy).Contents (Elt F) → (⟨S4, .f32⟩ : BufTy).Contents (Elt F)),
    StableHlo.nullary main_c_31 (constantI S_ 32 0#32),
    StableHlo.unary main_c_31 main_v69 (broadcastInDim S4 ![] bcast_S_S4 : (⟨S_, .i32⟩ : BufTy).Contents (Elt F) → (⟨S4, .i32⟩ : BufTy).Contents (Elt F)),
    StableHlo.binary main_c_2 main_v69 main_v70 (cmpi .slt : (⟨S4, .i32⟩ : BufTy).Contents (Elt F) → (⟨S4, .i32⟩ : BufTy).Contents (Elt F) → (⟨S4, .i1⟩ : BufTy).Contents (Elt F)),
    StableHlo.nullary main_c_32 (constantI S_ 32 15#32),
    StableHlo.unary main_c_32 main_v71 (broadcastInDim S4 ![] bcast_S_S4 : (⟨S_, .i32⟩ : BufTy).Contents (Elt F) → (⟨S4, .i32⟩ : BufTy).Contents (Elt F)),
    StableHlo.binary main_c_2 main_v71 main_v72 (addi : (⟨S4, .i32⟩ : BufTy).Contents (Elt F) → (⟨S4, .i32⟩ : BufTy).Contents (Elt F) → (⟨S4, .i32⟩ : BufTy).Contents (Elt F)),
    StableHlo.ternary main_v70 main_v72 main_c_2 main_v73 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v73 main_v74 (broadcastInDim S4x1 ![0] bcast_S4_S4x1_0 : (⟨S4, .i32⟩ : BufTy).Contents (Elt F) → (⟨S4x1, .i32⟩ : BufTy).Contents (Elt F)),
    StableHlo.binary main_v7 main_v74 main_v75 ((fun x i => Host.gather gather_S15_S4x1_S4_n_0_n_n_0_1_1 x i) : (⟨S15, .f32⟩ : BufTy).Contents (Elt F) → (⟨S4x1, .i32⟩ : BufTy).Contents (Elt F) → (⟨S4, .f32⟩ : BufTy).Contents (Elt F)),
    StableHlo.nullary main_c_33 (constantI S_ 32 1#32) ]
/-- The reference's operations 202 … 222 after the group means: the same operations as the kernel program's stretch 11 after its region. -/
abbrev refOps11 : List (HloOp τ sig (Elt F)) :=
  [ StableHlo.TRef.nullary main_call5.call0.cst (constant S_ .f32 0x00000000#32),
    StableHlo.TRef.binary (.of main_v68 : StableHlo.TRef sig ⟨S4, .f32⟩) main_call5.call0.cst main_call5.call0.v0 (fun x v => Host.reduceAdd x v reducesTo_S4_S_d0 h_S_),
    StableHlo.TRef.unary main_call5.call0.v0 main_call5.call0.v1 (broadcastInDim S1 ![] bcast_S_S1),
    StableHlo.TRef.nullary main_call5.call0.cst_0 (constant S_ .f32 0x40800000#32),
    StableHlo.TRef.unary main_call5.call0.cst_0 main_call5.call0.v2 (broadcastInDim S1 ![] bcast_S_S1),
    StableHlo.TRef.binary main_call5.call0.v1 main_call5.call0.v2 main_call5.call0.v3 Host.divf,
    StableHlo.TRef.unary main_call5.call0.v3 main_call5.call0.v4 (broadcastInDim S4 ![0] bcast_S1_S4_0),
    StableHlo.TRef.binary (.of main_v68 : StableHlo.TRef sig ⟨S4, .f32⟩) main_call5.call0.v4 main_call5.call0.v5 subf,
    StableHlo.TRef.binary main_call5.call0.v5 main_call5.call0.v5 main_call5.call0.v6 mulf,
    StableHlo.TRef.unary (.of main_c_33 : StableHlo.TRef sig ⟨S_, .i32⟩) main_call5.call0.v7 (sitofp .f32),
    StableHlo.TRef.nullary main_call5.call0.cst_1 (constant S_ .f32 0x40800000#32),
    StableHlo.TRef.binary main_call5.call0.cst_1 main_call5.call0.v7 main_call5.call0.v8 subf,
    StableHlo.TRef.nullary main_call5.call0.cst_2 (constant S_ .f32 0x00000000#32),
    StableHlo.TRef.binary main_call5.call0.v6 main_call5.call0.cst_2 main_call5.call0.v9 (fun x v => Host.reduceAdd x v reducesTo_S4_S_d0 h_S_),
    StableHlo.TRef.binary main_call5.call0.v9 main_call5.call0.v8 main_call5.call0.v10 Host.divf,
    StableHlo.TRef.nullary main_call5.call0.cst_3 (constant S_ .f32 0x00000000#32),
    StableHlo.TRef.binary main_call5.call0.v8 main_call5.call0.cst_3 main_call5.call0.v11 (cmpf .ogt),
    StableHlo.TRef.nullary main_call5.call0.cst_4 (constant S_ .f32 0x7FC00000#32),
    StableHlo.TRef.unary main_call5.call0.cst_4 main_call5.call0.call0.v0 id,
    StableHlo.TRef.ternary main_call5.call0.v11 main_call5.call0.v10 main_call5.call0.call0.v0 main_call5.call0.call0.v1 select,
    StableHlo.TRef.unary main_call5.call0.call0.v1 main_call5.v1 Host.sqrt ]
/-- The reference's operations 223 … 223 after the group means: the same operations as the kernel program's stretch 12 after its region. -/
abbrev refOps12 : List (HloOp τ sig (Elt F)) :=
  [ StableHlo.nullary main_c_34 (constantI S_ 32 1#32) ]
/-- The reference's operations 224 … 244 after the group means: the same operations as the kernel program's stretch 13 after its region. -/
abbrev refOps13 : List (HloOp τ sig (Elt F)) :=
  [ StableHlo.TRef.nullary main_call6.call0.cst (constant S_ .f32 0x00000000#32),
    StableHlo.TRef.binary (.of main_v75 : StableHlo.TRef sig ⟨S4, .f32⟩) main_call6.call0.cst main_call6.call0.v0 (fun x v => Host.reduceAdd x v reducesTo_S4_S_d0 h_S_),
    StableHlo.TRef.unary main_call6.call0.v0 main_call6.call0.v1 (broadcastInDim S1 ![] bcast_S_S1),
    StableHlo.TRef.nullary main_call6.call0.cst_0 (constant S_ .f32 0x40800000#32),
    StableHlo.TRef.unary main_call6.call0.cst_0 main_call6.call0.v2 (broadcastInDim S1 ![] bcast_S_S1),
    StableHlo.TRef.binary main_call6.call0.v1 main_call6.call0.v2 main_call6.call0.v3 Host.divf,
    StableHlo.TRef.unary main_call6.call0.v3 main_call6.call0.v4 (broadcastInDim S4 ![0] bcast_S1_S4_0),
    StableHlo.TRef.binary (.of main_v75 : StableHlo.TRef sig ⟨S4, .f32⟩) main_call6.call0.v4 main_call6.call0.v5 subf,
    StableHlo.TRef.binary main_call6.call0.v5 main_call6.call0.v5 main_call6.call0.v6 mulf,
    StableHlo.TRef.unary (.of main_c_34 : StableHlo.TRef sig ⟨S_, .i32⟩) main_call6.call0.v7 (sitofp .f32),
    StableHlo.TRef.nullary main_call6.call0.cst_1 (constant S_ .f32 0x40800000#32),
    StableHlo.TRef.binary main_call6.call0.cst_1 main_call6.call0.v7 main_call6.call0.v8 subf,
    StableHlo.TRef.nullary main_call6.call0.cst_2 (constant S_ .f32 0x00000000#32),
    StableHlo.TRef.binary main_call6.call0.v6 main_call6.call0.cst_2 main_call6.call0.v9 (fun x v => Host.reduceAdd x v reducesTo_S4_S_d0 h_S_),
    StableHlo.TRef.binary main_call6.call0.v9 main_call6.call0.v8 main_call6.call0.v10 Host.divf,
    StableHlo.TRef.nullary main_call6.call0.cst_3 (constant S_ .f32 0x00000000#32),
    StableHlo.TRef.binary main_call6.call0.v8 main_call6.call0.cst_3 main_call6.call0.v11 (cmpf .ogt),
    StableHlo.TRef.nullary main_call6.call0.cst_4 (constant S_ .f32 0x7FC00000#32),
    StableHlo.TRef.unary main_call6.call0.cst_4 main_call6.call0.call0.v0 id,
    StableHlo.TRef.ternary main_call6.call0.v11 main_call6.call0.v10 main_call6.call0.call0.v0 main_call6.call0.call0.v1 select,
    StableHlo.TRef.unary main_call6.call0.call0.v1 main_call6.v1 Host.sqrt ]
/-- The reference's operations 245 … 267 after the group means: the same operations as the kernel program's stretch 14 after its region. -/
abbrev refOps14 : List (HloOp τ sig (Elt F)) :=
  [ StableHlo.nullary main_cst_35 (constant S_ .f32 0x00000000#32),
    StableHlo.binary main_v75 main_cst_35 main_v78 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_36 (constant S_ .f32 0x40800000#32),
    StableHlo.binary main_v78 main_cst_36 main_v79 (Host.divf : (⟨S_, .f32⟩ : BufTy).Contents (Elt F) → (⟨S_, .f32⟩ : BufTy).Contents (Elt F) → (⟨S_, .f32⟩ : BufTy).Contents (Elt F)),
    StableHlo.nullary main_c_37 (constantI S_ 32 0#32),
    StableHlo.unary main_c_37 main_v80 (broadcastInDim S2 ![] bcast_S_S2 : (⟨S_, .i32⟩ : BufTy).Contents (Elt F) → (⟨S2, .i32⟩ : BufTy).Contents (Elt F)),
    StableHlo.binary main_c_3 main_v80 main_v81 (cmpi .slt : (⟨S2, .i32⟩ : BufTy).Contents (Elt F) → (⟨S2, .i32⟩ : BufTy).Contents (Elt F) → (⟨S2, .i1⟩ : BufTy).Contents (Elt F)),
    StableHlo.nullary main_c_38 (constantI S_ 32 15#32),
    StableHlo.unary main_c_38 main_v82 (broadcastInDim S2 ![] bcast_S_S2 : (⟨S_, .i32⟩ : BufTy).Contents (Elt F) → (⟨S2, .i32⟩ : BufTy).Contents (Elt F)),
    StableHlo.binary main_c_3 main_v82 main_v83 (addi : (⟨S2, .i32⟩ : BufTy).Contents (Elt F) → (⟨S2, .i32⟩ : BufTy).Contents (Elt F) → (⟨S2, .i32⟩ : BufTy).Contents (Elt F)),
    StableHlo.ternary main_v81 main_v83 main_c_3 main_v84 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v84 main_v85 (broadcastInDim S2x1 ![0] bcast_S2_S2x1_0 : (⟨S2, .i32⟩ : BufTy).Contents (Elt F) → (⟨S2x1, .i32⟩ : BufTy).Contents (Elt F)),
    StableHlo.binary main_v8 main_v85 main_v86 ((fun x i => Host.gather gather_S15_S2x1_S2_n_0_n_n_0_1_1 x i) : (⟨S15, .f32⟩ : BufTy).Contents (Elt F) → (⟨S2x1, .i32⟩ : BufTy).Contents (Elt F) → (⟨S2, .f32⟩ : BufTy).Contents (Elt F)),
    StableHlo.nullary main_c_39 (constantI S_ 32 0#32),
    StableHlo.unary main_c_39 main_v87 (broadcastInDim S2 ![] bcast_S_S2 : (⟨S_, .i32⟩ : BufTy).Contents (Elt F) → (⟨S2, .i32⟩ : BufTy).Contents (Elt F)),
    StableHlo.binary main_c_3 main_v87 main_v88 (cmpi .slt : (⟨S2, .i32⟩ : BufTy).Contents (Elt F) → (⟨S2, .i32⟩ : BufTy).Contents (Elt F) → (⟨S2, .i1⟩ : BufTy).Contents (Elt F)),
    StableHlo.nullary main_c_40 (constantI S_ 32 15#32),
    StableHlo.unary main_c_40 main_v89 (broadcastInDim S2 ![] bcast_S_S2 : (⟨S_, .i32⟩ : BufTy).Contents (Elt F) → (⟨S2, .i32⟩ : BufTy).Contents (Elt F)),
    StableHlo.binary main_c_3 main_v89 main_v90 (addi : (⟨S2, .i32⟩ : BufTy).Contents (Elt F) → (⟨S2, .i32⟩ : BufTy).Contents (Elt F) → (⟨S2, .i32⟩ : BufTy).Contents (Elt F)),
    StableHlo.ternary main_v88 main_v90 main_c_3 main_v91 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v91 main_v92 (broadcastInDim S2x1 ![0] bcast_S2_S2x1_0 : (⟨S2, .i32⟩ : BufTy).Contents (Elt F) → (⟨S2x1, .i32⟩ : BufTy).Contents (Elt F)),
    StableHlo.binary main_v7 main_v92 main_v93 ((fun x i => Host.gather gather_S15_S2x1_S2_n_0_n_n_0_1_1 x i) : (⟨S15, .f32⟩ : BufTy).Contents (Elt F) → (⟨S2x1, .i32⟩ : BufTy).Contents (Elt F) → (⟨S2, .f32⟩ : BufTy).Contents (Elt F)),
    StableHlo.nullary main_c_41 (constantI S_ 32 1#32) ]
/-- The reference's operations 268 … 288 after the group means: the same operations as the kernel program's stretch 15 after its region. -/
abbrev refOps15 : List (HloOp τ sig (Elt F)) :=
  [ StableHlo.TRef.nullary main_call7.call0.cst (constant S_ .f32 0x00000000#32),
    StableHlo.TRef.binary (.of main_v86 : StableHlo.TRef sig ⟨S2, .f32⟩) main_call7.call0.cst main_call7.call0.v0 (fun x v => Host.reduceAdd x v reducesTo_S2_S_d0 h_S_),
    StableHlo.TRef.unary main_call7.call0.v0 main_call7.call0.v1 (broadcastInDim S1 ![] bcast_S_S1),
    StableHlo.TRef.nullary main_call7.call0.cst_0 (constant S_ .f32 0x40000000#32),
    StableHlo.TRef.unary main_call7.call0.cst_0 main_call7.call0.v2 (broadcastInDim S1 ![] bcast_S_S1),
    StableHlo.TRef.binary main_call7.call0.v1 main_call7.call0.v2 main_call7.call0.v3 Host.divf,
    StableHlo.TRef.unary main_call7.call0.v3 main_call7.call0.v4 (broadcastInDim S2 ![0] bcast_S1_S2_0),
    StableHlo.TRef.binary (.of main_v86 : StableHlo.TRef sig ⟨S2, .f32⟩) main_call7.call0.v4 main_call7.call0.v5 subf,
    StableHlo.TRef.binary main_call7.call0.v5 main_call7.call0.v5 main_call7.call0.v6 mulf,
    StableHlo.TRef.unary (.of main_c_41 : StableHlo.TRef sig ⟨S_, .i32⟩) main_call7.call0.v7 (sitofp .f32),
    StableHlo.TRef.nullary main_call7.call0.cst_1 (constant S_ .f32 0x40000000#32),
    StableHlo.TRef.binary main_call7.call0.cst_1 main_call7.call0.v7 main_call7.call0.v8 subf,
    StableHlo.TRef.nullary main_call7.call0.cst_2 (constant S_ .f32 0x00000000#32),
    StableHlo.TRef.binary main_call7.call0.v6 main_call7.call0.cst_2 main_call7.call0.v9 (fun x v => Host.reduceAdd x v reducesTo_S2_S_d0 h_S_),
    StableHlo.TRef.binary main_call7.call0.v9 main_call7.call0.v8 main_call7.call0.v10 Host.divf,
    StableHlo.TRef.nullary main_call7.call0.cst_3 (constant S_ .f32 0x00000000#32),
    StableHlo.TRef.binary main_call7.call0.v8 main_call7.call0.cst_3 main_call7.call0.v11 (cmpf .ogt),
    StableHlo.TRef.nullary main_call7.call0.cst_4 (constant S_ .f32 0x7FC00000#32),
    StableHlo.TRef.unary main_call7.call0.cst_4 main_call7.call0.call0.v0 id,
    StableHlo.TRef.ternary main_call7.call0.v11 main_call7.call0.v10 main_call7.call0.call0.v0 main_call7.call0.call0.v1 select,
    StableHlo.TRef.unary main_call7.call0.call0.v1 main_call7.v1 Host.sqrt ]
/-- The reference's operations 289 … 289 after the group means: the same operations as the kernel program's stretch 16 after its region. -/
abbrev refOps16 : List (HloOp τ sig (Elt F)) :=
  [ StableHlo.nullary main_c_42 (constantI S_ 32 1#32) ]
/-- The reference's operations 290 … 310 after the group means: the same operations as the kernel program's stretch 17 after its region. -/
abbrev refOps17 : List (HloOp τ sig (Elt F)) :=
  [ StableHlo.TRef.nullary main_call8.call0.cst (constant S_ .f32 0x00000000#32),
    StableHlo.TRef.binary (.of main_v93 : StableHlo.TRef sig ⟨S2, .f32⟩) main_call8.call0.cst main_call8.call0.v0 (fun x v => Host.reduceAdd x v reducesTo_S2_S_d0 h_S_),
    StableHlo.TRef.unary main_call8.call0.v0 main_call8.call0.v1 (broadcastInDim S1 ![] bcast_S_S1),
    StableHlo.TRef.nullary main_call8.call0.cst_0 (constant S_ .f32 0x40000000#32),
    StableHlo.TRef.unary main_call8.call0.cst_0 main_call8.call0.v2 (broadcastInDim S1 ![] bcast_S_S1),
    StableHlo.TRef.binary main_call8.call0.v1 main_call8.call0.v2 main_call8.call0.v3 Host.divf,
    StableHlo.TRef.unary main_call8.call0.v3 main_call8.call0.v4 (broadcastInDim S2 ![0] bcast_S1_S2_0),
    StableHlo.TRef.binary (.of main_v93 : StableHlo.TRef sig ⟨S2, .f32⟩) main_call8.call0.v4 main_call8.call0.v5 subf,
    StableHlo.TRef.binary main_call8.call0.v5 main_call8.call0.v5 main_call8.call0.v6 mulf,
    StableHlo.TRef.unary (.of main_c_42 : StableHlo.TRef sig ⟨S_, .i32⟩) main_call8.call0.v7 (sitofp .f32),
    StableHlo.TRef.nullary main_call8.call0.cst_1 (constant S_ .f32 0x40000000#32),
    StableHlo.TRef.binary main_call8.call0.cst_1 main_call8.call0.v7 main_call8.call0.v8 subf,
    StableHlo.TRef.nullary main_call8.call0.cst_2 (constant S_ .f32 0x00000000#32),
    StableHlo.TRef.binary main_call8.call0.v6 main_call8.call0.cst_2 main_call8.call0.v9 (fun x v => Host.reduceAdd x v reducesTo_S2_S_d0 h_S_),
    StableHlo.TRef.binary main_call8.call0.v9 main_call8.call0.v8 main_call8.call0.v10 Host.divf,
    StableHlo.TRef.nullary main_call8.call0.cst_3 (constant S_ .f32 0x00000000#32),
    StableHlo.TRef.binary main_call8.call0.v8 main_call8.call0.cst_3 main_call8.call0.v11 (cmpf .ogt),
    StableHlo.TRef.nullary main_call8.call0.cst_4 (constant S_ .f32 0x7FC00000#32),
    StableHlo.TRef.unary main_call8.call0.cst_4 main_call8.call0.call0.v0 id,
    StableHlo.TRef.ternary main_call8.call0.v11 main_call8.call0.v10 main_call8.call0.call0.v0 main_call8.call0.call0.v1 select,
    StableHlo.TRef.unary main_call8.call0.call0.v1 main_call8.v1 Host.sqrt ]
/-- The reference's operations 311 … 333 after the group means: the same operations as the kernel program's stretch 18 after its region. -/
abbrev refOps18 : List (HloOp τ sig (Elt F)) :=
  [ StableHlo.nullary main_cst_43 (constant S_ .f32 0x00000000#32),
    StableHlo.binary main_v93 main_cst_43 main_v96 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_44 (constant S_ .f32 0x40000000#32),
    StableHlo.binary main_v96 main_cst_44 main_v97 (Host.divf : (⟨S_, .f32⟩ : BufTy).Contents (Elt F) → (⟨S_, .f32⟩ : BufTy).Contents (Elt F) → (⟨S_, .f32⟩ : BufTy).Contents (Elt F)),
    StableHlo.nullary main_c_45 (constantI S_ 32 0#32),
    StableHlo.unary main_c_45 main_v98 (broadcastInDim S3 ![] bcast_S_S3 : (⟨S_, .i32⟩ : BufTy).Contents (Elt F) → (⟨S3, .i32⟩ : BufTy).Contents (Elt F)),
    StableHlo.binary main_c_4 main_v98 main_v99 (cmpi .slt : (⟨S3, .i32⟩ : BufTy).Contents (Elt F) → (⟨S3, .i32⟩ : BufTy).Contents (Elt F) → (⟨S3, .i1⟩ : BufTy).Contents (Elt F)),
    StableHlo.nullary main_c_46 (constantI S_ 32 15#32),
    StableHlo.unary main_c_46 main_v100 (broadcastInDim S3 ![] bcast_S_S3 : (⟨S_, .i32⟩ : BufTy).Contents (Elt F) → (⟨S3, .i32⟩ : BufTy).Contents (Elt F)),
    StableHlo.binary main_c_4 main_v100 main_v101 (addi : (⟨S3, .i32⟩ : BufTy).Contents (Elt F) → (⟨S3, .i32⟩ : BufTy).Contents (Elt F) → (⟨S3, .i32⟩ : BufTy).Contents (Elt F)),
    StableHlo.ternary main_v99 main_v101 main_c_4 main_v102 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v102 main_v103 (broadcastInDim S3x1 ![0] bcast_S3_S3x1_0 : (⟨S3, .i32⟩ : BufTy).Contents (Elt F) → (⟨S3x1, .i32⟩ : BufTy).Contents (Elt F)),
    StableHlo.binary main_v8 main_v103 main_v104 ((fun x i => Host.gather gather_S15_S3x1_S3_n_0_n_n_0_1_1 x i) : (⟨S15, .f32⟩ : BufTy).Contents (Elt F) → (⟨S3x1, .i32⟩ : BufTy).Contents (Elt F) → (⟨S3, .f32⟩ : BufTy).Contents (Elt F)),
    StableHlo.nullary main_c_47 (constantI S_ 32 0#32),
    StableHlo.unary main_c_47 main_v105 (broadcastInDim S3 ![] bcast_S_S3 : (⟨S_, .i32⟩ : BufTy).Contents (Elt F) → (⟨S3, .i32⟩ : BufTy).Contents (Elt F)),
    StableHlo.binary main_c_4 main_v105 main_v106 (cmpi .slt : (⟨S3, .i32⟩ : BufTy).Contents (Elt F) → (⟨S3, .i32⟩ : BufTy).Contents (Elt F) → (⟨S3, .i1⟩ : BufTy).Contents (Elt F)),
    StableHlo.nullary main_c_48 (constantI S_ 32 15#32),
    StableHlo.unary main_c_48 main_v107 (broadcastInDim S3 ![] bcast_S_S3 : (⟨S_, .i32⟩ : BufTy).Contents (Elt F) → (⟨S3, .i32⟩ : BufTy).Contents (Elt F)),
    StableHlo.binary main_c_4 main_v107 main_v108 (addi : (⟨S3, .i32⟩ : BufTy).Contents (Elt F) → (⟨S3, .i32⟩ : BufTy).Contents (Elt F) → (⟨S3, .i32⟩ : BufTy).Contents (Elt F)),
    StableHlo.ternary main_v106 main_v108 main_c_4 main_v109 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v109 main_v110 (broadcastInDim S3x1 ![0] bcast_S3_S3x1_0 : (⟨S3, .i32⟩ : BufTy).Contents (Elt F) → (⟨S3x1, .i32⟩ : BufTy).Contents (Elt F)),
    StableHlo.binary main_v7 main_v110 main_v111 ((fun x i => Host.gather gather_S15_S3x1_S3_n_0_n_n_0_1_1 x i) : (⟨S15, .f32⟩ : BufTy).Contents (Elt F) → (⟨S3x1, .i32⟩ : BufTy).Contents (Elt F) → (⟨S3, .f32⟩ : BufTy).Contents (Elt F)),
    StableHlo.nullary main_c_49 (constantI S_ 32 1#32) ]
/-- The reference's operations 334 … 354 after the group means: the same operations as the kernel program's stretch 19 after its region. -/
abbrev refOps19 : List (HloOp τ sig (Elt F)) :=
  [ StableHlo.TRef.nullary main_call9.call0.cst (constant S_ .f32 0x00000000#32),
    StableHlo.TRef.binary (.of main_v104 : StableHlo.TRef sig ⟨S3, .f32⟩) main_call9.call0.cst main_call9.call0.v0 (fun x v => Host.reduceAdd x v reducesTo_S3_S_d0 h_S_),
    StableHlo.TRef.unary main_call9.call0.v0 main_call9.call0.v1 (broadcastInDim S1 ![] bcast_S_S1),
    StableHlo.TRef.nullary main_call9.call0.cst_0 (constant S_ .f32 0x40400000#32),
    StableHlo.TRef.unary main_call9.call0.cst_0 main_call9.call0.v2 (broadcastInDim S1 ![] bcast_S_S1),
    StableHlo.TRef.binary main_call9.call0.v1 main_call9.call0.v2 main_call9.call0.v3 Host.divf,
    StableHlo.TRef.unary main_call9.call0.v3 main_call9.call0.v4 (broadcastInDim S3 ![0] bcast_S1_S3_0),
    StableHlo.TRef.binary (.of main_v104 : StableHlo.TRef sig ⟨S3, .f32⟩) main_call9.call0.v4 main_call9.call0.v5 subf,
    StableHlo.TRef.binary main_call9.call0.v5 main_call9.call0.v5 main_call9.call0.v6 mulf,
    StableHlo.TRef.unary (.of main_c_49 : StableHlo.TRef sig ⟨S_, .i32⟩) main_call9.call0.v7 (sitofp .f32),
    StableHlo.TRef.nullary main_call9.call0.cst_1 (constant S_ .f32 0x40400000#32),
    StableHlo.TRef.binary main_call9.call0.cst_1 main_call9.call0.v7 main_call9.call0.v8 subf,
    StableHlo.TRef.nullary main_call9.call0.cst_2 (constant S_ .f32 0x00000000#32),
    StableHlo.TRef.binary main_call9.call0.v6 main_call9.call0.cst_2 main_call9.call0.v9 (fun x v => Host.reduceAdd x v reducesTo_S3_S_d0 h_S_),
    StableHlo.TRef.binary main_call9.call0.v9 main_call9.call0.v8 main_call9.call0.v10 Host.divf,
    StableHlo.TRef.nullary main_call9.call0.cst_3 (constant S_ .f32 0x00000000#32),
    StableHlo.TRef.binary main_call9.call0.v8 main_call9.call0.cst_3 main_call9.call0.v11 (cmpf .ogt),
    StableHlo.TRef.nullary main_call9.call0.cst_4 (constant S_ .f32 0x7FC00000#32),
    StableHlo.TRef.unary main_call9.call0.cst_4 main_call9.call0.call0.v0 id,
    StableHlo.TRef.ternary main_call9.call0.v11 main_call9.call0.v10 main_call9.call0.call0.v0 main_call9.call0.call0.v1 select,
    StableHlo.TRef.unary main_call9.call0.call0.v1 main_call9.v1 Host.sqrt ]
/-- The reference's operations 355 … 355 after the group means: the same operations as the kernel program's stretch 20 after its region. -/
abbrev refOps20 : List (HloOp τ sig (Elt F)) :=
  [ StableHlo.nullary main_c_50 (constantI S_ 32 1#32) ]
/-- The reference's operations 356 … 376 after the group means: the same operations as the kernel program's stretch 21 after its region. -/
abbrev refOps21 : List (HloOp τ sig (Elt F)) :=
  [ StableHlo.TRef.nullary main_call10.call0.cst (constant S_ .f32 0x00000000#32),
    StableHlo.TRef.binary (.of main_v111 : StableHlo.TRef sig ⟨S3, .f32⟩) main_call10.call0.cst main_call10.call0.v0 (fun x v => Host.reduceAdd x v reducesTo_S3_S_d0 h_S_),
    StableHlo.TRef.unary main_call10.call0.v0 main_call10.call0.v1 (broadcastInDim S1 ![] bcast_S_S1),
    StableHlo.TRef.nullary main_call10.call0.cst_0 (constant S_ .f32 0x40400000#32),
    StableHlo.TRef.unary main_call10.call0.cst_0 main_call10.call0.v2 (broadcastInDim S1 ![] bcast_S_S1),
    StableHlo.TRef.binary main_call10.call0.v1 main_call10.call0.v2 main_call10.call0.v3 Host.divf,
    StableHlo.TRef.unary main_call10.call0.v3 main_call10.call0.v4 (broadcastInDim S3 ![0] bcast_S1_S3_0),
    StableHlo.TRef.binary (.of main_v111 : StableHlo.TRef sig ⟨S3, .f32⟩) main_call10.call0.v4 main_call10.call0.v5 subf,
    StableHlo.TRef.binary main_call10.call0.v5 main_call10.call0.v5 main_call10.call0.v6 mulf,
    StableHlo.TRef.unary (.of main_c_50 : StableHlo.TRef sig ⟨S_, .i32⟩) main_call10.call0.v7 (sitofp .f32),
    StableHlo.TRef.nullary main_call10.call0.cst_1 (constant S_ .f32 0x40400000#32),
    StableHlo.TRef.binary main_call10.call0.cst_1 main_call10.call0.v7 main_call10.call0.v8 subf,
    StableHlo.TRef.nullary main_call10.call0.cst_2 (constant S_ .f32 0x00000000#32),
    StableHlo.TRef.binary main_call10.call0.v6 main_call10.call0.cst_2 main_call10.call0.v9 (fun x v => Host.reduceAdd x v reducesTo_S3_S_d0 h_S_),
    StableHlo.TRef.binary main_call10.call0.v9 main_call10.call0.v8 main_call10.call0.v10 Host.divf,
    StableHlo.TRef.nullary main_call10.call0.cst_3 (constant S_ .f32 0x00000000#32),
    StableHlo.TRef.binary main_call10.call0.v8 main_call10.call0.cst_3 main_call10.call0.v11 (cmpf .ogt),
    StableHlo.TRef.nullary main_call10.call0.cst_4 (constant S_ .f32 0x7FC00000#32),
    StableHlo.TRef.unary main_call10.call0.cst_4 main_call10.call0.call0.v0 id,
    StableHlo.TRef.ternary main_call10.call0.v11 main_call10.call0.v10 main_call10.call0.call0.v0 main_call10.call0.call0.v1 select,
    StableHlo.TRef.unary main_call10.call0.call0.v1 main_call10.v1 Host.sqrt ]
/-- The reference's operations 377 … 403 after the group means: the same operations as the kernel program's stretch 22 after its region. -/
abbrev refOps22 : List (HloOp τ sig (Elt F)) :=
  [ StableHlo.nullary main_cst_51 (constant S_ .f32 0x00000000#32),
    StableHlo.binary main_v111 main_cst_51 main_v114 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_52 (constant S_ .f32 0x40400000#32),
    StableHlo.binary main_v114 main_cst_52 main_v115 (Host.divf : (⟨S_, .f32⟩ : BufTy).Contents (Elt F) → (⟨S_, .f32⟩ : BufTy).Contents (Elt F) → (⟨S_, .f32⟩ : BufTy).Contents (Elt F)),
    StableHlo.unary main_v23 main_v116 (broadcastInDim S1 ![] bcast_S_S1 : (⟨S_, .f32⟩ : BufTy).Contents (Elt F) → (⟨S1, .f32⟩ : BufTy).Contents (Elt F)),
    StableHlo.unary main_v41 main_v117 (broadcastInDim S1 ![] bcast_S_S1 : (⟨S_, .f32⟩ : BufTy).Contents (Elt F) → (⟨S1, .f32⟩ : BufTy).Contents (Elt F)),
    StableHlo.unary main_v59 main_v118 (broadcastInDim S1 ![] bcast_S_S1 : (⟨S_, .f32⟩ : BufTy).Contents (Elt F) → (⟨S1, .f32⟩ : BufTy).Contents (Elt F)),
    StableHlo.unary main_v76 main_v119 (broadcastInDim S1 ![] bcast_S_S1 : (⟨S_, .f32⟩ : BufTy).Contents (Elt F) → (⟨S1, .f32⟩ : BufTy).Contents (Elt F)),
    StableHlo.unary main_v94 main_v120 (broadcastInDim S1 ![] bcast_S_S1 : (⟨S_, .f32⟩ : BufTy).Contents (Elt F) → (⟨S1, .f32⟩ : BufTy).Contents (Elt F)),
    StableHlo.unary main_v112 main_v121 (broadcastInDim S1 ![] bcast_S_S1 : (⟨S_, .f32⟩ : BufTy).Contents (Elt F) → (⟨S1, .f32⟩ : BufTy).Contents (Elt F)),
    StableHlo.nary ![main_v116, main_v117, main_v118, main_v119, main_v120, main_v121] main_v122 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0),
    StableHlo.unary main_v26 main_v123 (broadcastInDim S1 ![] bcast_S_S1 : (⟨S_, .f32⟩ : BufTy).Contents (Elt F) → (⟨S1, .f32⟩ : BufTy).Contents (Elt F)),
    StableHlo.unary main_v44 main_v124 (broadcastInDim S1 ![] bcast_S_S1 : (⟨S_, .f32⟩ : BufTy).Contents (Elt F) → (⟨S1, .f32⟩ : BufTy).Contents (Elt F)),
    StableHlo.unary main_v61 main_v125 (broadcastInDim S1 ![] bcast_S_S1 : (⟨S_, .f32⟩ : BufTy).Contents (Elt F) → (⟨S1, .f32⟩ : BufTy).Contents (Elt F)),
    StableHlo.unary main_v79 main_v126 (broadcastInDim S1 ![] bcast_S_S1 : (⟨S_, .f32⟩ : BufTy).Contents (Elt F) → (⟨S1, .f32⟩ : BufTy).Contents (Elt F)),
    StableHlo.unary main_v97 main_v127 (broadcastInDim S1 ![] bcast_S_S1 : (⟨S_, .f32⟩ : BufTy).Contents (Elt F) → (⟨S1, .f32⟩ : BufTy).Contents (Elt F)),
    StableHlo.unary main_v115 main_v128 (broadcastInDim S1 ![] bcast_S_S1 : (⟨S_, .f32⟩ : BufTy).Contents (Elt F) → (⟨S1, .f32⟩ : BufTy).Contents (Elt F)),
    StableHlo.nary ![main_v123, main_v124, main_v125, main_v126, main_v127, main_v128] main_v129 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0),
    StableHlo.unary main_v24 main_v130 (broadcastInDim S1 ![] bcast_S_S1 : (⟨S_, .f32⟩ : BufTy).Contents (Elt F) → (⟨S1, .f32⟩ : BufTy).Contents (Elt F)),
    StableHlo.unary main_v42 main_v131 (broadcastInDim S1 ![] bcast_S_S1 : (⟨S_, .f32⟩ : BufTy).Contents (Elt F) → (⟨S1, .f32⟩ : BufTy).Contents (Elt F)),
    StableHlo.unary main_v60 main_v132 (broadcastInDim S1 ![] bcast_S_S1 : (⟨S_, .f32⟩ : BufTy).Contents (Elt F) → (⟨S1, .f32⟩ : BufTy).Contents (Elt F)),
    StableHlo.unary main_v77 main_v133 (broadcastInDim S1 ![] bcast_S_S1 : (⟨S_, .f32⟩ : BufTy).Contents (Elt F) → (⟨S1, .f32⟩ : BufTy).Contents (Elt F)),
    StableHlo.unary main_v95 main_v134 (broadcastInDim S1 ![] bcast_S_S1 : (⟨S_, .f32⟩ : BufTy).Contents (Elt F) → (⟨S1, .f32⟩ : BufTy).Contents (Elt F)),
    StableHlo.unary main_v113 main_v135 (broadcastInDim S1 ![] bcast_S_S1 : (⟨S_, .f32⟩ : BufTy).Contents (Elt F) → (⟨S1, .f32⟩ : BufTy).Contents (Elt F)),
    StableHlo.nary ![main_v130, main_v131, main_v132, main_v133, main_v134, main_v135] main_v136 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0),
    StableHlo.nullary main_c_53 (constantI S_ 1 1#1),
    StableHlo.unary main_c_53 main_v137 (broadcastInDim S6x6 ![] bcast_S_S6x6 : (⟨S_, .i1⟩ : BufTy).Contents (Elt F) → (⟨S6x6, .i1⟩ : BufTy).Contents (Elt F)) ]
/-- The reference's operations 404 … 412 after the group means: the same operations as the kernel program's stretch 23 after its region. -/
abbrev refOps23 : List (HloOp τ sig (Elt F)) :=
  [ StableHlo.TRef.nullary main_call11.v0 (iotaInDim S6x6 32 0),
    StableHlo.TRef.nullary main_call11.c (constantI S_ 32 0#32),
    StableHlo.TRef.unary main_call11.c main_call11.v1 (broadcastInDim S6x6 ![] bcast_S_S6x6),
    StableHlo.TRef.binary main_call11.v0 main_call11.v1 main_call11.v2 addi,
    StableHlo.TRef.nullary main_call11.v3 (iotaInDim S6x6 32 1),
    StableHlo.TRef.binary main_call11.v2 main_call11.v3 main_call11.v4 (cmpi .sge),
    StableHlo.TRef.nullary main_call11.c_0 (constantI S_ 1 0#1),
    StableHlo.TRef.unary main_call11.c_0 main_call11.v5 (broadcastInDim S6x6 ![] bcast_S_S6x6),
    StableHlo.TRef.ternary main_call11.v4 main_call11.v5 (.of main_v137 : StableHlo.TRef sig ⟨S6x6, .i1⟩) main_call11.v6 select ]
/-- The reference's operations 413 … 431 after the group means: the same operations as the kernel program's stretch 24 after its region. -/
abbrev refOps24 : List (HloOp τ sig (Elt F)) :=
  [ StableHlo.unary main_v122 main_v139 (broadcastInDim S6x1 ![0] bcast_S6_S6x1_0 : (⟨S6, .f32⟩ : BufTy).Contents (Elt F) → (⟨S6x1, .f32⟩ : BufTy).Contents (Elt F)),
    StableHlo.unary main_v122 main_v140 (broadcastInDim S1x6 ![1] bcast_S6_S1x6_1 : (⟨S6, .f32⟩ : BufTy).Contents (Elt F) → (⟨S1x6, .f32⟩ : BufTy).Contents (Elt F)),
    StableHlo.unary main_v139 main_v141 (broadcastInDim S6x6 ![0, 1] bcast_S6x1_S6x6_0_1 : (⟨S6x1, .f32⟩ : BufTy).Contents (Elt F) → (⟨S6x6, .f32⟩ : BufTy).Contents (Elt F)),
    StableHlo.unary main_v140 main_v142 (broadcastInDim S6x6 ![0, 1] bcast_S1x6_S6x6_0_1 : (⟨S1x6, .f32⟩ : BufTy).Contents (Elt F) → (⟨S6x6, .f32⟩ : BufTy).Contents (Elt F)),
    StableHlo.binary main_v141 main_v142 main_v143 (subf : (⟨S6x6, .f32⟩ : BufTy).Contents (Elt F) → (⟨S6x6, .f32⟩ : BufTy).Contents (Elt F) → (⟨S6x6, .f32⟩ : BufTy).Contents (Elt F)),
    StableHlo.binary main_v143 main_v143 main_v144 (mulf : (⟨S6x6, .f32⟩ : BufTy).Contents (Elt F) → (⟨S6x6, .f32⟩ : BufTy).Contents (Elt F) → (⟨S6x6, .f32⟩ : BufTy).Contents (Elt F)),
    StableHlo.unary main_v144 main_v145 (Host.exp : (⟨S6x6, .f32⟩ : BufTy).Contents (Elt F) → (⟨S6x6, .f32⟩ : BufTy).Contents (Elt F)),
    StableHlo.unary main_v129 main_v146 (broadcastInDim S6x1 ![0] bcast_S6_S6x1_0 : (⟨S6, .f32⟩ : BufTy).Contents (Elt F) → (⟨S6x1, .f32⟩ : BufTy).Contents (Elt F)),
    StableHlo.unary main_v129 main_v147 (broadcastInDim S1x6 ![1] bcast_S6_S1x6_1 : (⟨S6, .f32⟩ : BufTy).Contents (Elt F) → (⟨S1x6, .f32⟩ : BufTy).Contents (Elt F)),
    StableHlo.unary main_v146 main_v148 (broadcastInDim S6x6 ![0, 1] bcast_S6x1_S6x6_0_1 : (⟨S6x1, .f32⟩ : BufTy).Contents (Elt F) → (⟨S6x6, .f32⟩ : BufTy).Contents (Elt F)),
    StableHlo.unary main_v147 main_v149 (broadcastInDim S6x6 ![0, 1] bcast_S1x6_S6x6_0_1 : (⟨S1x6, .f32⟩ : BufTy).Contents (Elt F) → (⟨S6x6, .f32⟩ : BufTy).Contents (Elt F)),
    StableHlo.binary main_v148 main_v149 main_v150 (subf : (⟨S6x6, .f32⟩ : BufTy).Contents (Elt F) → (⟨S6x6, .f32⟩ : BufTy).Contents (Elt F) → (⟨S6x6, .f32⟩ : BufTy).Contents (Elt F)),
    StableHlo.binary main_v150 main_v150 main_v151 (mulf : (⟨S6x6, .f32⟩ : BufTy).Contents (Elt F) → (⟨S6x6, .f32⟩ : BufTy).Contents (Elt F) → (⟨S6x6, .f32⟩ : BufTy).Contents (Elt F)),
    StableHlo.unary main_v151 main_v152 (Host.exp : (⟨S6x6, .f32⟩ : BufTy).Contents (Elt F) → (⟨S6x6, .f32⟩ : BufTy).Contents (Elt F)),
    StableHlo.nullary main_cst_54 (constant S_ .f32 0x3F800000#32),
    StableHlo.unary main_cst_54 main_v153 (broadcastInDim S6x6 ![] bcast_S_S6x6 : (⟨S_, .f32⟩ : BufTy).Contents (Elt F) → (⟨S6x6, .f32⟩ : BufTy).Contents (Elt F)),
    StableHlo.binary main_v153 main_v152 main_v154 (mulf : (⟨S6x6, .f32⟩ : BufTy).Contents (Elt F) → (⟨S6x6, .f32⟩ : BufTy).Contents (Elt F) → (⟨S6x6, .f32⟩ : BufTy).Contents (Elt F)),
    StableHlo.binary main_v145 main_v154 main_v155 (addf : (⟨S6x6, .f32⟩ : BufTy).Contents (Elt F) → (⟨S6x6, .f32⟩ : BufTy).Contents (Elt F) → (⟨S6x6, .f32⟩ : BufTy).Contents (Elt F)),
    StableHlo.nullary main_cst_55 (constant S_ .f32 0x00000000#32) ]
/-- The reference's operations 432 … 434 after the group means: the same operations as the kernel program's stretch 25 after its region. -/
abbrev refOps25 : List (HloOp τ sig (Elt F)) :=
  [ StableHlo.TRef.unary (.of main_cst_55 : StableHlo.TRef sig ⟨S_, .f32⟩) main_call12.v0 id,
    StableHlo.TRef.unary main_call12.v0 main_call12.v1 (broadcastInDim S6x6 ![] bcast_S_S6x6),
    StableHlo.TRef.ternary (.of main_v138 : StableHlo.TRef sig ⟨S6x6, .i1⟩) (.of main_v155 : StableHlo.TRef sig ⟨S6x6, .f32⟩) main_call12.v1 main_call12.v2 select ]
/-- The reference's operations 435 … 447 after the group means: the same operations as the kernel program's stretch 26 after its region. -/
abbrev refOps26 : List (HloOp τ sig (Elt F)) :=
  [ StableHlo.nullary main_cst_56 (constant S_ .f32 0x00000000#32),
    StableHlo.binary main_v156 main_cst_56 main_v157 ((fun x v => Host.reduceAdd x v reducesTo_S6x6_S6_d1 h_S_) : (⟨S6x6, .f32⟩ : BufTy).Contents (Elt F) → (⟨S_, .f32⟩ : BufTy).Contents (Elt F) → (⟨S6, .f32⟩ : BufTy).Contents (Elt F)),
    StableHlo.nullary main_cst_57 (constant S_ .f32 0x3851B717#32),
    StableHlo.unary main_cst_57 main_v158 (broadcastInDim S6 ![] bcast_S_S6 : (⟨S_, .f32⟩ : BufTy).Contents (Elt F) → (⟨S6, .f32⟩ : BufTy).Contents (Elt F)),
    StableHlo.binary main_v158 main_v157 main_v159 (addf : (⟨S6, .f32⟩ : BufTy).Contents (Elt F) → (⟨S6, .f32⟩ : BufTy).Contents (Elt F) → (⟨S6, .f32⟩ : BufTy).Contents (Elt F)),
    StableHlo.binary main_v159 main_v136 main_v160 (addf : (⟨S6, .f32⟩ : BufTy).Contents (Elt F) → (⟨S6, .f32⟩ : BufTy).Contents (Elt F) → (⟨S6, .f32⟩ : BufTy).Contents (Elt F)),
    StableHlo.binary main_v136 main_v160 main_v161 (Host.divf : (⟨S6, .f32⟩ : BufTy).Contents (Elt F) → (⟨S6, .f32⟩ : BufTy).Contents (Elt F) → (⟨S6, .f32⟩ : BufTy).Contents (Elt F)),
    StableHlo.nullary main_cst_58 (constant S_ .f32 0x3F800000#32),
    StableHlo.unary main_cst_58 main_v162 (broadcastInDim S6 ![] bcast_S_S6 : (⟨S_, .f32⟩ : BufTy).Contents (Elt F) → (⟨S6, .f32⟩ : BufTy).Contents (Elt F)),
    StableHlo.binary main_v162 main_v161 main_v163 (addf : (⟨S6, .f32⟩ : BufTy).Contents (Elt F) → (⟨S6, .f32⟩ : BufTy).Contents (Elt F) → (⟨S6, .f32⟩ : BufTy).Contents (Elt F)),
    StableHlo.unary main_v163 main_v164 (Host.log : (⟨S6, .f32⟩ : BufTy).Contents (Elt F) → (⟨S6, .f32⟩ : BufTy).Contents (Elt F)),
    StableHlo.nullary main_cst_59 (constant S_ .f32 0x00000000#32),
    StableHlo.binary main_v164 main_cst_59 main_v165 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)) ]

/-- The reference's tail is these pieces in order. -/
theorem tailOps_eq : (tailOps : List (HloOp τ sig (Elt F))) = List.flatten [refOps0, refOps1, refOps2, refOps3, refOps4, refOps5, refOps6, refOps7, refOps8, refOps9, refOps10, refOps11, refOps12, refOps13, refOps14, refOps15, refOps16, refOps17, refOps18, refOps19, refOps20, refOps21, refOps22, refOps23, refOps24, refOps25, refOps26] := rfl

/-- The buffers piece 0 writes. -/
abbrev refW0 : List (Ref sig .tc) := [main_cst_6, main_v5, main_cst_7, main_v6, main_v7, main_c_8]
theorem refOps0_writes : (refOps0 : List (HloOp τ sig (Elt F))).Forall fun op => op.writes ⊆ ((refW0).map (Proc.devRef (τ := τ) .tc)).toFinset := by writes_stretch
/-- The buffers piece 1 writes. -/
abbrev refW1 : List (Ref sig .tc) := [main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_cst_3, main_call0_call0_v12, main_call0_call0_cst_4, main_call0_call0_call0_v0, main_call0_call0_call0_v1, main_call0_v0, main_v8]
theorem refOps1_writes : (refOps1 : List (HloOp τ sig (Elt F))).Forall fun op => op.writes ⊆ ((refW1).map (Proc.devRef (τ := τ) .tc)).toFinset := by writes_stretch
/-- The buffers piece 2 writes. -/
abbrev refW2 : List (Ref sig .tc) := [main_c_9, main_v9, main_v10, main_c_10, main_v11, main_v12, main_v13, main_v14, main_v15, main_c_11, main_v16, main_v17, main_c_12, main_v18, main_v19, main_v20, main_v21, main_v22, main_c_13]
theorem refOps2_writes : (refOps2 : List (HloOp τ sig (Elt F))).Forall fun op => op.writes ⊆ ((refW2).map (Proc.devRef (τ := τ) .tc)).toFinset := by writes_stretch
/-- The buffers piece 3 writes. -/
abbrev refW3 : List (Ref sig .tc) := [main_call1_call0_cst, main_call1_call0_v0, main_call1_call0_v1, main_call1_call0_cst_0, main_call1_call0_v2, main_call1_call0_v3, main_call1_call0_v4, main_call1_call0_v5, main_call1_call0_v6, main_call1_call0_v7, main_call1_call0_cst_1, main_call1_call0_v8, main_call1_call0_cst_2, main_call1_call0_v9, main_call1_call0_v10, main_call1_call0_cst_3, main_call1_call0_v11, main_call1_call0_cst_4, main_call1_call0_call0_v0, main_call1_v0, main_v23]
theorem refOps3_writes : (refOps3 : List (HloOp τ sig (Elt F))).Forall fun op => op.writes ⊆ ((refW3).map (Proc.devRef (τ := τ) .tc)).toFinset := by writes_stretch
/-- The buffers piece 4 writes. -/
abbrev refW4 : List (Ref sig .tc) := [main_c_14]
theorem refOps4_writes : (refOps4 : List (HloOp τ sig (Elt F))).Forall fun op => op.writes ⊆ ((refW4).map (Proc.devRef (τ := τ) .tc)).toFinset := by writes_stretch
/-- The buffers piece 5 writes. -/
abbrev refW5 : List (Ref sig .tc) := [main_call2_call0_cst, main_call2_call0_v0, main_call2_call0_v1, main_call2_call0_cst_0, main_call2_call0_v2, main_call2_call0_v3, main_call2_call0_v4, main_call2_call0_v5, main_call2_call0_v6, main_call2_call0_v7, main_call2_call0_cst_1, main_call2_call0_v8, main_call2_call0_cst_2, main_call2_call0_v9, main_call2_call0_v10, main_call2_call0_cst_3, main_call2_call0_v11, main_call2_call0_cst_4, main_call2_call0_call0_v0, main_call2_v0, main_v24]
theorem refOps5_writes : (refOps5 : List (HloOp τ sig (Elt F))).Forall fun op => op.writes ⊆ ((refW5).map (Proc.devRef (τ := τ) .tc)).toFinset := by writes_stretch
/-- The buffers piece 6 writes. -/
abbrev refW6 : List (Ref sig .tc) := [main_cst_15, main_v25, main_cst_16, main_v26, main_c_17, main_v27, main_v28, main_c_18, main_v29, main_v30, main_v31, main_v32, main_v33, main_c_19, main_v34, main_v35, main_c_20, main_v36, main_v37, main_v38, main_v39, main_v40, main_c_21]
theorem refOps6_writes : (refOps6 : List (HloOp τ sig (Elt F))).Forall fun op => op.writes ⊆ ((refW6).map (Proc.devRef (τ := τ) .tc)).toFinset := by writes_stretch
/-- The buffers piece 7 writes. -/
abbrev refW7 : List (Ref sig .tc) := [main_call3_call0_cst, main_call3_call0_v0, main_call3_call0_v1, main_call3_call0_cst_0, main_call3_call0_v2, main_call3_call0_v3, main_call3_call0_v4, main_call3_call0_v5, main_call3_call0_v6, main_call3_call0_v7, main_call3_call0_cst_1, main_call3_call0_v8, main_call3_call0_cst_2, main_call3_call0_v9, main_call3_call0_v10, main_call3_call0_cst_3, main_call3_call0_v11, main_call3_call0_cst_4, main_call3_call0_call0_v0, main_call3_v0, main_v41]
theorem refOps7_writes : (refOps7 : List (HloOp τ sig (Elt F))).Forall fun op => op.writes ⊆ ((refW7).map (Proc.devRef (τ := τ) .tc)).toFinset := by writes_stretch
/-- The buffers piece 8 writes. -/
abbrev refW8 : List (Ref sig .tc) := [main_c_22]
theorem refOps8_writes : (refOps8 : List (HloOp τ sig (Elt F))).Forall fun op => op.writes ⊆ ((refW8).map (Proc.devRef (τ := τ) .tc)).toFinset := by writes_stretch
/-- The buffers piece 9 writes. -/
abbrev refW9 : List (Ref sig .tc) := [main_call4_call0_cst, main_call4_call0_v0, main_call4_call0_v1, main_call4_call0_cst_0, main_call4_call0_v2, main_call4_call0_v3, main_call4_call0_v4, main_call4_call0_v5, main_call4_call0_v6, main_call4_call0_v7, main_call4_call0_cst_1, main_call4_call0_v8, main_call4_call0_cst_2, main_call4_call0_v9, main_call4_call0_v10, main_call4_call0_cst_3, main_call4_call0_v11, main_call4_call0_cst_4, main_call4_call0_call0_v0, main_call4_v0, main_v42]
theorem refOps9_writes : (refOps9 : List (HloOp τ sig (Elt F))).Forall fun op => op.writes ⊆ ((refW9).map (Proc.devRef (τ := τ) .tc)).toFinset := by writes_stretch
/-- The buffers piece 10 writes. -/
abbrev refW10 : List (Ref sig .tc) := [main_cst_23, main_v43, main_cst_24, main_v44, main_c_25, main_v45, main_v46, main_c_26, main_v47, main_v48, main_v49, main_v50, main_v51, main_c_27, main_v52, main_v53, main_c_28, main_v54, main_v55, main_v56, main_v57, main_v58, main_v59, main_v60, main_v61, main_c_29, main_v62, main_v63, main_c_30, main_v64, main_v65, main_v66, main_v67, main_v68, main_c_31, main_v69, main_v70, main_c_32, main_v71, main_v72, main_v73, main_v74, main_v75, main_c_33]
theorem refOps10_writes : (refOps10 : List (HloOp τ sig (Elt F))).Forall fun op => op.writes ⊆ ((refW10).map (Proc.devRef (τ := τ) .tc)).toFinset := by writes_stretch
/-- The buffers piece 11 writes. -/
abbrev refW11 : List (Ref sig .tc) := [main_call5_call0_cst, main_call5_call0_v0, main_call5_call0_v1, main_call5_call0_cst_0, main_call5_call0_v2, main_call5_call0_v3, main_call5_call0_v4, main_call5_call0_v5, main_call5_call0_v6, main_call5_call0_v7, main_call5_call0_cst_1, main_call5_call0_v8, main_call5_call0_cst_2, main_call5_call0_v9, main_call5_call0_v10, main_call5_call0_cst_3, main_call5_call0_v11, main_call5_call0_cst_4, main_call5_call0_call0_v0, main_call5_v0, main_v76]
theorem refOps11_writes : (refOps11 : List (HloOp τ sig (Elt F))).Forall fun op => op.writes ⊆ ((refW11).map (Proc.devRef (τ := τ) .tc)).toFinset := by writes_stretch
/-- The buffers piece 12 writes. -/
abbrev refW12 : List (Ref sig .tc) := [main_c_34]
theorem refOps12_writes : (refOps12 : List (HloOp τ sig (Elt F))).Forall fun op => op.writes ⊆ ((refW12).map (Proc.devRef (τ := τ) .tc)).toFinset := by writes_stretch
/-- The buffers piece 13 writes. -/
abbrev refW13 : List (Ref sig .tc) := [main_call6_call0_cst, main_call6_call0_v0, main_call6_call0_v1, main_call6_call0_cst_0, main_call6_call0_v2, main_call6_call0_v3, main_call6_call0_v4, main_call6_call0_v5, main_call6_call0_v6, main_call6_call0_v7, main_call6_call0_cst_1, main_call6_call0_v8, main_call6_call0_cst_2, main_call6_call0_v9, main_call6_call0_v10, main_call6_call0_cst_3, main_call6_call0_v11, main_call6_call0_cst_4, main_call6_call0_call0_v0, main_call6_v0, main_v77]
theorem refOps13_writes : (refOps13 : List (HloOp τ sig (Elt F))).Forall fun op => op.writes ⊆ ((refW13).map (Proc.devRef (τ := τ) .tc)).toFinset := by writes_stretch
/-- The buffers piece 14 writes. -/
abbrev refW14 : List (Ref sig .tc) := [main_cst_35, main_v78, main_cst_36, main_v79, main_c_37, main_v80, main_v81, main_c_38, main_v82, main_v83, main_v84, main_v85, main_v86, main_c_39, main_v87, main_v88, main_c_40, main_v89, main_v90, main_v91, main_v92, main_v93, main_c_41]
theorem refOps14_writes : (refOps14 : List (HloOp τ sig (Elt F))).Forall fun op => op.writes ⊆ ((refW14).map (Proc.devRef (τ := τ) .tc)).toFinset := by writes_stretch
/-- The buffers piece 15 writes. -/
abbrev refW15 : List (Ref sig .tc) := [main_call7_call0_cst, main_call7_call0_v0, main_call7_call0_v1, main_call7_call0_cst_0, main_call7_call0_v2, main_call7_call0_v3, main_call7_call0_v4, main_call7_call0_v5, main_call7_call0_v6, main_call7_call0_v7, main_call7_call0_cst_1, main_call7_call0_v8, main_call7_call0_cst_2, main_call7_call0_v9, main_call7_call0_v10, main_call7_call0_cst_3, main_call7_call0_v11, main_call7_call0_cst_4, main_call7_call0_call0_v0, main_call7_v0, main_v94]
theorem refOps15_writes : (refOps15 : List (HloOp τ sig (Elt F))).Forall fun op => op.writes ⊆ ((refW15).map (Proc.devRef (τ := τ) .tc)).toFinset := by writes_stretch
/-- The buffers piece 16 writes. -/
abbrev refW16 : List (Ref sig .tc) := [main_c_42]
theorem refOps16_writes : (refOps16 : List (HloOp τ sig (Elt F))).Forall fun op => op.writes ⊆ ((refW16).map (Proc.devRef (τ := τ) .tc)).toFinset := by writes_stretch
/-- The buffers piece 17 writes. -/
abbrev refW17 : List (Ref sig .tc) := [main_call8_call0_cst, main_call8_call0_v0, main_call8_call0_v1, main_call8_call0_cst_0, main_call8_call0_v2, main_call8_call0_v3, main_call8_call0_v4, main_call8_call0_v5, main_call8_call0_v6, main_call8_call0_v7, main_call8_call0_cst_1, main_call8_call0_v8, main_call8_call0_cst_2, main_call8_call0_v9, main_call8_call0_v10, main_call8_call0_cst_3, main_call8_call0_v11, main_call8_call0_cst_4, main_call8_call0_call0_v0, main_call8_v0, main_v95]
theorem refOps17_writes : (refOps17 : List (HloOp τ sig (Elt F))).Forall fun op => op.writes ⊆ ((refW17).map (Proc.devRef (τ := τ) .tc)).toFinset := by writes_stretch
/-- The buffers piece 18 writes. -/
abbrev refW18 : List (Ref sig .tc) := [main_cst_43, main_v96, main_cst_44, main_v97, main_c_45, main_v98, main_v99, main_c_46, main_v100, main_v101, main_v102, main_v103, main_v104, main_c_47, main_v105, main_v106, main_c_48, main_v107, main_v108, main_v109, main_v110, main_v111, main_c_49]
theorem refOps18_writes : (refOps18 : List (HloOp τ sig (Elt F))).Forall fun op => op.writes ⊆ ((refW18).map (Proc.devRef (τ := τ) .tc)).toFinset := by writes_stretch
/-- The buffers piece 19 writes. -/
abbrev refW19 : List (Ref sig .tc) := [main_call9_call0_cst, main_call9_call0_v0, main_call9_call0_v1, main_call9_call0_cst_0, main_call9_call0_v2, main_call9_call0_v3, main_call9_call0_v4, main_call9_call0_v5, main_call9_call0_v6, main_call9_call0_v7, main_call9_call0_cst_1, main_call9_call0_v8, main_call9_call0_cst_2, main_call9_call0_v9, main_call9_call0_v10, main_call9_call0_cst_3, main_call9_call0_v11, main_call9_call0_cst_4, main_call9_call0_call0_v0, main_call9_v0, main_v112]
theorem refOps19_writes : (refOps19 : List (HloOp τ sig (Elt F))).Forall fun op => op.writes ⊆ ((refW19).map (Proc.devRef (τ := τ) .tc)).toFinset := by writes_stretch
/-- The buffers piece 20 writes. -/
abbrev refW20 : List (Ref sig .tc) := [main_c_50]
theorem refOps20_writes : (refOps20 : List (HloOp τ sig (Elt F))).Forall fun op => op.writes ⊆ ((refW20).map (Proc.devRef (τ := τ) .tc)).toFinset := by writes_stretch
/-- The buffers piece 21 writes. -/
abbrev refW21 : List (Ref sig .tc) := [main_call10_call0_cst, main_call10_call0_v0, main_call10_call0_v1, main_call10_call0_cst_0, main_call10_call0_v2, main_call10_call0_v3, main_call10_call0_v4, main_call10_call0_v5, main_call10_call0_v6, main_call10_call0_v7, main_call10_call0_cst_1, main_call10_call0_v8, main_call10_call0_cst_2, main_call10_call0_v9, main_call10_call0_v10, main_call10_call0_cst_3, main_call10_call0_v11, main_call10_call0_cst_4, main_call10_call0_call0_v0, main_call10_v0, main_v113]
theorem refOps21_writes : (refOps21 : List (HloOp τ sig (Elt F))).Forall fun op => op.writes ⊆ ((refW21).map (Proc.devRef (τ := τ) .tc)).toFinset := by writes_stretch
/-- The buffers piece 22 writes. -/
abbrev refW22 : List (Ref sig .tc) := [main_cst_51, main_v114, main_cst_52, main_v115, main_v116, main_v117, main_v118, main_v119, main_v120, main_v121, main_v122, main_v123, main_v124, main_v125, main_v126, main_v127, main_v128, main_v129, main_v130, main_v131, main_v132, main_v133, main_v134, main_v135, main_v136, main_c_53, main_v137]
theorem refOps22_writes : (refOps22 : List (HloOp τ sig (Elt F))).Forall fun op => op.writes ⊆ ((refW22).map (Proc.devRef (τ := τ) .tc)).toFinset := by writes_stretch
/-- The buffers piece 23 writes. -/
abbrev refW23 : List (Ref sig .tc) := [main_call11_v0, main_call11_c, main_call11_v1, main_call11_v2, main_call11_v3, main_call11_v4, main_call11_c_0, main_call11_v5, main_v138]
theorem refOps23_writes : (refOps23 : List (HloOp τ sig (Elt F))).Forall fun op => op.writes ⊆ ((refW23).map (Proc.devRef (τ := τ) .tc)).toFinset := by writes_stretch
/-- The buffers piece 24 writes. -/
abbrev refW24 : List (Ref sig .tc) := [main_v139, main_v140, main_v141, main_v142, main_v143, main_v144, main_v145, main_v146, main_v147, main_v148, main_v149, main_v150, main_v151, main_v152, main_cst_54, main_v153, main_v154, main_v155, main_cst_55]
theorem refOps24_writes : (refOps24 : List (HloOp τ sig (Elt F))).Forall fun op => op.writes ⊆ ((refW24).map (Proc.devRef (τ := τ) .tc)).toFinset := by writes_stretch
/-- The buffers piece 25 writes. -/
abbrev refW25 : List (Ref sig .tc) := [main_call12_v0, main_call12_v1, main_v156]
theorem refOps25_writes : (refOps25 : List (HloOp τ sig (Elt F))).Forall fun op => op.writes ⊆ ((refW25).map (Proc.devRef (τ := τ) .tc)).toFinset := by writes_stretch
/-- The buffers piece 26 writes. -/
abbrev refW26 : List (Ref sig .tc) := [main_cst_56, main_v157, main_cst_57, main_v158, main_v159, main_v160, main_v161, main_cst_58, main_v162, main_v163, main_v164, main_cst_59, main_v165]
theorem refOps26_writes : (refOps26 : List (HloOp τ sig (Elt F))).Forall fun op => op.writes ⊆ ((refW26).map (Proc.devRef (τ := τ) .tc)).toFinset := by writes_stretch

end Cert.ReferenceIdeal.Ops

namespace Cert.KernelIdeal.Fr
open Idealize.ShloMosaic Idealize.SL.Sem
open Cert.KernelIdeal Cert.KernelIdeal.Gen
open Cert.Proof.Tails
variable {F : FTy → Type} [FloatOps F]

/-- The buffers stretch 0 after the region writes. -/
abbrev kerW0 : List (Ref sig .tc) := [main_cst, main_v2, main_cst_5, main_v3, main_v4, main_c_6]
theorem hostOps1_writes : (hostOps1 : List (HloOp τ sig (Elt F))).Forall fun op => op.writes ⊆ ((kerW0).map (Proc.devRef (τ := τ) .tc)).toFinset := by writes_stretch
/-- The buffers stretch 1 after the region writes. -/
abbrev kerW1 : List (Ref sig .tc) := [main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_cst_3, main_call0_call0_v12, main_call0_call0_cst_4, main_call0_call0_call0_v0, main_call0_call0_call0_v1, main_call0_v0, main_v5]
theorem hostOps1_1_writes : (hostOps1_1 : List (HloOp τ sig (Elt F))).Forall fun op => op.writes ⊆ ((kerW1).map (Proc.devRef (τ := τ) .tc)).toFinset := by writes_stretch
/-- The buffers stretch 2 after the region writes. -/
abbrev kerW2 : List (Ref sig .tc) := [main_c_7, main_v6, main_v7, main_c_8, main_v8, main_v9, main_v10, main_v11, main_v12, main_c_9, main_v13, main_v14, main_c_10, main_v15, main_v16, main_v17, main_v18, main_v19, main_c_11]
theorem hostOps1_2_writes : (hostOps1_2 : List (HloOp τ sig (Elt F))).Forall fun op => op.writes ⊆ ((kerW2).map (Proc.devRef (τ := τ) .tc)).toFinset := by writes_stretch
/-- The buffers stretch 3 after the region writes. -/
abbrev kerW3 : List (Ref sig .tc) := [main_call1_call0_cst, main_call1_call0_v0, main_call1_call0_v1, main_call1_call0_cst_0, main_call1_call0_v2, main_call1_call0_v3, main_call1_call0_v4, main_call1_call0_v5, main_call1_call0_v6, main_call1_call0_v7, main_call1_call0_cst_1, main_call1_call0_v8, main_call1_call0_cst_2, main_call1_call0_v9, main_call1_call0_v10, main_call1_call0_cst_3, main_call1_call0_v11, main_call1_call0_cst_4, main_call1_call0_call0_v0, main_call1_v0, main_v20]
theorem hostOps1_3_writes : (hostOps1_3 : List (HloOp τ sig (Elt F))).Forall fun op => op.writes ⊆ ((kerW3).map (Proc.devRef (τ := τ) .tc)).toFinset := by writes_stretch
/-- The buffers stretch 4 after the region writes. -/
abbrev kerW4 : List (Ref sig .tc) := [main_c_12]
theorem hostOps1_4_writes : (hostOps1_4 : List (HloOp τ sig (Elt F))).Forall fun op => op.writes ⊆ ((kerW4).map (Proc.devRef (τ := τ) .tc)).toFinset := by writes_stretch
/-- The buffers stretch 5 after the region writes. -/
abbrev kerW5 : List (Ref sig .tc) := [main_call2_call0_cst, main_call2_call0_v0, main_call2_call0_v1, main_call2_call0_cst_0, main_call2_call0_v2, main_call2_call0_v3, main_call2_call0_v4, main_call2_call0_v5, main_call2_call0_v6, main_call2_call0_v7, main_call2_call0_cst_1, main_call2_call0_v8, main_call2_call0_cst_2, main_call2_call0_v9, main_call2_call0_v10, main_call2_call0_cst_3, main_call2_call0_v11, main_call2_call0_cst_4, main_call2_call0_call0_v0, main_call2_v0, main_v21]
theorem hostOps1_5_writes : (hostOps1_5 : List (HloOp τ sig (Elt F))).Forall fun op => op.writes ⊆ ((kerW5).map (Proc.devRef (τ := τ) .tc)).toFinset := by writes_stretch
/-- The buffers stretch 6 after the region writes. -/
abbrev kerW6 : List (Ref sig .tc) := [main_cst_13, main_v22, main_cst_14, main_v23, main_c_15, main_v24, main_v25, main_c_16, main_v26, main_v27, main_v28, main_v29, main_v30, main_c_17, main_v31, main_v32, main_c_18, main_v33, main_v34, main_v35, main_v36, main_v37, main_c_19]
theorem hostOps1_6_writes : (hostOps1_6 : List (HloOp τ sig (Elt F))).Forall fun op => op.writes ⊆ ((kerW6).map (Proc.devRef (τ := τ) .tc)).toFinset := by writes_stretch
/-- The buffers stretch 7 after the region writes. -/
abbrev kerW7 : List (Ref sig .tc) := [main_call3_call0_cst, main_call3_call0_v0, main_call3_call0_v1, main_call3_call0_cst_0, main_call3_call0_v2, main_call3_call0_v3, main_call3_call0_v4, main_call3_call0_v5, main_call3_call0_v6, main_call3_call0_v7, main_call3_call0_cst_1, main_call3_call0_v8, main_call3_call0_cst_2, main_call3_call0_v9, main_call3_call0_v10, main_call3_call0_cst_3, main_call3_call0_v11, main_call3_call0_cst_4, main_call3_call0_call0_v0, main_call3_v0, main_v38]
theorem hostOps1_7_writes : (hostOps1_7 : List (HloOp τ sig (Elt F))).Forall fun op => op.writes ⊆ ((kerW7).map (Proc.devRef (τ := τ) .tc)).toFinset := by writes_stretch
/-- The buffers stretch 8 after the region writes. -/
abbrev kerW8 : List (Ref sig .tc) := [main_c_20]
theorem hostOps1_8_writes : (hostOps1_8 : List (HloOp τ sig (Elt F))).Forall fun op => op.writes ⊆ ((kerW8).map (Proc.devRef (τ := τ) .tc)).toFinset := by writes_stretch
/-- The buffers stretch 9 after the region writes. -/
abbrev kerW9 : List (Ref sig .tc) := [main_call4_call0_cst, main_call4_call0_v0, main_call4_call0_v1, main_call4_call0_cst_0, main_call4_call0_v2, main_call4_call0_v3, main_call4_call0_v4, main_call4_call0_v5, main_call4_call0_v6, main_call4_call0_v7, main_call4_call0_cst_1, main_call4_call0_v8, main_call4_call0_cst_2, main_call4_call0_v9, main_call4_call0_v10, main_call4_call0_cst_3, main_call4_call0_v11, main_call4_call0_cst_4, main_call4_call0_call0_v0, main_call4_v0, main_v39]
theorem hostOps1_9_writes : (hostOps1_9 : List (HloOp τ sig (Elt F))).Forall fun op => op.writes ⊆ ((kerW9).map (Proc.devRef (τ := τ) .tc)).toFinset := by writes_stretch
/-- The buffers stretch 10 after the region writes. -/
abbrev kerW10 : List (Ref sig .tc) := [main_cst_21, main_v40, main_cst_22, main_v41, main_c_23, main_v42, main_v43, main_c_24, main_v44, main_v45, main_v46, main_v47, main_v48, main_c_25, main_v49, main_v50, main_c_26, main_v51, main_v52, main_v53, main_v54, main_v55, main_v56, main_v57, main_v58, main_c_27, main_v59, main_v60, main_c_28, main_v61, main_v62, main_v63, main_v64, main_v65, main_c_29, main_v66, main_v67, main_c_30, main_v68, main_v69, main_v70, main_v71, main_v72, main_c_31]
theorem hostOps1_10_writes : (hostOps1_10 : List (HloOp τ sig (Elt F))).Forall fun op => op.writes ⊆ ((kerW10).map (Proc.devRef (τ := τ) .tc)).toFinset := by writes_stretch
/-- The buffers stretch 11 after the region writes. -/
abbrev kerW11 : List (Ref sig .tc) := [main_call5_call0_cst, main_call5_call0_v0, main_call5_call0_v1, main_call5_call0_cst_0, main_call5_call0_v2, main_call5_call0_v3, main_call5_call0_v4, main_call5_call0_v5, main_call5_call0_v6, main_call5_call0_v7, main_call5_call0_cst_1, main_call5_call0_v8, main_call5_call0_cst_2, main_call5_call0_v9, main_call5_call0_v10, main_call5_call0_cst_3, main_call5_call0_v11, main_call5_call0_cst_4, main_call5_call0_call0_v0, main_call5_v0, main_v73]
theorem hostOps1_11_writes : (hostOps1_11 : List (HloOp τ sig (Elt F))).Forall fun op => op.writes ⊆ ((kerW11).map (Proc.devRef (τ := τ) .tc)).toFinset := by writes_stretch
/-- The buffers stretch 12 after the region writes. -/
abbrev kerW12 : List (Ref sig .tc) := [main_c_32]
theorem hostOps1_12_writes : (hostOps1_12 : List (HloOp τ sig (Elt F))).Forall fun op => op.writes ⊆ ((kerW12).map (Proc.devRef (τ := τ) .tc)).toFinset := by writes_stretch
/-- The buffers stretch 13 after the region writes. -/
abbrev kerW13 : List (Ref sig .tc) := [main_call6_call0_cst, main_call6_call0_v0, main_call6_call0_v1, main_call6_call0_cst_0, main_call6_call0_v2, main_call6_call0_v3, main_call6_call0_v4, main_call6_call0_v5, main_call6_call0_v6, main_call6_call0_v7, main_call6_call0_cst_1, main_call6_call0_v8, main_call6_call0_cst_2, main_call6_call0_v9, main_call6_call0_v10, main_call6_call0_cst_3, main_call6_call0_v11, main_call6_call0_cst_4, main_call6_call0_call0_v0, main_call6_v0, main_v74]
theorem hostOps1_13_writes : (hostOps1_13 : List (HloOp τ sig (Elt F))).Forall fun op => op.writes ⊆ ((kerW13).map (Proc.devRef (τ := τ) .tc)).toFinset := by writes_stretch
/-- The buffers stretch 14 after the region writes. -/
abbrev kerW14 : List (Ref sig .tc) := [main_cst_33, main_v75, main_cst_34, main_v76, main_c_35, main_v77, main_v78, main_c_36, main_v79, main_v80, main_v81, main_v82, main_v83, main_c_37, main_v84, main_v85, main_c_38, main_v86, main_v87, main_v88, main_v89, main_v90, main_c_39]
theorem hostOps1_14_writes : (hostOps1_14 : List (HloOp τ sig (Elt F))).Forall fun op => op.writes ⊆ ((kerW14).map (Proc.devRef (τ := τ) .tc)).toFinset := by writes_stretch
/-- The buffers stretch 15 after the region writes. -/
abbrev kerW15 : List (Ref sig .tc) := [main_call7_call0_cst, main_call7_call0_v0, main_call7_call0_v1, main_call7_call0_cst_0, main_call7_call0_v2, main_call7_call0_v3, main_call7_call0_v4, main_call7_call0_v5, main_call7_call0_v6, main_call7_call0_v7, main_call7_call0_cst_1, main_call7_call0_v8, main_call7_call0_cst_2, main_call7_call0_v9, main_call7_call0_v10, main_call7_call0_cst_3, main_call7_call0_v11, main_call7_call0_cst_4, main_call7_call0_call0_v0, main_call7_v0, main_v91]
theorem hostOps1_15_writes : (hostOps1_15 : List (HloOp τ sig (Elt F))).Forall fun op => op.writes ⊆ ((kerW15).map (Proc.devRef (τ := τ) .tc)).toFinset := by writes_stretch
/-- The buffers stretch 16 after the region writes. -/
abbrev kerW16 : List (Ref sig .tc) := [main_c_40]
theorem hostOps1_16_writes : (hostOps1_16 : List (HloOp τ sig (Elt F))).Forall fun op => op.writes ⊆ ((kerW16).map (Proc.devRef (τ := τ) .tc)).toFinset := by writes_stretch
/-- The buffers stretch 17 after the region writes. -/
abbrev kerW17 : List (Ref sig .tc) := [main_call8_call0_cst, main_call8_call0_v0, main_call8_call0_v1, main_call8_call0_cst_0, main_call8_call0_v2, main_call8_call0_v3, main_call8_call0_v4, main_call8_call0_v5, main_call8_call0_v6, main_call8_call0_v7, main_call8_call0_cst_1, main_call8_call0_v8, main_call8_call0_cst_2, main_call8_call0_v9, main_call8_call0_v10, main_call8_call0_cst_3, main_call8_call0_v11, main_call8_call0_cst_4, main_call8_call0_call0_v0, main_call8_v0, main_v92]
theorem hostOps1_17_writes : (hostOps1_17 : List (HloOp τ sig (Elt F))).Forall fun op => op.writes ⊆ ((kerW17).map (Proc.devRef (τ := τ) .tc)).toFinset := by writes_stretch
/-- The buffers stretch 18 after the region writes. -/
abbrev kerW18 : List (Ref sig .tc) := [main_cst_41, main_v93, main_cst_42, main_v94, main_c_43, main_v95, main_v96, main_c_44, main_v97, main_v98, main_v99, main_v100, main_v101, main_c_45, main_v102, main_v103, main_c_46, main_v104, main_v105, main_v106, main_v107, main_v108, main_c_47]
theorem hostOps1_18_writes : (hostOps1_18 : List (HloOp τ sig (Elt F))).Forall fun op => op.writes ⊆ ((kerW18).map (Proc.devRef (τ := τ) .tc)).toFinset := by writes_stretch
/-- The buffers stretch 19 after the region writes. -/
abbrev kerW19 : List (Ref sig .tc) := [main_call9_call0_cst, main_call9_call0_v0, main_call9_call0_v1, main_call9_call0_cst_0, main_call9_call0_v2, main_call9_call0_v3, main_call9_call0_v4, main_call9_call0_v5, main_call9_call0_v6, main_call9_call0_v7, main_call9_call0_cst_1, main_call9_call0_v8, main_call9_call0_cst_2, main_call9_call0_v9, main_call9_call0_v10, main_call9_call0_cst_3, main_call9_call0_v11, main_call9_call0_cst_4, main_call9_call0_call0_v0, main_call9_v0, main_v109]
theorem hostOps1_19_writes : (hostOps1_19 : List (HloOp τ sig (Elt F))).Forall fun op => op.writes ⊆ ((kerW19).map (Proc.devRef (τ := τ) .tc)).toFinset := by writes_stretch
/-- The buffers stretch 20 after the region writes. -/
abbrev kerW20 : List (Ref sig .tc) := [main_c_48]
theorem hostOps1_20_writes : (hostOps1_20 : List (HloOp τ sig (Elt F))).Forall fun op => op.writes ⊆ ((kerW20).map (Proc.devRef (τ := τ) .tc)).toFinset := by writes_stretch
/-- The buffers stretch 21 after the region writes. -/
abbrev kerW21 : List (Ref sig .tc) := [main_call10_call0_cst, main_call10_call0_v0, main_call10_call0_v1, main_call10_call0_cst_0, main_call10_call0_v2, main_call10_call0_v3, main_call10_call0_v4, main_call10_call0_v5, main_call10_call0_v6, main_call10_call0_v7, main_call10_call0_cst_1, main_call10_call0_v8, main_call10_call0_cst_2, main_call10_call0_v9, main_call10_call0_v10, main_call10_call0_cst_3, main_call10_call0_v11, main_call10_call0_cst_4, main_call10_call0_call0_v0, main_call10_v0, main_v110]
theorem hostOps1_21_writes : (hostOps1_21 : List (HloOp τ sig (Elt F))).Forall fun op => op.writes ⊆ ((kerW21).map (Proc.devRef (τ := τ) .tc)).toFinset := by writes_stretch
/-- The buffers stretch 22 after the region writes. -/
abbrev kerW22 : List (Ref sig .tc) := [main_cst_49, main_v111, main_cst_50, main_v112, main_v113, main_v114, main_v115, main_v116, main_v117, main_v118, main_v119, main_v120, main_v121, main_v122, main_v123, main_v124, main_v125, main_v126, main_v127, main_v128, main_v129, main_v130, main_v131, main_v132, main_v133, main_c_51, main_v134]
theorem hostOps1_22_writes : (hostOps1_22 : List (HloOp τ sig (Elt F))).Forall fun op => op.writes ⊆ ((kerW22).map (Proc.devRef (τ := τ) .tc)).toFinset := by writes_stretch
/-- The buffers stretch 23 after the region writes. -/
abbrev kerW23 : List (Ref sig .tc) := [main_call11_v0, main_call11_c, main_call11_v1, main_call11_v2, main_call11_v3, main_call11_v4, main_call11_c_0, main_call11_v5, main_v135]
theorem hostOps1_23_writes : (hostOps1_23 : List (HloOp τ sig (Elt F))).Forall fun op => op.writes ⊆ ((kerW23).map (Proc.devRef (τ := τ) .tc)).toFinset := by writes_stretch
/-- The buffers stretch 24 after the region writes. -/
abbrev kerW24 : List (Ref sig .tc) := [main_v136, main_v137, main_v138, main_v139, main_v140, main_v141, main_v142, main_v143, main_v144, main_v145, main_v146, main_v147, main_v148, main_v149, main_cst_52, main_v150, main_v151, main_v152, main_cst_53]
theorem hostOps1_24_writes : (hostOps1_24 : List (HloOp τ sig (Elt F))).Forall fun op => op.writes ⊆ ((kerW24).map (Proc.devRef (τ := τ) .tc)).toFinset := by writes_stretch
/-- The buffers stretch 25 after the region writes. -/
abbrev kerW25 : List (Ref sig .tc) := [main_call12_v0, main_call12_v1, main_v153]
theorem hostOps1_25_writes : (hostOps1_25 : List (HloOp τ sig (Elt F))).Forall fun op => op.writes ⊆ ((kerW25).map (Proc.devRef (τ := τ) .tc)).toFinset := by writes_stretch
/-- The buffers stretch 26 after the region writes. -/
abbrev kerW26 : List (Ref sig .tc) := [main_cst_54, main_v154, main_cst_55, main_v155, main_v156, main_v157, main_v158, main_cst_56, main_v159, main_v160, main_v161, main_cst_57, main_v162]
theorem hostOps1_26_writes : (hostOps1_26 : List (HloOp τ sig (Elt F))).Forall fun op => op.writes ⊆ ((kerW26).map (Proc.devRef (τ := τ) .tc)).toFinset := by writes_stretch

end Cert.KernelIdeal.Fr

namespace Cert.Proof.Tails
open Idealize.ShloMosaic Idealize.SL.Sem
variable {F : FTy → Type} [FloatOps F]

/-- The two programs agree at the start of the tails: on the group means and the six integer tables. -/
abbrev Agree0 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v1) = VR (Proc.devRef .tc Cert.ReferenceIdeal.main_v4)) ∧
  (VK (Proc.devRef .tc Cert.KernelIdeal.main_c) = VR (Proc.devRef .tc Cert.ReferenceIdeal.main_c)) ∧
  (VK (Proc.devRef .tc Cert.KernelIdeal.main_c_0) = VR (Proc.devRef .tc Cert.ReferenceIdeal.main_c_0)) ∧
  (VK (Proc.devRef .tc Cert.KernelIdeal.main_c_1) = VR (Proc.devRef .tc Cert.ReferenceIdeal.main_c_1)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4))
/-- The two programs agree before stretch 1: on every pair of corresponding buffers read from there on. -/
abbrev Agree1 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v1) = VR (Proc.devRef .tc Cert.ReferenceIdeal.main_v4)) ∧
  (VK (Proc.devRef .tc Cert.KernelIdeal.main_c_6) = VR (Proc.devRef .tc Cert.ReferenceIdeal.main_c_8)) ∧
  (VK (Proc.devRef .tc Cert.KernelIdeal.main_c) = VR (Proc.devRef .tc Cert.ReferenceIdeal.main_c)) ∧
  (VK (Proc.devRef .tc Cert.KernelIdeal.main_v4) = VR (Proc.devRef .tc Cert.ReferenceIdeal.main_v7)) ∧
  (VK (Proc.devRef .tc Cert.KernelIdeal.main_c_0) = VR (Proc.devRef .tc Cert.ReferenceIdeal.main_c_0)) ∧
  (VK (Proc.devRef .tc Cert.KernelIdeal.main_c_1) = VR (Proc.devRef .tc Cert.ReferenceIdeal.main_c_1)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4))
/-- The two programs agree before stretch 2: on every pair of corresponding buffers read from there on. -/
abbrev Agree2 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_c) = VR (Proc.devRef .tc Cert.ReferenceIdeal.main_c)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_0) = VR (Proc.devRef .tc Cert.ReferenceIdeal.main_c_0)) ∧
  (VK (Proc.devRef .tc Cert.KernelIdeal.main_c_1) = VR (Proc.devRef .tc Cert.ReferenceIdeal.main_c_1)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4))
/-- The two programs agree before stretch 3: on every pair of corresponding buffers read from there on. -/
abbrev Agree3 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v12) = VR (Proc.devRef .tc Cert.ReferenceIdeal.main_v15)) ∧
  (VK (Proc.devRef .tc Cert.KernelIdeal.main_c_11) = VR (Proc.devRef .tc Cert.ReferenceIdeal.main_c_13)) ∧
  (VK (Proc.devRef .tc Cert.KernelIdeal.main_v19) = VR (Proc.devRef .tc Cert.ReferenceIdeal.main_v22)) ∧
  (VK (Proc.devRef .tc Cert.KernelIdeal.main_c_0) = VR (Proc.devRef .tc Cert.ReferenceIdeal.main_c_0)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_1) = VR (Proc.devRef .tc Cert.ReferenceIdeal.main_c_1)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4))
/-- The two programs agree before stretch 4: on every pair of corresponding buffers read from there on. -/
abbrev Agree4 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v19) = VR (Proc.devRef .tc Cert.ReferenceIdeal.main_v22)) ∧
  (VK (Proc.devRef .tc Cert.KernelIdeal.main_c_0) = VR (Proc.devRef .tc Cert.ReferenceIdeal.main_c_0)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_1) = VR (Proc.devRef .tc Cert.ReferenceIdeal.main_c_1)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23))
/-- The two programs agree before stretch 5: on every pair of corresponding buffers read from there on. -/
abbrev Agree5 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v19) = VR (Proc.devRef .tc Cert.ReferenceIdeal.main_v22)) ∧
  (VK (Proc.devRef .tc Cert.KernelIdeal.main_c_12) = VR (Proc.devRef .tc Cert.ReferenceIdeal.main_c_14)) ∧
  (VK (Proc.devRef .tc Cert.KernelIdeal.main_c_0) = VR (Proc.devRef .tc Cert.ReferenceIdeal.main_c_0)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_1) = VR (Proc.devRef .tc Cert.ReferenceIdeal.main_c_1)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23))
/-- The two programs agree before stretch 6: on every pair of corresponding buffers read from there on. -/
abbrev Agree6 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v19) = VR (Proc.devRef .tc Cert.ReferenceIdeal.main_v22)) ∧
  (VK (Proc.devRef .tc Cert.KernelIdeal.main_c_0) = VR (Proc.devRef .tc Cert.ReferenceIdeal.main_c_0)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_1) = VR (Proc.devRef .tc Cert.ReferenceIdeal.main_c_1)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23)) ∧
  (VK (Proc.devRef .tc Cert.KernelIdeal.main_v21) = VR (Proc.devRef .tc Cert.ReferenceIdeal.main_v24))
/-- The two programs agree before stretch 7: on every pair of corresponding buffers read from there on. -/
abbrev Agree7 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v30) = VR (Proc.devRef .tc Cert.ReferenceIdeal.main_v33)) ∧
  (VK (Proc.devRef .tc Cert.KernelIdeal.main_c_19) = VR (Proc.devRef .tc Cert.ReferenceIdeal.main_c_21)) ∧
  (VK (Proc.devRef .tc Cert.KernelIdeal.main_v37) = VR (Proc.devRef .tc Cert.ReferenceIdeal.main_v40)) ∧
  (VK (Proc.devRef .tc Cert.KernelIdeal.main_c_1) = VR (Proc.devRef .tc Cert.ReferenceIdeal.main_c_1)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23)) ∧
  (VK (Proc.devRef .tc Cert.KernelIdeal.main_v23) = VR (Proc.devRef .tc Cert.ReferenceIdeal.main_v26)) ∧
  (VK (Proc.devRef .tc Cert.KernelIdeal.main_v21) = VR (Proc.devRef .tc Cert.ReferenceIdeal.main_v24))
/-- The two programs agree before stretch 8: on every pair of corresponding buffers read from there on. -/
abbrev Agree8 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v37) = VR (Proc.devRef .tc Cert.ReferenceIdeal.main_v40)) ∧
  (VK (Proc.devRef .tc Cert.KernelIdeal.main_c_1) = VR (Proc.devRef .tc Cert.ReferenceIdeal.main_c_1)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v23) = VR (Proc.devRef .tc Cert.ReferenceIdeal.main_v26)) ∧
  (VK (Proc.devRef .tc Cert.KernelIdeal.main_v21) = VR (Proc.devRef .tc Cert.ReferenceIdeal.main_v24))
/-- The two programs agree before stretch 9: on every pair of corresponding buffers read from there on. -/
abbrev Agree9 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v37) = VR (Proc.devRef .tc Cert.ReferenceIdeal.main_v40)) ∧
  (VK (Proc.devRef .tc Cert.KernelIdeal.main_c_20) = VR (Proc.devRef .tc Cert.ReferenceIdeal.main_c_22)) ∧
  (VK (Proc.devRef .tc Cert.KernelIdeal.main_c_1) = VR (Proc.devRef .tc Cert.ReferenceIdeal.main_c_1)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v23) = VR (Proc.devRef .tc Cert.ReferenceIdeal.main_v26)) ∧
  (VK (Proc.devRef .tc Cert.KernelIdeal.main_v21) = VR (Proc.devRef .tc Cert.ReferenceIdeal.main_v24))
/-- The two programs agree before stretch 10: on every pair of corresponding buffers read from there on. -/
abbrev Agree10 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v37) = VR (Proc.devRef .tc Cert.ReferenceIdeal.main_v40)) ∧
  (VK (Proc.devRef .tc Cert.KernelIdeal.main_c_1) = VR (Proc.devRef .tc Cert.ReferenceIdeal.main_c_1)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_2) = VR (Proc.devRef .tc Cert.ReferenceIdeal.main_c_2)) ∧
  (VK (Proc.devRef .tc Cert.KernelIdeal.main_c_3) = VR (Proc.devRef .tc Cert.ReferenceIdeal.main_c_3)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v23) = VR (Proc.devRef .tc Cert.ReferenceIdeal.main_v26)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42))
/-- The two programs agree before stretch 11: on every pair of corresponding buffers read from there on. -/
abbrev Agree11 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v65) = VR (Proc.devRef .tc Cert.ReferenceIdeal.main_v68)) ∧
  (VK (Proc.devRef .tc Cert.KernelIdeal.main_c_31) = VR (Proc.devRef .tc Cert.ReferenceIdeal.main_c_33)) ∧
  (VK (Proc.devRef .tc Cert.KernelIdeal.main_v72) = VR (Proc.devRef .tc Cert.ReferenceIdeal.main_v75)) ∧
  (VK (Proc.devRef .tc Cert.KernelIdeal.main_c_3) = VR (Proc.devRef .tc Cert.ReferenceIdeal.main_c_3)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60))
/-- The two programs agree before stretch 12: on every pair of corresponding buffers read from there on. -/
abbrev Agree12 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v72) = VR (Proc.devRef .tc Cert.ReferenceIdeal.main_v75)) ∧
  (VK (Proc.devRef .tc Cert.KernelIdeal.main_c_3) = VR (Proc.devRef .tc Cert.ReferenceIdeal.main_c_3)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60))
/-- The two programs agree before stretch 13: on every pair of corresponding buffers read from there on. -/
abbrev Agree13 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v72) = VR (Proc.devRef .tc Cert.ReferenceIdeal.main_v75)) ∧
  (VK (Proc.devRef .tc Cert.KernelIdeal.main_c_32) = VR (Proc.devRef .tc Cert.ReferenceIdeal.main_c_34)) ∧
  (VK (Proc.devRef .tc Cert.KernelIdeal.main_c_3) = VR (Proc.devRef .tc Cert.ReferenceIdeal.main_c_3)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60))
/-- The two programs agree before stretch 14: on every pair of corresponding buffers read from there on. -/
abbrev Agree14 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v72) = VR (Proc.devRef .tc Cert.ReferenceIdeal.main_v75)) ∧
  (VK (Proc.devRef .tc Cert.KernelIdeal.main_c_3) = VR (Proc.devRef .tc Cert.ReferenceIdeal.main_c_3)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_c_4) = VR (Proc.devRef .tc Cert.ReferenceIdeal.main_c_4)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77))
/-- The two programs agree before stretch 15: on every pair of corresponding buffers read from there on. -/
abbrev Agree15 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v83) = VR (Proc.devRef .tc Cert.ReferenceIdeal.main_v86)) ∧
  (VK (Proc.devRef .tc Cert.KernelIdeal.main_c_39) = VR (Proc.devRef .tc Cert.ReferenceIdeal.main_c_41)) ∧
  (VK (Proc.devRef .tc Cert.KernelIdeal.main_v90) = VR (Proc.devRef .tc Cert.ReferenceIdeal.main_v93)) ∧
  (VK (Proc.devRef .tc Cert.KernelIdeal.main_c_4) = VR (Proc.devRef .tc Cert.ReferenceIdeal.main_c_4)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v76) = VR (Proc.devRef .tc Cert.ReferenceIdeal.main_v79)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77))
/-- The two programs agree before stretch 16: on every pair of corresponding buffers read from there on. -/
abbrev Agree16 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v90) = VR (Proc.devRef .tc Cert.ReferenceIdeal.main_v93)) ∧
  (VK (Proc.devRef .tc Cert.KernelIdeal.main_c_4) = VR (Proc.devRef .tc Cert.ReferenceIdeal.main_c_4)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v91) = VR (Proc.devRef .tc Cert.ReferenceIdeal.main_v94)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v76) = VR (Proc.devRef .tc Cert.ReferenceIdeal.main_v79)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77))
/-- The two programs agree before stretch 17: on every pair of corresponding buffers read from there on. -/
abbrev Agree17 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v90) = VR (Proc.devRef .tc Cert.ReferenceIdeal.main_v93)) ∧
  (VK (Proc.devRef .tc Cert.KernelIdeal.main_c_40) = VR (Proc.devRef .tc Cert.ReferenceIdeal.main_c_42)) ∧
  (VK (Proc.devRef .tc Cert.KernelIdeal.main_c_4) = VR (Proc.devRef .tc Cert.ReferenceIdeal.main_c_4)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v91) = VR (Proc.devRef .tc Cert.ReferenceIdeal.main_v94)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v76) = VR (Proc.devRef .tc Cert.ReferenceIdeal.main_v79)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77))
/-- The two programs agree before stretch 18: on every pair of corresponding buffers read from there on. -/
abbrev Agree18 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v90) = VR (Proc.devRef .tc Cert.ReferenceIdeal.main_v93)) ∧
  (VK (Proc.devRef .tc Cert.KernelIdeal.main_c_4) = VR (Proc.devRef .tc Cert.ReferenceIdeal.main_c_4)) ∧
  (VK (Proc.devRef .tc Cert.KernelIdeal.main_v5) = VR (Proc.devRef .tc Cert.ReferenceIdeal.main_v8)) ∧
  (VK (Proc.devRef .tc Cert.KernelIdeal.main_v4) = VR (Proc.devRef .tc Cert.ReferenceIdeal.main_v7)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v91) = VR (Proc.devRef .tc Cert.ReferenceIdeal.main_v94)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v76) = VR (Proc.devRef .tc Cert.ReferenceIdeal.main_v79)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77)) ∧
  (VK (Proc.devRef .tc Cert.KernelIdeal.main_v92) = VR (Proc.devRef .tc Cert.ReferenceIdeal.main_v95))
/-- The two programs agree before stretch 19: on every pair of corresponding buffers read from there on. -/
abbrev Agree19 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v101) = VR (Proc.devRef .tc Cert.ReferenceIdeal.main_v104)) ∧
  (VK (Proc.devRef .tc Cert.KernelIdeal.main_c_47) = VR (Proc.devRef .tc Cert.ReferenceIdeal.main_c_49)) ∧
  (VK (Proc.devRef .tc Cert.KernelIdeal.main_v108) = VR (Proc.devRef .tc Cert.ReferenceIdeal.main_v111)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v91) = VR (Proc.devRef .tc Cert.ReferenceIdeal.main_v94)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v76) = VR (Proc.devRef .tc Cert.ReferenceIdeal.main_v79)) ∧
  (VK (Proc.devRef .tc Cert.KernelIdeal.main_v94) = VR (Proc.devRef .tc Cert.ReferenceIdeal.main_v97)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77)) ∧
  (VK (Proc.devRef .tc Cert.KernelIdeal.main_v92) = VR (Proc.devRef .tc Cert.ReferenceIdeal.main_v95))
/-- The two programs agree before stretch 20: on every pair of corresponding buffers read from there on. -/
abbrev Agree20 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v108) = VR (Proc.devRef .tc Cert.ReferenceIdeal.main_v111)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v91) = VR (Proc.devRef .tc Cert.ReferenceIdeal.main_v94)) ∧
  (VK (Proc.devRef .tc Cert.KernelIdeal.main_v109) = VR (Proc.devRef .tc Cert.ReferenceIdeal.main_v112)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v76) = VR (Proc.devRef .tc Cert.ReferenceIdeal.main_v79)) ∧
  (VK (Proc.devRef .tc Cert.KernelIdeal.main_v94) = VR (Proc.devRef .tc Cert.ReferenceIdeal.main_v97)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77)) ∧
  (VK (Proc.devRef .tc Cert.KernelIdeal.main_v92) = VR (Proc.devRef .tc Cert.ReferenceIdeal.main_v95))
/-- The two programs agree before stretch 21: on every pair of corresponding buffers read from there on. -/
abbrev Agree21 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v108) = VR (Proc.devRef .tc Cert.ReferenceIdeal.main_v111)) ∧
  (VK (Proc.devRef .tc Cert.KernelIdeal.main_c_48) = VR (Proc.devRef .tc Cert.ReferenceIdeal.main_c_50)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v91) = VR (Proc.devRef .tc Cert.ReferenceIdeal.main_v94)) ∧
  (VK (Proc.devRef .tc Cert.KernelIdeal.main_v109) = VR (Proc.devRef .tc Cert.ReferenceIdeal.main_v112)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v76) = VR (Proc.devRef .tc Cert.ReferenceIdeal.main_v79)) ∧
  (VK (Proc.devRef .tc Cert.KernelIdeal.main_v94) = VR (Proc.devRef .tc Cert.ReferenceIdeal.main_v97)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77)) ∧
  (VK (Proc.devRef .tc Cert.KernelIdeal.main_v92) = VR (Proc.devRef .tc Cert.ReferenceIdeal.main_v95))
/-- The two programs agree before stretch 22: on every pair of corresponding buffers read from there on. -/
abbrev Agree22 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v108) = VR (Proc.devRef .tc Cert.ReferenceIdeal.main_v111)) ∧
  (VK (Proc.devRef .tc Cert.KernelIdeal.main_v20) = VR (Proc.devRef .tc Cert.ReferenceIdeal.main_v23)) ∧
  (VK (Proc.devRef .tc Cert.KernelIdeal.main_v38) = VR (Proc.devRef .tc Cert.ReferenceIdeal.main_v41)) ∧
  (VK (Proc.devRef .tc Cert.KernelIdeal.main_v56) = VR (Proc.devRef .tc Cert.ReferenceIdeal.main_v59)) ∧
  (VK (Proc.devRef .tc Cert.KernelIdeal.main_v73) = VR (Proc.devRef .tc Cert.ReferenceIdeal.main_v76)) ∧
  (VK (Proc.devRef .tc Cert.KernelIdeal.main_v91) = VR (Proc.devRef .tc Cert.ReferenceIdeal.main_v94)) ∧
  (VK (Proc.devRef .tc Cert.KernelIdeal.main_v109) = VR (Proc.devRef .tc Cert.ReferenceIdeal.main_v112)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v76) = VR (Proc.devRef .tc Cert.ReferenceIdeal.main_v79)) ∧
  (VK (Proc.devRef .tc Cert.KernelIdeal.main_v94) = VR (Proc.devRef .tc Cert.ReferenceIdeal.main_v97)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77)) ∧
  (VK (Proc.devRef .tc Cert.KernelIdeal.main_v92) = VR (Proc.devRef .tc Cert.ReferenceIdeal.main_v95)) ∧
  (VK (Proc.devRef .tc Cert.KernelIdeal.main_v110) = VR (Proc.devRef .tc Cert.ReferenceIdeal.main_v113))
/-- The two programs agree before stretch 23: on every pair of corresponding buffers read from there on. -/
abbrev Agree23 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v134) = VR (Proc.devRef .tc Cert.ReferenceIdeal.main_v137)) ∧
  (VK (Proc.devRef .tc Cert.KernelIdeal.main_v119) = VR (Proc.devRef .tc Cert.ReferenceIdeal.main_v122)) ∧
  (VK (Proc.devRef .tc Cert.KernelIdeal.main_v126) = VR (Proc.devRef .tc Cert.ReferenceIdeal.main_v129)) ∧
  (VK (Proc.devRef .tc Cert.KernelIdeal.main_v133) = VR (Proc.devRef .tc Cert.ReferenceIdeal.main_v136))
/-- The two programs agree before stretch 24: on every pair of corresponding buffers read from there on. -/
abbrev Agree24 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v119) = VR (Proc.devRef .tc Cert.ReferenceIdeal.main_v122)) ∧
  (VK (Proc.devRef .tc Cert.KernelIdeal.main_v126) = VR (Proc.devRef .tc Cert.ReferenceIdeal.main_v129)) ∧
  (VK (Proc.devRef .tc Cert.KernelIdeal.main_v135) = VR (Proc.devRef .tc Cert.ReferenceIdeal.main_v138)) ∧
  (VK (Proc.devRef .tc Cert.KernelIdeal.main_v133) = VR (Proc.devRef .tc Cert.ReferenceIdeal.main_v136))
/-- The two programs agree before stretch 25: on every pair of corresponding buffers read from there on. -/
abbrev Agree25 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_cst_53) = VR (Proc.devRef .tc Cert.ReferenceIdeal.main_cst_55)) ∧
  (VK (Proc.devRef .tc Cert.KernelIdeal.main_v135) = VR (Proc.devRef .tc Cert.ReferenceIdeal.main_v138)) ∧
  (VK (Proc.devRef .tc Cert.KernelIdeal.main_v152) = VR (Proc.devRef .tc Cert.ReferenceIdeal.main_v155)) ∧
  (VK (Proc.devRef .tc Cert.KernelIdeal.main_v133) = VR (Proc.devRef .tc Cert.ReferenceIdeal.main_v136))
/-- The two programs agree before stretch 26: on every pair of corresponding buffers read from there on. -/
abbrev Agree26 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v153) = VR (Proc.devRef .tc Cert.ReferenceIdeal.main_v156)) ∧
  (VK (Proc.devRef .tc Cert.KernelIdeal.main_v133) = VR (Proc.devRef .tc Cert.ReferenceIdeal.main_v136))
/-- The two programs agree at the end: on the scalar result. -/
abbrev Agree27 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v162) = VR (Proc.devRef .tc Cert.ReferenceIdeal.main_v165))

end Cert.Proof.Tails

end
-- ==== Proof.TailsWa.lean ====
/-
  Agreement of the two host tails, stretch by stretch (stretches 0 … 9): if the two programs agree before a
  stretch, they agree after it. A buffer the stretch does not write keeps its contents on both sides; a buffer it
  writes is, on both sides, the same pure function of contents that agree — the two stretches are the same
  operations on corresponding buffers.
-/
import proofs.«135479_j53618371723721_2_alg».proof.Proof.TailsBase

set_option maxRecDepth 16384
set_option maxHeartbeats 2000000

noncomputable section

namespace Cert.Proof.Tails
open Idealize.ShloMosaic Idealize.SL.Sem
variable {F : FTy → Type} [FloatOps F]

/-- Over stretch 0 (6 operations) agreement is kept. -/
theorem agree0 (VK : Valuation Cert.KernelIdeal.τ Cert.KernelIdeal.sig (Elt F)) (VR : Valuation Cert.ReferenceIdeal.τ Cert.ReferenceIdeal.sig (Elt F))
    (h : Agree0 VK VR) : Agree1 (StableHlo.after Cert.KernelIdeal.Gen.hostOps1 VK) (StableHlo.after Cert.ReferenceIdeal.Ops.refOps0 VR) := by
  obtain ⟨h0, h1, h2, h3, h4, h5, h6⟩ := h
  have wK := Cert.KernelIdeal.Fr.hostOps1_writes (F := F)
  have wR := Cert.ReferenceIdeal.Ops.refOps0_writes (F := F)
  refine ⟨?_, ?_, ?_, ?_, ?_, ?_, ?_, ?_, ?_⟩
  · kept Cert.KernelIdeal.main_v1 Cert.ReferenceIdeal.main_v4 wK wR h0
  · -- main_c_6 ↔ main_c_8, written in this stretch: the same operations applied to agreeing contents
    dsimp only [Cert.KernelIdeal.Gen.hostOps1, Cert.ReferenceIdeal.Ops.refOps0]
    after_results_simp <;> (try simp only [h0, h1, h2, h3, h4, h5, h6]) <;> (try rfl)
  · kept Cert.KernelIdeal.main_c Cert.ReferenceIdeal.main_c wK wR h1
  · -- main_v4 ↔ main_v7, written in this stretch: the same operations applied to agreeing contents
    dsimp only [Cert.KernelIdeal.Gen.hostOps1, Cert.ReferenceIdeal.Ops.refOps0]
    after_results_simp <;> (try simp only [h0, h1, h2, h3, h4, h5, h6]) <;> (try rfl)
  · kept Cert.KernelIdeal.main_c_0 Cert.ReferenceIdeal.main_c_0 wK wR h2
  · kept Cert.KernelIdeal.main_c_1 Cert.ReferenceIdeal.main_c_1 wK wR h3
  · kept Cert.KernelIdeal.main_c_2 Cert.ReferenceIdeal.main_c_2 wK wR h4
  · kept Cert.KernelIdeal.main_c_3 Cert.ReferenceIdeal.main_c_3 wK wR h5
  · kept Cert.KernelIdeal.main_c_4 Cert.ReferenceIdeal.main_c_4 wK wR h6

/-- Over stretch 1 (23 operations) agreement is kept. -/
theorem agree1 (VK : Valuation Cert.KernelIdeal.τ Cert.KernelIdeal.sig (Elt F)) (VR : Valuation Cert.ReferenceIdeal.τ Cert.ReferenceIdeal.sig (Elt F))
    (h : Agree1 VK VR) : Agree2 (StableHlo.after Cert.KernelIdeal.Gen.hostOps1_1 VK) (StableHlo.after Cert.ReferenceIdeal.Ops.refOps1 VR) := by
  obtain ⟨h0, h1, h2, h3, h4, h5, h6, h7, h8⟩ := h
  have wK := Cert.KernelIdeal.Fr.hostOps1_1_writes (F := F)
  have wR := Cert.ReferenceIdeal.Ops.refOps1_writes (F := F)
  refine ⟨?_, ?_, ?_, ?_, ?_, ?_, ?_, ?_⟩
  · kept Cert.KernelIdeal.main_c Cert.ReferenceIdeal.main_c wK wR h2
  · -- main_v5 ↔ main_v8, written in this stretch: the same operations applied to agreeing contents
    dsimp only [Cert.KernelIdeal.Gen.hostOps1_1, Cert.ReferenceIdeal.Ops.refOps1]
    after_results_simp <;> (try simp only [h0, h1, h2, h3, h4, h5, h6, h7, h8]) <;> (try rfl)
  · kept Cert.KernelIdeal.main_v4 Cert.ReferenceIdeal.main_v7 wK wR h3
  · kept Cert.KernelIdeal.main_c_0 Cert.ReferenceIdeal.main_c_0 wK wR h4
  · kept Cert.KernelIdeal.main_c_1 Cert.ReferenceIdeal.main_c_1 wK wR h5
  · kept Cert.KernelIdeal.main_c_2 Cert.ReferenceIdeal.main_c_2 wK wR h6
  · kept Cert.KernelIdeal.main_c_3 Cert.ReferenceIdeal.main_c_3 wK wR h7
  · kept Cert.KernelIdeal.main_c_4 Cert.ReferenceIdeal.main_c_4 wK wR h8

/-- Over stretch 2 (19 operations) agreement is kept. -/
theorem agree2 (VK : Valuation Cert.KernelIdeal.τ Cert.KernelIdeal.sig (Elt F)) (VR : Valuation Cert.ReferenceIdeal.τ Cert.ReferenceIdeal.sig (Elt F))
    (h : Agree2 VK VR) : Agree3 (StableHlo.after Cert.KernelIdeal.Gen.hostOps1_2 VK) (StableHlo.after Cert.ReferenceIdeal.Ops.refOps2 VR) := by
  obtain ⟨h0, h1, h2, h3, h4, h5, h6, h7⟩ := h
  have wK := Cert.KernelIdeal.Fr.hostOps1_2_writes (F := F)
  have wR := Cert.ReferenceIdeal.Ops.refOps2_writes (F := F)
  refine ⟨?_, ?_, ?_, ?_, ?_, ?_, ?_, ?_, ?_, ?_⟩
  · -- main_v12 ↔ main_v15, written in this stretch: the same operations applied to agreeing contents
    dsimp only [Cert.KernelIdeal.Gen.hostOps1_2, Cert.ReferenceIdeal.Ops.refOps2]
    after_results_simp <;> (try simp only [h0, h1, h2, h3, h4, h5, h6, h7]) <;> (try rfl)
  · -- main_c_11 ↔ main_c_13, written in this stretch: the same operations applied to agreeing contents
    dsimp only [Cert.KernelIdeal.Gen.hostOps1_2, Cert.ReferenceIdeal.Ops.refOps2]
    after_results_simp <;> (try simp only [h0, h1, h2, h3, h4, h5, h6, h7]) <;> (try rfl)
  · -- main_v19 ↔ main_v22, written in this stretch: the same operations applied to agreeing contents
    dsimp only [Cert.KernelIdeal.Gen.hostOps1_2, Cert.ReferenceIdeal.Ops.refOps2]
    after_results_simp <;> (try simp only [h0, h1, h2, h3, h4, h5, h6, h7]) <;> (try rfl)
  · kept Cert.KernelIdeal.main_c_0 Cert.ReferenceIdeal.main_c_0 wK wR h3
  · kept Cert.KernelIdeal.main_v5 Cert.ReferenceIdeal.main_v8 wK wR h1
  · kept Cert.KernelIdeal.main_v4 Cert.ReferenceIdeal.main_v7 wK wR h2
  · kept Cert.KernelIdeal.main_c_1 Cert.ReferenceIdeal.main_c_1 wK wR h4
  · kept Cert.KernelIdeal.main_c_2 Cert.ReferenceIdeal.main_c_2 wK wR h5
  · kept Cert.KernelIdeal.main_c_3 Cert.ReferenceIdeal.main_c_3 wK wR h6
  · kept Cert.KernelIdeal.main_c_4 Cert.ReferenceIdeal.main_c_4 wK wR h7

/-- Over stretch 3 (21 operations) agreement is kept. -/
theorem agree3 (VK : Valuation Cert.KernelIdeal.τ Cert.KernelIdeal.sig (Elt F)) (VR : Valuation Cert.ReferenceIdeal.τ Cert.ReferenceIdeal.sig (Elt F))
    (h : Agree3 VK VR) : Agree4 (StableHlo.after Cert.KernelIdeal.Gen.hostOps1_3 VK) (StableHlo.after Cert.ReferenceIdeal.Ops.refOps3 VR) := by
  obtain ⟨h0, h1, h2, h3, h4, h5, h6, h7, h8, h9⟩ := h
  have wK := Cert.KernelIdeal.Fr.hostOps1_3_writes (F := F)
  have wR := Cert.ReferenceIdeal.Ops.refOps3_writes (F := F)
  refine ⟨?_, ?_, ?_, ?_, ?_, ?_, ?_, ?_, ?_⟩
  · kept Cert.KernelIdeal.main_v19 Cert.ReferenceIdeal.main_v22 wK wR h2
  · kept Cert.KernelIdeal.main_c_0 Cert.ReferenceIdeal.main_c_0 wK wR h3
  · kept Cert.KernelIdeal.main_v5 Cert.ReferenceIdeal.main_v8 wK wR h4
  · kept Cert.KernelIdeal.main_v4 Cert.ReferenceIdeal.main_v7 wK wR h5
  · kept Cert.KernelIdeal.main_c_1 Cert.ReferenceIdeal.main_c_1 wK wR h6
  · kept Cert.KernelIdeal.main_c_2 Cert.ReferenceIdeal.main_c_2 wK wR h7
  · kept Cert.KernelIdeal.main_c_3 Cert.ReferenceIdeal.main_c_3 wK wR h8
  · kept Cert.KernelIdeal.main_c_4 Cert.ReferenceIdeal.main_c_4 wK wR h9
  · -- main_v20 ↔ main_v23, written in this stretch: the same operations applied to agreeing contents
    dsimp only [Cert.KernelIdeal.Gen.hostOps1_3, Cert.ReferenceIdeal.Ops.refOps3]
    after_results_simp <;> (try simp only [h0, h1, h2, h3, h4, h5, h6, h7, h8, h9]) <;> (try rfl)

/-- Over stretch 4 (1 operation) agreement is kept. -/
theorem agree4 (VK : Valuation Cert.KernelIdeal.τ Cert.KernelIdeal.sig (Elt F)) (VR : Valuation Cert.ReferenceIdeal.τ Cert.ReferenceIdeal.sig (Elt F))
    (h : Agree4 VK VR) : Agree5 (StableHlo.after Cert.KernelIdeal.Gen.hostOps1_4 VK) (StableHlo.after Cert.ReferenceIdeal.Ops.refOps4 VR) := by
  obtain ⟨h0, h1, h2, h3, h4, h5, h6, h7, h8⟩ := h
  have wK := Cert.KernelIdeal.Fr.hostOps1_4_writes (F := F)
  have wR := Cert.ReferenceIdeal.Ops.refOps4_writes (F := F)
  refine ⟨?_, ?_, ?_, ?_, ?_, ?_, ?_, ?_, ?_, ?_⟩
  · kept Cert.KernelIdeal.main_v19 Cert.ReferenceIdeal.main_v22 wK wR h0
  · -- main_c_12 ↔ main_c_14, written in this stretch: the same operations applied to agreeing contents
    dsimp only [Cert.KernelIdeal.Gen.hostOps1_4, Cert.ReferenceIdeal.Ops.refOps4]
    after_results_simp <;> (try simp only [h0, h1, h2, h3, h4, h5, h6, h7, h8]) <;> (try rfl)
  · kept Cert.KernelIdeal.main_c_0 Cert.ReferenceIdeal.main_c_0 wK wR h1
  · kept Cert.KernelIdeal.main_v5 Cert.ReferenceIdeal.main_v8 wK wR h2
  · kept Cert.KernelIdeal.main_v4 Cert.ReferenceIdeal.main_v7 wK wR h3
  · kept Cert.KernelIdeal.main_c_1 Cert.ReferenceIdeal.main_c_1 wK wR h4
  · kept Cert.KernelIdeal.main_c_2 Cert.ReferenceIdeal.main_c_2 wK wR h5
  · kept Cert.KernelIdeal.main_c_3 Cert.ReferenceIdeal.main_c_3 wK wR h6
  · kept Cert.KernelIdeal.main_c_4 Cert.ReferenceIdeal.main_c_4 wK wR h7
  · kept Cert.KernelIdeal.main_v20 Cert.ReferenceIdeal.main_v23 wK wR h8

/-- Over stretch 5 (21 operations) agreement is kept. -/
theorem agree5 (VK : Valuation Cert.KernelIdeal.τ Cert.KernelIdeal.sig (Elt F)) (VR : Valuation Cert.ReferenceIdeal.τ Cert.ReferenceIdeal.sig (Elt F))
    (h : Agree5 VK VR) : Agree6 (StableHlo.after Cert.KernelIdeal.Gen.hostOps1_5 VK) (StableHlo.after Cert.ReferenceIdeal.Ops.refOps5 VR) := by
  obtain ⟨h0, h1, h2, h3, h4, h5, h6, h7, h8, h9⟩ := h
  have wK := Cert.KernelIdeal.Fr.hostOps1_5_writes (F := F)
  have wR := Cert.ReferenceIdeal.Ops.refOps5_writes (F := F)
  refine ⟨?_, ?_, ?_, ?_, ?_, ?_, ?_, ?_, ?_, ?_⟩
  · kept Cert.KernelIdeal.main_v19 Cert.ReferenceIdeal.main_v22 wK wR h0
  · kept Cert.KernelIdeal.main_c_0 Cert.ReferenceIdeal.main_c_0 wK wR h2
  · kept Cert.KernelIdeal.main_v5 Cert.ReferenceIdeal.main_v8 wK wR h3
  · kept Cert.KernelIdeal.main_v4 Cert.ReferenceIdeal.main_v7 wK wR h4
  · kept Cert.KernelIdeal.main_c_1 Cert.ReferenceIdeal.main_c_1 wK wR h5
  · kept Cert.KernelIdeal.main_c_2 Cert.ReferenceIdeal.main_c_2 wK wR h6
  · kept Cert.KernelIdeal.main_c_3 Cert.ReferenceIdeal.main_c_3 wK wR h7
  · kept Cert.KernelIdeal.main_c_4 Cert.ReferenceIdeal.main_c_4 wK wR h8
  · kept Cert.KernelIdeal.main_v20 Cert.ReferenceIdeal.main_v23 wK wR h9
  · -- main_v21 ↔ main_v24, written in this stretch: the same operations applied to agreeing contents
    dsimp only [Cert.KernelIdeal.Gen.hostOps1_5, Cert.ReferenceIdeal.Ops.refOps5]
    after_results_simp <;> (try simp only [h0, h1, h2, h3, h4, h5, h6, h7, h8, h9]) <;> (try rfl)

/-- Over stretch 6 (23 operations) agreement is kept. -/
theorem agree6 (VK : Valuation Cert.KernelIdeal.τ Cert.KernelIdeal.sig (Elt F)) (VR : Valuation Cert.ReferenceIdeal.τ Cert.ReferenceIdeal.sig (Elt F))
    (h : Agree6 VK VR) : Agree7 (StableHlo.after Cert.KernelIdeal.Gen.hostOps1_6 VK) (StableHlo.after Cert.ReferenceIdeal.Ops.refOps6 VR) := by
  obtain ⟨h0, h1, h2, h3, h4, h5, h6, h7, h8, h9⟩ := h
  have wK := Cert.KernelIdeal.Fr.hostOps1_6_writes (F := F)
  have wR := Cert.ReferenceIdeal.Ops.refOps6_writes (F := F)
  refine ⟨?_, ?_, ?_, ?_, ?_, ?_, ?_, ?_, ?_, ?_, ?_, ?_⟩
  · -- main_v30 ↔ main_v33, written in this stretch: the same operations applied to agreeing contents
    dsimp only [Cert.KernelIdeal.Gen.hostOps1_6, Cert.ReferenceIdeal.Ops.refOps6]
    after_results_simp <;> (try simp only [h0, h1, h2, h3, h4, h5, h6, h7, h8, h9]) <;> (try rfl)
  · -- main_c_19 ↔ main_c_21, written in this stretch: the same operations applied to agreeing contents
    dsimp only [Cert.KernelIdeal.Gen.hostOps1_6, Cert.ReferenceIdeal.Ops.refOps6]
    after_results_simp <;> (try simp only [h0, h1, h2, h3, h4, h5, h6, h7, h8, h9]) <;> (try rfl)
  · -- main_v37 ↔ main_v40, written in this stretch: the same operations applied to agreeing contents
    dsimp only [Cert.KernelIdeal.Gen.hostOps1_6, Cert.ReferenceIdeal.Ops.refOps6]
    after_results_simp <;> (try simp only [h0, h1, h2, h3, h4, h5, h6, h7, h8, h9]) <;> (try rfl)
  · kept Cert.KernelIdeal.main_c_1 Cert.ReferenceIdeal.main_c_1 wK wR h4
  · kept Cert.KernelIdeal.main_v5 Cert.ReferenceIdeal.main_v8 wK wR h2
  · kept Cert.KernelIdeal.main_v4 Cert.ReferenceIdeal.main_v7 wK wR h3
  · kept Cert.KernelIdeal.main_c_2 Cert.ReferenceIdeal.main_c_2 wK wR h5
  · kept Cert.KernelIdeal.main_c_3 Cert.ReferenceIdeal.main_c_3 wK wR h6
  · kept Cert.KernelIdeal.main_c_4 Cert.ReferenceIdeal.main_c_4 wK wR h7
  · kept Cert.KernelIdeal.main_v20 Cert.ReferenceIdeal.main_v23 wK wR h8
  · -- main_v23 ↔ main_v26, written in this stretch: the same operations applied to agreeing contents
    dsimp only [Cert.KernelIdeal.Gen.hostOps1_6, Cert.ReferenceIdeal.Ops.refOps6]
    after_results_simp <;> (try simp only [h0, h1, h2, h3, h4, h5, h6, h7, h8, h9]) <;> (try rfl)
  · kept Cert.KernelIdeal.main_v21 Cert.ReferenceIdeal.main_v24 wK wR h9

/-- Over stretch 7 (21 operations) agreement is kept. -/
theorem agree7 (VK : Valuation Cert.KernelIdeal.τ Cert.KernelIdeal.sig (Elt F)) (VR : Valuation Cert.ReferenceIdeal.τ Cert.ReferenceIdeal.sig (Elt F))
    (h : Agree7 VK VR) : Agree8 (StableHlo.after Cert.KernelIdeal.Gen.hostOps1_7 VK) (StableHlo.after Cert.ReferenceIdeal.Ops.refOps7 VR) := by
  obtain ⟨h0, h1, h2, h3, h4, h5, h6, h7, h8, h9, h10, h11⟩ := h
  have wK := Cert.KernelIdeal.Fr.hostOps1_7_writes (F := F)
  have wR := Cert.ReferenceIdeal.Ops.refOps7_writes (F := F)
  refine ⟨?_, ?_, ?_, ?_, ?_, ?_, ?_, ?_, ?_, ?_, ?_⟩
  · kept Cert.KernelIdeal.main_v37 Cert.ReferenceIdeal.main_v40 wK wR h2
  · kept Cert.KernelIdeal.main_c_1 Cert.ReferenceIdeal.main_c_1 wK wR h3
  · kept Cert.KernelIdeal.main_v5 Cert.ReferenceIdeal.main_v8 wK wR h4
  · kept Cert.KernelIdeal.main_v4 Cert.ReferenceIdeal.main_v7 wK wR h5
  · kept Cert.KernelIdeal.main_c_2 Cert.ReferenceIdeal.main_c_2 wK wR h6
  · kept Cert.KernelIdeal.main_c_3 Cert.ReferenceIdeal.main_c_3 wK wR h7
  · kept Cert.KernelIdeal.main_c_4 Cert.ReferenceIdeal.main_c_4 wK wR h8
  · kept Cert.KernelIdeal.main_v20 Cert.ReferenceIdeal.main_v23 wK wR h9
  · -- main_v38 ↔ main_v41, written in this stretch: the same operations applied to agreeing contents
    dsimp only [Cert.KernelIdeal.Gen.hostOps1_7, Cert.ReferenceIdeal.Ops.refOps7]
    after_results_simp <;> (try simp only [h0, h1, h2, h3, h4, h5, h6, h7, h8, h9, h10, h11]) <;> (try rfl)
  · kept Cert.KernelIdeal.main_v23 Cert.ReferenceIdeal.main_v26 wK wR h10
  · kept Cert.KernelIdeal.main_v21 Cert.ReferenceIdeal.main_v24 wK wR h11

/-- Over stretch 8 (1 operation) agreement is kept. -/
theorem agree8 (VK : Valuation Cert.KernelIdeal.τ Cert.KernelIdeal.sig (Elt F)) (VR : Valuation Cert.ReferenceIdeal.τ Cert.ReferenceIdeal.sig (Elt F))
    (h : Agree8 VK VR) : Agree9 (StableHlo.after Cert.KernelIdeal.Gen.hostOps1_8 VK) (StableHlo.after Cert.ReferenceIdeal.Ops.refOps8 VR) := by
  obtain ⟨h0, h1, h2, h3, h4, h5, h6, h7, h8, h9, h10⟩ := h
  have wK := Cert.KernelIdeal.Fr.hostOps1_8_writes (F := F)
  have wR := Cert.ReferenceIdeal.Ops.refOps8_writes (F := F)
  refine ⟨?_, ?_, ?_, ?_, ?_, ?_, ?_, ?_, ?_, ?_, ?_, ?_⟩
  · kept Cert.KernelIdeal.main_v37 Cert.ReferenceIdeal.main_v40 wK wR h0
  · -- main_c_20 ↔ main_c_22, written in this stretch: the same operations applied to agreeing contents
    dsimp only [Cert.KernelIdeal.Gen.hostOps1_8, Cert.ReferenceIdeal.Ops.refOps8]
    after_results_simp <;> (try simp only [h0, h1, h2, h3, h4, h5, h6, h7, h8, h9, h10]) <;> (try rfl)
  · kept Cert.KernelIdeal.main_c_1 Cert.ReferenceIdeal.main_c_1 wK wR h1
  · kept Cert.KernelIdeal.main_v5 Cert.ReferenceIdeal.main_v8 wK wR h2
  · kept Cert.KernelIdeal.main_v4 Cert.ReferenceIdeal.main_v7 wK wR h3
  · kept Cert.KernelIdeal.main_c_2 Cert.ReferenceIdeal.main_c_2 wK wR h4
  · kept Cert.KernelIdeal.main_c_3 Cert.ReferenceIdeal.main_c_3 wK wR h5
  · kept Cert.KernelIdeal.main_c_4 Cert.ReferenceIdeal.main_c_4 wK wR h6
  · kept Cert.KernelIdeal.main_v20 Cert.ReferenceIdeal.main_v23 wK wR h7
  · kept Cert.KernelIdeal.main_v38 Cert.ReferenceIdeal.main_v41 wK wR h8
  · kept Cert.KernelIdeal.main_v23 Cert.ReferenceIdeal.main_v26 wK wR h9
  · kept Cert.KernelIdeal.main_v21 Cert.ReferenceIdeal.main_v24 wK wR h10

/-- Over stretch 9 (21 operations) agreement is kept. -/
theorem agree9 (VK : Valuation Cert.KernelIdeal.τ Cert.KernelIdeal.sig (Elt F)) (VR : Valuation Cert.ReferenceIdeal.τ Cert.ReferenceIdeal.sig (Elt F))
    (h : Agree9 VK VR) : Agree10 (StableHlo.after Cert.KernelIdeal.Gen.hostOps1_9 VK) (StableHlo.after Cert.ReferenceIdeal.Ops.refOps9 VR) := by
  obtain ⟨h0, h1, h2, h3, h4, h5, h6, h7, h8, h9, h10, h11⟩ := h
  have wK := Cert.KernelIdeal.Fr.hostOps1_9_writes (F := F)
  have wR := Cert.ReferenceIdeal.Ops.refOps9_writes (F := F)
  refine ⟨?_, ?_, ?_, ?_, ?_, ?_, ?_, ?_, ?_, ?_, ?_, ?_⟩
  · kept Cert.KernelIdeal.main_v37 Cert.ReferenceIdeal.main_v40 wK wR h0
  · kept Cert.KernelIdeal.main_c_1 Cert.ReferenceIdeal.main_c_1 wK wR h2
  · kept Cert.KernelIdeal.main_v5 Cert.ReferenceIdeal.main_v8 wK wR h3
  · kept Cert.KernelIdeal.main_v4 Cert.ReferenceIdeal.main_v7 wK wR h4
  · kept Cert.KernelIdeal.main_c_2 Cert.ReferenceIdeal.main_c_2 wK wR h5
  · kept Cert.KernelIdeal.main_c_3 Cert.ReferenceIdeal.main_c_3 wK wR h6
  · kept Cert.KernelIdeal.main_c_4 Cert.ReferenceIdeal.main_c_4 wK wR h7
  · kept Cert.KernelIdeal.main_v20 Cert.ReferenceIdeal.main_v23 wK wR h8
  · kept Cert.KernelIdeal.main_v38 Cert.ReferenceIdeal.main_v41 wK wR h9
  · kept Cert.KernelIdeal.main_v23 Cert.ReferenceIdeal.main_v26 wK wR h10
  · kept Cert.KernelIdeal.main_v21 Cert.ReferenceIdeal.main_v24 wK wR h11
  · -- main_v39 ↔ main_v42, written in this stretch: the same operations applied to agreeing contents
    dsimp only [Cert.KernelIdeal.Gen.hostOps1_9, Cert.ReferenceIdeal.Ops.refOps9]
    after_results_simp <;> (try simp only [h0, h1, h2, h3, h4, h5, h6, h7, h8, h9, h10, h11]) <;> (try rfl)

end Cert.Proof.Tails

end
-- ==== Proof.TailsWb.lean ====
/-
  Agreement of the two host tails, stretch by stretch (stretches 10 … 18): if the two programs agree before a
  stretch, they agree after it. A buffer the stretch does not write keeps its contents on both sides; a buffer it
  writes is, on both sides, the same pure function of contents that agree — the two stretches are the same
  operations on corresponding buffers.
-/
import proofs.«135479_j53618371723721_2_alg».proof.Proof.TailsBase

set_option maxRecDepth 16384
set_option maxHeartbeats 2000000

noncomputable section

namespace Cert.Proof.Tails
open Idealize.ShloMosaic Idealize.SL.Sem
variable {F : FTy → Type} [FloatOps F]

/-- Over stretch 10 (44 operations) agreement is kept. -/
theorem agree10 (VK : Valuation Cert.KernelIdeal.τ Cert.KernelIdeal.sig (Elt F)) (VR : Valuation Cert.ReferenceIdeal.τ Cert.ReferenceIdeal.sig (Elt F))
    (h : Agree10 VK VR) : Agree11 (StableHlo.after Cert.KernelIdeal.Gen.hostOps1_10 VK) (StableHlo.after Cert.ReferenceIdeal.Ops.refOps10 VR) := by
  obtain ⟨h0, h1, h2, h3, h4, h5, h6, h7, h8, h9, h10, h11⟩ := h
  have wK := Cert.KernelIdeal.Fr.hostOps1_10_writes (F := F)
  have wR := Cert.ReferenceIdeal.Ops.refOps10_writes (F := F)
  refine ⟨?_, ?_, ?_, ?_, ?_, ?_, ?_, ?_, ?_, ?_, ?_, ?_, ?_, ?_, ?_, ?_⟩
  · -- main_v65 ↔ main_v68, written in this stretch: the same operations applied to agreeing contents
    dsimp only [Cert.KernelIdeal.Gen.hostOps1_10, Cert.ReferenceIdeal.Ops.refOps10]
    after_results_simp <;> (try simp only [h0, h1, h2, h3, h4, h5, h6, h7, h8, h9, h10, h11]) <;> (try rfl)
  · -- main_c_31 ↔ main_c_33, written in this stretch: the same operations applied to agreeing contents
    dsimp only [Cert.KernelIdeal.Gen.hostOps1_10, Cert.ReferenceIdeal.Ops.refOps10]
    after_results_simp <;> (try simp only [h0, h1, h2, h3, h4, h5, h6, h7, h8, h9, h10, h11]) <;> (try rfl)
  · -- main_v72 ↔ main_v75, written in this stretch: the same operations applied to agreeing contents
    dsimp only [Cert.KernelIdeal.Gen.hostOps1_10, Cert.ReferenceIdeal.Ops.refOps10]
    after_results_simp <;> (try simp only [h0, h1, h2, h3, h4, h5, h6, h7, h8, h9, h10, h11]) <;> (try rfl)
  · kept Cert.KernelIdeal.main_c_3 Cert.ReferenceIdeal.main_c_3 wK wR h5
  · kept Cert.KernelIdeal.main_v5 Cert.ReferenceIdeal.main_v8 wK wR h2
  · kept Cert.KernelIdeal.main_v4 Cert.ReferenceIdeal.main_v7 wK wR h3
  · kept Cert.KernelIdeal.main_c_4 Cert.ReferenceIdeal.main_c_4 wK wR h6
  · kept Cert.KernelIdeal.main_v20 Cert.ReferenceIdeal.main_v23 wK wR h7
  · kept Cert.KernelIdeal.main_v38 Cert.ReferenceIdeal.main_v41 wK wR h8
  · -- main_v56 ↔ main_v59, written in this stretch: the same operations applied to agreeing contents
    dsimp only [Cert.KernelIdeal.Gen.hostOps1_10, Cert.ReferenceIdeal.Ops.refOps10]
    after_results_simp <;> (try simp only [h0, h1, h2, h3, h4, h5, h6, h7, h8, h9, h10, h11]) <;> (try rfl)
  · kept Cert.KernelIdeal.main_v23 Cert.ReferenceIdeal.main_v26 wK wR h9
  · -- main_v41 ↔ main_v44, written in this stretch: the same operations applied to agreeing contents
    dsimp only [Cert.KernelIdeal.Gen.hostOps1_10, Cert.ReferenceIdeal.Ops.refOps10]
    after_results_simp <;> (try simp only [h0, h1, h2, h3, h4, h5, h6, h7, h8, h9, h10, h11]) <;> (try rfl)
  · -- main_v58 ↔ main_v61, written in this stretch: the same operations applied to agreeing contents
    dsimp only [Cert.KernelIdeal.Gen.hostOps1_10, Cert.ReferenceIdeal.Ops.refOps10]
    after_results_simp <;> (try simp only [h0, h1, h2, h3, h4, h5, h6, h7, h8, h9, h10, h11]) <;> (try rfl)
  · kept Cert.KernelIdeal.main_v21 Cert.ReferenceIdeal.main_v24 wK wR h10
  · kept Cert.KernelIdeal.main_v39 Cert.ReferenceIdeal.main_v42 wK wR h11
  · -- main_v57 ↔ main_v60, written in this stretch: the same operations applied to agreeing contents
    dsimp only [Cert.KernelIdeal.Gen.hostOps1_10, Cert.ReferenceIdeal.Ops.refOps10]
    after_results_simp <;> (try simp only [h0, h1, h2, h3, h4, h5, h6, h7, h8, h9, h10, h11]) <;> (try rfl)

/-- Over stretch 11 (21 operations) agreement is kept. -/
theorem agree11 (VK : Valuation Cert.KernelIdeal.τ Cert.KernelIdeal.sig (Elt F)) (VR : Valuation Cert.ReferenceIdeal.τ Cert.ReferenceIdeal.sig (Elt F))
    (h : Agree11 VK VR) : Agree12 (StableHlo.after Cert.KernelIdeal.Gen.hostOps1_11 VK) (StableHlo.after Cert.ReferenceIdeal.Ops.refOps11 VR) := by
  obtain ⟨h0, h1, h2, h3, h4, h5, h6, h7, h8, h9, h10, h11, h12, h13, h14, h15⟩ := h
  have wK := Cert.KernelIdeal.Fr.hostOps1_11_writes (F := F)
  have wR := Cert.ReferenceIdeal.Ops.refOps11_writes (F := F)
  refine ⟨?_, ?_, ?_, ?_, ?_, ?_, ?_, ?_, ?_, ?_, ?_, ?_, ?_, ?_, ?_⟩
  · kept Cert.KernelIdeal.main_v72 Cert.ReferenceIdeal.main_v75 wK wR h2
  · kept Cert.KernelIdeal.main_c_3 Cert.ReferenceIdeal.main_c_3 wK wR h3
  · kept Cert.KernelIdeal.main_v5 Cert.ReferenceIdeal.main_v8 wK wR h4
  · kept Cert.KernelIdeal.main_v4 Cert.ReferenceIdeal.main_v7 wK wR h5
  · kept Cert.KernelIdeal.main_c_4 Cert.ReferenceIdeal.main_c_4 wK wR h6
  · kept Cert.KernelIdeal.main_v20 Cert.ReferenceIdeal.main_v23 wK wR h7
  · kept Cert.KernelIdeal.main_v38 Cert.ReferenceIdeal.main_v41 wK wR h8
  · kept Cert.KernelIdeal.main_v56 Cert.ReferenceIdeal.main_v59 wK wR h9
  · -- main_v73 ↔ main_v76, written in this stretch: the same operations applied to agreeing contents
    dsimp only [Cert.KernelIdeal.Gen.hostOps1_11, Cert.ReferenceIdeal.Ops.refOps11]
    after_results_simp <;> (try simp only [h0, h1, h2, h3, h4, h5, h6, h7, h8, h9, h10, h11, h12, h13, h14, h15]) <;> (try rfl)
  · kept Cert.KernelIdeal.main_v23 Cert.ReferenceIdeal.main_v26 wK wR h10
  · kept Cert.KernelIdeal.main_v41 Cert.ReferenceIdeal.main_v44 wK wR h11
  · kept Cert.KernelIdeal.main_v58 Cert.ReferenceIdeal.main_v61 wK wR h12
  · kept Cert.KernelIdeal.main_v21 Cert.ReferenceIdeal.main_v24 wK wR h13
  · kept Cert.KernelIdeal.main_v39 Cert.ReferenceIdeal.main_v42 wK wR h14
  · kept Cert.KernelIdeal.main_v57 Cert.ReferenceIdeal.main_v60 wK wR h15

/-- Over stretch 12 (1 operation) agreement is kept. -/
theorem agree12 (VK : Valuation Cert.KernelIdeal.τ Cert.KernelIdeal.sig (Elt F)) (VR : Valuation Cert.ReferenceIdeal.τ Cert.ReferenceIdeal.sig (Elt F))
    (h : Agree12 VK VR) : Agree13 (StableHlo.after Cert.KernelIdeal.Gen.hostOps1_12 VK) (StableHlo.after Cert.ReferenceIdeal.Ops.refOps12 VR) := by
  obtain ⟨h0, h1, h2, h3, h4, h5, h6, h7, h8, h9, h10, h11, h12, h13, h14⟩ := h
  have wK := Cert.KernelIdeal.Fr.hostOps1_12_writes (F := F)
  have wR := Cert.ReferenceIdeal.Ops.refOps12_writes (F := F)
  refine ⟨?_, ?_, ?_, ?_, ?_, ?_, ?_, ?_, ?_, ?_, ?_, ?_, ?_, ?_, ?_, ?_⟩
  · kept Cert.KernelIdeal.main_v72 Cert.ReferenceIdeal.main_v75 wK wR h0
  · -- main_c_32 ↔ main_c_34, written in this stretch: the same operations applied to agreeing contents
    dsimp only [Cert.KernelIdeal.Gen.hostOps1_12, Cert.ReferenceIdeal.Ops.refOps12]
    after_results_simp <;> (try simp only [h0, h1, h2, h3, h4, h5, h6, h7, h8, h9, h10, h11, h12, h13, h14]) <;> (try rfl)
  · kept Cert.KernelIdeal.main_c_3 Cert.ReferenceIdeal.main_c_3 wK wR h1
  · kept Cert.KernelIdeal.main_v5 Cert.ReferenceIdeal.main_v8 wK wR h2
  · kept Cert.KernelIdeal.main_v4 Cert.ReferenceIdeal.main_v7 wK wR h3
  · kept Cert.KernelIdeal.main_c_4 Cert.ReferenceIdeal.main_c_4 wK wR h4
  · kept Cert.KernelIdeal.main_v20 Cert.ReferenceIdeal.main_v23 wK wR h5
  · kept Cert.KernelIdeal.main_v38 Cert.ReferenceIdeal.main_v41 wK wR h6
  · kept Cert.KernelIdeal.main_v56 Cert.ReferenceIdeal.main_v59 wK wR h7
  · kept Cert.KernelIdeal.main_v73 Cert.ReferenceIdeal.main_v76 wK wR h8
  · kept Cert.KernelIdeal.main_v23 Cert.ReferenceIdeal.main_v26 wK wR h9
  · kept Cert.KernelIdeal.main_v41 Cert.ReferenceIdeal.main_v44 wK wR h10
  · kept Cert.KernelIdeal.main_v58 Cert.ReferenceIdeal.main_v61 wK wR h11
  · kept Cert.KernelIdeal.main_v21 Cert.ReferenceIdeal.main_v24 wK wR h12
  · kept Cert.KernelIdeal.main_v39 Cert.ReferenceIdeal.main_v42 wK wR h13
  · kept Cert.KernelIdeal.main_v57 Cert.ReferenceIdeal.main_v60 wK wR h14

/-- Over stretch 13 (21 operations) agreement is kept. -/
theorem agree13 (VK : Valuation Cert.KernelIdeal.τ Cert.KernelIdeal.sig (Elt F)) (VR : Valuation Cert.ReferenceIdeal.τ Cert.ReferenceIdeal.sig (Elt F))
    (h : Agree13 VK VR) : Agree14 (StableHlo.after Cert.KernelIdeal.Gen.hostOps1_13 VK) (StableHlo.after Cert.ReferenceIdeal.Ops.refOps13 VR) := by
  obtain ⟨h0, h1, h2, h3, h4, h5, h6, h7, h8, h9, h10, h11, h12, h13, h14, h15⟩ := h
  have wK := Cert.KernelIdeal.Fr.hostOps1_13_writes (F := F)
  have wR := Cert.ReferenceIdeal.Ops.refOps13_writes (F := F)
  refine ⟨?_, ?_, ?_, ?_, ?_, ?_, ?_, ?_, ?_, ?_, ?_, ?_, ?_, ?_, ?_, ?_⟩
  · kept Cert.KernelIdeal.main_v72 Cert.ReferenceIdeal.main_v75 wK wR h0
  · kept Cert.KernelIdeal.main_c_3 Cert.ReferenceIdeal.main_c_3 wK wR h2
  · kept Cert.KernelIdeal.main_v5 Cert.ReferenceIdeal.main_v8 wK wR h3
  · kept Cert.KernelIdeal.main_v4 Cert.ReferenceIdeal.main_v7 wK wR h4
  · kept Cert.KernelIdeal.main_c_4 Cert.ReferenceIdeal.main_c_4 wK wR h5
  · kept Cert.KernelIdeal.main_v20 Cert.ReferenceIdeal.main_v23 wK wR h6
  · kept Cert.KernelIdeal.main_v38 Cert.ReferenceIdeal.main_v41 wK wR h7
  · kept Cert.KernelIdeal.main_v56 Cert.ReferenceIdeal.main_v59 wK wR h8
  · kept Cert.KernelIdeal.main_v73 Cert.ReferenceIdeal.main_v76 wK wR h9
  · kept Cert.KernelIdeal.main_v23 Cert.ReferenceIdeal.main_v26 wK wR h10
  · kept Cert.KernelIdeal.main_v41 Cert.ReferenceIdeal.main_v44 wK wR h11
  · kept Cert.KernelIdeal.main_v58 Cert.ReferenceIdeal.main_v61 wK wR h12
  · kept Cert.KernelIdeal.main_v21 Cert.ReferenceIdeal.main_v24 wK wR h13
  · kept Cert.KernelIdeal.main_v39 Cert.ReferenceIdeal.main_v42 wK wR h14
  · kept Cert.KernelIdeal.main_v57 Cert.ReferenceIdeal.main_v60 wK wR h15
  · -- main_v74 ↔ main_v77, written in this stretch: the same operations applied to agreeing contents
    dsimp only [Cert.KernelIdeal.Gen.hostOps1_13, Cert.ReferenceIdeal.Ops.refOps13]
    after_results_simp <;> (try simp only [h0, h1, h2, h3, h4, h5, h6, h7, h8, h9, h10, h11, h12, h13, h14, h15]) <;> (try rfl)

/-- Over stretch 14 (23 operations) agreement is kept. -/
theorem agree14 (VK : Valuation Cert.KernelIdeal.τ Cert.KernelIdeal.sig (Elt F)) (VR : Valuation Cert.ReferenceIdeal.τ Cert.ReferenceIdeal.sig (Elt F))
    (h : Agree14 VK VR) : Agree15 (StableHlo.after Cert.KernelIdeal.Gen.hostOps1_14 VK) (StableHlo.after Cert.ReferenceIdeal.Ops.refOps14 VR) := by
  obtain ⟨h0, h1, h2, h3, h4, h5, h6, h7, h8, h9, h10, h11, h12, h13, h14, h15⟩ := h
  have wK := Cert.KernelIdeal.Fr.hostOps1_14_writes (F := F)
  have wR := Cert.ReferenceIdeal.Ops.refOps14_writes (F := F)
  refine ⟨?_, ?_, ?_, ?_, ?_, ?_, ?_, ?_, ?_, ?_, ?_, ?_, ?_, ?_, ?_, ?_, ?_, ?_⟩
  · -- main_v83 ↔ main_v86, written in this stretch: the same operations applied to agreeing contents
    dsimp only [Cert.KernelIdeal.Gen.hostOps1_14, Cert.ReferenceIdeal.Ops.refOps14]
    after_results_simp <;> (try simp only [h0, h1, h2, h3, h4, h5, h6, h7, h8, h9, h10, h11, h12, h13, h14, h15]) <;> (try rfl)
  · -- main_c_39 ↔ main_c_41, written in this stretch: the same operations applied to agreeing contents
    dsimp only [Cert.KernelIdeal.Gen.hostOps1_14, Cert.ReferenceIdeal.Ops.refOps14]
    after_results_simp <;> (try simp only [h0, h1, h2, h3, h4, h5, h6, h7, h8, h9, h10, h11, h12, h13, h14, h15]) <;> (try rfl)
  · -- main_v90 ↔ main_v93, written in this stretch: the same operations applied to agreeing contents
    dsimp only [Cert.KernelIdeal.Gen.hostOps1_14, Cert.ReferenceIdeal.Ops.refOps14]
    after_results_simp <;> (try simp only [h0, h1, h2, h3, h4, h5, h6, h7, h8, h9, h10, h11, h12, h13, h14, h15]) <;> (try rfl)
  · kept Cert.KernelIdeal.main_c_4 Cert.ReferenceIdeal.main_c_4 wK wR h4
  · kept Cert.KernelIdeal.main_v5 Cert.ReferenceIdeal.main_v8 wK wR h2
  · kept Cert.KernelIdeal.main_v4 Cert.ReferenceIdeal.main_v7 wK wR h3
  · kept Cert.KernelIdeal.main_v20 Cert.ReferenceIdeal.main_v23 wK wR h5
  · kept Cert.KernelIdeal.main_v38 Cert.ReferenceIdeal.main_v41 wK wR h6
  · kept Cert.KernelIdeal.main_v56 Cert.ReferenceIdeal.main_v59 wK wR h7
  · kept Cert.KernelIdeal.main_v73 Cert.ReferenceIdeal.main_v76 wK wR h8
  · kept Cert.KernelIdeal.main_v23 Cert.ReferenceIdeal.main_v26 wK wR h9
  · kept Cert.KernelIdeal.main_v41 Cert.ReferenceIdeal.main_v44 wK wR h10
  · kept Cert.KernelIdeal.main_v58 Cert.ReferenceIdeal.main_v61 wK wR h11
  · -- main_v76 ↔ main_v79, written in this stretch: the same operations applied to agreeing contents
    dsimp only [Cert.KernelIdeal.Gen.hostOps1_14, Cert.ReferenceIdeal.Ops.refOps14]
    after_results_simp <;> (try simp only [h0, h1, h2, h3, h4, h5, h6, h7, h8, h9, h10, h11, h12, h13, h14, h15]) <;> (try rfl)
  · kept Cert.KernelIdeal.main_v21 Cert.ReferenceIdeal.main_v24 wK wR h12
  · kept Cert.KernelIdeal.main_v39 Cert.ReferenceIdeal.main_v42 wK wR h13
  · kept Cert.KernelIdeal.main_v57 Cert.ReferenceIdeal.main_v60 wK wR h14
  · kept Cert.KernelIdeal.main_v74 Cert.ReferenceIdeal.main_v77 wK wR h15

/-- Over stretch 15 (21 operations) agreement is kept. -/
theorem agree15 (VK : Valuation Cert.KernelIdeal.τ Cert.KernelIdeal.sig (Elt F)) (VR : Valuation Cert.ReferenceIdeal.τ Cert.ReferenceIdeal.sig (Elt F))
    (h : Agree15 VK VR) : Agree16 (StableHlo.after Cert.KernelIdeal.Gen.hostOps1_15 VK) (StableHlo.after Cert.ReferenceIdeal.Ops.refOps15 VR) := by
  obtain ⟨h0, h1, h2, h3, h4, h5, h6, h7, h8, h9, h10, h11, h12, h13, h14, h15, h16, h17⟩ := h
  have wK := Cert.KernelIdeal.Fr.hostOps1_15_writes (F := F)
  have wR := Cert.ReferenceIdeal.Ops.refOps15_writes (F := F)
  refine ⟨?_, ?_, ?_, ?_, ?_, ?_, ?_, ?_, ?_, ?_, ?_, ?_, ?_, ?_, ?_, ?_, ?_⟩
  · kept Cert.KernelIdeal.main_v90 Cert.ReferenceIdeal.main_v93 wK wR h2
  · kept Cert.KernelIdeal.main_c_4 Cert.ReferenceIdeal.main_c_4 wK wR h3
  · kept Cert.KernelIdeal.main_v5 Cert.ReferenceIdeal.main_v8 wK wR h4
  · kept Cert.KernelIdeal.main_v4 Cert.ReferenceIdeal.main_v7 wK wR h5
  · kept Cert.KernelIdeal.main_v20 Cert.ReferenceIdeal.main_v23 wK wR h6
  · kept Cert.KernelIdeal.main_v38 Cert.ReferenceIdeal.main_v41 wK wR h7
  · kept Cert.KernelIdeal.main_v56 Cert.ReferenceIdeal.main_v59 wK wR h8
  · kept Cert.KernelIdeal.main_v73 Cert.ReferenceIdeal.main_v76 wK wR h9
  · -- main_v91 ↔ main_v94, written in this stretch: the same operations applied to agreeing contents
    dsimp only [Cert.KernelIdeal.Gen.hostOps1_15, Cert.ReferenceIdeal.Ops.refOps15]
    after_results_simp <;> (try simp only [h0, h1, h2, h3, h4, h5, h6, h7, h8, h9, h10, h11, h12, h13, h14, h15, h16, h17]) <;> (try rfl)
  · kept Cert.KernelIdeal.main_v23 Cert.ReferenceIdeal.main_v26 wK wR h10
  · kept Cert.KernelIdeal.main_v41 Cert.ReferenceIdeal.main_v44 wK wR h11
  · kept Cert.KernelIdeal.main_v58 Cert.ReferenceIdeal.main_v61 wK wR h12
  · kept Cert.KernelIdeal.main_v76 Cert.ReferenceIdeal.main_v79 wK wR h13
  · kept Cert.KernelIdeal.main_v21 Cert.ReferenceIdeal.main_v24 wK wR h14
  · kept Cert.KernelIdeal.main_v39 Cert.ReferenceIdeal.main_v42 wK wR h15
  · kept Cert.KernelIdeal.main_v57 Cert.ReferenceIdeal.main_v60 wK wR h16
  · kept Cert.KernelIdeal.main_v74 Cert.ReferenceIdeal.main_v77 wK wR h17

/-- Over stretch 16 (1 operation) agreement is kept. -/
theorem agree16 (VK : Valuation Cert.KernelIdeal.τ Cert.KernelIdeal.sig (Elt F)) (VR : Valuation Cert.ReferenceIdeal.τ Cert.ReferenceIdeal.sig (Elt F))
    (h : Agree16 VK VR) : Agree17 (StableHlo.after Cert.KernelIdeal.Gen.hostOps1_16 VK) (StableHlo.after Cert.ReferenceIdeal.Ops.refOps16 VR) := by
  obtain ⟨h0, h1, h2, h3, h4, h5, h6, h7, h8, h9, h10, h11, h12, h13, h14, h15, h16⟩ := h
  have wK := Cert.KernelIdeal.Fr.hostOps1_16_writes (F := F)
  have wR := Cert.ReferenceIdeal.Ops.refOps16_writes (F := F)
  refine ⟨?_, ?_, ?_, ?_, ?_, ?_, ?_, ?_, ?_, ?_, ?_, ?_, ?_, ?_, ?_, ?_, ?_, ?_⟩
  · kept Cert.KernelIdeal.main_v90 Cert.ReferenceIdeal.main_v93 wK wR h0
  · -- main_c_40 ↔ main_c_42, written in this stretch: the same operations applied to agreeing contents
    dsimp only [Cert.KernelIdeal.Gen.hostOps1_16, Cert.ReferenceIdeal.Ops.refOps16]
    after_results_simp <;> (try simp only [h0, h1, h2, h3, h4, h5, h6, h7, h8, h9, h10, h11, h12, h13, h14, h15, h16]) <;> (try rfl)
  · kept Cert.KernelIdeal.main_c_4 Cert.ReferenceIdeal.main_c_4 wK wR h1
  · kept Cert.KernelIdeal.main_v5 Cert.ReferenceIdeal.main_v8 wK wR h2
  · kept Cert.KernelIdeal.main_v4 Cert.ReferenceIdeal.main_v7 wK wR h3
  · kept Cert.KernelIdeal.main_v20 Cert.ReferenceIdeal.main_v23 wK wR h4
  · kept Cert.KernelIdeal.main_v38 Cert.ReferenceIdeal.main_v41 wK wR h5
  · kept Cert.KernelIdeal.main_v56 Cert.ReferenceIdeal.main_v59 wK wR h6
  · kept Cert.KernelIdeal.main_v73 Cert.ReferenceIdeal.main_v76 wK wR h7
  · kept Cert.KernelIdeal.main_v91 Cert.ReferenceIdeal.main_v94 wK wR h8
  · kept Cert.KernelIdeal.main_v23 Cert.ReferenceIdeal.main_v26 wK wR h9
  · kept Cert.KernelIdeal.main_v41 Cert.ReferenceIdeal.main_v44 wK wR h10
  · kept Cert.KernelIdeal.main_v58 Cert.ReferenceIdeal.main_v61 wK wR h11
  · kept Cert.KernelIdeal.main_v76 Cert.ReferenceIdeal.main_v79 wK wR h12
  · kept Cert.KernelIdeal.main_v21 Cert.ReferenceIdeal.main_v24 wK wR h13
  · kept Cert.KernelIdeal.main_v39 Cert.ReferenceIdeal.main_v42 wK wR h14
  · kept Cert.KernelIdeal.main_v57 Cert.ReferenceIdeal.main_v60 wK wR h15
  · kept Cert.KernelIdeal.main_v74 Cert.ReferenceIdeal.main_v77 wK wR h16

/-- Over stretch 17 (21 operations) agreement is kept. -/
theorem agree17 (VK : Valuation Cert.KernelIdeal.τ Cert.KernelIdeal.sig (Elt F)) (VR : Valuation Cert.ReferenceIdeal.τ Cert.ReferenceIdeal.sig (Elt F))
    (h : Agree17 VK VR) : Agree18 (StableHlo.after Cert.KernelIdeal.Gen.hostOps1_17 VK) (StableHlo.after Cert.ReferenceIdeal.Ops.refOps17 VR) := by
  obtain ⟨h0, h1, h2, h3, h4, h5, h6, h7, h8, h9, h10, h11, h12, h13, h14, h15, h16, h17⟩ := h
  have wK := Cert.KernelIdeal.Fr.hostOps1_17_writes (F := F)
  have wR := Cert.ReferenceIdeal.Ops.refOps17_writes (F := F)
  refine ⟨?_, ?_, ?_, ?_, ?_, ?_, ?_, ?_, ?_, ?_, ?_, ?_, ?_, ?_, ?_, ?_, ?_, ?_⟩
  · kept Cert.KernelIdeal.main_v90 Cert.ReferenceIdeal.main_v93 wK wR h0
  · kept Cert.KernelIdeal.main_c_4 Cert.ReferenceIdeal.main_c_4 wK wR h2
  · kept Cert.KernelIdeal.main_v5 Cert.ReferenceIdeal.main_v8 wK wR h3
  · kept Cert.KernelIdeal.main_v4 Cert.ReferenceIdeal.main_v7 wK wR h4
  · kept Cert.KernelIdeal.main_v20 Cert.ReferenceIdeal.main_v23 wK wR h5
  · kept Cert.KernelIdeal.main_v38 Cert.ReferenceIdeal.main_v41 wK wR h6
  · kept Cert.KernelIdeal.main_v56 Cert.ReferenceIdeal.main_v59 wK wR h7
  · kept Cert.KernelIdeal.main_v73 Cert.ReferenceIdeal.main_v76 wK wR h8
  · kept Cert.KernelIdeal.main_v91 Cert.ReferenceIdeal.main_v94 wK wR h9
  · kept Cert.KernelIdeal.main_v23 Cert.ReferenceIdeal.main_v26 wK wR h10
  · kept Cert.KernelIdeal.main_v41 Cert.ReferenceIdeal.main_v44 wK wR h11
  · kept Cert.KernelIdeal.main_v58 Cert.ReferenceIdeal.main_v61 wK wR h12
  · kept Cert.KernelIdeal.main_v76 Cert.ReferenceIdeal.main_v79 wK wR h13
  · kept Cert.KernelIdeal.main_v21 Cert.ReferenceIdeal.main_v24 wK wR h14
  · kept Cert.KernelIdeal.main_v39 Cert.ReferenceIdeal.main_v42 wK wR h15
  · kept Cert.KernelIdeal.main_v57 Cert.ReferenceIdeal.main_v60 wK wR h16
  · kept Cert.KernelIdeal.main_v74 Cert.ReferenceIdeal.main_v77 wK wR h17
  · -- main_v92 ↔ main_v95, written in this stretch: the same operations applied to agreeing contents
    dsimp only [Cert.KernelIdeal.Gen.hostOps1_17, Cert.ReferenceIdeal.Ops.refOps17]
    after_results_simp <;> (try simp only [h0, h1, h2, h3, h4, h5, h6, h7, h8, h9, h10, h11, h12, h13, h14, h15, h16, h17]) <;> (try rfl)

/-- Over stretch 18 (23 operations) agreement is kept. -/
theorem agree18 (VK : Valuation Cert.KernelIdeal.τ Cert.KernelIdeal.sig (Elt F)) (VR : Valuation Cert.ReferenceIdeal.τ Cert.ReferenceIdeal.sig (Elt F))
    (h : Agree18 VK VR) : Agree19 (StableHlo.after Cert.KernelIdeal.Gen.hostOps1_18 VK) (StableHlo.after Cert.ReferenceIdeal.Ops.refOps18 VR) := by
  obtain ⟨h0, h1, h2, h3, h4, h5, h6, h7, h8, h9, h10, h11, h12, h13, h14, h15, h16, h17⟩ := h
  have wK := Cert.KernelIdeal.Fr.hostOps1_18_writes (F := F)
  have wR := Cert.ReferenceIdeal.Ops.refOps18_writes (F := F)
  refine ⟨?_, ?_, ?_, ?_, ?_, ?_, ?_, ?_, ?_, ?_, ?_, ?_, ?_, ?_, ?_, ?_, ?_, ?_⟩
  · -- main_v101 ↔ main_v104, written in this stretch: the same operations applied to agreeing contents
    dsimp only [Cert.KernelIdeal.Gen.hostOps1_18, Cert.ReferenceIdeal.Ops.refOps18]
    after_results_simp <;> (try simp only [h0, h1, h2, h3, h4, h5, h6, h7, h8, h9, h10, h11, h12, h13, h14, h15, h16, h17]) <;> (try rfl)
  · -- main_c_47 ↔ main_c_49, written in this stretch: the same operations applied to agreeing contents
    dsimp only [Cert.KernelIdeal.Gen.hostOps1_18, Cert.ReferenceIdeal.Ops.refOps18]
    after_results_simp <;> (try simp only [h0, h1, h2, h3, h4, h5, h6, h7, h8, h9, h10, h11, h12, h13, h14, h15, h16, h17]) <;> (try rfl)
  · -- main_v108 ↔ main_v111, written in this stretch: the same operations applied to agreeing contents
    dsimp only [Cert.KernelIdeal.Gen.hostOps1_18, Cert.ReferenceIdeal.Ops.refOps18]
    after_results_simp <;> (try simp only [h0, h1, h2, h3, h4, h5, h6, h7, h8, h9, h10, h11, h12, h13, h14, h15, h16, h17]) <;> (try rfl)
  · kept Cert.KernelIdeal.main_v20 Cert.ReferenceIdeal.main_v23 wK wR h4
  · kept Cert.KernelIdeal.main_v38 Cert.ReferenceIdeal.main_v41 wK wR h5
  · kept Cert.KernelIdeal.main_v56 Cert.ReferenceIdeal.main_v59 wK wR h6
  · kept Cert.KernelIdeal.main_v73 Cert.ReferenceIdeal.main_v76 wK wR h7
  · kept Cert.KernelIdeal.main_v91 Cert.ReferenceIdeal.main_v94 wK wR h8
  · kept Cert.KernelIdeal.main_v23 Cert.ReferenceIdeal.main_v26 wK wR h9
  · kept Cert.KernelIdeal.main_v41 Cert.ReferenceIdeal.main_v44 wK wR h10
  · kept Cert.KernelIdeal.main_v58 Cert.ReferenceIdeal.main_v61 wK wR h11
  · kept Cert.KernelIdeal.main_v76 Cert.ReferenceIdeal.main_v79 wK wR h12
  · -- main_v94 ↔ main_v97, written in this stretch: the same operations applied to agreeing contents
    dsimp only [Cert.KernelIdeal.Gen.hostOps1_18, Cert.ReferenceIdeal.Ops.refOps18]
    after_results_simp <;> (try simp only [h0, h1, h2, h3, h4, h5, h6, h7, h8, h9, h10, h11, h12, h13, h14, h15, h16, h17]) <;> (try rfl)
  · kept Cert.KernelIdeal.main_v21 Cert.ReferenceIdeal.main_v24 wK wR h13
  · kept Cert.KernelIdeal.main_v39 Cert.ReferenceIdeal.main_v42 wK wR h14
  · kept Cert.KernelIdeal.main_v57 Cert.ReferenceIdeal.main_v60 wK wR h15
  · kept Cert.KernelIdeal.main_v74 Cert.ReferenceIdeal.main_v77 wK wR h16
  · kept Cert.KernelIdeal.main_v92 Cert.ReferenceIdeal.main_v95 wK wR h17

end Cert.Proof.Tails

end
-- ==== Proof.TailsWc.lean ====
/-
  Agreement of the two host tails, stretch by stretch (stretches 19 … 26): if the two programs agree before a
  stretch, they agree after it. A buffer the stretch does not write keeps its contents on both sides; a buffer it
  writes is, on both sides, the same pure function of contents that agree — the two stretches are the same
  operations on corresponding buffers. Stretch 22 holds three concatenations of six operands each; it is cut so
  that each concatenation stands alone, its operands among the buffers already known to agree.
-/
import proofs.«135479_j53618371723721_2_alg».proof.Proof.TailsBase
import Idealize.ShloMosaic.Lib.Pipeline.Frame

set_option maxRecDepth 16384
set_option maxHeartbeats 2000000

noncomputable section

namespace Cert.KernelIdeal.Fr
open Idealize.ShloMosaic Idealize.SL.Sem
open Cert.KernelIdeal Cert.KernelIdeal.Gen
open Cert.Proof.Tails
variable {F : FTy → Type} [FloatOps F]

/-- Operations 1 … 10 of stretch 22. -/
abbrev kerOps22_0 : List (HloOp τ sig (Elt F)) :=
  [ StableHlo.nullary main_cst_49 (constant S_ .f32 0x00000000#32),
    StableHlo.binary main_v108 main_cst_49 main_v111 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_50 (constant S_ .f32 0x40400000#32),
    StableHlo.binary main_v111 main_cst_50 main_v112 (Host.divf : (⟨S_, .f32⟩ : BufTy).Contents (Elt F) → (⟨S_, .f32⟩ : BufTy).Contents (Elt F) → (⟨S_, .f32⟩ : BufTy).Contents (Elt F)),
    StableHlo.unary main_v20 main_v113 (broadcastInDim S1 ![] bcast_S_S1 : (⟨S_, .f32⟩ : BufTy).Contents (Elt F) → (⟨S1, .f32⟩ : BufTy).Contents (Elt F)),
    StableHlo.unary main_v38 main_v114 (broadcastInDim S1 ![] bcast_S_S1 : (⟨S_, .f32⟩ : BufTy).Contents (Elt F) → (⟨S1, .f32⟩ : BufTy).Contents (Elt F)),
    StableHlo.unary main_v56 main_v115 (broadcastInDim S1 ![] bcast_S_S1 : (⟨S_, .f32⟩ : BufTy).Contents (Elt F) → (⟨S1, .f32⟩ : BufTy).Contents (Elt F)),
    StableHlo.unary main_v73 main_v116 (broadcastInDim S1 ![] bcast_S_S1 : (⟨S_, .f32⟩ : BufTy).Contents (Elt F) → (⟨S1, .f32⟩ : BufTy).Contents (Elt F)),
    StableHlo.unary main_v91 main_v117 (broadcastInDim S1 ![] bcast_S_S1 : (⟨S_, .f32⟩ : BufTy).Contents (Elt F) → (⟨S1, .f32⟩ : BufTy).Contents (Elt F)),
    StableHlo.unary main_v109 main_v118 (broadcastInDim S1 ![] bcast_S_S1 : (⟨S_, .f32⟩ : BufTy).Contents (Elt F) → (⟨S1, .f32⟩ : BufTy).Contents (Elt F)) ]
abbrev kerW22_0 : List (Ref sig .tc) := [main_cst_49, main_v111, main_cst_50, main_v112, main_v113, main_v114, main_v115, main_v116, main_v117, main_v118]
theorem kerOps22_0_writes : (kerOps22_0 : List (HloOp τ sig (Elt F))).Forall fun op => op.writes ⊆ ((kerW22_0).map (Proc.devRef (τ := τ) .tc)).toFinset := by writes_stretch
/-- Operations 11 … 11 of stretch 22. -/
abbrev kerOps22_1 : List (HloOp τ sig (Elt F)) :=
  [ StableHlo.nary ![main_v113, main_v114, main_v115, main_v116, main_v117, main_v118] main_v119 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]
abbrev kerW22_1 : List (Ref sig .tc) := [main_v119]
theorem kerOps22_1_writes : (kerOps22_1 : List (HloOp τ sig (Elt F))).Forall fun op => op.writes ⊆ ((kerW22_1).map (Proc.devRef (τ := τ) .tc)).toFinset := by writes_stretch
/-- Operations 12 … 17 of stretch 22. -/
abbrev kerOps22_2 : List (HloOp τ sig (Elt F)) :=
  [ StableHlo.unary main_v23 main_v120 (broadcastInDim S1 ![] bcast_S_S1 : (⟨S_, .f32⟩ : BufTy).Contents (Elt F) → (⟨S1, .f32⟩ : BufTy).Contents (Elt F)),
    StableHlo.unary main_v41 main_v121 (broadcastInDim S1 ![] bcast_S_S1 : (⟨S_, .f32⟩ : BufTy).Contents (Elt F) → (⟨S1, .f32⟩ : BufTy).Contents (Elt F)),
    StableHlo.unary main_v58 main_v122 (broadcastInDim S1 ![] bcast_S_S1 : (⟨S_, .f32⟩ : BufTy).Contents (Elt F) → (⟨S1, .f32⟩ : BufTy).Contents (Elt F)),
    StableHlo.unary main_v76 main_v123 (broadcastInDim S1 ![] bcast_S_S1 : (⟨S_, .f32⟩ : BufTy).Contents (Elt F) → (⟨S1, .f32⟩ : BufTy).Contents (Elt F)),
    StableHlo.unary main_v94 main_v124 (broadcastInDim S1 ![] bcast_S_S1 : (⟨S_, .f32⟩ : BufTy).Contents (Elt F) → (⟨S1, .f32⟩ : BufTy).Contents (Elt F)),
    StableHlo.unary main_v112 main_v125 (broadcastInDim S1 ![] bcast_S_S1 : (⟨S_, .f32⟩ : BufTy).Contents (Elt F) → (⟨S1, .f32⟩ : BufTy).Contents (Elt F)) ]
abbrev kerW22_2 : List (Ref sig .tc) := [main_v120, main_v121, main_v122, main_v123, main_v124, main_v125]
theorem kerOps22_2_writes : (kerOps22_2 : List (HloOp τ sig (Elt F))).Forall fun op => op.writes ⊆ ((kerW22_2).map (Proc.devRef (τ := τ) .tc)).toFinset := by writes_stretch
/-- Operations 18 … 18 of stretch 22. -/
abbrev kerOps22_3 : List (HloOp τ sig (Elt F)) :=
  [ StableHlo.nary ![main_v120, main_v121, main_v122, main_v123, main_v124, main_v125] main_v126 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]
abbrev kerW22_3 : List (Ref sig .tc) := [main_v126]
theorem kerOps22_3_writes : (kerOps22_3 : List (HloOp τ sig (Elt F))).Forall fun op => op.writes ⊆ ((kerW22_3).map (Proc.devRef (τ := τ) .tc)).toFinset := by writes_stretch
/-- Operations 19 … 24 of stretch 22. -/
abbrev kerOps22_4 : List (HloOp τ sig (Elt F)) :=
  [ StableHlo.unary main_v21 main_v127 (broadcastInDim S1 ![] bcast_S_S1 : (⟨S_, .f32⟩ : BufTy).Contents (Elt F) → (⟨S1, .f32⟩ : BufTy).Contents (Elt F)),
    StableHlo.unary main_v39 main_v128 (broadcastInDim S1 ![] bcast_S_S1 : (⟨S_, .f32⟩ : BufTy).Contents (Elt F) → (⟨S1, .f32⟩ : BufTy).Contents (Elt F)),
    StableHlo.unary main_v57 main_v129 (broadcastInDim S1 ![] bcast_S_S1 : (⟨S_, .f32⟩ : BufTy).Contents (Elt F) → (⟨S1, .f32⟩ : BufTy).Contents (Elt F)),
    StableHlo.unary main_v74 main_v130 (broadcastInDim S1 ![] bcast_S_S1 : (⟨S_, .f32⟩ : BufTy).Contents (Elt F) → (⟨S1, .f32⟩ : BufTy).Contents (Elt F)),
    StableHlo.unary main_v92 main_v131 (broadcastInDim S1 ![] bcast_S_S1 : (⟨S_, .f32⟩ : BufTy).Contents (Elt F) → (⟨S1, .f32⟩ : BufTy).Contents (Elt F)),
    StableHlo.unary main_v110 main_v132 (broadcastInDim S1 ![] bcast_S_S1 : (⟨S_, .f32⟩ : BufTy).Contents (Elt F) → (⟨S1, .f32⟩ : BufTy).Contents (Elt F)) ]
abbrev kerW22_4 : List (Ref sig .tc) := [main_v127, main_v128, main_v129, main_v130, main_v131, main_v132]
theorem kerOps22_4_writes : (kerOps22_4 : List (HloOp τ sig (Elt F))).Forall fun op => op.writes ⊆ ((kerW22_4).map (Proc.devRef (τ := τ) .tc)).toFinset := by writes_stretch
/-- Operations 25 … 25 of stretch 22. -/
abbrev kerOps22_5 : List (HloOp τ sig (Elt F)) :=
  [ StableHlo.nary ![main_v127, main_v128, main_v129, main_v130, main_v131, main_v132] main_v133 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]
abbrev kerW22_5 : List (Ref sig .tc) := [main_v133]
theorem kerOps22_5_writes : (kerOps22_5 : List (HloOp τ sig (Elt F))).Forall fun op => op.writes ⊆ ((kerW22_5).map (Proc.devRef (τ := τ) .tc)).toFinset := by writes_stretch
/-- Operations 26 … 27 of stretch 22. -/
abbrev kerOps22_6 : List (HloOp τ sig (Elt F)) :=
  [ StableHlo.nullary main_c_51 (constantI S_ 1 1#1),
    StableHlo.unary main_c_51 main_v134 (broadcastInDim S6x6 ![] bcast_S_S6x6 : (⟨S_, .i1⟩ : BufTy).Contents (Elt F) → (⟨S6x6, .i1⟩ : BufTy).Contents (Elt F)) ]
abbrev kerW22_6 : List (Ref sig .tc) := [main_c_51, main_v134]
theorem kerOps22_6_writes : (kerOps22_6 : List (HloOp τ sig (Elt F))).Forall fun op => op.writes ⊆ ((kerW22_6).map (Proc.devRef (τ := τ) .tc)).toFinset := by writes_stretch

end Cert.KernelIdeal.Fr

namespace Cert.ReferenceIdeal.Ops
open Idealize.ShloMosaic Idealize.SL.Sem
open Cert.ReferenceIdeal Cert.ReferenceIdeal.Gen
open Cert.Proof.Tails
variable {F : FTy → Type} [FloatOps F]

/-- Operations 1 … 10 of piece 22. -/
abbrev refOps22_0 : List (HloOp τ sig (Elt F)) :=
  [ StableHlo.nullary main_cst_51 (constant S_ .f32 0x00000000#32),
    StableHlo.binary main_v111 main_cst_51 main_v114 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_52 (constant S_ .f32 0x40400000#32),
    StableHlo.binary main_v114 main_cst_52 main_v115 (Host.divf : (⟨S_, .f32⟩ : BufTy).Contents (Elt F) → (⟨S_, .f32⟩ : BufTy).Contents (Elt F) → (⟨S_, .f32⟩ : BufTy).Contents (Elt F)),
    StableHlo.unary main_v23 main_v116 (broadcastInDim S1 ![] bcast_S_S1 : (⟨S_, .f32⟩ : BufTy).Contents (Elt F) → (⟨S1, .f32⟩ : BufTy).Contents (Elt F)),
    StableHlo.unary main_v41 main_v117 (broadcastInDim S1 ![] bcast_S_S1 : (⟨S_, .f32⟩ : BufTy).Contents (Elt F) → (⟨S1, .f32⟩ : BufTy).Contents (Elt F)),
    StableHlo.unary main_v59 main_v118 (broadcastInDim S1 ![] bcast_S_S1 : (⟨S_, .f32⟩ : BufTy).Contents (Elt F) → (⟨S1, .f32⟩ : BufTy).Contents (Elt F)),
    StableHlo.unary main_v76 main_v119 (broadcastInDim S1 ![] bcast_S_S1 : (⟨S_, .f32⟩ : BufTy).Contents (Elt F) → (⟨S1, .f32⟩ : BufTy).Contents (Elt F)),
    StableHlo.unary main_v94 main_v120 (broadcastInDim S1 ![] bcast_S_S1 : (⟨S_, .f32⟩ : BufTy).Contents (Elt F) → (⟨S1, .f32⟩ : BufTy).Contents (Elt F)),
    StableHlo.unary main_v112 main_v121 (broadcastInDim S1 ![] bcast_S_S1 : (⟨S_, .f32⟩ : BufTy).Contents (Elt F) → (⟨S1, .f32⟩ : BufTy).Contents (Elt F)) ]
abbrev refW22_0 : List (Ref sig .tc) := [main_cst_51, main_v114, main_cst_52, main_v115, main_v116, main_v117, main_v118, main_v119, main_v120, main_v121]
theorem refOps22_0_writes : (refOps22_0 : List (HloOp τ sig (Elt F))).Forall fun op => op.writes ⊆ ((refW22_0).map (Proc.devRef (τ := τ) .tc)).toFinset := by writes_stretch
/-- Operations 11 … 11 of piece 22. -/
abbrev refOps22_1 : List (HloOp τ sig (Elt F)) :=
  [ StableHlo.nary ![main_v116, main_v117, main_v118, main_v119, main_v120, main_v121] main_v122 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]
abbrev refW22_1 : List (Ref sig .tc) := [main_v122]
theorem refOps22_1_writes : (refOps22_1 : List (HloOp τ sig (Elt F))).Forall fun op => op.writes ⊆ ((refW22_1).map (Proc.devRef (τ := τ) .tc)).toFinset := by writes_stretch
/-- Operations 12 … 17 of piece 22. -/
abbrev refOps22_2 : List (HloOp τ sig (Elt F)) :=
  [ StableHlo.unary main_v26 main_v123 (broadcastInDim S1 ![] bcast_S_S1 : (⟨S_, .f32⟩ : BufTy).Contents (Elt F) → (⟨S1, .f32⟩ : BufTy).Contents (Elt F)),
    StableHlo.unary main_v44 main_v124 (broadcastInDim S1 ![] bcast_S_S1 : (⟨S_, .f32⟩ : BufTy).Contents (Elt F) → (⟨S1, .f32⟩ : BufTy).Contents (Elt F)),
    StableHlo.unary main_v61 main_v125 (broadcastInDim S1 ![] bcast_S_S1 : (⟨S_, .f32⟩ : BufTy).Contents (Elt F) → (⟨S1, .f32⟩ : BufTy).Contents (Elt F)),
    StableHlo.unary main_v79 main_v126 (broadcastInDim S1 ![] bcast_S_S1 : (⟨S_, .f32⟩ : BufTy).Contents (Elt F) → (⟨S1, .f32⟩ : BufTy).Contents (Elt F)),
    StableHlo.unary main_v97 main_v127 (broadcastInDim S1 ![] bcast_S_S1 : (⟨S_, .f32⟩ : BufTy).Contents (Elt F) → (⟨S1, .f32⟩ : BufTy).Contents (Elt F)),
    StableHlo.unary main_v115 main_v128 (broadcastInDim S1 ![] bcast_S_S1 : (⟨S_, .f32⟩ : BufTy).Contents (Elt F) → (⟨S1, .f32⟩ : BufTy).Contents (Elt F)) ]
abbrev refW22_2 : List (Ref sig .tc) := [main_v123, main_v124, main_v125, main_v126, main_v127, main_v128]
theorem refOps22_2_writes : (refOps22_2 : List (HloOp τ sig (Elt F))).Forall fun op => op.writes ⊆ ((refW22_2).map (Proc.devRef (τ := τ) .tc)).toFinset := by writes_stretch
/-- Operations 18 … 18 of piece 22. -/
abbrev refOps22_3 : List (HloOp τ sig (Elt F)) :=
  [ StableHlo.nary ![main_v123, main_v124, main_v125, main_v126, main_v127, main_v128] main_v129 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]
abbrev refW22_3 : List (Ref sig .tc) := [main_v129]
theorem refOps22_3_writes : (refOps22_3 : List (HloOp τ sig (Elt F))).Forall fun op => op.writes ⊆ ((refW22_3).map (Proc.devRef (τ := τ) .tc)).toFinset := by writes_stretch
/-- Operations 19 … 24 of piece 22. -/
abbrev refOps22_4 : List (HloOp τ sig (Elt F)) :=
  [ StableHlo.unary main_v24 main_v130 (broadcastInDim S1 ![] bcast_S_S1 : (⟨S_, .f32⟩ : BufTy).Contents (Elt F) → (⟨S1, .f32⟩ : BufTy).Contents (Elt F)),
    StableHlo.unary main_v42 main_v131 (broadcastInDim S1 ![] bcast_S_S1 : (⟨S_, .f32⟩ : BufTy).Contents (Elt F) → (⟨S1, .f32⟩ : BufTy).Contents (Elt F)),
    StableHlo.unary main_v60 main_v132 (broadcastInDim S1 ![] bcast_S_S1 : (⟨S_, .f32⟩ : BufTy).Contents (Elt F) → (⟨S1, .f32⟩ : BufTy).Contents (Elt F)),
    StableHlo.unary main_v77 main_v133 (broadcastInDim S1 ![] bcast_S_S1 : (⟨S_, .f32⟩ : BufTy).Contents (Elt F) → (⟨S1, .f32⟩ : BufTy).Contents (Elt F)),
    StableHlo.unary main_v95 main_v134 (broadcastInDim S1 ![] bcast_S_S1 : (⟨S_, .f32⟩ : BufTy).Contents (Elt F) → (⟨S1, .f32⟩ : BufTy).Contents (Elt F)),
    StableHlo.unary main_v113 main_v135 (broadcastInDim S1 ![] bcast_S_S1 : (⟨S_, .f32⟩ : BufTy).Contents (Elt F) → (⟨S1, .f32⟩ : BufTy).Contents (Elt F)) ]
abbrev refW22_4 : List (Ref sig .tc) := [main_v130, main_v131, main_v132, main_v133, main_v134, main_v135]
theorem refOps22_4_writes : (refOps22_4 : List (HloOp τ sig (Elt F))).Forall fun op => op.writes ⊆ ((refW22_4).map (Proc.devRef (τ := τ) .tc)).toFinset := by writes_stretch
/-- Operations 25 … 25 of piece 22. -/
abbrev refOps22_5 : List (HloOp τ sig (Elt F)) :=
  [ StableHlo.nary ![main_v130, main_v131, main_v132, main_v133, main_v134, main_v135] main_v136 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]
abbrev refW22_5 : List (Ref sig .tc) := [main_v136]
theorem refOps22_5_writes : (refOps22_5 : List (HloOp τ sig (Elt F))).Forall fun op => op.writes ⊆ ((refW22_5).map (Proc.devRef (τ := τ) .tc)).toFinset := by writes_stretch
/-- Operations 26 … 27 of piece 22. -/
abbrev refOps22_6 : List (HloOp τ sig (Elt F)) :=
  [ StableHlo.nullary main_c_53 (constantI S_ 1 1#1),
    StableHlo.unary main_c_53 main_v137 (broadcastInDim S6x6 ![] bcast_S_S6x6 : (⟨S_, .i1⟩ : BufTy).Contents (Elt F) → (⟨S6x6, .i1⟩ : BufTy).Contents (Elt F)) ]
abbrev refW22_6 : List (Ref sig .tc) := [main_c_53, main_v137]
theorem refOps22_6_writes : (refOps22_6 : List (HloOp τ sig (Elt F))).Forall fun op => op.writes ⊆ ((refW22_6).map (Proc.devRef (τ := τ) .tc)).toFinset := by writes_stretch

end Cert.ReferenceIdeal.Ops

namespace Cert.Proof.Tails
open Idealize.ShloMosaic Idealize.SL.Sem
variable {F : FTy → Type} [FloatOps F]

/-- A concatenation of six operands, printed over the literal family of their references: its result with each
    operand's contents at its own reference, so that the operands' contents go on being computed (under the binder of
    the general form the reference of operand `k` is no literal). -/
theorem nary6_result {τ : Topo} {sig : RefSig} {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (V : Valuation τ sig Val) :
    (StableHlo.nary (τ := τ) ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5)) (fun i => i.elim0))))))) := by
  rw [StableHlo.nary_result]; congr 1; funext k; fin_cases k <;> rfl
theorem nary6_result' {τ : Topo} {sig : RefSig} {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (V : Valuation τ sig Val) :
    (StableHlo.nary (τ := τ) ![x0, x1, x2, x3, x4, x5] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5)) (fun i => i.elim0))))))) :=
  nary6_result f hxs hy V

/-- Over stretch 19 (21 operations) agreement is kept. -/
theorem agree19 (VK : Valuation Cert.KernelIdeal.τ Cert.KernelIdeal.sig (Elt F)) (VR : Valuation Cert.ReferenceIdeal.τ Cert.ReferenceIdeal.sig (Elt F))
    (h : Agree19 VK VR) : Agree20 (StableHlo.after Cert.KernelIdeal.Gen.hostOps1_19 VK) (StableHlo.after Cert.ReferenceIdeal.Ops.refOps19 VR) := by
  obtain ⟨h0, h1, h2, h3, h4, h5, h6, h7, h8, h9, h10, h11, h12, h13, h14, h15, h16, h17⟩ := h
  have wK := Cert.KernelIdeal.Fr.hostOps1_19_writes (F := F)
  have wR := Cert.ReferenceIdeal.Ops.refOps19_writes (F := F)
  refine ⟨?_, ?_, ?_, ?_, ?_, ?_, ?_, ?_, ?_, ?_, ?_, ?_, ?_, ?_, ?_, ?_, ?_⟩
  · kept Cert.KernelIdeal.main_v108 Cert.ReferenceIdeal.main_v111 wK wR h2
  · kept Cert.KernelIdeal.main_v20 Cert.ReferenceIdeal.main_v23 wK wR h3
  · kept Cert.KernelIdeal.main_v38 Cert.ReferenceIdeal.main_v41 wK wR h4
  · kept Cert.KernelIdeal.main_v56 Cert.ReferenceIdeal.main_v59 wK wR h5
  · kept Cert.KernelIdeal.main_v73 Cert.ReferenceIdeal.main_v76 wK wR h6
  · kept Cert.KernelIdeal.main_v91 Cert.ReferenceIdeal.main_v94 wK wR h7
  · -- main_v109 ↔ main_v112, written in this stretch: the same operations applied to agreeing contents
    dsimp only [Cert.KernelIdeal.Gen.hostOps1_19, Cert.ReferenceIdeal.Ops.refOps19]
    after_results_simp <;> (try simp only [h0, h1, h2, h3, h4, h5, h6, h7, h8, h9, h10, h11, h12, h13, h14, h15, h16, h17]) <;> (try rfl)
  · kept Cert.KernelIdeal.main_v23 Cert.ReferenceIdeal.main_v26 wK wR h8
  · kept Cert.KernelIdeal.main_v41 Cert.ReferenceIdeal.main_v44 wK wR h9
  · kept Cert.KernelIdeal.main_v58 Cert.ReferenceIdeal.main_v61 wK wR h10
  · kept Cert.KernelIdeal.main_v76 Cert.ReferenceIdeal.main_v79 wK wR h11
  · kept Cert.KernelIdeal.main_v94 Cert.ReferenceIdeal.main_v97 wK wR h12
  · kept Cert.KernelIdeal.main_v21 Cert.ReferenceIdeal.main_v24 wK wR h13
  · kept Cert.KernelIdeal.main_v39 Cert.ReferenceIdeal.main_v42 wK wR h14
  · kept Cert.KernelIdeal.main_v57 Cert.ReferenceIdeal.main_v60 wK wR h15
  · kept Cert.KernelIdeal.main_v74 Cert.ReferenceIdeal.main_v77 wK wR h16
  · kept Cert.KernelIdeal.main_v92 Cert.ReferenceIdeal.main_v95 wK wR h17

/-- Over stretch 20 (1 operation) agreement is kept. -/
theorem agree20 (VK : Valuation Cert.KernelIdeal.τ Cert.KernelIdeal.sig (Elt F)) (VR : Valuation Cert.ReferenceIdeal.τ Cert.ReferenceIdeal.sig (Elt F))
    (h : Agree20 VK VR) : Agree21 (StableHlo.after Cert.KernelIdeal.Gen.hostOps1_20 VK) (StableHlo.after Cert.ReferenceIdeal.Ops.refOps20 VR) := by
  obtain ⟨h0, h1, h2, h3, h4, h5, h6, h7, h8, h9, h10, h11, h12, h13, h14, h15, h16⟩ := h
  have wK := Cert.KernelIdeal.Fr.hostOps1_20_writes (F := F)
  have wR := Cert.ReferenceIdeal.Ops.refOps20_writes (F := F)
  refine ⟨?_, ?_, ?_, ?_, ?_, ?_, ?_, ?_, ?_, ?_, ?_, ?_, ?_, ?_, ?_, ?_, ?_, ?_⟩
  · kept Cert.KernelIdeal.main_v108 Cert.ReferenceIdeal.main_v111 wK wR h0
  · -- main_c_48 ↔ main_c_50, written in this stretch: the same operations applied to agreeing contents
    dsimp only [Cert.KernelIdeal.Gen.hostOps1_20, Cert.ReferenceIdeal.Ops.refOps20]
    after_results_simp <;> (try simp only [h0, h1, h2, h3, h4, h5, h6, h7, h8, h9, h10, h11, h12, h13, h14, h15, h16]) <;> (try rfl)
  · kept Cert.KernelIdeal.main_v20 Cert.ReferenceIdeal.main_v23 wK wR h1
  · kept Cert.KernelIdeal.main_v38 Cert.ReferenceIdeal.main_v41 wK wR h2
  · kept Cert.KernelIdeal.main_v56 Cert.ReferenceIdeal.main_v59 wK wR h3
  · kept Cert.KernelIdeal.main_v73 Cert.ReferenceIdeal.main_v76 wK wR h4
  · kept Cert.KernelIdeal.main_v91 Cert.ReferenceIdeal.main_v94 wK wR h5
  · kept Cert.KernelIdeal.main_v109 Cert.ReferenceIdeal.main_v112 wK wR h6
  · kept Cert.KernelIdeal.main_v23 Cert.ReferenceIdeal.main_v26 wK wR h7
  · kept Cert.KernelIdeal.main_v41 Cert.ReferenceIdeal.main_v44 wK wR h8
  · kept Cert.KernelIdeal.main_v58 Cert.ReferenceIdeal.main_v61 wK wR h9
  · kept Cert.KernelIdeal.main_v76 Cert.ReferenceIdeal.main_v79 wK wR h10
  · kept Cert.KernelIdeal.main_v94 Cert.ReferenceIdeal.main_v97 wK wR h11
  · kept Cert.KernelIdeal.main_v21 Cert.ReferenceIdeal.main_v24 wK wR h12
  · kept Cert.KernelIdeal.main_v39 Cert.ReferenceIdeal.main_v42 wK wR h13
  · kept Cert.KernelIdeal.main_v57 Cert.ReferenceIdeal.main_v60 wK wR h14
  · kept Cert.KernelIdeal.main_v74 Cert.ReferenceIdeal.main_v77 wK wR h15
  · kept Cert.KernelIdeal.main_v92 Cert.ReferenceIdeal.main_v95 wK wR h16

/-- Over stretch 21 (21 operations) agreement is kept. -/
theorem agree21 (VK : Valuation Cert.KernelIdeal.τ Cert.KernelIdeal.sig (Elt F)) (VR : Valuation Cert.ReferenceIdeal.τ Cert.ReferenceIdeal.sig (Elt F))
    (h : Agree21 VK VR) : Agree22 (StableHlo.after Cert.KernelIdeal.Gen.hostOps1_21 VK) (StableHlo.after Cert.ReferenceIdeal.Ops.refOps21 VR) := by
  obtain ⟨h0, h1, h2, h3, h4, h5, h6, h7, h8, h9, h10, h11, h12, h13, h14, h15, h16, h17⟩ := h
  have wK := Cert.KernelIdeal.Fr.hostOps1_21_writes (F := F)
  have wR := Cert.ReferenceIdeal.Ops.refOps21_writes (F := F)
  refine ⟨?_, ?_, ?_, ?_, ?_, ?_, ?_, ?_, ?_, ?_, ?_, ?_, ?_, ?_, ?_, ?_, ?_, ?_⟩
  · kept Cert.KernelIdeal.main_v108 Cert.ReferenceIdeal.main_v111 wK wR h0
  · kept Cert.KernelIdeal.main_v20 Cert.ReferenceIdeal.main_v23 wK wR h2
  · kept Cert.KernelIdeal.main_v38 Cert.ReferenceIdeal.main_v41 wK wR h3
  · kept Cert.KernelIdeal.main_v56 Cert.ReferenceIdeal.main_v59 wK wR h4
  · kept Cert.KernelIdeal.main_v73 Cert.ReferenceIdeal.main_v76 wK wR h5
  · kept Cert.KernelIdeal.main_v91 Cert.ReferenceIdeal.main_v94 wK wR h6
  · kept Cert.KernelIdeal.main_v109 Cert.ReferenceIdeal.main_v112 wK wR h7
  · kept Cert.KernelIdeal.main_v23 Cert.ReferenceIdeal.main_v26 wK wR h8
  · kept Cert.KernelIdeal.main_v41 Cert.ReferenceIdeal.main_v44 wK wR h9
  · kept Cert.KernelIdeal.main_v58 Cert.ReferenceIdeal.main_v61 wK wR h10
  · kept Cert.KernelIdeal.main_v76 Cert.ReferenceIdeal.main_v79 wK wR h11
  · kept Cert.KernelIdeal.main_v94 Cert.ReferenceIdeal.main_v97 wK wR h12
  · kept Cert.KernelIdeal.main_v21 Cert.ReferenceIdeal.main_v24 wK wR h13
  · kept Cert.KernelIdeal.main_v39 Cert.ReferenceIdeal.main_v42 wK wR h14
  · kept Cert.KernelIdeal.main_v57 Cert.ReferenceIdeal.main_v60 wK wR h15
  · kept Cert.KernelIdeal.main_v74 Cert.ReferenceIdeal.main_v77 wK wR h16
  · kept Cert.KernelIdeal.main_v92 Cert.ReferenceIdeal.main_v95 wK wR h17
  · -- main_v110 ↔ main_v113, written in this stretch: the same operations applied to agreeing contents
    dsimp only [Cert.KernelIdeal.Gen.hostOps1_21, Cert.ReferenceIdeal.Ops.refOps21]
    after_results_simp <;> (try simp only [h0, h1, h2, h3, h4, h5, h6, h7, h8, h9, h10, h11, h12, h13, h14, h15, h16, h17]) <;> (try rfl)

/-- Agreement inside stretch 22, before its operation 11. -/
abbrev Agree22_1 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v113) = VR (Proc.devRef .tc Cert.ReferenceIdeal.main_v116)) ∧
  (VK (Proc.devRef .tc Cert.KernelIdeal.main_v114) = VR (Proc.devRef .tc Cert.ReferenceIdeal.main_v117)) ∧
  (VK (Proc.devRef .tc Cert.KernelIdeal.main_v115) = VR (Proc.devRef .tc Cert.ReferenceIdeal.main_v118)) ∧
  (VK (Proc.devRef .tc Cert.KernelIdeal.main_v116) = VR (Proc.devRef .tc Cert.ReferenceIdeal.main_v119)) ∧
  (VK (Proc.devRef .tc Cert.KernelIdeal.main_v117) = VR (Proc.devRef .tc Cert.ReferenceIdeal.main_v120)) ∧
  (VK (Proc.devRef .tc Cert.KernelIdeal.main_v118) = VR (Proc.devRef .tc Cert.ReferenceIdeal.main_v121)) ∧
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v76) = VR (Proc.devRef .tc Cert.ReferenceIdeal.main_v79)) ∧
  (VK (Proc.devRef .tc Cert.KernelIdeal.main_v94) = VR (Proc.devRef .tc Cert.ReferenceIdeal.main_v97)) ∧
  (VK (Proc.devRef .tc Cert.KernelIdeal.main_v112) = VR (Proc.devRef .tc Cert.ReferenceIdeal.main_v115)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77)) ∧
  (VK (Proc.devRef .tc Cert.KernelIdeal.main_v92) = VR (Proc.devRef .tc Cert.ReferenceIdeal.main_v95)) ∧
  (VK (Proc.devRef .tc Cert.KernelIdeal.main_v110) = VR (Proc.devRef .tc Cert.ReferenceIdeal.main_v113))
/-- Agreement inside stretch 22, before its operation 12. -/
abbrev Agree22_2 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v23) = VR (Proc.devRef .tc Cert.ReferenceIdeal.main_v26)) ∧
  (VK (Proc.devRef .tc Cert.KernelIdeal.main_v41) = VR (Proc.devRef .tc Cert.ReferenceIdeal.main_v44)) ∧
  (VK (Proc.devRef .tc Cert.KernelIdeal.main_v58) = VR (Proc.devRef .tc Cert.ReferenceIdeal.main_v61)) ∧
  (VK (Proc.devRef .tc Cert.KernelIdeal.main_v76) = VR (Proc.devRef .tc Cert.ReferenceIdeal.main_v79)) ∧
  (VK (Proc.devRef .tc Cert.KernelIdeal.main_v94) = VR (Proc.devRef .tc Cert.ReferenceIdeal.main_v97)) ∧
  (VK (Proc.devRef .tc Cert.KernelIdeal.main_v112) = VR (Proc.devRef .tc Cert.ReferenceIdeal.main_v115)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77)) ∧
  (VK (Proc.devRef .tc Cert.KernelIdeal.main_v92) = VR (Proc.devRef .tc Cert.ReferenceIdeal.main_v95)) ∧
  (VK (Proc.devRef .tc Cert.KernelIdeal.main_v110) = VR (Proc.devRef .tc Cert.ReferenceIdeal.main_v113)) ∧
  (VK (Proc.devRef .tc Cert.KernelIdeal.main_v119) = VR (Proc.devRef .tc Cert.ReferenceIdeal.main_v122))
/-- Agreement inside stretch 22, before its operation 18. -/
abbrev Agree22_3 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v120) = VR (Proc.devRef .tc Cert.ReferenceIdeal.main_v123)) ∧
  (VK (Proc.devRef .tc Cert.KernelIdeal.main_v121) = VR (Proc.devRef .tc Cert.ReferenceIdeal.main_v124)) ∧
  (VK (Proc.devRef .tc Cert.KernelIdeal.main_v122) = VR (Proc.devRef .tc Cert.ReferenceIdeal.main_v125)) ∧
  (VK (Proc.devRef .tc Cert.KernelIdeal.main_v123) = VR (Proc.devRef .tc Cert.ReferenceIdeal.main_v126)) ∧
  (VK (Proc.devRef .tc Cert.KernelIdeal.main_v124) = VR (Proc.devRef .tc Cert.ReferenceIdeal.main_v127)) ∧
  (VK (Proc.devRef .tc Cert.KernelIdeal.main_v125) = VR (Proc.devRef .tc Cert.ReferenceIdeal.main_v128)) ∧
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77)) ∧
  (VK (Proc.devRef .tc Cert.KernelIdeal.main_v92) = VR (Proc.devRef .tc Cert.ReferenceIdeal.main_v95)) ∧
  (VK (Proc.devRef .tc Cert.KernelIdeal.main_v110) = VR (Proc.devRef .tc Cert.ReferenceIdeal.main_v113)) ∧
  (VK (Proc.devRef .tc Cert.KernelIdeal.main_v119) = VR (Proc.devRef .tc Cert.ReferenceIdeal.main_v122))
/-- Agreement inside stretch 22, before its operation 19. -/
abbrev Agree22_4 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v21) = VR (Proc.devRef .tc Cert.ReferenceIdeal.main_v24)) ∧
  (VK (Proc.devRef .tc Cert.KernelIdeal.main_v39) = VR (Proc.devRef .tc Cert.ReferenceIdeal.main_v42)) ∧
  (VK (Proc.devRef .tc Cert.KernelIdeal.main_v57) = VR (Proc.devRef .tc Cert.ReferenceIdeal.main_v60)) ∧
  (VK (Proc.devRef .tc Cert.KernelIdeal.main_v74) = VR (Proc.devRef .tc Cert.ReferenceIdeal.main_v77)) ∧
  (VK (Proc.devRef .tc Cert.KernelIdeal.main_v92) = VR (Proc.devRef .tc Cert.ReferenceIdeal.main_v95)) ∧
  (VK (Proc.devRef .tc Cert.KernelIdeal.main_v110) = VR (Proc.devRef .tc Cert.ReferenceIdeal.main_v113)) ∧
  (VK (Proc.devRef .tc Cert.KernelIdeal.main_v119) = VR (Proc.devRef .tc Cert.ReferenceIdeal.main_v122)) ∧
  (VK (Proc.devRef .tc Cert.KernelIdeal.main_v126) = VR (Proc.devRef .tc Cert.ReferenceIdeal.main_v129))
/-- Agreement inside stretch 22, before its operation 25. -/
abbrev Agree22_5 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v127) = VR (Proc.devRef .tc Cert.ReferenceIdeal.main_v130)) ∧
  (VK (Proc.devRef .tc Cert.KernelIdeal.main_v128) = VR (Proc.devRef .tc Cert.ReferenceIdeal.main_v131)) ∧
  (VK (Proc.devRef .tc Cert.KernelIdeal.main_v129) = VR (Proc.devRef .tc Cert.ReferenceIdeal.main_v132)) ∧
  (VK (Proc.devRef .tc Cert.KernelIdeal.main_v130) = VR (Proc.devRef .tc Cert.ReferenceIdeal.main_v133)) ∧
  (VK (Proc.devRef .tc Cert.KernelIdeal.main_v131) = VR (Proc.devRef .tc Cert.ReferenceIdeal.main_v134)) ∧
  (VK (Proc.devRef .tc Cert.KernelIdeal.main_v132) = VR (Proc.devRef .tc Cert.ReferenceIdeal.main_v135)) ∧
  (VK (Proc.devRef .tc Cert.KernelIdeal.main_v119) = VR (Proc.devRef .tc Cert.ReferenceIdeal.main_v122)) ∧
  (VK (Proc.devRef .tc Cert.KernelIdeal.main_v126) = VR (Proc.devRef .tc Cert.ReferenceIdeal.main_v129))
/-- Agreement inside stretch 22, before its operation 26. -/
abbrev Agree22_6 (VK : Valuation Cert.KernelIdeal.τ Cert.KernelIdeal.sig (Elt F)) (VR : Valuation Cert.ReferenceIdeal.τ Cert.ReferenceIdeal.sig (Elt F)) : Prop :=
  (VK (Proc.devRef .tc Cert.KernelIdeal.main_v119) = VR (Proc.devRef .tc Cert.ReferenceIdeal.main_v122)) ∧
  (VK (Proc.devRef .tc Cert.KernelIdeal.main_v126) = VR (Proc.devRef .tc Cert.ReferenceIdeal.main_v129)) ∧
  (VK (Proc.devRef .tc Cert.KernelIdeal.main_v133) = VR (Proc.devRef .tc Cert.ReferenceIdeal.main_v136))

/-- Over operations 1 … 10 of stretch 22 agreement is kept. -/
theorem agree22_0 (VK : Valuation Cert.KernelIdeal.τ Cert.KernelIdeal.sig (Elt F)) (VR : Valuation Cert.ReferenceIdeal.τ Cert.ReferenceIdeal.sig (Elt F))
    (h : Agree22 VK VR) : Agree22_1 (StableHlo.after Cert.KernelIdeal.Fr.kerOps22_0 VK) (StableHlo.after Cert.ReferenceIdeal.Ops.refOps22_0 VR) := by
  obtain ⟨h0, h1, h2, h3, h4, h5, h6, h7, h8, h9, h10, h11, h12, h13, h14, h15, h16, h17⟩ := h
  have wK := Cert.KernelIdeal.Fr.kerOps22_0_writes (F := F)
  have wR := Cert.ReferenceIdeal.Ops.refOps22_0_writes (F := F)
  refine ⟨?_, ?_, ?_, ?_, ?_, ?_, ?_, ?_, ?_, ?_, ?_, ?_, ?_, ?_, ?_, ?_, ?_, ?_⟩
  · -- main_v113 ↔ main_v116, written here: the same operations applied to agreeing contents
    dsimp only [Cert.KernelIdeal.Fr.kerOps22_0, Cert.ReferenceIdeal.Ops.refOps22_0]
    after_results_simp <;> (try simp only [h0, h1, h2, h3, h4, h5, h6, h7, h8, h9, h10, h11, h12, h13, h14, h15, h16, h17]) <;> (try rfl)
  · -- main_v114 ↔ main_v117, written here: the same operations applied to agreeing contents
    dsimp only [Cert.KernelIdeal.Fr.kerOps22_0, Cert.ReferenceIdeal.Ops.refOps22_0]
    after_results_simp <;> (try simp only [h0, h1, h2, h3, h4, h5, h6, h7, h8, h9, h10, h11, h12, h13, h14, h15, h16, h17]) <;> (try rfl)
  · -- main_v115 ↔ main_v118, written here: the same operations applied to agreeing contents
    dsimp only [Cert.KernelIdeal.Fr.kerOps22_0, Cert.ReferenceIdeal.Ops.refOps22_0]
    after_results_simp <;> (try simp only [h0, h1, h2, h3, h4, h5, h6, h7, h8, h9, h10, h11, h12, h13, h14, h15, h16, h17]) <;> (try rfl)
  · -- main_v116 ↔ main_v119, written here: the same operations applied to agreeing contents
    dsimp only [Cert.KernelIdeal.Fr.kerOps22_0, Cert.ReferenceIdeal.Ops.refOps22_0]
    after_results_simp <;> (try simp only [h0, h1, h2, h3, h4, h5, h6, h7, h8, h9, h10, h11, h12, h13, h14, h15, h16, h17]) <;> (try rfl)
  · -- main_v117 ↔ main_v120, written here: the same operations applied to agreeing contents
    dsimp only [Cert.KernelIdeal.Fr.kerOps22_0, Cert.ReferenceIdeal.Ops.refOps22_0]
    after_results_simp <;> (try simp only [h0, h1, h2, h3, h4, h5, h6, h7, h8, h9, h10, h11, h12, h13, h14, h15, h16, h17]) <;> (try rfl)
  · -- main_v118 ↔ main_v121, written here: the same operations applied to agreeing contents
    dsimp only [Cert.KernelIdeal.Fr.kerOps22_0, Cert.ReferenceIdeal.Ops.refOps22_0]
    after_results_simp <;> (try simp only [h0, h1, h2, h3, h4, h5, h6, h7, h8, h9, h10, h11, h12, h13, h14, h15, h16, h17]) <;> (try rfl)
  · kept Cert.KernelIdeal.main_v23 Cert.ReferenceIdeal.main_v26 wK wR h7
  · kept Cert.KernelIdeal.main_v41 Cert.ReferenceIdeal.main_v44 wK wR h8
  · kept Cert.KernelIdeal.main_v58 Cert.ReferenceIdeal.main_v61 wK wR h9
  · kept Cert.KernelIdeal.main_v76 Cert.ReferenceIdeal.main_v79 wK wR h10
  · kept Cert.KernelIdeal.main_v94 Cert.ReferenceIdeal.main_v97 wK wR h11
  · -- main_v112 ↔ main_v115, written here: the same operations applied to agreeing contents
    dsimp only [Cert.KernelIdeal.Fr.kerOps22_0, Cert.ReferenceIdeal.Ops.refOps22_0]
    after_results_simp <;> (try simp only [h0, h1, h2, h3, h4, h5, h6, h7, h8, h9, h10, h11, h12, h13, h14, h15, h16, h17]) <;> (try rfl)
  · kept Cert.KernelIdeal.main_v21 Cert.ReferenceIdeal.main_v24 wK wR h12
  · kept Cert.KernelIdeal.main_v39 Cert.ReferenceIdeal.main_v42 wK wR h13
  · kept Cert.KernelIdeal.main_v57 Cert.ReferenceIdeal.main_v60 wK wR h14
  · kept Cert.KernelIdeal.main_v74 Cert.ReferenceIdeal.main_v77 wK wR h15
  · kept Cert.KernelIdeal.main_v92 Cert.ReferenceIdeal.main_v95 wK wR h16
  · kept Cert.KernelIdeal.main_v110 Cert.ReferenceIdeal.main_v113 wK wR h17

/-- Over operations 11 … 11 of stretch 22 agreement is kept. -/
theorem agree22_1 (VK : Valuation Cert.KernelIdeal.τ Cert.KernelIdeal.sig (Elt F)) (VR : Valuation Cert.ReferenceIdeal.τ Cert.ReferenceIdeal.sig (Elt F))
    (h : Agree22_1 VK VR) : Agree22_2 (StableHlo.after Cert.KernelIdeal.Fr.kerOps22_1 VK) (StableHlo.after Cert.ReferenceIdeal.Ops.refOps22_1 VR) := by
  obtain ⟨h0, h1, h2, h3, h4, h5, h6, h7, h8, h9, h10, h11, h12, h13, h14, h15, h16, h17⟩ := h
  have wK := Cert.KernelIdeal.Fr.kerOps22_1_writes (F := F)
  have wR := Cert.ReferenceIdeal.Ops.refOps22_1_writes (F := F)
  refine ⟨?_, ?_, ?_, ?_, ?_, ?_, ?_, ?_, ?_, ?_, ?_, ?_, ?_⟩
  · kept Cert.KernelIdeal.main_v23 Cert.ReferenceIdeal.main_v26 wK wR h6
  · kept Cert.KernelIdeal.main_v41 Cert.ReferenceIdeal.main_v44 wK wR h7
  · kept Cert.KernelIdeal.main_v58 Cert.ReferenceIdeal.main_v61 wK wR h8
  · kept Cert.KernelIdeal.main_v76 Cert.ReferenceIdeal.main_v79 wK wR h9
  · kept Cert.KernelIdeal.main_v94 Cert.ReferenceIdeal.main_v97 wK wR h10
  · kept Cert.KernelIdeal.main_v112 Cert.ReferenceIdeal.main_v115 wK wR h11
  · kept Cert.KernelIdeal.main_v21 Cert.ReferenceIdeal.main_v24 wK wR h12
  · kept Cert.KernelIdeal.main_v39 Cert.ReferenceIdeal.main_v42 wK wR h13
  · kept Cert.KernelIdeal.main_v57 Cert.ReferenceIdeal.main_v60 wK wR h14
  · kept Cert.KernelIdeal.main_v74 Cert.ReferenceIdeal.main_v77 wK wR h15
  · kept Cert.KernelIdeal.main_v92 Cert.ReferenceIdeal.main_v95 wK wR h16
  · kept Cert.KernelIdeal.main_v110 Cert.ReferenceIdeal.main_v113 wK wR h17
  · -- main_v119 ↔ main_v122: the concatenation of six operands that agree
    show StableHlo.after Cert.KernelIdeal.Fr.kerOps22_1 VK (Proc.devRef .tc Cert.KernelIdeal.main_v119) = StableHlo.after Cert.ReferenceIdeal.Ops.refOps22_1 VR (Proc.devRef .tc Cert.ReferenceIdeal.main_v122)
    dsimp only [Cert.KernelIdeal.Fr.kerOps22_1, Cert.ReferenceIdeal.Ops.refOps22_1]
    simp only [StableHlo.after_cons, StableHlo.after_nil]
    rw [nary6_result, nary6_result, h0, h1, h2, h3, h4, h5] <;> (try rfl)

/-- Over operations 12 … 17 of stretch 22 agreement is kept. -/
theorem agree22_2 (VK : Valuation Cert.KernelIdeal.τ Cert.KernelIdeal.sig (Elt F)) (VR : Valuation Cert.ReferenceIdeal.τ Cert.ReferenceIdeal.sig (Elt F))
    (h : Agree22_2 VK VR) : Agree22_3 (StableHlo.after Cert.KernelIdeal.Fr.kerOps22_2 VK) (StableHlo.after Cert.ReferenceIdeal.Ops.refOps22_2 VR) := by
  obtain ⟨h0, h1, h2, h3, h4, h5, h6, h7, h8, h9, h10, h11, h12⟩ := h
  have wK := Cert.KernelIdeal.Fr.kerOps22_2_writes (F := F)
  have wR := Cert.ReferenceIdeal.Ops.refOps22_2_writes (F := F)
  refine ⟨?_, ?_, ?_, ?_, ?_, ?_, ?_, ?_, ?_, ?_, ?_, ?_, ?_⟩
  · -- main_v120 ↔ main_v123, written here: the same operations applied to agreeing contents
    dsimp only [Cert.KernelIdeal.Fr.kerOps22_2, Cert.ReferenceIdeal.Ops.refOps22_2]
    after_results_simp <;> (try simp only [h0, h1, h2, h3, h4, h5, h6, h7, h8, h9, h10, h11, h12]) <;> (try rfl)
  · -- main_v121 ↔ main_v124, written here: the same operations applied to agreeing contents
    dsimp only [Cert.KernelIdeal.Fr.kerOps22_2, Cert.ReferenceIdeal.Ops.refOps22_2]
    after_results_simp <;> (try simp only [h0, h1, h2, h3, h4, h5, h6, h7, h8, h9, h10, h11, h12]) <;> (try rfl)
  · -- main_v122 ↔ main_v125, written here: the same operations applied to agreeing contents
    dsimp only [Cert.KernelIdeal.Fr.kerOps22_2, Cert.ReferenceIdeal.Ops.refOps22_2]
    after_results_simp <;> (try simp only [h0, h1, h2, h3, h4, h5, h6, h7, h8, h9, h10, h11, h12]) <;> (try rfl)
  · -- main_v123 ↔ main_v126, written here: the same operations applied to agreeing contents
    dsimp only [Cert.KernelIdeal.Fr.kerOps22_2, Cert.ReferenceIdeal.Ops.refOps22_2]
    after_results_simp <;> (try simp only [h0, h1, h2, h3, h4, h5, h6, h7, h8, h9, h10, h11, h12]) <;> (try rfl)
  · -- main_v124 ↔ main_v127, written here: the same operations applied to agreeing contents
    dsimp only [Cert.KernelIdeal.Fr.kerOps22_2, Cert.ReferenceIdeal.Ops.refOps22_2]
    after_results_simp <;> (try simp only [h0, h1, h2, h3, h4, h5, h6, h7, h8, h9, h10, h11, h12]) <;> (try rfl)
  · -- main_v125 ↔ main_v128, written here: the same operations applied to agreeing contents
    dsimp only [Cert.KernelIdeal.Fr.kerOps22_2, Cert.ReferenceIdeal.Ops.refOps22_2]
    after_results_simp <;> (try simp only [h0, h1, h2, h3, h4, h5, h6, h7, h8, h9, h10, h11, h12]) <;> (try rfl)
  · kept Cert.KernelIdeal.main_v21 Cert.ReferenceIdeal.main_v24 wK wR h6
  · kept Cert.KernelIdeal.main_v39 Cert.ReferenceIdeal.main_v42 wK wR h7
  · kept Cert.KernelIdeal.main_v57 Cert.ReferenceIdeal.main_v60 wK wR h8
  · kept Cert.KernelIdeal.main_v74 Cert.ReferenceIdeal.main_v77 wK wR h9
  · kept Cert.KernelIdeal.main_v92 Cert.ReferenceIdeal.main_v95 wK wR h10
  · kept Cert.KernelIdeal.main_v110 Cert.ReferenceIdeal.main_v113 wK wR h11
  · kept Cert.KernelIdeal.main_v119 Cert.ReferenceIdeal.main_v122 wK wR h12

/-- Over operations 18 … 18 of stretch 22 agreement is kept. -/
theorem agree22_3 (VK : Valuation Cert.KernelIdeal.τ Cert.KernelIdeal.sig (Elt F)) (VR : Valuation Cert.ReferenceIdeal.τ Cert.ReferenceIdeal.sig (Elt F))
    (h : Agree22_3 VK VR) : Agree22_4 (StableHlo.after Cert.KernelIdeal.Fr.kerOps22_3 VK) (StableHlo.after Cert.ReferenceIdeal.Ops.refOps22_3 VR) := by
  obtain ⟨h0, h1, h2, h3, h4, h5, h6, h7, h8, h9, h10, h11, h12⟩ := h
  have wK := Cert.KernelIdeal.Fr.kerOps22_3_writes (F := F)
  have wR := Cert.ReferenceIdeal.Ops.refOps22_3_writes (F := F)
  refine ⟨?_, ?_, ?_, ?_, ?_, ?_, ?_, ?_⟩
  · kept Cert.KernelIdeal.main_v21 Cert.ReferenceIdeal.main_v24 wK wR h6
  · kept Cert.KernelIdeal.main_v39 Cert.ReferenceIdeal.main_v42 wK wR h7
  · kept Cert.KernelIdeal.main_v57 Cert.ReferenceIdeal.main_v60 wK wR h8
  · kept Cert.KernelIdeal.main_v74 Cert.ReferenceIdeal.main_v77 wK wR h9
  · kept Cert.KernelIdeal.main_v92 Cert.ReferenceIdeal.main_v95 wK wR h10
  · kept Cert.KernelIdeal.main_v110 Cert.ReferenceIdeal.main_v113 wK wR h11
  · kept Cert.KernelIdeal.main_v119 Cert.ReferenceIdeal.main_v122 wK wR h12
  · -- main_v126 ↔ main_v129: the concatenation of six operands that agree
    show StableHlo.after Cert.KernelIdeal.Fr.kerOps22_3 VK (Proc.devRef .tc Cert.KernelIdeal.main_v126) = StableHlo.after Cert.ReferenceIdeal.Ops.refOps22_3 VR (Proc.devRef .tc Cert.ReferenceIdeal.main_v129)
    dsimp only [Cert.KernelIdeal.Fr.kerOps22_3, Cert.ReferenceIdeal.Ops.refOps22_3]
    simp only [StableHlo.after_cons, StableHlo.after_nil]
    rw [nary6_result, nary6_result, h0, h1, h2, h3, h4, h5] <;> (try rfl)

/-- Over operations 19 … 24 of stretch 22 agreement is kept. -/
theorem agree22_4 (VK : Valuation Cert.KernelIdeal.τ Cert.KernelIdeal.sig (Elt F)) (VR : Valuation Cert.ReferenceIdeal.τ Cert.ReferenceIdeal.sig (Elt F))
    (h : Agree22_4 VK VR) : Agree22_5 (StableHlo.after Cert.KernelIdeal.Fr.kerOps22_4 VK) (StableHlo.after Cert.ReferenceIdeal.Ops.refOps22_4 VR) := by
  obtain ⟨h0, h1, h2, h3, h4, h5, h6, h7⟩ := h
  have wK := Cert.KernelIdeal.Fr.kerOps22_4_writes (F := F)
  have wR := Cert.ReferenceIdeal.Ops.refOps22_4_writes (F := F)
  refine ⟨?_, ?_, ?_, ?_, ?_, ?_, ?_, ?_⟩
  · -- main_v127 ↔ main_v130, written here: the same operations applied to agreeing contents
    dsimp only [Cert.KernelIdeal.Fr.kerOps22_4, Cert.ReferenceIdeal.Ops.refOps22_4]
    after_results_simp <;> (try simp only [h0, h1, h2, h3, h4, h5, h6, h7]) <;> (try rfl)
  · -- main_v128 ↔ main_v131, written here: the same operations applied to agreeing contents
    dsimp only [Cert.KernelIdeal.Fr.kerOps22_4, Cert.ReferenceIdeal.Ops.refOps22_4]
    after_results_simp <;> (try simp only [h0, h1, h2, h3, h4, h5, h6, h7]) <;> (try rfl)
  · -- main_v129 ↔ main_v132, written here: the same operations applied to agreeing contents
    dsimp only [Cert.KernelIdeal.Fr.kerOps22_4, Cert.ReferenceIdeal.Ops.refOps22_4]
    after_results_simp <;> (try simp only [h0, h1, h2, h3, h4, h5, h6, h7]) <;> (try rfl)
  · -- main_v130 ↔ main_v133, written here: the same operations applied to agreeing contents
    dsimp only [Cert.KernelIdeal.Fr.kerOps22_4, Cert.ReferenceIdeal.Ops.refOps22_4]
    after_results_simp <;> (try simp only [h0, h1, h2, h3, h4, h5, h6, h7]) <;> (try rfl)
  · -- main_v131 ↔ main_v134, written here: the same operations applied to agreeing contents
    dsimp only [Cert.KernelIdeal.Fr.kerOps22_4, Cert.ReferenceIdeal.Ops.refOps22_4]
    after_results_simp <;> (try simp only [h0, h1, h2, h3, h4, h5, h6, h7]) <;> (try rfl)
  · -- main_v132 ↔ main_v135, written here: the same operations applied to agreeing contents
    dsimp only [Cert.KernelIdeal.Fr.kerOps22_4, Cert.ReferenceIdeal.Ops.refOps22_4]
    after_results_simp <;> (try simp only [h0, h1, h2, h3, h4, h5, h6, h7]) <;> (try rfl)
  · kept Cert.KernelIdeal.main_v119 Cert.ReferenceIdeal.main_v122 wK wR h6
  · kept Cert.KernelIdeal.main_v126 Cert.ReferenceIdeal.main_v129 wK wR h7

/-- Over operations 25 … 25 of stretch 22 agreement is kept. -/
theorem agree22_5 (VK : Valuation Cert.KernelIdeal.τ Cert.KernelIdeal.sig (Elt F)) (VR : Valuation Cert.ReferenceIdeal.τ Cert.ReferenceIdeal.sig (Elt F))
    (h : Agree22_5 VK VR) : Agree22_6 (StableHlo.after Cert.KernelIdeal.Fr.kerOps22_5 VK) (StableHlo.after Cert.ReferenceIdeal.Ops.refOps22_5 VR) := by
  obtain ⟨h0, h1, h2, h3, h4, h5, h6, h7⟩ := h
  have wK := Cert.KernelIdeal.Fr.kerOps22_5_writes (F := F)
  have wR := Cert.ReferenceIdeal.Ops.refOps22_5_writes (F := F)
  refine ⟨?_, ?_, ?_⟩
  · kept Cert.KernelIdeal.main_v119 Cert.ReferenceIdeal.main_v122 wK wR h6
  · kept Cert.KernelIdeal.main_v126 Cert.ReferenceIdeal.main_v129 wK wR h7
  · -- main_v133 ↔ main_v136: the concatenation of six operands that agree
    show StableHlo.after Cert.KernelIdeal.Fr.kerOps22_5 VK (Proc.devRef .tc Cert.KernelIdeal.main_v133) = StableHlo.after Cert.ReferenceIdeal.Ops.refOps22_5 VR (Proc.devRef .tc Cert.ReferenceIdeal.main_v136)
    dsimp only [Cert.KernelIdeal.Fr.kerOps22_5, Cert.ReferenceIdeal.Ops.refOps22_5]
    simp only [StableHlo.after_cons, StableHlo.after_nil]
    rw [nary6_result, nary6_result, h0, h1, h2, h3, h4, h5] <;> (try rfl)

/-- Over operations 26 … 27 of stretch 22 agreement is kept. -/
theorem agree22_6 (VK : Valuation Cert.KernelIdeal.τ Cert.KernelIdeal.sig (Elt F)) (VR : Valuation Cert.ReferenceIdeal.τ Cert.ReferenceIdeal.sig (Elt F))
    (h : Agree22_6 VK VR) : Agree23 (StableHlo.after Cert.KernelIdeal.Fr.kerOps22_6 VK) (StableHlo.after Cert.ReferenceIdeal.Ops.refOps22_6 VR) := by
  obtain ⟨h0, h1, h2⟩ := h
  have wK := Cert.KernelIdeal.Fr.kerOps22_6_writes (F := F)
  have wR := Cert.ReferenceIdeal.Ops.refOps22_6_writes (F := F)
  refine ⟨?_, ?_, ?_, ?_⟩
  · -- main_v134 ↔ main_v137, written here: the same operations applied to agreeing contents
    dsimp only [Cert.KernelIdeal.Fr.kerOps22_6, Cert.ReferenceIdeal.Ops.refOps22_6]
    after_results_simp <;> (try simp only [h0, h1, h2]) <;> (try rfl)
  · kept Cert.KernelIdeal.main_v119 Cert.ReferenceIdeal.main_v122 wK wR h0
  · kept Cert.KernelIdeal.main_v126 Cert.ReferenceIdeal.main_v129 wK wR h1
  · kept Cert.KernelIdeal.main_v133 Cert.ReferenceIdeal.main_v136 wK wR h2

/-- Over stretch 22 (27 operations: three concatenations of six, each with the operations that prepare its operands)
    agreement is kept: the stretch is its seven pieces one after the other. -/
theorem agree22 (VK : Valuation Cert.KernelIdeal.τ Cert.KernelIdeal.sig (Elt F)) (VR : Valuation Cert.ReferenceIdeal.τ Cert.ReferenceIdeal.sig (Elt F))
    (h : Agree22 VK VR) : Agree23 (StableHlo.after Cert.KernelIdeal.Gen.hostOps1_22 VK) (StableHlo.after Cert.ReferenceIdeal.Ops.refOps22 VR) := by
  have eK : (Cert.KernelIdeal.Gen.hostOps1_22 : List (HloOp Cert.KernelIdeal.τ Cert.KernelIdeal.sig (Elt F)))
      = List.flatten [Cert.KernelIdeal.Fr.kerOps22_0, Cert.KernelIdeal.Fr.kerOps22_1, Cert.KernelIdeal.Fr.kerOps22_2, Cert.KernelIdeal.Fr.kerOps22_3, Cert.KernelIdeal.Fr.kerOps22_4, Cert.KernelIdeal.Fr.kerOps22_5, Cert.KernelIdeal.Fr.kerOps22_6] := rfl
  have eR : (Cert.ReferenceIdeal.Ops.refOps22 : List (HloOp Cert.ReferenceIdeal.τ Cert.ReferenceIdeal.sig (Elt F)))
      = List.flatten [Cert.ReferenceIdeal.Ops.refOps22_0, Cert.ReferenceIdeal.Ops.refOps22_1, Cert.ReferenceIdeal.Ops.refOps22_2, Cert.ReferenceIdeal.Ops.refOps22_3, Cert.ReferenceIdeal.Ops.refOps22_4, Cert.ReferenceIdeal.Ops.refOps22_5, Cert.ReferenceIdeal.Ops.refOps22_6] := rfl
  rw [eK, eR]
  simp only [List.flatten_cons, List.flatten_nil, List.append_nil, StableHlo.after_append]
  exact agree22_6 _ _ (agree22_5 _ _ (agree22_4 _ _ (agree22_3 _ _ (agree22_2 _ _ (agree22_1 _ _ (agree22_0 _ _ (h)))))))

/-- Over stretch 23 (9 operations) agreement is kept. -/
theorem agree23 (VK : Valuation Cert.KernelIdeal.τ Cert.KernelIdeal.sig (Elt F)) (VR : Valuation Cert.ReferenceIdeal.τ Cert.ReferenceIdeal.sig (Elt F))
    (h : Agree23 VK VR) : Agree24 (StableHlo.after Cert.KernelIdeal.Gen.hostOps1_23 VK) (StableHlo.after Cert.ReferenceIdeal.Ops.refOps23 VR) := by
  obtain ⟨h0, h1, h2, h3⟩ := h
  have wK := Cert.KernelIdeal.Fr.hostOps1_23_writes (F := F)
  have wR := Cert.ReferenceIdeal.Ops.refOps23_writes (F := F)
  refine ⟨?_, ?_, ?_, ?_⟩
  · kept Cert.KernelIdeal.main_v119 Cert.ReferenceIdeal.main_v122 wK wR h1
  · kept Cert.KernelIdeal.main_v126 Cert.ReferenceIdeal.main_v129 wK wR h2
  · -- main_v135 ↔ main_v138, written in this stretch: the same operations applied to agreeing contents
    dsimp only [Cert.KernelIdeal.Gen.hostOps1_23, Cert.ReferenceIdeal.Ops.refOps23]
    after_results_simp <;> (try simp only [h0, h1, h2, h3]) <;> (try rfl)
  · kept Cert.KernelIdeal.main_v133 Cert.ReferenceIdeal.main_v136 wK wR h3

/-- Over stretch 24 (19 operations) agreement is kept. -/
theorem agree24 (VK : Valuation Cert.KernelIdeal.τ Cert.KernelIdeal.sig (Elt F)) (VR : Valuation Cert.ReferenceIdeal.τ Cert.ReferenceIdeal.sig (Elt F))
    (h : Agree24 VK VR) : Agree25 (StableHlo.after Cert.KernelIdeal.Gen.hostOps1_24 VK) (StableHlo.after Cert.ReferenceIdeal.Ops.refOps24 VR) := by
  obtain ⟨h0, h1, h2, h3⟩ := h
  have wK := Cert.KernelIdeal.Fr.hostOps1_24_writes (F := F)
  have wR := Cert.ReferenceIdeal.Ops.refOps24_writes (F := F)
  refine ⟨?_, ?_, ?_, ?_⟩
  · -- main_cst_53 ↔ main_cst_55, written in this stretch: the same operations applied to agreeing contents
    dsimp only [Cert.KernelIdeal.Gen.hostOps1_24, Cert.ReferenceIdeal.Ops.refOps24]
    after_results_simp <;> (try simp only [h0, h1, h2, h3]) <;> (try rfl)
  · kept Cert.KernelIdeal.main_v135 Cert.ReferenceIdeal.main_v138 wK wR h2
  · -- main_v152 ↔ main_v155, written in this stretch: the same operations applied to agreeing contents
    dsimp only [Cert.KernelIdeal.Gen.hostOps1_24, Cert.ReferenceIdeal.Ops.refOps24]
    after_results_simp <;> (try simp only [h0, h1, h2, h3]) <;> (try rfl)
  · kept Cert.KernelIdeal.main_v133 Cert.ReferenceIdeal.main_v136 wK wR h3

/-- Over stretch 25 (3 operations) agreement is kept. -/
theorem agree25 (VK : Valuation Cert.KernelIdeal.τ Cert.KernelIdeal.sig (Elt F)) (VR : Valuation Cert.ReferenceIdeal.τ Cert.ReferenceIdeal.sig (Elt F))
    (h : Agree25 VK VR) : Agree26 (StableHlo.after Cert.KernelIdeal.Gen.hostOps1_25 VK) (StableHlo.after Cert.ReferenceIdeal.Ops.refOps25 VR) := by
  obtain ⟨h0, h1, h2, h3⟩ := h
  have wK := Cert.KernelIdeal.Fr.hostOps1_25_writes (F := F)
  have wR := Cert.ReferenceIdeal.Ops.refOps25_writes (F := F)
  refine ⟨?_, ?_⟩
  · -- main_v153 ↔ main_v156, written in this stretch: the same operations applied to agreeing contents
    dsimp only [Cert.KernelIdeal.Gen.hostOps1_25, Cert.ReferenceIdeal.Ops.refOps25]
    after_results_simp <;> (try simp only [h0, h1, h2, h3]) <;> (try rfl)
  · kept Cert.KernelIdeal.main_v133 Cert.ReferenceIdeal.main_v136 wK wR h3

/-- Over stretch 26 (13 operations) agreement is kept. -/
theorem agree26 (VK : Valuation Cert.KernelIdeal.τ Cert.KernelIdeal.sig (Elt F)) (VR : Valuation Cert.ReferenceIdeal.τ Cert.ReferenceIdeal.sig (Elt F))
    (h : Agree26 VK VR) : Agree27 (StableHlo.after Cert.KernelIdeal.Gen.hostOps1_26 VK) (StableHlo.after Cert.ReferenceIdeal.Ops.refOps26 VR) := by
  obtain ⟨h0, h1⟩ := h
  have wK := Cert.KernelIdeal.Fr.hostOps1_26_writes (F := F)
  have wR := Cert.ReferenceIdeal.Ops.refOps26_writes (F := F)
  -- main_v162 ↔ main_v165, written in this stretch: the same operations applied to agreeing contents
  show StableHlo.after Cert.KernelIdeal.Gen.hostOps1_26 VK (Proc.devRef .tc Cert.KernelIdeal.main_v162) = StableHlo.after Cert.ReferenceIdeal.Ops.refOps26 VR (Proc.devRef .tc Cert.ReferenceIdeal.main_v165)
  dsimp only [Cert.KernelIdeal.Gen.hostOps1_26, Cert.ReferenceIdeal.Ops.refOps26]
  after_results_simp <;> (try simp only [h0, h1]) <;> (try rfl)

end Cert.Proof.Tails

end
-- ==== Proof.TailsAgree.lean ====
/-
  The two host tails agree. At Ideal, from contents that agree on the group means (the kernel program's main_v1,
  the reference's main_v4) and on the six integer tables, the kernel program's 447 operations after its region and
  the reference's 447 operations after its group means end at the same scalar: agreement at the start is carried
  over the twenty-seven stretches one after the other, and at the end it is the equation of the two results.
-/
import proofs.«135479_j53618371723721_2_alg».proof.Proof.TailsWa
import proofs.«135479_j53618371723721_2_alg».proof.Proof.TailsWb
import proofs.«135479_j53618371723721_2_alg».proof.Proof.TailsWc
import Idealize.ShloMosaic.PureOps.Ideal
import Idealize.ShloMosaic.Lib.Pipeline.Frame

set_option maxRecDepth 16384

noncomputable section

namespace Cert.Proof.Tails
open Idealize.ShloMosaic Idealize.SL.Sem

/-- Agreement at the start is agreement at the end, at any float model. -/
theorem agree_all {F : FTy → Type} [FloatOps F] (VK : Valuation Cert.KernelIdeal.τ Cert.KernelIdeal.sig (Elt F)) (VR : Valuation Cert.ReferenceIdeal.τ Cert.ReferenceIdeal.sig (Elt F)) (h : Agree0 VK VR) :
    Agree27 (StableHlo.after (Cert.KernelIdeal.Fr.tailOpss (F := F)).flatten VK) (StableHlo.after (Cert.ReferenceIdeal.Ops.tailOps (F := F)) VR) := by
  rw [Cert.ReferenceIdeal.Ops.tailOps_eq]
  simp only [Cert.KernelIdeal.Fr.tailOpss, List.flatten_cons, List.flatten_nil, List.append_nil, StableHlo.after_append]
  exact agree26 _ _ (agree25 _ _ (agree24 _ _ (agree23 _ _ (agree22 _ _ (agree21 _ _ (agree20 _ _ (agree19 _ _ (agree18 _ _ (agree17 _ _ (agree16 _ _ (agree15 _ _ (agree14 _ _ (agree13 _ _ (agree12 _ _ (agree11 _ _ (agree10 _ _ (agree9 _ _ (agree8 _ _ (agree7 _ _ (agree6 _ _ (agree5 _ _ (agree4 _ _ (agree3 _ _ (agree2 _ _ (agree1 _ _ (agree0 _ _ (h)))))))))))))))))))))))))))

theorem tails_agree (VK : Valuation Cert.KernelIdeal.τ Cert.KernelIdeal.sig (Elt Ideal)) (VR : Valuation Cert.ReferenceIdeal.τ Cert.ReferenceIdeal.sig (Elt Ideal))
    (hmean : VK (Proc.devRef .tc Cert.KernelIdeal.main_v1) = VR (Proc.devRef .tc Cert.ReferenceIdeal.main_v4))
    (hc : VK (Proc.devRef .tc Cert.KernelIdeal.main_c) = VR (Proc.devRef .tc Cert.ReferenceIdeal.main_c))
    (hc0 : VK (Proc.devRef .tc Cert.KernelIdeal.main_c_0) = VR (Proc.devRef .tc Cert.ReferenceIdeal.main_c_0))
    (hc1 : VK (Proc.devRef .tc Cert.KernelIdeal.main_c_1) = VR (Proc.devRef .tc Cert.ReferenceIdeal.main_c_1))
    (hc2 : VK (Proc.devRef .tc Cert.KernelIdeal.main_c_2) = VR (Proc.devRef .tc Cert.ReferenceIdeal.main_c_2))
    (hc3 : VK (Proc.devRef .tc Cert.KernelIdeal.main_c_3) = VR (Proc.devRef .tc Cert.ReferenceIdeal.main_c_3))
    (hc4 : VK (Proc.devRef .tc Cert.KernelIdeal.main_c_4) = VR (Proc.devRef .tc Cert.ReferenceIdeal.main_c_4)) :
    StableHlo.after (Cert.KernelIdeal.Fr.tailOpss (F := Ideal)).flatten VK (Proc.devRef .tc Cert.KernelIdeal.main_v162)
      = StableHlo.after (Cert.ReferenceIdeal.Ops.tailOps (F := Ideal)) VR (Proc.devRef .tc Cert.ReferenceIdeal.main_v165) :=
  agree_all VK VR ⟨hmean, hc, hc0, hc1, hc2, hc3, hc4⟩

end Cert.Proof.Tails

end
-- ==== Proof.Bridge.lean ====
/-
  The two idealized programs end at the same scalar. Both compute the [15, 4096] array of group means of the
  argument reshaped to [512, 15, 4096] — the kernel program block by block in its region (for each block of
  1024 columns a scratch sum over four blocks of 128 rows, then times 1/512), the reference by one sum over
  the 512 rows divided by 512; over the extended reals both are (∑ over the 512 rows) · (1/512), sums being
  regrouped freely — and then apply the same operations, on the same six index tables, to that array; so from
  arguments that agree the two results agree.
-/
import proofs.«135479_j53618371723721_2_alg».proof.Defs
import proofs.«135479_j53618371723721_2_alg».proof.Proof.Gen.Pre_finite_inputs
import proofs.«135479_j53618371723721_2_alg».proof.Proof.KIFrame
import proofs.«135479_j53618371723721_2_alg».proof.Proof.KIValue
import proofs.«135479_j53618371723721_2_alg».proof.Proof.RefRun
import proofs.«135479_j53618371723721_2_alg».proof.Proof.GroupMean
import proofs.«135479_j53618371723721_2_alg».proof.Proof.TailsAgree

noncomputable section

namespace Cert.Proof.Bridge

open Idealize.ShloMosaic Idealize.ShloMosaic.TcCoe Idealize.SL.Sem
open Cert.Proof.GroupMean

/-- Operations run one list after another are their concatenation run as one. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel program's buffers when its region has ended: the region-entry contents with the pipeline's two
    arrays at what the region left. -/
abbrev VK (c : Dev Cert.KernelIdeal.nD) : Valuation Cert.KernelIdeal.τ Cert.KernelIdeal.sig (Elt Ideal) :=
  Pipeline.withArrays Cert.KernelIdeal.spec0 c (Cert.KernelIdeal.Fr.V0 m c) fun w => (Cert.KernelIdeal.Fr.dats m 0 c).arrAt w Cert.KernelIdeal.cfg0.N

/-- The reference's buffers once its group means are computed. -/
abbrev VR (c : Dev Cert.ReferenceIdeal.nD) : Valuation Cert.ReferenceIdeal.τ Cert.ReferenceIdeal.sig (Elt Ideal) :=
  StableHlo.after (Cert.ReferenceIdeal.Ops.headOps (F := Ideal)) (StableHlo.launchContents m' c)

/-- The kernel program's result: what the operations after the region leave in the result buffer. -/
abbrev resK (c : Dev Cert.KernelIdeal.nD) : Buf (Elt Ideal) ((c.tc : Thread Cert.KernelIdeal.nD Cert.KernelIdeal.τ).loc Cert.KernelIdeal.main_v162) :=
  Pipeline.afterTail₀ Cert.KernelIdeal.cfgs (Cert.KernelIdeal.Fr.dats m) 0 (Cert.KernelIdeal.Fr.V0 m) Cert.KernelIdeal.Fr.tailOpss c Cert.KernelIdeal.main_v162

/-- The kernel program runs, ends with that result, and leaves its argument unchanged. -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v162) = resK m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run Cert.KernelIdeal.defs _ _).mono (fun _ h c =>
    ⟨(h c).2 Cert.KernelIdeal.main_v162 (Pipeline.mem_restRefs_of Cert.KernelIdeal.main_v162 (by decide) (by decide)),
     ((h c).2 Cert.KernelIdeal.main_arg0 (Pipeline.mem_restRefs_of Cert.KernelIdeal.main_arg0 (by decide) (by decide))).trans
       (Cert.KernelIdeal.Fr.W_main_arg0 m (Cert.KernelIdeal.Fr.dats m) c)⟩)
    (Cert.KernelIdeal.Fr.run_main m ρ)

/-- The reference's group means are the specification of its reshaped argument: a sum over the 512 rows
    divided by 512 is that sum times 1/512. -/
theorem meanR (c : Dev Cert.ReferenceIdeal.nD) :
    (VR m' c (Proc.devRef .tc Cert.ReferenceIdeal.main_v4) : FVec Ideal M .f32)
      = groupMean (shapeCast B3 (m' ((c.tc : Thread Cert.ReferenceIdeal.nD Cert.ReferenceIdeal.τ).loc Cert.ReferenceIdeal.main_arg0)) Cert.ReferenceIdeal.Gen.shapeCasts_S7680x4096_S512x15x4096) :=
  (Cert.ReferenceIdeal.RefRun.head_mean (F := Ideal) (StableHlo.launchContents m' c)).trans
    (ref_mean_eq _ Cert.ReferenceIdeal.Gen.transposes_S512x15x4096_S15x512x4096_1_0_2 Cert.ReferenceIdeal.Gen.reducesTo_S15x512x4096_S15x4096_d1 Cert.ReferenceIdeal.Gen.h_S_ Cert.ReferenceIdeal.Gen.bcast_S_S15x4096)

/-- The kernel program's means array when its region has ended is the same specification: the scratch sums,
    regrouped, are the sum over all 512 rows. -/
theorem meanK (c : Dev Cert.KernelIdeal.nD) :
    (VK m c (Proc.devRef .tc Cert.KernelIdeal.main_v1) : FVec Ideal M .f32)
      = groupMean (shapeCast B3 (m ((c.tc : Thread Cert.KernelIdeal.nD Cert.KernelIdeal.τ).loc Cert.KernelIdeal.main_arg0)) Cert.KernelIdeal.Gen.shapeCasts_S7680x4096_S512x15x4096) :=
  (Pipeline.withArrays_arr Cert.KernelIdeal.spec0 Cert.KernelIdeal.Gen.launch0.win.arr_inj c _ _ 1).trans
    ((Cert.KernelIdeal.Val.final m c).trans (congrArg groupMean (Cert.KernelIdeal.Fr.V_main_v0 m c)))

/-- A table of the kernel program when its region has ended is the one written before the region. -/
theorem tabK (c : Dev Cert.KernelIdeal.nD) (b : Ref Cert.KernelIdeal.sig .tc) (hb : ∀ w, Pipeline.arrRef Cert.KernelIdeal.spec0 w ≠ b) :
    VK m c (Proc.devRef .tc b) = Cert.KernelIdeal.Fr.V m c b :=
  Pipeline.withArrays_of_ne _ c (Cert.KernelIdeal.Fr.V0 m c) _ b hb

/-- THE CLAIM's last conjunct. -/
theorem algebraic : Cert.algebraic_KernelIdeal_ReferenceIdeal := by
  intro m ρ m' ρ' _ hagree
  refine ⟨fun c => resK m c, kernel_run m ρ, ?_⟩
  refine (θ_run Cert.ReferenceIdeal.defs _ _).mono (fun _ h c =>
    ⟨(h c Cert.ReferenceIdeal.main_v165).trans ?_, (h c Cert.ReferenceIdeal.main_arg0).trans (Cert.ReferenceIdeal.RefRun.arg0_kept _)⟩)
    (Cert.ReferenceIdeal.RefRun.run (F := Ideal) m' ρ')
  have hmean : VK m c (Proc.devRef .tc Cert.KernelIdeal.main_v1) = VR m' c (Proc.devRef .tc Cert.ReferenceIdeal.main_v4) := by
    refine (meanK m c).trans (Eq.trans ?_ (meanR m' c).symm)
    rw [hagree c]
  rw [show (Cert.ReferenceIdeal.Ops.ops (F := Ideal)) = Cert.ReferenceIdeal.Ops.headOps ++ Cert.ReferenceIdeal.Ops.tailOps from rfl, after_append]
  exact (Cert.Proof.Tails.tails_agree (VK m c) (VR m' c) hmean
    ((tabK m c _ (by decide)).trans ((Cert.KernelIdeal.Fr.V_main_c m c).trans (Cert.ReferenceIdeal.RefRun.head_c _).symm))
    ((tabK m c _ (by decide)).trans ((Cert.KernelIdeal.Fr.V_main_c_0 m c).trans (Cert.ReferenceIdeal.RefRun.head_c_0 _).symm))
    ((tabK m c _ (by decide)).trans ((Cert.KernelIdeal.Fr.V_main_c_1 m c).trans (Cert.ReferenceIdeal.RefRun.head_c_1 _).symm))
    ((tabK m c _ (by decide)).trans ((Cert.KernelIdeal.Fr.V_main_c_2 m c).trans (Cert.ReferenceIdeal.RefRun.head_c_2 _).symm))
    ((tabK m c _ (by decide)).trans ((Cert.KernelIdeal.Fr.V_main_c_3 m c).trans (Cert.ReferenceIdeal.RefRun.head_c_3 _).symm))
    ((tabK m c _ (by decide)).trans ((Cert.KernelIdeal.Fr.V_main_c_4 m c).trans (Cert.ReferenceIdeal.RefRun.head_c_4 _).symm))).symm

end Cert.Proof.Bridge

end
-- ==== Proof.lean ====
/-
  The certificate. The kernel (a Pallas region that averages, for each of the 15 groups, the 512 batch rows of
  the argument reshaped to [512, 15, 4096], followed by a host computation of a scalar loss from those means)
  against its jnp reference (the same means by one reshape, transpose, sum and division, then the same host
  computation).
  · The three frames: each program runs to the end, faults nowhere and leaves its argument unchanged — the
    kernel program's region by the body's obligation at each of the 16 grid points (three cases: the first,
    the middle and the last block of rows of a column block), its host operations before and after the region
    touching unscoped buffers other than the argument; the reference as one straight line of host operations.
  · The kernel's idealization rewrote nothing, so nothing is to be preserved.
  · At the ideal instance the two results agree: both means arrays are (∑ over the 512 rows) · (1/512), and the
    remaining operations are the same on both sides.
-/
import proofs.«135479_j53618371723721_2_alg».proof.Defs
import proofs.«135479_j53618371723721_2_alg».proof.Proof.Gen.Kernel
import proofs.«135479_j53618371723721_2_alg».proof.Proof.Gen.KernelIdeal
import proofs.«135479_j53618371723721_2_alg».proof.Proof.Gen.ReferenceIdeal
import proofs.«135479_j53618371723721_2_alg».proof.Proof.Gen.Pre_finite_inputs
import proofs.«135479_j53618371723721_2_alg».proof.Proof.KFrame
import proofs.«135479_j53618371723721_2_alg».proof.Proof.KIFrame
import proofs.«135479_j53618371723721_2_alg».proof.Proof.RefRun
import proofs.«135479_j53618371723721_2_alg».proof.Proof.Bridge

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ => Cert.ReferenceIdeal.RefRun.frame m ρ
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Bridge.algebraic⟩

end Cert.Proof

end
